-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S800000 : Shape := ⟨1, ![800000]⟩
abbrev S384x256 : Shape := ⟨2, ![384, 256]⟩
abbrev S256 : Shape := ⟨1, ![256]⟩
abbrev S4x256x256 : Shape := ⟨3, ![4, 256, 256]⟩
abbrev S4x256 : Shape := ⟨2, ![4, 256]⟩
abbrev S256x16 : Shape := ⟨2, ![256, 16]⟩
abbrev S16 : Shape := ⟨1, ![16]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S256x16 .f32) (main_arg10 : FVec F S16 .f32) (main_v33 : IVec S_ 1) : IVec S_ 1 :=
  let main_v34 : FVec F S256x16 .f32 := Host.absf main_arg9
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S4x256 .f32) (main_arg7 : FVec F S4x256 .f32) (main_arg8 : FVec F S4x256 .f32) (main_arg9 : FVec F S256x16 .f32) (main_arg10 : FVec F S16 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_v33

def fn {F : FTy → Type} [FloatOps F] (main_arg0 : FVec F S100000x384 .f32) (main_arg1 : IVec S800000 32) (main_arg2 : IVec S800000 32) (main_arg3 : FVec F S384x256 .f32) (main_arg4 : FVec F S256 .f32) (main_arg5 : FVec F S4x256x256 .f32) (main_arg6 : FVec F S4x256 .f32) (main_arg7 : FVec F S4x256 .f32) (main_arg8 : FVec F S4x256 .f32) (main_arg9 : FVec F S256x16 .f32) (main_arg10 : FVec F S16 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S384x256 .f32 := Host.absf main_arg3
  let main_cst_0 : FVec F S_ .f32 := constant S_ .f32 0x7F800000#32
  let main_v5 : FVec F S384x256 .f32 := broadcastInDim S384x256 ![] bcast_S_S384x256 main_cst_0
  let main_v6 : IVec S384x256 1 := cmpf .olt main_v4 main_v5
  let main_c_1 : IVec S_ 1 := constantI S_ 1 1#1
  let main_v7 : IVec S_ 1 := (fun x v => Host.reduce IntOp.andi x v reducesTo_S384x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg6 main_arg7 main_arg8 main_arg9 main_arg10 main_v13 main_v16
-- ==== Kernel.lean ====
abbrev S100000x384 : Shape := ⟨2, ![100000, 384]⟩
abbrev S800000 : Shape := ⟨1, ![800000]⟩
abbrev S384x256 : Shape := ⟨2, ![384, 256]⟩
abbrev S256 : Shape := ⟨1, ![256]⟩
abbrev S4x256x256 : Shape := ⟨3, ![4, 256, 256]⟩
abbrev S4x256 : Shape := ⟨2, ![4, 256]⟩
abbrev S256x16 : Shape := ⟨2, ![256, 16]⟩
abbrev S16 : Shape := ⟨1, ![16]⟩
abbrev S_ : Shape := ⟨0, ![]⟩
abbrev S20000 : Shape := ⟨1, ![20000]⟩
abbrev S800000x1 : Shape := ⟨2, ![800000, 1]⟩
abbrev S100000 : Shape := ⟨1, ![100000]⟩
abbrev S1x256 : Shape := ⟨2, ![1, 256]⟩
abbrev S100000x256 : Shape := ⟨2, ![100000, 256]⟩
abbrev S2000x384 : Shape := ⟨2, ![2000, 384]⟩
abbrev S2000x256 : Shape := ⟨2, ![2000, 256]⟩
abbrev S1x256x256 : Shape := ⟨3, ![1, 256, 256]⟩
abbrev S256x256 : Shape := ⟨2, ![256, 256]⟩
abbrev S800000x256 : Shape := ⟨2, ![800000, 256]⟩
abbrev S20000x256 : Shape := ⟨2, ![20000, 256]⟩
abbrev S20000x1 : Shape := ⟨2, ![20000, 1]⟩
abbrev S100000x1 : Shape := ⟨2, ![100000, 1]⟩
abbrev S2000 : Shape := ⟨1, ![2000]⟩
abbrev S2000x1 : Shape := ⟨2, ![2000, 1]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 217
  | .vmem => 66
  | .smem => 0
  | _ => 0

abbrev hbmTy0_0 (i : Nat) : BufTy := match i % 128 with
  | 0 => ⟨S100000x384, .f32⟩
  | 1 => ⟨S800000, .i32⟩
  | 2 => ⟨S800000, .i32⟩
  | 3 => ⟨S384x256, .f32⟩
  | 4 => ⟨S256, .f32⟩
  | 5 => ⟨S4x256x256, .f32⟩
  | 6 => ⟨S4x256, .f32⟩
  | 7 => ⟨S4x256, .f32⟩
  | 8 => ⟨S4x256, .f32⟩
  | 9 => ⟨S256x16, .f32⟩
  | 10 => ⟨S16, .f32⟩
  | 11 => ⟨S_, .f32⟩
  | 12 => ⟨S800000, .f32⟩
  | 13 => ⟨S_, .f32⟩
  | 14 => ⟨S20000, .f32⟩
  | 15 => ⟨S800000x1, .i32⟩
  | 16 => ⟨S20000, .f32⟩
  | 17 => ⟨S_, .f32⟩
  | 18 => ⟨S20000, .f32⟩
  | 19 => ⟨S20000, .f32⟩
  | 20 => ⟨S_, .f32⟩
  | 21 => ⟨S20000, .f32⟩
  | 22 => ⟨S20000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S1x256, .f32⟩
  | 34 => ⟨S100000x256, .f32⟩
  | 35 => ⟨S1x256, .f32⟩
  | 36 => ⟨S256, .f32⟩
  | 37 => ⟨S1x256, .f32⟩
  | 38 => ⟨S1x256x256, .f32⟩
  | 39 => ⟨S256x256, .f32⟩
  | 40 => ⟨S100000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S20000x256, .f32⟩
  | 52 => ⟨S800000x1, .i32⟩
  | 53 => ⟨S20000x256, .f32⟩
  | 54 => ⟨S20000x1, .f32⟩
  | 55 => ⟨S20000x256, .f32⟩
  | 56 => ⟨S20000x256, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x256, .f32⟩
  | 66 => ⟨S_, .f32⟩
  | 67 => ⟨S100000x256, .f32⟩
  | 68 => ⟨S800000x1, .i32⟩
  | 69 => ⟨S100000x256, .f32⟩
  | 70 => ⟨S100000x1, .f32⟩
  | 71 => ⟨S100000x256, .f32⟩
  | 72 => ⟨S100000x256, .f32⟩
  | 73 => ⟨S100000x256, .f32⟩
  | 74 => ⟨S1x256, .f32⟩
  | 75 => ⟨S256, .f32⟩
  | 76 => ⟨S1x256, .f32⟩
  | 77 => ⟨S1x256, .f32⟩
  | 78 => ⟨S256, .f32⟩
  | 79 => ⟨S1x256, .f32⟩
  | 80 => ⟨S1x256, .f32⟩
  | 81 => ⟨S256, .f32⟩
  | 82 => ⟨S1x256, .f32⟩
  | 83 => ⟨S1x256x256, .f32⟩
  | 84 => ⟨S256x256, .f32⟩
  | 85 => ⟨S100000x256, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x256, .f32⟩
  | 95 => ⟨S_, .f32⟩
  | 96 => ⟨S20000x256, .f32⟩
  | 97 => ⟨S800000x1, .i32⟩
  | 98 => ⟨S20000x256, .f32⟩
  | 99 => ⟨S20000x1, .f32⟩
  | 100 => ⟨S20000x256, .f32⟩
  | 101 => ⟨S20000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S_, .f32⟩
  | 112 => ⟨S100000x256, .f32⟩
  | 113 => ⟨S800000x1, .i32⟩
  | 114 => ⟨S100000x256, .f32⟩
  | 115 => ⟨S100000x1, .f32⟩
  | 116 => ⟨S100000x256, .f32⟩
  | 117 => ⟨S100000x256, .f32⟩
  | 118 => ⟨S100000x256, .f32⟩
  | 119 => ⟨S1x256, .f32⟩
  | 120 => ⟨S256, .f32⟩
  | 121 => ⟨S1x256, .f32⟩
  | 122 => ⟨S1x256, .f32⟩
  | 123 => ⟨S256, .f32⟩
  | 124 => ⟨S1x256, .f32⟩
  | 125 => ⟨S1x256, .f32⟩
  | 126 => ⟨S256, .f32⟩
  | 127 => ⟨S1x256, .f32⟩
  | _ => ⟨S100000x384, .f32⟩

abbrev hbmTy0_1 (i : Nat) : BufTy := match i % 128 with
  | 0 => ⟨S1x256x256, .f32⟩
  | 1 => ⟨S256x256, .f32⟩
  | 2 => ⟨S100000x256, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x256, .f32⟩
  | 12 => ⟨S_, .f32⟩
  | 13 => ⟨S20000x256, .f32⟩
  | 14 => ⟨S800000x1, .i32⟩
  | 15 => ⟨S20000x256, .f32⟩
  | 16 => ⟨S20000x1, .f32⟩
  | 17 => ⟨S20000x256, .f32⟩
  | 18 => ⟨S20000x256, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x256, .f32⟩
  | 28 => ⟨S_, .f32⟩
  | 29 => ⟨S100000x256, .f32⟩
  | 30 => ⟨S800000x1, .i32⟩
  | 31 => ⟨S100000x256, .f32⟩
  | 32 => ⟨S100000x1, .f32⟩
  | 33 => ⟨S100000x256, .f32⟩
  | 34 => ⟨S100000x256, .f32⟩
  | 35 => ⟨S100000x256, .f32⟩
  | 36 => ⟨S1x256, .f32⟩
  | 37 => ⟨S256, .f32⟩
  | 38 => ⟨S1x256, .f32⟩
  | 39 => ⟨S1x256, .f32⟩
  | 40 => ⟨S256, .f32⟩
  | 41 => ⟨S1x256, .f32⟩
  | 42 => ⟨S1x256, .f32⟩
  | 43 => ⟨S256, .f32⟩
  | 44 => ⟨S1x256, .f32⟩
  | 45 => ⟨S1x256x256, .f32⟩
  | 46 => ⟨S256x256, .f32⟩
  | 47 => ⟨S100000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S_, .f32⟩
  | 58 => ⟨S20000x256, .f32⟩
  | 59 => ⟨S800000x1, .i32⟩
  | 60 => ⟨S20000x256, .f32⟩
  | 61 => ⟨S20000x1, .f32⟩
  | 62 => ⟨S20000x256, .f32⟩
  | 63 => ⟨S20000x256, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x256, .f32⟩
  | 73 => ⟨S_, .f32⟩
  | 74 => ⟨S100000x256, .f32⟩
  | 75 => ⟨S800000x1, .i32⟩
  | 76 => ⟨S100000x256, .f32⟩
  | 77 => ⟨S100000x1, .f32⟩
  | 78 => ⟨S100000x256, .f32⟩
  | 79 => ⟨S100000x256, .f32⟩
  | 80 => ⟨S100000x256, .f32⟩
  | 81 => ⟨S1x256, .f32⟩
  | 82 => ⟨S256, .f32⟩
  | 83 => ⟨S1x256, .f32⟩
  | 84 => ⟨S1x256, .f32⟩
  | 85 => ⟨S256, .f32⟩
  | 86 => ⟨S1x256, .f32⟩
  | 87 => ⟨S1x16, .f32⟩
  | 88 => ⟨S100000x16, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | .local _ .vmem, ⟨0, _⟩ => ⟨S2000x384, .f32⟩
  | .local _ .vmem, ⟨1, _⟩ => ⟨S2000x384, .f32⟩
  | .local _ .vmem, ⟨2, _⟩ => ⟨S384x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S1x256, .f32⟩
  | .local _ .vmem, ⟨47, _⟩ => ⟨S1x256, .f32⟩
  | .local _ .vmem, ⟨48, _⟩ => ⟨S256x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S1x256, .f32⟩
  | .local _ .vmem, ⟨61, _⟩ => ⟨S1x256, .f32⟩
  | .local _ .vmem, ⟨62, _⟩ => ⟨S256x16, .f32⟩
  | .local _ .vmem, ⟨63, _⟩ => ⟨S1x16, .f32⟩
  | .local _ .vmem, ⟨64, _⟩ => ⟨S2000x16, .f32⟩
  | .local _ .vmem, ⟨65, _⟩ => ⟨S2000x16, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_17 : Ref sig .tc := ⟨.hbm, 131, rfl⟩
abbrev main_v101 : Ref sig .tc := ⟨.hbm, 132, rfl⟩
abbrev main_v102 : Ref sig .tc := ⟨.hbm, 133, rfl⟩
abbrev main_c_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_20 : Ref sig .tc := ⟨.hbm, 147, rfl⟩
abbrev main_v114 : Ref sig .tc := ⟨.hbm, 148, rfl⟩
abbrev main_v115 : Ref sig .tc := ⟨.hbm, 149, rfl⟩
abbrev main_c_21 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_22 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_23 : Ref sig .tc := ⟨.hbm, 176, rfl⟩
abbrev main_v140 : Ref sig .tc := ⟨.hbm, 177, rfl⟩
abbrev main_v141 : Ref sig .tc := ⟨.hbm, 178, rfl⟩
abbrev main_c_24 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_26 : Ref sig .tc := ⟨.hbm, 192, rfl⟩
abbrev main_v153 : Ref sig .tc := ⟨.hbm, 193, rfl⟩
abbrev main_v154 : Ref sig .tc := ⟨.hbm, 194, rfl⟩
abbrev main_c_27 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_28 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg5_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc9_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem5_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc9_sem0_0 : DmaSem sig := 58
abbrev cc9_sem0_1 : DmaSem sig := 59
abbrev cc9_sem1_0 : DmaSem sig := 60
abbrev cc9_sem2_0 : DmaSem sig := 61
abbrev cc9_sem3_0 : DmaSem sig := 62
abbrev cc9_sem4_0 : DmaSem sig := 63
abbrev cc9_sem5_0 : DmaSem sig := 64
abbrev cc9_sem5_1 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x16 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  bcast_S_S800000 : S_.BroadcastsInDim S800000 (![] : Fin 0 → Fin S800000.rank)
  bcast_S_S20000 : S_.BroadcastsInDim S20000 (![] : Fin 0 → Fin S20000.rank)
  bcast_S800000_S800000x1_0 : S800000.BroadcastsInDim S800000x1 (![0] : Fin 1 → Fin S800000x1.rank)
  bcast_S_S100000 : S_.BroadcastsInDim S100000 (![] : Fin 0 → Fin S100000.rank)
  shapeCasts_S256_S1x256 : S256.ShapeCasts S1x256
  inb_S2000x384_S2000x384_0_0 : ∀ a, (![0, 0] : Fin 2 → Nat) a + S2000x384.size a ≤ S2000x384.size a
  h_S2000x384 : 0 < S2000x384.numel
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S4x256_S1x256_0_0 : S4x256.Slices ![0, 0] S1x256
  shapeCasts_S1x256_S256 : S1x256.ShapeCasts S256
  slices_S4x256x256_S1x256x256_0_0_0 : S4x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S4x256_S1x256_1_0 : S4x256.Slices ![1, 0] S1x256
  slices_S4x256x256_S1x256x256_1_0_0 : S4x256x256.Slices ![1, 0, 0] S1x256x256
  reduces_S2000x256_S2000 : S2000x256.Reduces [1] S2000
  shapeCasts_S2000_S2000x1 : S2000.ShapeCasts S2000x1
  broadcasts_S2000x1_S2000x256 : S2000x1.Broadcasts S2000x256
  slices_S4x256_S1x256_2_0 : S4x256.Slices ![2, 0] S1x256
  slices_S4x256x256_S1x256x256_2_0_0 : S4x256x256.Slices ![2, 0, 0] S1x256x256
  slices_S4x256_S1x256_3_0 : S4x256.Slices ![3, 0] S1x256
  slices_S4x256x256_S1x256x256_3_0_0 : S4x256x256.Slices ![3, 0, 0] S1x256x256
  shapeCasts_S16_S1x16 : S16.ShapeCasts S1x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S20000_S800000x1_S800000_n_0_0_1_wf : ScatterDims.WF S20000 S800000x1 S800000 [] [0] [0] 1
  scatter_S100000_S800000x1_S800000_n_0_0_1_wf : ScatterDims.WF S100000 S800000x1 S800000 [] [0] [0] 1
  dot_S2000x384_S384x256_S2000x256_1_0_0_1_n_n_wf : DotDims.WF S2000x384 S384x256 S2000x256 [1] [0] [0] [1] [] []
  dot_S2000x256_S256x256_S2000x256_1_0_0_1_n_n_wf : DotDims.WF S2000x256 S256x256 S2000x256 [1] [0] [0] [1] [] []
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S100000x384.size a
  hwx0_0 : ∀ i : grid0.Coords, EltTy.bits .f32 = 32 ∨ (Rect.block (s := S100000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .f32 = 32 ∨ (Rect.block (s := S384x256) S384x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S100000x256.size a
  hwx6_1 : ∀ i : grid6.Coords, EltTy.bits .f32 = 32 ∨ (Rect.block (s := S100000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S100000x256.size a
  hwx6_2 : ∀ i : grid6.Coords, EltTy.bits .f32 = 32 ∨ (Rect.block (s := S100000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .f32 = 32 ∨ (Rect.block (s := S100000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S100000x256.size a
  hwx7_5 : ∀ i : grid7.Coords, EltTy.bits .f32 = 32 ∨ (Rect.block (s := S100000x256) S2000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S100000x256.size a
  hwx8_0 : ∀ i : grid8.Coords, EltTy.bits .f32 = 32 ∨ (Rect.block (s := S100000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S100000x256.size a
  hwx8_1 : ∀ i : grid8.Coords, EltTy.bits .f32 = 32 ∨ (Rect.block (s := S100000x256) S2000x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x256.size a ≤ S100000x256.size a
  hwx8_2 : ∀ i : grid8.Coords, EltTy.bits .f32 = 32 ∨ (Rect.block (s := S100000x256) S2000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S100000x256.size a
  hwx9_0 : ∀ i : grid9.Coords, EltTy.bits .f32 = 32 ∨ (Rect.block (s := S100000x256) S2000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x16.size a ≤ S256x16.size a
  hwx9_3 : ∀ i : grid9.Coords, EltTy.bits .f32 = 32 ∨ (Rect.block (s := S256x16) S256x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x16.size a ≤ S1x16.size a
  hwx9_4 : ∀ i : grid9.Coords, EltTy.bits .f32 = 32 ∨ (Rect.block (s := S1x16) S1x16.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x16.size a ≤ S100000x16.size a
  hwx9_5 : ∀ i : grid9.Coords, EltTy.bits .f32 = 32 ∨ (Rect.block (s := S100000x16) S2000x16.size (cc9_transform_5 i) (hinb9_5 i)).WholeWords (EltTy.packing .f32)

variable [Facts₀]

def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v88) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v126) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v127) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v127) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v138) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v136) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v139) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v165) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v127) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v166) S2000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v166) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v169) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v172) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S256x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v173) S1x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v174) S2000x16.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x384 : Shape := ⟨2, ![100000, 384]⟩
abbrev S800000 : Shape := ⟨1, ![800000]⟩
abbrev S384x256 : Shape := ⟨2, ![384, 256]⟩
abbrev S256 : Shape := ⟨1, ![256]⟩
abbrev S4x256x256 : Shape := ⟨3, ![4, 256, 256]⟩
abbrev S4x256 : Shape := ⟨2, ![4, 256]⟩
abbrev S256x16 : Shape := ⟨2, ![256, 16]⟩
abbrev S16 : Shape := ⟨1, ![16]⟩
abbrev S_ : Shape := ⟨0, ![]⟩
abbrev S20000 : Shape := ⟨1, ![20000]⟩
abbrev S800000x1 : Shape := ⟨2, ![800000, 1]⟩
abbrev S100000 : Shape := ⟨1, ![100000]⟩
abbrev S100000x256 : Shape := ⟨2, ![100000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S20000x256 : Shape := ⟨2, ![20000, 256]⟩
abbrev S20000x1 : Shape := ⟨2, ![20000, 1]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 420
  | .vmem => 0
  | .smem => 0
  | _ => 0

abbrev hbmTy0_0 (i : Nat) : BufTy := match i % 128 with
  | 0 => ⟨S100000x384, .f32⟩
  | 1 => ⟨S800000, .i32⟩
  | 2 => ⟨S800000, .i32⟩
  | 3 => ⟨S384x256, .f32⟩
  | 4 => ⟨S256, .f32⟩
  | 5 => ⟨S4x256x256, .f32⟩
  | 6 => ⟨S4x256, .f32⟩
  | 7 => ⟨S4x256, .f32⟩
  | 8 => ⟨S4x256, .f32⟩
  | 9 => ⟨S256x16, .f32⟩
  | 10 => ⟨S16, .f32⟩
  | 11 => ⟨S_, .f32⟩
  | 12 => ⟨S800000, .f32⟩
  | 13 => ⟨S_, .f32⟩
  | 14 => ⟨S20000, .f32⟩
  | 15 => ⟨S800000x1, .i32⟩
  | 16 => ⟨S20000, .f32⟩
  | 17 => ⟨S_, .f32⟩
  | 18 => ⟨S20000, .f32⟩
  | 19 => ⟨S20000, .f32⟩
  | 20 => ⟨S_, .f32⟩
  | 21 => ⟨S20000, .f32⟩
  | 22 => ⟨S20000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x256, .f32⟩
  | 34 => ⟨S1x256, .f32⟩
  | 35 => ⟨S100000x256, .f32⟩
  | 36 => ⟨S100000x256, .f32⟩
  | 37 => ⟨S1x256x256, .f32⟩
  | 38 => ⟨S256x256, .f32⟩
  | 39 => ⟨S100000x256, .f32⟩
  | 40 => ⟨S1x256, .f32⟩
  | 41 => ⟨S256, .f32⟩
  | 42 => ⟨S1x256, .f32⟩
  | 43 => ⟨S100000x256, .f32⟩
  | 44 => ⟨S100000x256, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S_, .f32⟩
  | 55 => ⟨S20000x256, .f32⟩
  | 56 => ⟨S800000x1, .i32⟩
  | 57 => ⟨S20000x256, .f32⟩
  | 58 => ⟨S20000x1, .f32⟩
  | 59 => ⟨S20000x256, .f32⟩
  | 60 => ⟨S20000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S_, .f32⟩
  | 71 => ⟨S100000x256, .f32⟩
  | 72 => ⟨S800000x1, .i32⟩
  | 73 => ⟨S100000x256, .f32⟩
  | 74 => ⟨S100000x1, .f32⟩
  | 75 => ⟨S100000x256, .f32⟩
  | 76 => ⟨S100000x256, .f32⟩
  | 77 => ⟨S_, .f32⟩
  | 78 => ⟨S100000x256, .f32⟩
  | 79 => ⟨S100000x256, .f32⟩
  | 80 => ⟨S1x256, .f32⟩
  | 81 => ⟨S256, .f32⟩
  | 82 => ⟨S1x256, .f32⟩
  | 83 => ⟨S256, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S_, .i32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x256, .f32⟩
  | 98 => ⟨S100000x256, .f32⟩
  | 99 => ⟨S100000x256, .f32⟩
  | 100 => ⟨S_, .f32⟩
  | 101 => ⟨S_, .f32⟩
  | 102 => ⟨S_, .f32⟩
  | 103 => ⟨S_, .f32⟩
  | 104 => ⟨S100000, .f32⟩
  | 105 => ⟨S100000x1, .f32⟩
  | 106 => ⟨S100000x1, .f32⟩
  | 107 => ⟨S100000x1, .f32⟩
  | 108 => ⟨S_, .f32⟩
  | 109 => ⟨S_, .i1⟩
  | 110 => ⟨S_, .f32⟩
  | 111 => ⟨S_, .f32⟩
  | 112 => ⟨S100000x1, .f32⟩
  | 113 => ⟨S100000x1, .f32⟩
  | 114 => ⟨S100000x256, .f32⟩
  | 115 => ⟨S100000x256, .f32⟩
  | 116 => ⟨S_, .f32⟩
  | 117 => ⟨S100000x1, .f32⟩
  | 118 => ⟨S100000x1, .f32⟩
  | 119 => ⟨S100000x1, .f32⟩
  | 120 => ⟨S100000x256, .f32⟩
  | 121 => ⟨S100000x256, .f32⟩
  | 122 => ⟨S1x256, .f32⟩
  | 123 => ⟨S100000x256, .f32⟩
  | 124 => ⟨S100000x256, .f32⟩
  | 125 => ⟨S1x256, .f32⟩
  | 126 => ⟨S100000x256, .f32⟩
  | 127 => ⟨S100000x256, .f32⟩
  | _ => ⟨S100000x384, .f32⟩

abbrev hbmTy0_1 (i : Nat) : BufTy := match i % 128 with
  | 0 => ⟨S_, .f32⟩
  | 1 => ⟨S100000x256, .f32⟩
  | 2 => ⟨S100000x256, .f32⟩
  | 3 => ⟨S1x256x256, .f32⟩
  | 4 => ⟨S256x256, .f32⟩
  | 5 => ⟨S100000x256, .f32⟩
  | 6 => ⟨S1x256, .f32⟩
  | 7 => ⟨S256, .f32⟩
  | 8 => ⟨S1x256, .f32⟩
  | 9 => ⟨S100000x256, .f32⟩
  | 10 => ⟨S100000x256, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x256, .f32⟩
  | 20 => ⟨S_, .f32⟩
  | 21 => ⟨S20000x256, .f32⟩
  | 22 => ⟨S800000x1, .i32⟩
  | 23 => ⟨S20000x256, .f32⟩
  | 24 => ⟨S20000x1, .f32⟩
  | 25 => ⟨S20000x256, .f32⟩
  | 26 => ⟨S20000x256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .f32⟩
  | 37 => ⟨S100000x256, .f32⟩
  | 38 => ⟨S800000x1, .i32⟩
  | 39 => ⟨S100000x256, .f32⟩
  | 40 => ⟨S100000x1, .f32⟩
  | 41 => ⟨S100000x256, .f32⟩
  | 42 => ⟨S100000x256, .f32⟩
  | 43 => ⟨S_, .f32⟩
  | 44 => ⟨S100000x256, .f32⟩
  | 45 => ⟨S100000x256, .f32⟩
  | 46 => ⟨S100000x256, .f32⟩
  | 47 => ⟨S1x256, .f32⟩
  | 48 => ⟨S256, .f32⟩
  | 49 => ⟨S1x256, .f32⟩
  | 50 => ⟨S256, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S_, .i32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x256, .f32⟩
  | 65 => ⟨S100000x256, .f32⟩
  | 66 => ⟨S100000x256, .f32⟩
  | 67 => ⟨S_, .f32⟩
  | 68 => ⟨S_, .f32⟩
  | 69 => ⟨S_, .f32⟩
  | 70 => ⟨S_, .f32⟩
  | 71 => ⟨S100000, .f32⟩
  | 72 => ⟨S100000x1, .f32⟩
  | 73 => ⟨S100000x1, .f32⟩
  | 74 => ⟨S100000x1, .f32⟩
  | 75 => ⟨S_, .f32⟩
  | 76 => ⟨S_, .i1⟩
  | 77 => ⟨S_, .f32⟩
  | 78 => ⟨S_, .f32⟩
  | 79 => ⟨S100000x1, .f32⟩
  | 80 => ⟨S100000x1, .f32⟩
  | 81 => ⟨S100000x256, .f32⟩
  | 82 => ⟨S100000x256, .f32⟩
  | 83 => ⟨S_, .f32⟩
  | 84 => ⟨S100000x1, .f32⟩
  | 85 => ⟨S100000x1, .f32⟩
  | 86 => ⟨S100000x1, .f32⟩
  | 87 => ⟨S100000x256, .f32⟩
  | 88 => ⟨S100000x256, .f32⟩
  | 89 => ⟨S1x256, .f32⟩
  | 90 => ⟨S100000x256, .f32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S1x256x256, .f32⟩
  | 99 => ⟨S256x256, .f32⟩
  | 100 => ⟨S100000x256, .f32⟩
  | 101 => ⟨S1x256, .f32⟩
  | 102 => ⟨S256, .f32⟩
  | 103 => ⟨S1x256, .f32⟩
  | 104 => ⟨S100000x256, .f32⟩
  | 105 => ⟨S100000x256, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S_, .f32⟩
  | 116 => ⟨S20000x256, .f32⟩
  | 117 => ⟨S800000x1, .i32⟩
  | 118 => ⟨S20000x256, .f32⟩
  | 119 => ⟨S20000x1, .f32⟩
  | 120 => ⟨S20000x256, .f32⟩
  | 121 => ⟨S20000x256, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x384, .f32⟩

abbrev hbmTy0_2 (i : Nat) : BufTy := match i % 128 with
  | 0 => ⟨S800000, .i32⟩
  | 1 => ⟨S800000x1, .i32⟩
  | 2 => ⟨S800000x256, .f32⟩
  | 3 => ⟨S_, .f32⟩
  | 4 => ⟨S100000x256, .f32⟩
  | 5 => ⟨S800000x1, .i32⟩
  | 6 => ⟨S100000x256, .f32⟩
  | 7 => ⟨S100000x1, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x256, .f32⟩
  | 14 => ⟨S1x256, .f32⟩
  | 15 => ⟨S256, .f32⟩
  | 16 => ⟨S1x256, .f32⟩
  | 17 => ⟨S256, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S_, .i32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x256, .f32⟩
  | 32 => ⟨S100000x256, .f32⟩
  | 33 => ⟨S100000x256, .f32⟩
  | 34 => ⟨S_, .f32⟩
  | 35 => ⟨S_, .f32⟩
  | 36 => ⟨S_, .f32⟩
  | 37 => ⟨S_, .f32⟩
  | 38 => ⟨S100000, .f32⟩
  | 39 => ⟨S100000x1, .f32⟩
  | 40 => ⟨S100000x1, .f32⟩
  | 41 => ⟨S100000x1, .f32⟩
  | 42 => ⟨S_, .f32⟩
  | 43 => ⟨S_, .i1⟩
  | 44 => ⟨S_, .f32⟩
  | 45 => ⟨S_, .f32⟩
  | 46 => ⟨S100000x1, .f32⟩
  | 47 => ⟨S100000x1, .f32⟩
  | 48 => ⟨S100000x256, .f32⟩
  | 49 => ⟨S100000x256, .f32⟩
  | 50 => ⟨S_, .f32⟩
  | 51 => ⟨S100000x1, .f32⟩
  | 52 => ⟨S100000x1, .f32⟩
  | 53 => ⟨S100000x1, .f32⟩
  | 54 => ⟨S100000x256, .f32⟩
  | 55 => ⟨S100000x256, .f32⟩
  | 56 => ⟨S1x256, .f32⟩
  | 57 => ⟨S100000x256, .f32⟩
  | 58 => ⟨S100000x256, .f32⟩
  | 59 => ⟨S1x256, .f32⟩
  | 60 => ⟨S100000x256, .f32⟩
  | 61 => ⟨S100000x256, .f32⟩
  | 62 => ⟨S_, .f32⟩
  | 63 => ⟨S100000x256, .f32⟩
  | 64 => ⟨S100000x256, .f32⟩
  | 65 => ⟨S1x256x256, .f32⟩
  | 66 => ⟨S256x256, .f32⟩
  | 67 => ⟨S100000x256, .f32⟩
  | 68 => ⟨S1x256, .f32⟩
  | 69 => ⟨S256, .f32⟩
  | 70 => ⟨S1x256, .f32⟩
  | 71 => ⟨S100000x256, .f32⟩
  | 72 => ⟨S100000x256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S20000x256, .f32⟩
  | 84 => ⟨S800000x1, .i32⟩
  | 85 => ⟨S20000x256, .f32⟩
  | 86 => ⟨S20000x1, .f32⟩
  | 87 => ⟨S20000x256, .f32⟩
  | 88 => ⟨S20000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S100000x256, .f32⟩
  | 100 => ⟨S800000x1, .i32⟩
  | 101 => ⟨S100000x256, .f32⟩
  | 102 => ⟨S100000x1, .f32⟩
  | 103 => ⟨S100000x256, .f32⟩
  | 104 => ⟨S100000x256, .f32⟩
  | 105 => ⟨S_, .f32⟩
  | 106 => ⟨S100000x256, .f32⟩
  | 107 => ⟨S100000x256, .f32⟩
  | 108 => ⟨S100000x256, .f32⟩
  | 109 => ⟨S1x256, .f32⟩
  | 110 => ⟨S256, .f32⟩
  | 111 => ⟨S1x256, .f32⟩
  | 112 => ⟨S256, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S_, .i32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x256, .f32⟩
  | 127 => ⟨S100000x256, .f32⟩
  | _ => ⟨S100000x384, .f32⟩

abbrev hbmTy0_3 (i : Nat) : BufTy := match i % 128 with
  | 0 => ⟨S100000x256, .f32⟩
  | 1 => ⟨S_, .f32⟩
  | 2 => ⟨S_, .f32⟩
  | 3 => ⟨S_, .f32⟩
  | 4 => ⟨S_, .f32⟩
  | 5 => ⟨S100000, .f32⟩
  | 6 => ⟨S100000x1, .f32⟩
  | 7 => ⟨S100000x1, .f32⟩
  | 8 => ⟨S100000x1, .f32⟩
  | 9 => ⟨S_, .f32⟩
  | 10 => ⟨S_, .i1⟩
  | 11 => ⟨S_, .f32⟩
  | 12 => ⟨S_, .f32⟩
  | 13 => ⟨S100000x1, .f32⟩
  | 14 => ⟨S100000x1, .f32⟩
  | 15 => ⟨S100000x256, .f32⟩
  | 16 => ⟨S100000x256, .f32⟩
  | 17 => ⟨S_, .f32⟩
  | 18 => ⟨S100000x1, .f32⟩
  | 19 => ⟨S100000x1, .f32⟩
  | 20 => ⟨S100000x1, .f32⟩
  | 21 => ⟨S100000x256, .f32⟩
  | 22 => ⟨S100000x256, .f32⟩
  | 23 => ⟨S1x256, .f32⟩
  | 24 => ⟨S100000x256, .f32⟩
  | 25 => ⟨S100000x256, .f32⟩
  | 26 => ⟨S1x256, .f32⟩
  | 27 => ⟨S100000x256, .f32⟩
  | 28 => ⟨S100000x256, .f32⟩
  | 29 => ⟨S_, .f32⟩
  | 30 => ⟨S100000x256, .f32⟩
  | 31 => ⟨S100000x256, .f32⟩
  | 32 => ⟨S100000x16, .f32⟩
  | 33 => ⟨S1x16, .f32⟩
  | 34 => ⟨S100000x16, .f32⟩
  | 35 => ⟨S100000x16, .f32⟩
  | _ => ⟨S100000x384, .f32⟩

abbrev hbmTy (i : Nat) : BufTy := match i / 128 with
  | 0 => hbmTy0_0 i
  | 1 => hbmTy0_1 i
  | 2 => hbmTy0_2 i
  | 3 => hbmTy0_3 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call0_cst : Ref sig .tc := ⟨.hbm, 77, rfl⟩
abbrev main_call0_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_cst_3 : Ref sig .tc := ⟨.hbm, 108, rfl⟩
abbrev main_call1_v13 : Ref sig .tc := ⟨.hbm, 109, rfl⟩
abbrev main_call1_cst_4 : Ref sig .tc := ⟨.hbm, 110, rfl⟩
abbrev main_call1_call0_v0 : Ref sig .tc := ⟨.hbm, 111, rfl⟩
abbrev main_call1_call0_v1 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_14 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_call2_cst : Ref sig .tc := ⟨.hbm, 128, rfl⟩
abbrev main_call2_v0 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_15 : Ref sig .tc := ⟨.hbm, 139, rfl⟩
abbrev main_v85 : Ref sig .tc := ⟨.hbm, 140, rfl⟩
abbrev main_v86 : Ref sig .tc := ⟨.hbm, 141, rfl⟩
abbrev main_c_16 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_17 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_18 : Ref sig .tc := ⟨.hbm, 155, rfl⟩
abbrev main_v98 : Ref sig .tc := ⟨.hbm, 156, rfl⟩
abbrev main_v99 : Ref sig .tc := ⟨.hbm, 157, rfl⟩
abbrev main_c_19 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_20 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call3_cst : Ref sig .tc := ⟨.hbm, 171, rfl⟩
abbrev main_call3_v0 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_21 : Ref sig .tc := ⟨.hbm, 179, rfl⟩
abbrev main_v117 : Ref sig .tc := ⟨.hbm, 180, rfl⟩
abbrev main_v118 : Ref sig .tc := ⟨.hbm, 181, rfl⟩
abbrev main_cst_22 : Ref sig .tc := ⟨.hbm, 182, rfl⟩
abbrev main_v119 : Ref sig .tc := ⟨.hbm, 183, rfl⟩
abbrev main_v120 : Ref sig .tc := ⟨.hbm, 184, rfl⟩
abbrev main_c_23 : Ref sig .tc := ⟨.hbm, 185, rfl⟩
abbrev main_call4_cst : Ref sig .tc := ⟨.hbm, 186, rfl⟩
abbrev main_call4_v0 : Ref sig .tc := ⟨.hbm, 187, rfl⟩
abbrev main_call4_v1 : Ref sig .tc := ⟨.hbm, 188, rfl⟩
abbrev main_call4_cst_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_v7 : Ref sig .tc := ⟨.hbm, 195, rfl⟩
abbrev main_call4_cst_1 : Ref sig .tc := ⟨.hbm, 196, rfl⟩
abbrev main_call4_v8 : Ref sig .tc := ⟨.hbm, 197, rfl⟩
abbrev main_call4_cst_2 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_v12 : Ref sig .tc := ⟨.hbm, 202, rfl⟩
abbrev main_call4_cst_3 : Ref sig .tc := ⟨.hbm, 203, rfl⟩
abbrev main_call4_v13 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_24 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_call5_cst : Ref sig .tc := ⟨.hbm, 223, rfl⟩
abbrev main_call5_v0 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_c_25 : Ref sig .tc := ⟨.hbm, 234, rfl⟩
abbrev main_v144 : Ref sig .tc := ⟨.hbm, 235, rfl⟩
abbrev main_v145 : Ref sig .tc := ⟨.hbm, 236, rfl⟩
abbrev main_c_26 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_cst_27 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_c_28 : Ref sig .tc := ⟨.hbm, 250, rfl⟩
abbrev main_v157 : Ref sig .tc := ⟨.hbm, 251, rfl⟩
abbrev main_v158 : Ref sig .tc := ⟨.hbm, 252, rfl⟩
abbrev main_c_29 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_cst_30 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_call6_cst : Ref sig .tc := ⟨.hbm, 266, rfl⟩
abbrev main_call6_v0 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_31 : Ref sig .tc := ⟨.hbm, 274, rfl⟩
abbrev main_v176 : Ref sig .tc := ⟨.hbm, 275, rfl⟩
abbrev main_v177 : Ref sig .tc := ⟨.hbm, 276, rfl⟩
abbrev main_cst_32 : Ref sig .tc := ⟨.hbm, 277, rfl⟩
abbrev main_v178 : Ref sig .tc := ⟨.hbm, 278, rfl⟩
abbrev main_v179 : Ref sig .tc := ⟨.hbm, 279, rfl⟩
abbrev main_c_33 : Ref sig .tc := ⟨.hbm, 280, rfl⟩
abbrev main_call7_cst : Ref sig .tc := ⟨.hbm, 281, rfl⟩
abbrev main_call7_v0 : Ref sig .tc := ⟨.hbm, 282, rfl⟩
abbrev main_call7_v1 : Ref sig .tc := ⟨.hbm, 283, rfl⟩
abbrev main_call7_cst_0 : Ref sig .tc := ⟨.hbm, 284, rfl⟩
abbrev main_call7_v2 : Ref sig .tc := ⟨.hbm, 285, rfl⟩
abbrev main_call7_v3 : Ref sig .tc := ⟨.hbm, 286, rfl⟩
abbrev main_call7_v4 : Ref sig .tc := ⟨.hbm, 287, rfl⟩
abbrev main_call7_v5 : Ref sig .tc := ⟨.hbm, 288, rfl⟩
abbrev main_call7_v6 : Ref sig .tc := ⟨.hbm, 289, rfl⟩
abbrev main_call7_v7 : Ref sig .tc := ⟨.hbm, 290, rfl⟩
abbrev main_call7_cst_1 : Ref sig .tc := ⟨.hbm, 291, rfl⟩
abbrev main_call7_v8 : Ref sig .tc := ⟨.hbm, 292, rfl⟩
abbrev main_call7_cst_2 : Ref sig .tc := ⟨.hbm, 293, rfl⟩
abbrev main_call7_v9 : Ref sig .tc := ⟨.hbm, 294, rfl⟩
abbrev main_call7_v10 : Ref sig .tc := ⟨.hbm, 295, rfl⟩
abbrev main_call7_v11 : Ref sig .tc := ⟨.hbm, 296, rfl⟩
abbrev main_call7_v12 : Ref sig .tc := ⟨.hbm, 297, rfl⟩
abbrev main_call7_cst_3 : Ref sig .tc := ⟨.hbm, 298, rfl⟩
abbrev main_call7_v13 : Ref sig .tc := ⟨.hbm, 299, rfl⟩
abbrev main_call7_cst_4 : Ref sig .tc := ⟨.hbm, 300, rfl⟩
abbrev main_call7_call0_v0 : Ref sig .tc := ⟨.hbm, 301, rfl⟩
abbrev main_call7_call0_v1 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_cst_34 : Ref sig .tc := ⟨.hbm, 306, rfl⟩
abbrev main_v183 : Ref sig .tc := ⟨.hbm, 307, rfl⟩
abbrev main_v184 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_v193 : Ref sig .tc := ⟨.hbm, 317, rfl⟩
abbrev main_call8_cst : Ref sig .tc := ⟨.hbm, 318, rfl⟩
abbrev main_call8_v0 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_c_35 : Ref sig .tc := ⟨.hbm, 329, rfl⟩
abbrev main_v203 : Ref sig .tc := ⟨.hbm, 330, rfl⟩
abbrev main_v204 : Ref sig .tc := ⟨.hbm, 331, rfl⟩
abbrev main_c_36 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_cst_37 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_c_38 : Ref sig .tc := ⟨.hbm, 345, rfl⟩
abbrev main_v216 : Ref sig .tc := ⟨.hbm, 346, rfl⟩
abbrev main_v217 : Ref sig .tc := ⟨.hbm, 347, rfl⟩
abbrev main_c_39 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_cst_40 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_call9_cst : Ref sig .tc := ⟨.hbm, 361, rfl⟩
abbrev main_call9_v0 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_cst_41 : Ref sig .tc := ⟨.hbm, 369, rfl⟩
abbrev main_v235 : Ref sig .tc := ⟨.hbm, 370, rfl⟩
abbrev main_v236 : Ref sig .tc := ⟨.hbm, 371, rfl⟩
abbrev main_cst_42 : Ref sig .tc := ⟨.hbm, 372, rfl⟩
abbrev main_v237 : Ref sig .tc := ⟨.hbm, 373, rfl⟩
abbrev main_v238 : Ref sig .tc := ⟨.hbm, 374, rfl⟩
abbrev main_c_43 : Ref sig .tc := ⟨.hbm, 375, rfl⟩
abbrev main_call10_cst : Ref sig .tc := ⟨.hbm, 376, rfl⟩
abbrev main_call10_v0 : Ref sig .tc := ⟨.hbm, 377, rfl⟩
abbrev main_call10_v1 : Ref sig .tc := ⟨.hbm, 378, rfl⟩
abbrev main_call10_cst_0 : Ref sig .tc := ⟨.hbm, 379, rfl⟩
abbrev main_call10_v2 : Ref sig .tc := ⟨.hbm, 380, rfl⟩
abbrev main_call10_v3 : Ref sig .tc := ⟨.hbm, 381, rfl⟩
abbrev main_call10_v4 : Ref sig .tc := ⟨.hbm, 382, rfl⟩
abbrev main_call10_v5 : Ref sig .tc := ⟨.hbm, 383, rfl⟩
abbrev main_call10_v6 : Ref sig .tc := ⟨.hbm, 384, rfl⟩
abbrev main_call10_v7 : Ref sig .tc := ⟨.hbm, 385, rfl⟩
abbrev main_call10_cst_1 : Ref sig .tc := ⟨.hbm, 386, rfl⟩
abbrev main_call10_v8 : Ref sig .tc := ⟨.hbm, 387, rfl⟩
abbrev main_call10_cst_2 : Ref sig .tc := ⟨.hbm, 388, rfl⟩
abbrev main_call10_v9 : Ref sig .tc := ⟨.hbm, 389, rfl⟩
abbrev main_call10_v10 : Ref sig .tc := ⟨.hbm, 390, rfl⟩
abbrev main_call10_v11 : Ref sig .tc := ⟨.hbm, 391, rfl⟩
abbrev main_call10_v12 : Ref sig .tc := ⟨.hbm, 392, rfl⟩
abbrev main_call10_cst_3 : Ref sig .tc := ⟨.hbm, 393, rfl⟩
abbrev main_call10_v13 : Ref sig .tc := ⟨.hbm, 394, rfl⟩
abbrev main_call10_cst_4 : Ref sig .tc := ⟨.hbm, 395, rfl⟩
abbrev main_call10_call0_v0 : Ref sig .tc := ⟨.hbm, 396, rfl⟩
abbrev main_call10_call0_v1 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_cst_44 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_v248 : Ref sig .tc := ⟨.hbm, 408, rfl⟩
abbrev main_v249 : Ref sig .tc := ⟨.hbm, 409, rfl⟩
abbrev main_v250 : Ref sig .tc := ⟨.hbm, 410, rfl⟩
abbrev main_v251 : Ref sig .tc := ⟨.hbm, 411, rfl⟩
abbrev main_v252 : Ref sig .tc := ⟨.hbm, 412, rfl⟩
abbrev main_call11_cst : Ref sig .tc := ⟨.hbm, 413, rfl⟩
abbrev main_call11_v0 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S20000 : S_.BroadcastsInDim S20000 (![] : Fin 0 → Fin S20000.rank)
  bcast_S800000_S800000x1_0 : S800000.BroadcastsInDim S800000x1 (![0] : Fin 1 → Fin S800000x1.rank)
  bcast_S_S100000 : S_.BroadcastsInDim S100000 (![] : Fin 0 → Fin S100000.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S4x256_S1x256_1_0 : S4x256.Slices ![1, 0] S1x256
  reducesTo_S100000x256_S100000_d1 : S100000x256.ReducesTo [1] S100000
  h_S_ : 0 < S_.numel
  bcast_S_S100000x1 : S_.BroadcastsInDim S100000x1 (![] : Fin 0 → Fin S100000x1.rank)
  slices_S4x256x256_S1x256x256_1_0_0 : S4x256x256.Slices ![1, 0, 0] S1x256x256
  slices_S4x256_S1x256_2_0 : S4x256.Slices ![2, 0] S1x256
  slices_S4x256x256_S1x256x256_2_0_0 : S4x256x256.Slices ![2, 0, 0] S1x256x256
  slices_S4x256_S1x256_3_0 : S4x256.Slices ![3, 0] S1x256
  slices_S4x256x256_S1x256x256_3_0_0 : S4x256x256.Slices ![3, 0, 0] S1x256x256
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S20000_S800000x1_S800000_n_0_0_1_wf : ScatterDims.WF S20000 S800000x1 S800000 [] [0] [0] 1
  scatter_S100000_S800000x1_S800000_n_0_0_1_wf : ScatterDims.WF S100000 S800000x1 S800000 [] [0] [0] 1
  dot_S100000x384_S384x256_S100000x256_1_0_0_1_n_n_wf : DotDims.WF S100000x384 S384x256 S100000x256 [1] [0] [0] [1] [] []
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S20000x256_S800000x1_S800000x256_1_0_0_1_wf : ScatterDims.WF S20000x256 S800000x1 S800000x256 [1] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x16_S100000x16_1_0_0_1_n_n_wf : DotDims.WF S100000x256 S256x16 S100000x16 [1] [0] [0] [1] [] []

variable [Facts₀]

def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x384_S384x256_S100000x256_1_0_0_1_n_n : DotDims S100000x384 S384x256 S100000x256 where
  lhsContracting := [1]
  rhsContracting := [0]
  lhsNonContracting := [0]
  rhsNonContracting := [1]
  lhsBatch := []
  rhsBatch := []
  wf := dot_S100000x384_S384x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf

class Facts : Prop extends Facts₀ where

variable [Facts]
-- ==== Proof.KRun.lean ====
/-
  The kernel program's run with its result array named: from any launch memory with zero counters every
  weakly fair execution of the program on the TensorCores terminates without a fault, each argument array
  ends as it was launched, and the result array ends at what the last boundary of the run holds for it —
  the program's ten tiled stages and the host operations between them, folded from the launch memory.
-/
import proofs.«108867_j88295937671288_1_alg».proof.Proof.Gen.KernelIdeal.Frame

set_option maxRecDepth 16384

noncomputable section

namespace Cert.Hgnn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution terminates; the result array is read off the last boundary's contents, and the
    eleven argument arrays are as launched. -/
theorem run_result : θ_run defs (onTc (τ := τ) (main (F := F))) ⟨m, fun _ => 0, ρ⟩ (fun r => ∀ c : Dev nD,
      r.2.mem ((c.tc : Thread nD τ).loc main_v174) = W20 m ρ c (Proc.devRef .tc main_v174)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v174 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.Hgnn.Ker

end
-- ==== Proof.KSpec.lean ====
/-
  The network's stages as functions of WHOLE arrays over the extended reals, entry by entry.

  A node feature array has 100000 rows; a row is read by its two coordinates `(i, k)`.  Six stage functions:
  an affine map `X · W + b` (a row of `b` added to every row of the product), the positive part, the
  normalised-row stage (centre a row by its mean, scale by the reciprocal square root of its mean squared
  deviation plus a small constant, then the row gain and shift, then the positive part, then an affine map),
  and the residual update `h + max(y, 0)`.  Sums are finite sums over a row; the constants `256` and the small
  constant are kept as their binary words and never evaluated.
-/
import Idealize.ShloMosaic.PureOps.Ideal
import Idealize.ShloMosaic.Lib.ValueIdx

noncomputable section

open scoped BigOperators

namespace Cert.Hgnn

open Idealize.ShloMosaic Idealize.ShloMosaic.ValueIdx

/-- A real-valued array with `n` rows and `d` columns, at the exact instance. -/
abbrev Mat (n d : Nat) : Type := Vec Ideal (⟨2, ![n, d]⟩ : Shape) .f32

/-! ## Affine maps -/

/-- `X · W + b` with 384 contracted columns: entry `(i, j)` is `Σ_k X(i,k) · W(k,j)`, then `+ b(0,j)`. -/
def linear384 (X : Mat 100000 384) (W : Mat 384 256) (b : Mat 1 256) : Mat 100000 256 := fun idx =>
  (∑ k : Fin 384, X (ix2 (n0 := 100000) (idx 0) k) * W (ix2 (n1 := 256) k (idx 1))) + b (ix2 (n1 := 256) (0 : Fin 1) (idx 1))

theorem linear384_apply (X : Mat 100000 384) (W : Mat 384 256) (b : Mat 1 256) (i : Fin 100000) (j : Fin 256) :
    linear384 X W b (ix2 i j) = (∑ k : Fin 384, X (ix2 i k) * W (ix2 k j)) + b (ix2 0 j) := rfl

/-- `X · W + b` with 256 contracted columns. -/
def linear256 (X : Mat 100000 256) (W : Mat 256 256) (b : Mat 1 256) : Mat 100000 256 := fun idx =>
  (∑ k : Fin 256, X (ix2 (n0 := 100000) (idx 0) k) * W (ix2 (n1 := 256) k (idx 1))) + b (ix2 (n1 := 256) (0 : Fin 1) (idx 1))

theorem linear256_apply (X : Mat 100000 256) (W : Mat 256 256) (b : Mat 1 256) (i : Fin 100000) (j : Fin 256) :
    linear256 X W b (ix2 i j) = (∑ k : Fin 256, X (ix2 i k) * W (ix2 k j)) + b (ix2 0 j) := rfl

/-! ## The positive part, and the residual update -/

/-- Entry by entry `max x 0`. -/
def reluG (X : Mat 100000 256) : Mat 100000 256 := fun idx => max (X idx) 0

theorem reluG_apply (X : Mat 100000 256) (idx) : reluG X idx = max (X idx) 0 := rfl

/-- Entry by entry `h + max y 0`. -/
def reluResidual (Ye H : Mat 100000 256) : Mat 100000 256 := fun idx => H idx + max (Ye idx) 0

theorem reluResidual_apply (Ye H : Mat 100000 256) (idx) : reluResidual Ye H idx = H idx + max (Ye idx) 0 := rfl

/-! ## The normalised row -/

/-- The mean of row `i`: its sum divided by 256. -/
def rowMean (H : Mat 100000 256) (i : Fin 100000) : EReal :=
  Ideal.div (∑ k : Fin 256, H (ix2 i k)) (Ideal.ofBits .f32 0x43800000#32)

/-- The mean squared deviation of row `i` from its mean. -/
def rowVar (H : Mat 100000 256) (i : Fin 100000) : EReal :=
  Ideal.div (∑ k : Fin 256, (H (ix2 i k) - rowMean H i) * (H (ix2 i k) - rowMean H i)) (Ideal.ofBits .f32 0x43800000#32)

/-- Entry `(i, k)` of the normalised, scaled, shifted row, positive part: `max (((h − μ) · r) · g + b) 0` with
    `r` the reciprocal square root of the row's mean squared deviation plus the small constant. -/
def lnRelu (H : Mat 100000 256) (g b : Mat 1 256) (i : Fin 100000) (k : Fin 256) : EReal :=
  max ((H (ix2 i k) - rowMean H i) * Ideal.rsqrt (rowVar H i + Ideal.ofBits .f32 0x3727C5AC#32) * g (ix2 0 k) + b (ix2 0 k)) 0

/-- The normalised row, then an affine map to 256 columns. -/
def lnReluLinear (H : Mat 100000 256) (g b : Mat 1 256) (W : Mat 256 256) (bias : Mat 1 256) : Mat 100000 256 := fun idx =>
  (∑ k : Fin 256, lnRelu H g b (idx 0) k * W (ix2 (n1 := 256) k (idx 1))) + bias (ix2 (n1 := 256) (0 : Fin 1) (idx 1))

theorem lnReluLinear_apply (H : Mat 100000 256) (g b : Mat 1 256) (W : Mat 256 256) (bias : Mat 1 256) (i : Fin 100000) (j : Fin 256) :
    lnReluLinear H g b W bias (ix2 i j) = (∑ k : Fin 256, lnRelu H g b i k * W (ix2 k j)) + bias (ix2 0 j) := rfl

/-- The normalised row, then an affine map to 16 columns. -/
def finalG (H : Mat 100000 256) (g b : Mat 1 256) (W : Mat 256 16) (bias : Mat 1 16) : Mat 100000 16 := fun idx =>
  (∑ k : Fin 256, lnRelu H g b (idx 0) k * W (ix2 (n1 := 16) k (idx 1))) + bias (ix2 (n1 := 16) (0 : Fin 1) (idx 1))

theorem finalG_apply (H : Mat 100000 256) (g b : Mat 1 256) (W : Mat 256 16) (bias : Mat 1 16) (i : Fin 100000) (j : Fin 16) :
    finalG H g b W bias (ix2 i j) = (∑ k : Fin 256, lnRelu H g b i k * W (ix2 k j)) + bias (ix2 0 j) := rfl

end Cert.Hgnn

end
-- ==== Proof.KModel.lean ====
/-
  The kernel program's result as ONE function of its eleven argument arrays, over the extended reals.

  The network has four layers over a hypergraph with 100000 nodes, 20000 hyperedges and 800000 incidence
  pairs (a node index and a hyperedge index per pair).  A round of message passing `v2v` sends every node
  row to the hyperedges it lies in (a gather by node index, then a sum per hyperedge), scales each hyperedge
  row by the reciprocal of the hyperedge's degree (at least 1), sends the hyperedge rows back to the nodes
  (a gather by hyperedge index, then a sum per node) and scales each node row by the reciprocal of the
  node's degree (at least 1).  Around the rounds the node rows go through an affine encoder, a first
  affine layer and positive part, three layers "normalise the row, positive part, affine map; pass
  messages; add the positive part to the previous rows", and a last normalised affine map to 16 columns.

  Every stage below is one of the six whole-array functions of the specification applied to arrays the
  host operations prepare: a row of a parameter table (a slice, flattened and stood up again as a 1 × 256
  array), a matrix of the weight stack (a slice with its unit axis dropped), or a round of message
  passing.  The host operations are written down operation for operation, in the order the program
  applies them; nothing here is evaluated.
-/
import proofs.«108867_j88295937671288_1_alg».proof.Proof.KSpec
import proofs.«108867_j88295937671288_1_alg».proof.KernelIdeal

noncomputable section

namespace Cert.Hgnn.Ker

open Idealize.ShloMosaic Cert.KernelIdeal

variable [Cert.KernelIdeal.Facts]
open Cert.KernelIdeal.Facts₀ Cert.KernelIdeal.Facts

/-! ## Degrees -/

/-- The reciprocal hyperedge degrees: the number of incidence pairs per hyperedge (a sum of ones scattered by
    hyperedge index), raised to at least 1, then `1 / ·`. -/
def invDegE (eidx : Vec Ideal S800000 .i32) : Vec Ideal S20000 .f32 :=
  Host.divf (F := Ideal)
    (broadcastInDim S20000 ![] bcast_S_S20000 (constant (F := Ideal) S_ .f32 0x3F800000#32))
    (maximumf (F := Ideal)
      (Host.scatterAdd (F := Ideal) scatter_S20000_S800000x1_S800000_n_0_0_1
        (broadcastInDim S20000 ![] bcast_S_S20000 (constant (F := Ideal) S_ .f32 0x00000000#32))
        (broadcastInDim S800000x1 ![0] bcast_S800000_S800000x1_0 eidx)
        (broadcastInDim S800000 ![] bcast_S_S800000 (constant (F := Ideal) S_ .f32 0x3F800000#32)))
      (broadcastInDim S20000 ![] bcast_S_S20000 (constant (F := Ideal) S_ .f32 0x3F800000#32)))

/-- The reciprocal node degrees, the same over the node indices. -/
def invDegV (vidx : Vec Ideal S800000 .i32) : Vec Ideal S100000 .f32 :=
  Host.divf (F := Ideal)
    (broadcastInDim S100000 ![] bcast_S_S100000 (constant (F := Ideal) S_ .f32 0x3F800000#32))
    (maximumf (F := Ideal)
      (Host.scatterAdd (F := Ideal) scatter_S100000_S800000x1_S800000_n_0_0_1
        (broadcastInDim S100000 ![] bcast_S_S100000 (constant (F := Ideal) S_ .f32 0x00000000#32))
        (broadcastInDim S800000x1 ![0] bcast_S800000_S800000x1_0 vidx)
        (broadcastInDim S800000 ![] bcast_S_S800000 (constant (F := Ideal) S_ .f32 0x3F800000#32)))
      (broadcastInDim S100000 ![] bcast_S_S100000 (constant (F := Ideal) S_ .f32 0x3F800000#32)))

/-! ## One round of message passing -/

/-- Nodes to hyperedges and back.  A negative index is first moved up by the axis length (the gather's
    index convention); the sums start from zero. -/
def v2v (vidx eidx : Vec Ideal S800000 .i32) (de : Vec Ideal S20000 .f32) (dv : Vec Ideal S100000 .f32)
    (z : Vec Ideal S100000x256 .f32) : Vec Ideal S100000x256 .f32 :=
  mulf (F := Ideal)
    (Host.scatterAdd (F := Ideal) scatter_S100000x256_S800000x1_S800000x256_1_0_0_1
      (broadcastInDim S100000x256 ![] bcast_S_S100000x256 (constant (F := Ideal) S_ .f32 0x00000000#32))
      (broadcastInDim S800000x1 ![0] bcast_S800000_S800000x1_0 vidx)
      (Host.gather gather_S20000x256_S800000x1_S800000x256_1_0_n_n_0_1_1256
        (mulf (F := Ideal)
          (Host.scatterAdd (F := Ideal) scatter_S20000x256_S800000x1_S800000x256_1_0_0_1
            (broadcastInDim S20000x256 ![] bcast_S_S20000x256 (constant (F := Ideal) S_ .f32 0x00000000#32))
            (broadcastInDim S800000x1 ![0] bcast_S800000_S800000x1_0 eidx)
            (Host.gather gather_S100000x256_S800000x1_S800000x256_1_0_n_n_0_1_1256
              z
              (broadcastInDim S800000x1 ![0] bcast_S800000_S800000x1_0
                (select
                  (cmpi .slt vidx (broadcastInDim S800000 ![] bcast_S_S800000 (constantI S_ 32 0#32)))
                  (addi vidx (broadcastInDim S800000 ![] bcast_S_S800000 (constantI S_ 32 100000#32)))
                  vidx))))
          (broadcastInDim S20000x256 ![0, 1] bcast_S20000x1_S20000x256_0_1
            (broadcastInDim S20000x1 ![0] bcast_S20000_S20000x1_0 de)))
        (broadcastInDim S800000x1 ![0] bcast_S800000_S800000x1_0
          (select
            (cmpi .slt eidx (broadcastInDim S800000 ![] bcast_S_S800000 (constantI S_ 32 0#32)))
            (addi eidx (broadcastInDim S800000 ![] bcast_S_S800000 (constantI S_ 32 20000#32)))
            eidx))))
    (broadcastInDim S100000x256 ![0, 1] bcast_S100000x1_S100000x256_0_1
      (broadcastInDim S100000x1 ![0] bcast_S100000_S100000x1_0 dv))

/-! ## Rows and matrices of the parameter tables -/

/-- A vector of 256 entries stood up as a 1 × 256 array. -/
def asRow256 (b : Vec Ideal S256 .f32) : Vec Ideal S1x256 .f32 := shapeCast S1x256 b shapeCasts_S256_S1x256
/-- A vector of 16 entries stood up as a 1 × 16 array. -/
def asRow16 (b : Vec Ideal S16 .f32) : Vec Ideal S1x16 .f32 := shapeCast S1x16 b shapeCasts_S16_S1x16

/-- Row 0 of a 4 × 256 table as a 1 × 256 array: the slice, flattened, stood up again. -/
def row0 (a : Vec Ideal S4x256 .f32) : Vec Ideal S1x256 .f32 :=
  shapeCast S1x256 (shapeCast S256 (extractStridedSlice S1x256 ![0, 0] a slices_S4x256_S1x256_0_0) shapeCasts_S1x256_S256) shapeCasts_S256_S1x256
/-- Row 1. -/
def row1 (a : Vec Ideal S4x256 .f32) : Vec Ideal S1x256 .f32 :=
  shapeCast S1x256 (shapeCast S256 (extractStridedSlice S1x256 ![1, 0] a slices_S4x256_S1x256_1_0) shapeCasts_S1x256_S256) shapeCasts_S256_S1x256
/-- Row 2. -/
def row2 (a : Vec Ideal S4x256 .f32) : Vec Ideal S1x256 .f32 :=
  shapeCast S1x256 (shapeCast S256 (extractStridedSlice S1x256 ![2, 0] a slices_S4x256_S1x256_2_0) shapeCasts_S1x256_S256) shapeCasts_S256_S1x256
/-- Row 3. -/
def row3 (a : Vec Ideal S4x256 .f32) : Vec Ideal S1x256 .f32 :=
  shapeCast S1x256 (shapeCast S256 (extractStridedSlice S1x256 ![3, 0] a slices_S4x256_S1x256_3_0) shapeCasts_S1x256_S256) shapeCasts_S256_S1x256

/-- Matrix 0 of the 4 × 256 × 256 weight stack: the slice with its unit axis dropped. -/
def mat0 (a : Vec Ideal S4x256x256 .f32) : Vec Ideal S256x256 .f32 :=
  shapeCast S256x256 (extractStridedSlice S1x256x256 ![0, 0, 0] a slices_S4x256x256_S1x256x256_0_0_0) shapeCasts_S1x256x256_S256x256
/-- Matrix 1. -/
def mat1 (a : Vec Ideal S4x256x256 .f32) : Vec Ideal S256x256 .f32 :=
  shapeCast S256x256 (extractStridedSlice S1x256x256 ![1, 0, 0] a slices_S4x256x256_S1x256x256_1_0_0) shapeCasts_S1x256x256_S256x256
/-- Matrix 2. -/
def mat2 (a : Vec Ideal S4x256x256 .f32) : Vec Ideal S256x256 .f32 :=
  shapeCast S256x256 (extractStridedSlice S1x256x256 ![2, 0, 0] a slices_S4x256x256_S1x256x256_2_0_0) shapeCasts_S1x256x256_S256x256
/-- Matrix 3. -/
def mat3 (a : Vec Ideal S4x256x256 .f32) : Vec Ideal S256x256 .f32 :=
  shapeCast S256x256 (extractStridedSlice S1x256x256 ![3, 0, 0] a slices_S4x256x256_S1x256x256_3_0_0) shapeCasts_S1x256x256_S256x256

/-! ## The stages -/

/-- The encoder: `x · encW + encB`. -/
def encode (x : Vec Ideal S100000x384 .f32) (encW : Vec Ideal S384x256 .f32) (encB : Vec Ideal S256 .f32) :
    Vec Ideal S100000x256 .f32 := linear384 x encW (asRow256 encB)

/-- The first affine layer: `h · thetaW[0] + thetaB[0]`. -/
def theta0 (h : Vec Ideal S100000x256 .f32) (thetaW : Vec Ideal S4x256x256 .f32) (thetaB : Vec Ideal S4x256 .f32) :
    Vec Ideal S100000x256 .f32 := linear256 h (mat0 thetaW) (row0 thetaB)

/-- The positive part of the first round's messages. -/
def reluStage (y : Vec Ideal S100000x256 .f32) : Vec Ideal S100000x256 .f32 := reluG y

/-- Layer 1: the rows normalised with gain `lnG[1]` and shift `lnB[1]`, positive part, `· thetaW[1] + thetaB[1]`. -/
def lnLayer1 (h : Vec Ideal S100000x256 .f32) (lnG lnB : Vec Ideal S4x256 .f32) (thetaW : Vec Ideal S4x256x256 .f32)
    (thetaB : Vec Ideal S4x256 .f32) : Vec Ideal S100000x256 .f32 :=
  lnReluLinear h (row1 lnG) (row1 lnB) (mat1 thetaW) (row1 thetaB)
/-- Layer 2. -/
def lnLayer2 (h : Vec Ideal S100000x256 .f32) (lnG lnB : Vec Ideal S4x256 .f32) (thetaW : Vec Ideal S4x256x256 .f32)
    (thetaB : Vec Ideal S4x256 .f32) : Vec Ideal S100000x256 .f32 :=
  lnReluLinear h (row2 lnG) (row2 lnB) (mat2 thetaW) (row2 thetaB)
/-- Layer 3. -/
def lnLayer3 (h : Vec Ideal S100000x256 .f32) (lnG lnB : Vec Ideal S4x256 .f32) (thetaW : Vec Ideal S4x256x256 .f32)
    (thetaB : Vec Ideal S4x256 .f32) : Vec Ideal S100000x256 .f32 :=
  lnReluLinear h (row3 lnG) (row3 lnB) (mat3 thetaW) (row3 thetaB)

/-- The residual update: the previous rows plus the positive part of the messages. -/
def residual (ye h : Vec Ideal S100000x256 .f32) : Vec Ideal S100000x256 .f32 := reluResidual ye h

/-- The last stage: the rows normalised with gain `lnG[0]` and shift `lnB[0]`, positive part, `· linW + linB`. -/
def finalStage (h : Vec Ideal S100000x256 .f32) (lnG lnB : Vec Ideal S4x256 .f32) (linW : Vec Ideal S256x16 .f32)
    (linB : Vec Ideal S16 .f32) : Vec Ideal S100000x16 .f32 :=
  finalG h (row0 lnG) (row0 lnB) linW (asRow16 linB)

/-! ## The network -/

/-- The kernel program's result array as a function of its eleven arguments. -/
def model (x : Vec Ideal S100000x384 .f32) (vidx eidx : Vec Ideal S800000 .i32)
    (encW : Vec Ideal S384x256 .f32) (encB : Vec Ideal S256 .f32)
    (thetaW : Vec Ideal S4x256x256 .f32) (thetaB lnG lnB : Vec Ideal S4x256 .f32)
    (linW : Vec Ideal S256x16 .f32) (linB : Vec Ideal S16 .f32) : Vec Ideal S100000x16 .f32 :=
  let de := invDegE eidx
  let dv := invDegV vidx
  let h0 := encode x encW encB
  let z0 := theta0 h0 thetaW thetaB
  let h1 := reluStage (v2v vidx eidx de dv z0)
  let z1 := lnLayer1 h1 lnG lnB thetaW thetaB
  let h2 := residual (v2v vidx eidx de dv z1) h1
  let z2 := lnLayer2 h2 lnG lnB thetaW thetaB
  let h3 := residual (v2v vidx eidx de dv z2) h2
  let z3 := lnLayer3 h3 lnG lnB thetaW thetaB
  let h4 := residual (v2v vidx eidx de dv z3) h3
  finalStage h4 lnG lnB linW linB

end Cert.Hgnn.Ker

end
-- ==== Proof.KChainBase.lean ====
/-
  A stretch of host operations rewrites the buffers it writes and leaves every other buffer alone.  To say
  "this buffer is not written" once per stretch, the stretch's written references are listed, and a reference
  outside the list keeps its contents.  This module holds the one set-theoretic step that turns membership in a
  list of references into membership in the list's set of device buffers.
-/
import proofs.«108867_j88295937671288_1_alg».proof.Proof.KModel
import proofs.«108867_j88295937671288_1_alg».proof.Proof.Gen.KernelIdeal.Launch

set_option maxRecDepth 16384

noncomputable section

namespace Cert.Hgnn.Ker

open Idealize.ShloMosaic Cert.KernelIdeal Cert.KernelIdeal.Gen

/-- A reference of a list is, as a device buffer, in the list's set of device buffers. -/
theorem singleton_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

end Cert.Hgnn.Ker

end
-- ==== Proof.KChainHostA.lean ====
/-
  The host operations before the first tiled stage, before the second, and before the last, read as
  functions of the buffers they find: the reciprocal degrees from the two index arrays, and the parameter rows
  and matrices the stages take (a bias stood up as a one-row array, a row of a table, a matrix of the weight
  stack).  Each statement is over ANY contents `X` of the buffers, so nothing upstream is ever unfolded.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 0: the degrees and the encoder's bias -/

variable (X : Valuation τ sig (Elt Ideal))

/-- The references stretch 0 of the host operations writes. -/
def writes0 : List (Ref sig .tc) :=
  [main_cst, main_v0, main_cst_0, main_v1, main_v2, main_v3, main_cst_1, main_v4, main_v5, main_cst_2, main_v6, main_v7, main_cst_3, main_v8, main_v9, main_v10, main_cst_4, main_v11, main_v12, main_cst_5, main_v13, main_v14, main_v15]

/-- A buffer stretch 0 does not write keeps its contents. -/
theorem carry0 (b : Ref sig .tc) (hb : b ∉ writes0) :
    StableHlo.after (hostOps0 (F := Ideal)) X (Proc.devRef .tc b) = X (Proc.devRef .tc b) :=
  StableHlo.after_of_writes_sub (hostOps0 (F := Ideal)) X (W := writes0) (by
    simp only [hostOps0, List.Forall, StableHlo.nullary_writes, StableHlo.unary_writes, StableHlo.binary_writes,
      StableHlo.ternary_writes, StableHlo.reshape_writes]
    repeat' apply And.intro
    all_goals exact singleton_sub (by decide)) hb

/-- The reciprocal hyperedge degrees, from the hyperedge indices. -/
theorem host0_de : (StableHlo.after (hostOps0 (F := Ideal)) X (Proc.devRef .tc main_v7) : Vec Ideal S20000 .f32)
    = invDegE (X (Proc.devRef .tc main_arg2)) := by
  dsimp only [hostOps0]; after_results; rfl

/-- The reciprocal node degrees, from the node indices. -/
theorem host0_dv : (StableHlo.after (hostOps0 (F := Ideal)) X (Proc.devRef .tc main_v14) : Vec Ideal S100000 .f32)
    = invDegV (X (Proc.devRef .tc main_arg1)) := by
  dsimp only [hostOps0]; after_results; rfl

/-- The encoder's bias as a 1 × 256 array. -/
theorem host0_encB : (StableHlo.after (hostOps0 (F := Ideal)) X (Proc.devRef .tc main_v15) : Vec Ideal S1x256 .f32)
    = asRow256 (X (Proc.devRef .tc main_arg4)) := by
  dsimp only [hostOps0]; after_results; rfl

/-! ## Stretch 1: the first layer's parameters -/

/-- The references stretch 1 of the host operations writes. -/
def writes1 : List (Ref sig .tc) :=
  [main_v17, main_v18, main_v19, main_v20, main_v21]

/-- A buffer stretch 1 does not write keeps its contents. -/
theorem carry1 (b : Ref sig .tc) (hb : b ∉ writes1) :
    StableHlo.after (hostOps1 (F := Ideal)) X (Proc.devRef .tc b) = X (Proc.devRef .tc b) :=
  StableHlo.after_of_writes_sub (hostOps1 (F := Ideal)) X (W := writes1) (by
    simp only [hostOps1, List.Forall, StableHlo.nullary_writes, StableHlo.unary_writes, StableHlo.binary_writes,
      StableHlo.ternary_writes, StableHlo.reshape_writes]
    repeat' apply And.intro
    all_goals exact singleton_sub (by decide)) hb

/-- Row 0 of the layer biases. -/
theorem host1_bias : (StableHlo.after (hostOps1 (F := Ideal)) X (Proc.devRef .tc main_v19) : Vec Ideal S1x256 .f32)
    = row0 (X (Proc.devRef .tc main_arg6)) := by
  dsimp only [hostOps1]; after_results; rfl

/-- Matrix 0 of the layer weights. -/
theorem host1_W : (StableHlo.after (hostOps1 (F := Ideal)) X (Proc.devRef .tc main_v21) : Vec Ideal S256x256 .f32)
    = mat0 (X (Proc.devRef .tc main_arg5)) := by
  dsimp only [hostOps1]; after_results; rfl

/-! ## Stretch 9: the last stage's parameters -/

/-- The references stretch 9 of the host operations writes. -/
def writes9 : List (Ref sig .tc) :=
  [main_v167, main_v168, main_v169, main_v170, main_v171, main_v172, main_v173]

/-- A buffer stretch 9 does not write keeps its contents. -/
theorem carry9 (b : Ref sig .tc) (hb : b ∉ writes9) :
    StableHlo.after (hostOps9 (F := Ideal)) X (Proc.devRef .tc b) = X (Proc.devRef .tc b) :=
  StableHlo.after_of_writes_sub (hostOps9 (F := Ideal)) X (W := writes9) (by
    simp only [hostOps9, List.Forall, StableHlo.nullary_writes, StableHlo.unary_writes, StableHlo.binary_writes,
      StableHlo.ternary_writes, StableHlo.reshape_writes]
    repeat' apply And.intro
    all_goals exact singleton_sub (by decide)) hb

/-- Row 0 of the gains. -/
theorem host9_g : (StableHlo.after (hostOps9 (F := Ideal)) X (Proc.devRef .tc main_v169) : Vec Ideal S1x256 .f32)
    = row0 (X (Proc.devRef .tc main_arg7)) := by
  dsimp only [hostOps9]; after_results; rfl

/-- Row 0 of the shifts. -/
theorem host9_b : (StableHlo.after (hostOps9 (F := Ideal)) X (Proc.devRef .tc main_v172) : Vec Ideal S1x256 .f32)
    = row0 (X (Proc.devRef .tc main_arg8)) := by
  dsimp only [hostOps9]; after_results; rfl

/-- The last bias as a 1 × 16 array. -/
theorem host9_bias : (StableHlo.after (hostOps9 (F := Ideal)) X (Proc.devRef .tc main_v173) : Vec Ideal S1x16 .f32)
    = asRow16 (X (Proc.devRef .tc main_arg10)) := by
  dsimp only [hostOps9]; after_results; rfl

end Cert.Hgnn.Ker

end
-- ==== Proof.KChainHostP.lean ====
/-
  The host operations before each of the three normalised layers: row `i` of the gains, of the shifts and of
  the layer biases as one-row arrays, and matrix `i` of the weight stack — over any contents `X` of the buffers.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 3: layer 1's parameters -/

variable (X : Valuation τ sig (Elt Ideal))

/-- The references stretch 3 of the host operations writes. -/
def writes3 : List (Ref sig .tc) :=
  [main_v50, main_v51, main_v52, main_v53, main_v54, main_v55, main_v56, main_v57, main_v58, main_v59, main_v60]

/-- A buffer stretch 3 does not write keeps its contents. -/
theorem carry3 (b : Ref sig .tc) (hb : b ∉ writes3) :
    StableHlo.after (hostOps3 (F := Ideal)) X (Proc.devRef .tc b) = X (Proc.devRef .tc b) :=
  StableHlo.after_of_writes_sub (hostOps3 (F := Ideal)) X (W := writes3) (by
    simp only [hostOps3, List.Forall, StableHlo.nullary_writes, StableHlo.unary_writes, StableHlo.binary_writes,
      StableHlo.ternary_writes, StableHlo.reshape_writes]
    repeat' apply And.intro
    all_goals exact singleton_sub (by decide)) hb

/-- Row 1 of the gains. -/
theorem host3_g : (StableHlo.after (hostOps3 (F := Ideal)) X (Proc.devRef .tc main_v52) : Vec Ideal S1x256 .f32)
    = row1 (X (Proc.devRef .tc main_arg7)) := by
  dsimp only [hostOps3]; after_results; rfl

/-- Row 1 of the shifts. -/
theorem host3_b : (StableHlo.after (hostOps3 (F := Ideal)) X (Proc.devRef .tc main_v55) : Vec Ideal S1x256 .f32)
    = row1 (X (Proc.devRef .tc main_arg8)) := by
  dsimp only [hostOps3]; after_results; rfl

/-- Row 1 of the layer biases. -/
theorem host3_bias : (StableHlo.after (hostOps3 (F := Ideal)) X (Proc.devRef .tc main_v58) : Vec Ideal S1x256 .f32)
    = row1 (X (Proc.devRef .tc main_arg6)) := by
  dsimp only [hostOps3]; after_results; rfl

/-- Matrix 1 of the layer weights. -/
theorem host3_W : (StableHlo.after (hostOps3 (F := Ideal)) X (Proc.devRef .tc main_v60) : Vec Ideal S256x256 .f32)
    = mat1 (X (Proc.devRef .tc main_arg5)) := by
  dsimp only [hostOps3]; after_results; rfl

/-! ## Stretch 5: layer 2's parameters -/

/-- The references stretch 5 of the host operations writes. -/
def writes5 : List (Ref sig .tc) :=
  [main_v89, main_v90, main_v91, main_v92, main_v93, main_v94, main_v95, main_v96, main_v97, main_v98, main_v99]

/-- A buffer stretch 5 does not write keeps its contents. -/
theorem carry5 (b : Ref sig .tc) (hb : b ∉ writes5) :
    StableHlo.after (hostOps5 (F := Ideal)) X (Proc.devRef .tc b) = X (Proc.devRef .tc b) :=
  StableHlo.after_of_writes_sub (hostOps5 (F := Ideal)) X (W := writes5) (by
    simp only [hostOps5, List.Forall, StableHlo.nullary_writes, StableHlo.unary_writes, StableHlo.binary_writes,
      StableHlo.ternary_writes, StableHlo.reshape_writes]
    repeat' apply And.intro
    all_goals exact singleton_sub (by decide)) hb

/-- Row 2 of the gains. -/
theorem host5_g : (StableHlo.after (hostOps5 (F := Ideal)) X (Proc.devRef .tc main_v91) : Vec Ideal S1x256 .f32)
    = row2 (X (Proc.devRef .tc main_arg7)) := by
  dsimp only [hostOps5]; after_results; rfl

/-- Row 2 of the shifts. -/
theorem host5_b : (StableHlo.after (hostOps5 (F := Ideal)) X (Proc.devRef .tc main_v94) : Vec Ideal S1x256 .f32)
    = row2 (X (Proc.devRef .tc main_arg8)) := by
  dsimp only [hostOps5]; after_results; rfl

/-- Row 2 of the layer biases. -/
theorem host5_bias : (StableHlo.after (hostOps5 (F := Ideal)) X (Proc.devRef .tc main_v97) : Vec Ideal S1x256 .f32)
    = row2 (X (Proc.devRef .tc main_arg6)) := by
  dsimp only [hostOps5]; after_results; rfl

/-- Matrix 2 of the layer weights. -/
theorem host5_W : (StableHlo.after (hostOps5 (F := Ideal)) X (Proc.devRef .tc main_v99) : Vec Ideal S256x256 .f32)
    = mat2 (X (Proc.devRef .tc main_arg5)) := by
  dsimp only [hostOps5]; after_results; rfl

/-! ## Stretch 7: layer 3's parameters -/

/-- The references stretch 7 of the host operations writes. -/
def writes7 : List (Ref sig .tc) :=
  [main_v128, main_v129, main_v130, main_v131, main_v132, main_v133, main_v134, main_v135, main_v136, main_v137, main_v138]

/-- A buffer stretch 7 does not write keeps its contents. -/
theorem carry7 (b : Ref sig .tc) (hb : b ∉ writes7) :
    StableHlo.after (hostOps7 (F := Ideal)) X (Proc.devRef .tc b) = X (Proc.devRef .tc b) :=
  StableHlo.after_of_writes_sub (hostOps7 (F := Ideal)) X (W := writes7) (by
    simp only [hostOps7, List.Forall, StableHlo.nullary_writes, StableHlo.unary_writes, StableHlo.binary_writes,
      StableHlo.ternary_writes, StableHlo.reshape_writes]
    repeat' apply And.intro
    all_goals exact singleton_sub (by decide)) hb

/-- Row 3 of the gains. -/
theorem host7_g : (StableHlo.after (hostOps7 (F := Ideal)) X (Proc.devRef .tc main_v130) : Vec Ideal S1x256 .f32)
    = row3 (X (Proc.devRef .tc main_arg7)) := by
  dsimp only [hostOps7]; after_results; rfl

/-- Row 3 of the shifts. -/
theorem host7_b : (StableHlo.after (hostOps7 (F := Ideal)) X (Proc.devRef .tc main_v133) : Vec Ideal S1x256 .f32)
    = row3 (X (Proc.devRef .tc main_arg8)) := by
  dsimp only [hostOps7]; after_results; rfl

/-- Row 3 of the layer biases. -/
theorem host7_bias : (StableHlo.after (hostOps7 (F := Ideal)) X (Proc.devRef .tc main_v136) : Vec Ideal S1x256 .f32)
    = row3 (X (Proc.devRef .tc main_arg6)) := by
  dsimp only [hostOps7]; after_results; rfl

/-- Matrix 3 of the layer weights. -/
theorem host7_W : (StableHlo.after (hostOps7 (F := Ideal)) X (Proc.devRef .tc main_v138) : Vec Ideal S256x256 .f32)
    = mat3 (X (Proc.devRef .tc main_arg5)) := by
  dsimp only [hostOps7]; after_results; rfl

end Cert.Hgnn.Ker

end
-- ==== Proof.KChainHostV2.lean ====
/-
  The host operations between two tiled stages that pass messages over the hypergraph (stretch 2): their 32
  operations ARE one round `v2v` applied to the node index array, the hyperedge index array, the two
  reciprocal-degree arrays and the previous stage's rows, whatever those buffers hold.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 2: one round of message passing -/

variable (X : Valuation τ sig (Elt Ideal))

/-- The references stretch 2 of the host operations writes. -/
def writes2 : List (Ref sig .tc) :=
  [main_c, main_v23, main_v24, main_c_6, main_v25, main_v26, main_v27, main_v28, main_v29, main_cst_7, main_v30, main_v31, main_v32, main_v33, main_v34, main_v35, main_c_8, main_v36, main_v37, main_c_9, main_v38, main_v39, main_v40, main_v41, main_v42, main_cst_10, main_v43, main_v44, main_v45, main_v46, main_v47, main_v48]

/-- A buffer stretch 2 does not write keeps its contents. -/
theorem carry2 (b : Ref sig .tc) (hb : b ∉ writes2) :
    StableHlo.after (hostOps2 (F := Ideal)) X (Proc.devRef .tc b) = X (Proc.devRef .tc b) :=
  StableHlo.after_of_writes_sub (hostOps2 (F := Ideal)) X (W := writes2) (by
    simp only [hostOps2, List.Forall, StableHlo.nullary_writes, StableHlo.unary_writes, StableHlo.binary_writes,
      StableHlo.ternary_writes, StableHlo.reshape_writes]
    repeat' apply And.intro
    all_goals exact singleton_sub (by decide)) hb

/-- The round of message passing applied to the stage's rows. -/
theorem host2_v2v : (StableHlo.after (hostOps2 (F := Ideal)) X (Proc.devRef .tc main_v48) : Vec Ideal S100000x256 .f32)
    = v2v (X (Proc.devRef .tc main_arg1)) (X (Proc.devRef .tc main_arg2)) (X (Proc.devRef .tc main_v7))
        (X (Proc.devRef .tc main_v14)) (X (Proc.devRef .tc main_v22)) := by
  dsimp only [hostOps2]; after_results_simp; rfl

end Cert.Hgnn.Ker

end
-- ==== Proof.KChainHostV4.lean ====
/-
  The host operations between two tiled stages that pass messages over the hypergraph (stretch 4): their 32
  operations ARE one round `v2v` applied to the node index array, the hyperedge index array, the two
  reciprocal-degree arrays and the previous stage's rows, whatever those buffers hold.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 4: one round of message passing -/

variable (X : Valuation τ sig (Elt Ideal))

/-- The references stretch 4 of the host operations writes. -/
def writes4 : List (Ref sig .tc) :=
  [main_c_11, main_v62, main_v63, main_c_12, main_v64, main_v65, main_v66, main_v67, main_v68, main_cst_13, main_v69, main_v70, main_v71, main_v72, main_v73, main_v74, main_c_14, main_v75, main_v76, main_c_15, main_v77, main_v78, main_v79, main_v80, main_v81, main_cst_16, main_v82, main_v83, main_v84, main_v85, main_v86, main_v87]

/-- A buffer stretch 4 does not write keeps its contents. -/
theorem carry4 (b : Ref sig .tc) (hb : b ∉ writes4) :
    StableHlo.after (hostOps4 (F := Ideal)) X (Proc.devRef .tc b) = X (Proc.devRef .tc b) :=
  StableHlo.after_of_writes_sub (hostOps4 (F := Ideal)) X (W := writes4) (by
    simp only [hostOps4, List.Forall, StableHlo.nullary_writes, StableHlo.unary_writes, StableHlo.binary_writes,
      StableHlo.ternary_writes, StableHlo.reshape_writes]
    repeat' apply And.intro
    all_goals exact singleton_sub (by decide)) hb

/-- The round of message passing applied to the stage's rows. -/
theorem host4_v2v : (StableHlo.after (hostOps4 (F := Ideal)) X (Proc.devRef .tc main_v87) : Vec Ideal S100000x256 .f32)
    = v2v (X (Proc.devRef .tc main_arg1)) (X (Proc.devRef .tc main_arg2)) (X (Proc.devRef .tc main_v7))
        (X (Proc.devRef .tc main_v14)) (X (Proc.devRef .tc main_v61)) := by
  dsimp only [hostOps4]; after_results_simp; rfl

end Cert.Hgnn.Ker

end
-- ==== Proof.KChainHostV6.lean ====
/-
  The host operations between two tiled stages that pass messages over the hypergraph (stretch 6): their 32
  operations ARE one round `v2v` applied to the node index array, the hyperedge index array, the two
  reciprocal-degree arrays and the previous stage's rows, whatever those buffers hold.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 6: one round of message passing -/

variable (X : Valuation τ sig (Elt Ideal))

/-- The references stretch 6 of the host operations writes. -/
def writes6 : List (Ref sig .tc) :=
  [main_c_17, main_v101, main_v102, main_c_18, main_v103, main_v104, main_v105, main_v106, main_v107, main_cst_19, main_v108, main_v109, main_v110, main_v111, main_v112, main_v113, main_c_20, main_v114, main_v115, main_c_21, main_v116, main_v117, main_v118, main_v119, main_v120, main_cst_22, main_v121, main_v122, main_v123, main_v124, main_v125, main_v126]

/-- A buffer stretch 6 does not write keeps its contents. -/
theorem carry6 (b : Ref sig .tc) (hb : b ∉ writes6) :
    StableHlo.after (hostOps6 (F := Ideal)) X (Proc.devRef .tc b) = X (Proc.devRef .tc b) :=
  StableHlo.after_of_writes_sub (hostOps6 (F := Ideal)) X (W := writes6) (by
    simp only [hostOps6, List.Forall, StableHlo.nullary_writes, StableHlo.unary_writes, StableHlo.binary_writes,
      StableHlo.ternary_writes, StableHlo.reshape_writes]
    repeat' apply And.intro
    all_goals exact singleton_sub (by decide)) hb

/-- The round of message passing applied to the stage's rows. -/
theorem host6_v2v : (StableHlo.after (hostOps6 (F := Ideal)) X (Proc.devRef .tc main_v126) : Vec Ideal S100000x256 .f32)
    = v2v (X (Proc.devRef .tc main_arg1)) (X (Proc.devRef .tc main_arg2)) (X (Proc.devRef .tc main_v7))
        (X (Proc.devRef .tc main_v14)) (X (Proc.devRef .tc main_v100)) := by
  dsimp only [hostOps6]; after_results_simp; rfl

end Cert.Hgnn.Ker

end
-- ==== Proof.KChainHostV8.lean ====
/-
  The host operations between two tiled stages that pass messages over the hypergraph (stretch 8): their 32
  operations ARE one round `v2v` applied to the node index array, the hyperedge index array, the two
  reciprocal-degree arrays and the previous stage's rows, whatever those buffers hold.
-/
import proofs.«108867_j88295937671288_1_alg».proof.Proof.KChainBase

set_option maxRecDepth 16384

noncomputable section

namespace Cert.Hgnn.Ker

open Idealize.ShloMosaic Cert.KernelIdeal Cert.KernelIdeal.Gen

/-! ## Stretch 8: one round of message passing -/

variable (X : Valuation τ sig (Elt Ideal))

/-- The references stretch 8 of the host operations writes. -/
def writes8 : List (Ref sig .tc) :=
  [main_c_23, main_v140, main_v141, main_c_24, main_v142, main_v143, main_v144, main_v145, main_v146, main_cst_25, main_v147, main_v148, main_v149, main_v150, main_v151, main_v152, main_c_26, main_v153, main_v154, main_c_27, main_v155, main_v156, main_v157, main_v158, main_v159, main_cst_28, main_v160, main_v161, main_v162, main_v163, main_v164, main_v165]

/-- A buffer stretch 8 does not write keeps its contents. -/
theorem carry8 (b : Ref sig .tc) (hb : b ∉ writes8) :
    StableHlo.after (hostOps8 (F := Ideal)) X (Proc.devRef .tc b) = X (Proc.devRef .tc b) :=
  StableHlo.after_of_writes_sub (hostOps8 (F := Ideal)) X (W := writes8) (by
    simp only [hostOps8, List.Forall, StableHlo.nullary_writes, StableHlo.unary_writes, StableHlo.binary_writes,
      StableHlo.ternary_writes, StableHlo.reshape_writes]
    repeat' apply And.intro
    all_goals exact singleton_sub (by decide)) hb

/-- The round of message passing applied to the stage's rows. -/
theorem host8_v2v : (StableHlo.after (hostOps8 (F := Ideal)) X (Proc.devRef .tc main_v165) : Vec Ideal S100000x256 .f32)
    = v2v (X (Proc.devRef .tc main_arg1)) (X (Proc.devRef .tc main_arg2)) (X (Proc.devRef .tc main_v7))
        (X (Proc.devRef .tc main_v14)) (X (Proc.devRef .tc main_v139)) := by
  dsimp only [hostOps8]; after_results_simp; rfl

end Cert.Hgnn.Ker

end
-- ==== Proof.KChainCarry.lean ====
/-
  Ten buffers are read again and again along the run and written by nothing after the first stretch of host
  operations: the two index arrays, the six parameter arrays the later stages slice, and the two
  reciprocal-degree arrays.  This module says so once per segment of the run — a stretch of host operations
  does not write them, a tiled stage does not have them among its arrays — and bundles "these ten buffers hold
  these ten values" so that it moves from one boundary of the run to the next in one step.
-/
import proofs.«108867_j88295937671288_1_alg».proof.Proof.KChainHostA
import proofs.«108867_j88295937671288_1_alg».proof.Proof.KChainHostP
import proofs.«108867_j88295937671288_1_alg».proof.Proof.KChainHostV2
import proofs.«108867_j88295937671288_1_alg».proof.Proof.KChainHostV4
import proofs.«108867_j88295937671288_1_alg».proof.Proof.KChainHostV6
import proofs.«108867_j88295937671288_1_alg».proof.Proof.KChainHostV8
import proofs.«108867_j88295937671288_1_alg».proof.Proof.Gen.KernelIdeal.Frame

set_option maxRecDepth 16384

noncomputable section

namespace Cert.Hgnn.Ker

open Idealize.ShloMosaic Idealize.ShloMosaic.TcCoe Cert.KernelIdeal Cert.KernelIdeal.Gen

/-- The ten buffers carried along the run. -/
def carriedRefs : List (Ref sig .tc) := [main_arg1, main_arg2, main_arg5, main_arg6, main_arg7, main_arg8, main_arg9, main_arg10, main_v7, main_v14]

/-- At contents `W` the ten carried buffers hold the given arrays. -/
structure Carried (W : Valuation τ sig (Elt Ideal)) (vidx : Vec Ideal S800000 .i32) (eidx : Vec Ideal S800000 .i32) (thetaW : Vec Ideal S4x256x256 .f32) (thetaB : Vec Ideal S4x256 .f32) (lnG : Vec Ideal S4x256 .f32) (lnB : Vec Ideal S4x256 .f32) (linW : Vec Ideal S256x16 .f32) (linB : Vec Ideal S16 .f32) (de : Vec Ideal S20000 .f32) (dv : Vec Ideal S100000 .f32) : Prop where
  vidx_eq : (W (Proc.devRef .tc main_arg1) : Vec Ideal S800000 .i32) = vidx
  eidx_eq : (W (Proc.devRef .tc main_arg2) : Vec Ideal S800000 .i32) = eidx
  thetaW_eq : (W (Proc.devRef .tc main_arg5) : Vec Ideal S4x256x256 .f32) = thetaW
  thetaB_eq : (W (Proc.devRef .tc main_arg6) : Vec Ideal S4x256 .f32) = thetaB
  lnG_eq : (W (Proc.devRef .tc main_arg7) : Vec Ideal S4x256 .f32) = lnG
  lnB_eq : (W (Proc.devRef .tc main_arg8) : Vec Ideal S4x256 .f32) = lnB
  linW_eq : (W (Proc.devRef .tc main_arg9) : Vec Ideal S256x16 .f32) = linW
  linB_eq : (W (Proc.devRef .tc main_arg10) : Vec Ideal S16 .f32) = linB
  de_eq : (W (Proc.devRef .tc main_v7) : Vec Ideal S20000 .f32) = de
  dv_eq : (W (Proc.devRef .tc main_v14) : Vec Ideal S100000 .f32) = dv

/-- Contents that agree with `W` on the carried buffers carry the same arrays. -/
theorem Carried.of_keep {W W' : Valuation τ sig (Elt Ideal)} {vidx : Vec Ideal S800000 .i32} {eidx : Vec Ideal S800000 .i32} {thetaW : Vec Ideal S4x256x256 .f32} {thetaB : Vec Ideal S4x256 .f32} {lnG : Vec Ideal S4x256 .f32} {lnB : Vec Ideal S4x256 .f32} {linW : Vec Ideal S256x16 .f32} {linB : Vec Ideal S16 .f32} {de : Vec Ideal S20000 .f32} {dv : Vec Ideal S100000 .f32}
    (h : ∀ b ∈ carriedRefs, W' (Proc.devRef .tc b) = W (Proc.devRef .tc b)) (C : Carried W vidx eidx thetaW thetaB lnG lnB linW linB de dv) :
    Carried W' vidx eidx thetaW thetaB lnG lnB linW linB de dv :=
  ⟨(h main_arg1 (by decide)).trans C.vidx_eq,
   (h main_arg2 (by decide)).trans C.eidx_eq,
   (h main_arg5 (by decide)).trans C.thetaW_eq,
   (h main_arg6 (by decide)).trans C.thetaB_eq,
   (h main_arg7 (by decide)).trans C.lnG_eq,
   (h main_arg8 (by decide)).trans C.lnB_eq,
   (h main_arg9 (by decide)).trans C.linW_eq,
   (h main_arg10 (by decide)).trans C.linB_eq,
   (h main_v7 (by decide)).trans C.de_eq,
   (h main_v14 (by decide)).trans C.dv_eq⟩

/-! ## The stretches of host operations after the first leave the carried buffers alone -/

variable (X : Valuation τ sig (Elt Ideal))

theorem keepH1 : ∀ b ∈ carriedRefs, StableHlo.after (hostOps1 (F := Ideal)) X (Proc.devRef .tc b) = X (Proc.devRef .tc b) :=
  fun b hb => carry1 X b ((by decide : ∀ b ∈ carriedRefs, b ∉ writes1) b hb)

theorem keepH2 : ∀ b ∈ carriedRefs, StableHlo.after (hostOps2 (F := Ideal)) X (Proc.devRef .tc b) = X (Proc.devRef .tc b) :=
  fun b hb => carry2 X b ((by decide : ∀ b ∈ carriedRefs, b ∉ writes2) b hb)

theorem keepH3 : ∀ b ∈ carriedRefs, StableHlo.after (hostOps3 (F := Ideal)) X (Proc.devRef .tc b) = X (Proc.devRef .tc b) :=
  fun b hb => carry3 X b ((by decide : ∀ b ∈ carriedRefs, b ∉ writes3) b hb)

theorem keepH4 : ∀ b ∈ carriedRefs, StableHlo.after (hostOps4 (F := Ideal)) X (Proc.devRef .tc b) = X (Proc.devRef .tc b) :=
  fun b hb => carry4 X b ((by decide : ∀ b ∈ carriedRefs, b ∉ writes4) b hb)

theorem keepH5 : ∀ b ∈ carriedRefs, StableHlo.after (hostOps5 (F := Ideal)) X (Proc.devRef .tc b) = X (Proc.devRef .tc b) :=
  fun b hb => carry5 X b ((by decide : ∀ b ∈ carriedRefs, b ∉ writes5) b hb)

theorem keepH6 : ∀ b ∈ carriedRefs, StableHlo.after (hostOps6 (F := Ideal)) X (Proc.devRef .tc b) = X (Proc.devRef .tc b) :=
  fun b hb => carry6 X b ((by decide : ∀ b ∈ carriedRefs, b ∉ writes6) b hb)

theorem keepH7 : ∀ b ∈ carriedRefs, StableHlo.after (hostOps7 (F := Ideal)) X (Proc.devRef .tc b) = X (Proc.devRef .tc b) :=
  fun b hb => carry7 X b ((by decide : ∀ b ∈ carriedRefs, b ∉ writes7) b hb)

theorem keepH8 : ∀ b ∈ carriedRefs, StableHlo.after (hostOps8 (F := Ideal)) X (Proc.devRef .tc b) = X (Proc.devRef .tc b) :=
  fun b hb => carry8 X b ((by decide : ∀ b ∈ carriedRefs, b ∉ writes8) b hb)

theorem keepH9 : ∀ b ∈ carriedRefs, StableHlo.after (hostOps9 (F := Ideal)) X (Proc.devRef .tc b) = X (Proc.devRef .tc b) :=
  fun b hb => carry9 X b ((by decide : ∀ b ∈ carriedRefs, b ∉ writes9) b hb)

/-! ## No tiled stage but the last has a carried buffer among its arrays -/

variable (m : (ℓ : Loc nD τ sig) → Buf (Elt Ideal) ℓ) (ρ : Dev nD → PrngReg) (c : Dev nD)

theorem keepR0 : ∀ b ∈ carriedRefs, W2 m ρ c (Proc.devRef .tc b) = W1 m ρ c (Proc.devRef .tc b) :=
  fun b hb => W2_of_ne m ρ c b ((by decide : ∀ b ∈ carriedRefs, ∀ w, Pipeline.arrRef spec0 w ≠ b) b hb)

theorem keepR1 : ∀ b ∈ carriedRefs, W4 m ρ c (Proc.devRef .tc b) = W3 m ρ c (Proc.devRef .tc b) :=
  fun b hb => W4_of_ne m ρ c b ((by decide : ∀ b ∈ carriedRefs, ∀ w, Pipeline.arrRef spec1 w ≠ b) b hb)

theorem keepR2 : ∀ b ∈ carriedRefs, W6 m ρ c (Proc.devRef .tc b) = W5 m ρ c (Proc.devRef .tc b) :=
  fun b hb => W6_of_ne m ρ c b ((by decide : ∀ b ∈ carriedRefs, ∀ w, Pipeline.arrRef spec2 w ≠ b) b hb)

theorem keepR3 : ∀ b ∈ carriedRefs, W8 m ρ c (Proc.devRef .tc b) = W7 m ρ c (Proc.devRef .tc b) :=
  fun b hb => W8_of_ne m ρ c b ((by decide : ∀ b ∈ carriedRefs, ∀ w, Pipeline.arrRef spec3 w ≠ b) b hb)

theorem keepR4 : ∀ b ∈ carriedRefs, W10 m ρ c (Proc.devRef .tc b) = W9 m ρ c (Proc.devRef .tc b) :=
  fun b hb => W10_of_ne m ρ c b ((by decide : ∀ b ∈ carriedRefs, ∀ w, Pipeline.arrRef spec4 w ≠ b) b hb)

theorem keepR5 : ∀ b ∈ carriedRefs, W12 m ρ c (Proc.devRef .tc b) = W11 m ρ c (Proc.devRef .tc b) :=
  fun b hb => W12_of_ne m ρ c b ((by decide : ∀ b ∈ carriedRefs, ∀ w, Pipeline.arrRef spec5 w ≠ b) b hb)

theorem keepR6 : ∀ b ∈ carriedRefs, W14 m ρ c (Proc.devRef .tc b) = W13 m ρ c (Proc.devRef .tc b) :=
  fun b hb => W14_of_ne m ρ c b ((by decide : ∀ b ∈ carriedRefs, ∀ w, Pipeline.arrRef spec6 w ≠ b) b hb)

theorem keepR7 : ∀ b ∈ carriedRefs, W16 m ρ c (Proc.devRef .tc b) = W15 m ρ c (Proc.devRef .tc b) :=
  fun b hb => W16_of_ne m ρ c b ((by decide : ∀ b ∈ carriedRefs, ∀ w, Pipeline.arrRef spec7 w ≠ b) b hb)

theorem keepR8 : ∀ b ∈ carriedRefs, W18 m ρ c (Proc.devRef .tc b) = W17 m ρ c (Proc.devRef .tc b) :=
  fun b hb => W18_of_ne m ρ c b ((by decide : ∀ b ∈ carriedRefs, ∀ w, Pipeline.arrRef spec8 w ≠ b) b hb)

end Cert.Hgnn.Ker

end
-- ==== Proof.KChainSteps.lean ====
/-
  The ten tiled stages, one statement each: if, when stage `K` is entered, its input arrays hold `a0, a1, …`,
  then when it is left its result array holds the stage's whole-array function of them.  That the stage computes
  its function is a hypothesis, named `RegionKValue`: over any contents at the stage's entry, the result array
  after all grid points is the function of the input arrays.  So these statements depend on nothing but the run's
  boundaries.  Also: a stage leaves its input arrays as it found them, and a round of message passing applied to
  equal arrays gives equal arrays.
-/
import proofs.«108867_j88295937671288_1_alg».proof.Proof.KModel
import proofs.«108867_j88295937671288_1_alg».proof.Proof.Gen.KernelIdeal.Frame

set_option maxRecDepth 16384

noncomputable section

namespace Cert.Hgnn.Ker

open Idealize.ShloMosaic Idealize.ShloMosaic.TcCoe Cert.KernelIdeal Cert.KernelIdeal.Gen

/-! ## What each tiled stage computes, as a proposition -/

/-- Tiled stage 0 computes `linear384`: over any contents at its entry, its result array after all its grid points is
    the stage's whole-array function of its input arrays. -/
abbrev Region0Value : Prop :=
  ∀ (V : (c : Dev nD) → (b : Ref sig .tc) → Buf (Elt Ideal) ((c : Thread nD τ).loc b)) (c : Dev nD),
      (dat0 (F := Ideal) V c).arrAt 3 cfg0.N = linear384 (V c (Pipeline.arrRef spec0 0)) (V c (Pipeline.arrRef spec0 1)) (V c (Pipeline.arrRef spec0 2))

/-- Tiled stage 1 computes `linear256`: over any contents at its entry, its result array after all its grid points is
    the stage's whole-array function of its input arrays. -/
abbrev Region1Value : Prop :=
  ∀ (V : (c : Dev nD) → (b : Ref sig .tc) → Buf (Elt Ideal) ((c : Thread nD τ).loc b)) (c : Dev nD),
      (dat1 (F := Ideal) V c).arrAt 3 cfg1.N = linear256 (V c (Pipeline.arrRef spec1 0)) (V c (Pipeline.arrRef spec1 1)) (V c (Pipeline.arrRef spec1 2))

/-- Tiled stage 2 computes `reluG`: over any contents at its entry, its result array after all its grid points is
    the stage's whole-array function of its input arrays. -/
abbrev Region2Value : Prop :=
  ∀ (V : (c : Dev nD) → (b : Ref sig .tc) → Buf (Elt Ideal) ((c : Thread nD τ).loc b)) (c : Dev nD),
      (dat2 (F := Ideal) V c).arrAt 1 cfg2.N = reluG (V c (Pipeline.arrRef spec2 0))

/-- Tiled stage 3 computes `lnReluLinear`: over any contents at its entry, its result array after all its grid points is
    the stage's whole-array function of its input arrays. -/
abbrev Region3Value : Prop :=
  ∀ (V : (c : Dev nD) → (b : Ref sig .tc) → Buf (Elt Ideal) ((c : Thread nD τ).loc b)) (c : Dev nD),
      (dat3 (F := Ideal) V c).arrAt 5 cfg3.N = lnReluLinear (V c (Pipeline.arrRef spec3 0)) (V c (Pipeline.arrRef spec3 1)) (V c (Pipeline.arrRef spec3 2)) (V c (Pipeline.arrRef spec3 3)) (V c (Pipeline.arrRef spec3 4))

/-- Tiled stage 4 computes `reluResidual`: over any contents at its entry, its result array after all its grid points is
    the stage's whole-array function of its input arrays. -/
abbrev Region4Value : Prop :=
  ∀ (V : (c : Dev nD) → (b : Ref sig .tc) → Buf (Elt Ideal) ((c : Thread nD τ).loc b)) (c : Dev nD),
      (dat4 (F := Ideal) V c).arrAt 2 cfg4.N = reluResidual (V c (Pipeline.arrRef spec4 0)) (V c (Pipeline.arrRef spec4 1))

/-- Tiled stage 5 computes `lnReluLinear`: over any contents at its entry, its result array after all its grid points is
    the stage's whole-array function of its input arrays. -/
abbrev Region5Value : Prop :=
  ∀ (V : (c : Dev nD) → (b : Ref sig .tc) → Buf (Elt Ideal) ((c : Thread nD τ).loc b)) (c : Dev nD),
      (dat5 (F := Ideal) V c).arrAt 5 cfg5.N = lnReluLinear (V c (Pipeline.arrRef spec5 0)) (V c (Pipeline.arrRef spec5 1)) (V c (Pipeline.arrRef spec5 2)) (V c (Pipeline.arrRef spec5 3)) (V c (Pipeline.arrRef spec5 4))

/-- Tiled stage 6 computes `reluResidual`: over any contents at its entry, its result array after all its grid points is
    the stage's whole-array function of its input arrays. -/
abbrev Region6Value : Prop :=
  ∀ (V : (c : Dev nD) → (b : Ref sig .tc) → Buf (Elt Ideal) ((c : Thread nD τ).loc b)) (c : Dev nD),
      (dat6 (F := Ideal) V c).arrAt 2 cfg6.N = reluResidual (V c (Pipeline.arrRef spec6 0)) (V c (Pipeline.arrRef spec6 1))

/-- Tiled stage 7 computes `lnReluLinear`: over any contents at its entry, its result array after all its grid points is
    the stage's whole-array function of its input arrays. -/
abbrev Region7Value : Prop :=
  ∀ (V : (c : Dev nD) → (b : Ref sig .tc) → Buf (Elt Ideal) ((c : Thread nD τ).loc b)) (c : Dev nD),
      (dat7 (F := Ideal) V c).arrAt 5 cfg7.N = lnReluLinear (V c (Pipeline.arrRef spec7 0)) (V c (Pipeline.arrRef spec7 1)) (V c (Pipeline.arrRef spec7 2)) (V c (Pipeline.arrRef spec7 3)) (V c (Pipeline.arrRef spec7 4))

/-- Tiled stage 8 computes `reluResidual`: over any contents at its entry, its result array after all its grid points is
    the stage's whole-array function of its input arrays. -/
abbrev Region8Value : Prop :=
  ∀ (V : (c : Dev nD) → (b : Ref sig .tc) → Buf (Elt Ideal) ((c : Thread nD τ).loc b)) (c : Dev nD),
      (dat8 (F := Ideal) V c).arrAt 2 cfg8.N = reluResidual (V c (Pipeline.arrRef spec8 0)) (V c (Pipeline.arrRef spec8 1))

/-- Tiled stage 9 computes `finalG`: over any contents at its entry, its result array after all its grid points is
    the stage's whole-array function of its input arrays. -/
abbrev Region9Value : Prop :=
  ∀ (V : (c : Dev nD) → (b : Ref sig .tc) → Buf (Elt Ideal) ((c : Thread nD τ).loc b)) (c : Dev nD),
      (dat9 (F := Ideal) V c).arrAt 5 cfg9.N = finalG (V c (Pipeline.arrRef spec9 0)) (V c (Pipeline.arrRef spec9 1)) (V c (Pipeline.arrRef spec9 2)) (V c (Pipeline.arrRef spec9 3)) (V c (Pipeline.arrRef spec9 4))

/-! ## From a stage's inputs at its entry to its result at its exit -/

variable (m : (ℓ : Loc nD τ sig) → Buf (Elt Ideal) ℓ) (ρ : Dev nD → PrngReg) (c : Dev nD)

/-- Tiled stage 0: its result array, from what its input arrays hold when it is entered. -/
theorem step0 (hr : Region0Value)
    (a0 : Vec Ideal S100000x384 .f32) (a1 : Vec Ideal S384x256 .f32) (a2 : Vec Ideal S1x256 .f32)
    (e0 : (W1 m ρ c (Proc.devRef .tc main_arg0) : Vec Ideal S100000x384 .f32) = a0)
    (e1 : (W1 m ρ c (Proc.devRef .tc main_arg3) : Vec Ideal S384x256 .f32) = a1)
    (e2 : (W1 m ρ c (Proc.devRef .tc main_v15) : Vec Ideal S1x256 .f32) = a2) :
    (W2 m ρ c (Proc.devRef .tc main_v16) : Vec Ideal S100000x256 .f32) = linear384 a0 a1 a2 := by
  subst e0 e1 e2
  exact (W2_arr m ρ c 3).trans (hr (V1 m ρ) c)

/-- Tiled stage 1: its result array, from what its input arrays hold when it is entered. -/
theorem step1 (hr : Region1Value)
    (a0 : Vec Ideal S100000x256 .f32) (a1 : Vec Ideal S256x256 .f32) (a2 : Vec Ideal S1x256 .f32)
    (e0 : (W3 m ρ c (Proc.devRef .tc main_v16) : Vec Ideal S100000x256 .f32) = a0)
    (e1 : (W3 m ρ c (Proc.devRef .tc main_v21) : Vec Ideal S256x256 .f32) = a1)
    (e2 : (W3 m ρ c (Proc.devRef .tc main_v19) : Vec Ideal S1x256 .f32) = a2) :
    (W4 m ρ c (Proc.devRef .tc main_v22) : Vec Ideal S100000x256 .f32) = linear256 a0 a1 a2 := by
  subst e0 e1 e2
  exact (W4_arr m ρ c 3).trans (hr (V3 m ρ) c)

/-- Tiled stage 2: its result array, from what its input arrays hold when it is entered. -/
theorem step2 (hr : Region2Value)
    (a0 : Vec Ideal S100000x256 .f32)
    (e0 : (W5 m ρ c (Proc.devRef .tc main_v48) : Vec Ideal S100000x256 .f32) = a0) :
    (W6 m ρ c (Proc.devRef .tc main_v49) : Vec Ideal S100000x256 .f32) = reluG a0 := by
  subst e0
  exact (W6_arr m ρ c 1).trans (hr (V5 m ρ) c)

/-- Tiled stage 3: its result array, from what its input arrays hold when it is entered. -/
theorem step3 (hr : Region3Value)
    (a0 : Vec Ideal S100000x256 .f32) (a1 : Vec Ideal S1x256 .f32) (a2 : Vec Ideal S1x256 .f32) (a3 : Vec Ideal S256x256 .f32) (a4 : Vec Ideal S1x256 .f32)
    (e0 : (W7 m ρ c (Proc.devRef .tc main_v49) : Vec Ideal S100000x256 .f32) = a0)
    (e1 : (W7 m ρ c (Proc.devRef .tc main_v52) : Vec Ideal S1x256 .f32) = a1)
    (e2 : (W7 m ρ c (Proc.devRef .tc main_v55) : Vec Ideal S1x256 .f32) = a2)
    (e3 : (W7 m ρ c (Proc.devRef .tc main_v60) : Vec Ideal S256x256 .f32) = a3)
    (e4 : (W7 m ρ c (Proc.devRef .tc main_v58) : Vec Ideal S1x256 .f32) = a4) :
    (W8 m ρ c (Proc.devRef .tc main_v61) : Vec Ideal S100000x256 .f32) = lnReluLinear a0 a1 a2 a3 a4 := by
  subst e0 e1 e2 e3 e4
  exact (W8_arr m ρ c 5).trans (hr (V7 m ρ) c)

/-- Tiled stage 4: its result array, from what its input arrays hold when it is entered. -/
theorem step4 (hr : Region4Value)
    (a0 : Vec Ideal S100000x256 .f32) (a1 : Vec Ideal S100000x256 .f32)
    (e0 : (W9 m ρ c (Proc.devRef .tc main_v87) : Vec Ideal S100000x256 .f32) = a0)
    (e1 : (W9 m ρ c (Proc.devRef .tc main_v49) : Vec Ideal S100000x256 .f32) = a1) :
    (W10 m ρ c (Proc.devRef .tc main_v88) : Vec Ideal S100000x256 .f32) = reluResidual a0 a1 := by
  subst e0 e1
  exact (W10_arr m ρ c 2).trans (hr (V9 m ρ) c)

/-- Tiled stage 5: its result array, from what its input arrays hold when it is entered. -/
theorem step5 (hr : Region5Value)
    (a0 : Vec Ideal S100000x256 .f32) (a1 : Vec Ideal S1x256 .f32) (a2 : Vec Ideal S1x256 .f32) (a3 : Vec Ideal S256x256 .f32) (a4 : Vec Ideal S1x256 .f32)
    (e0 : (W11 m ρ c (Proc.devRef .tc main_v88) : Vec Ideal S100000x256 .f32) = a0)
    (e1 : (W11 m ρ c (Proc.devRef .tc main_v91) : Vec Ideal S1x256 .f32) = a1)
    (e2 : (W11 m ρ c (Proc.devRef .tc main_v94) : Vec Ideal S1x256 .f32) = a2)
    (e3 : (W11 m ρ c (Proc.devRef .tc main_v99) : Vec Ideal S256x256 .f32) = a3)
    (e4 : (W11 m ρ c (Proc.devRef .tc main_v97) : Vec Ideal S1x256 .f32) = a4) :
    (W12 m ρ c (Proc.devRef .tc main_v100) : Vec Ideal S100000x256 .f32) = lnReluLinear a0 a1 a2 a3 a4 := by
  subst e0 e1 e2 e3 e4
  exact (W12_arr m ρ c 5).trans (hr (V11 m ρ) c)

/-- Tiled stage 6: its result array, from what its input arrays hold when it is entered. -/
theorem step6 (hr : Region6Value)
    (a0 : Vec Ideal S100000x256 .f32) (a1 : Vec Ideal S100000x256 .f32)
    (e0 : (W13 m ρ c (Proc.devRef .tc main_v126) : Vec Ideal S100000x256 .f32) = a0)
    (e1 : (W13 m ρ c (Proc.devRef .tc main_v88) : Vec Ideal S100000x256 .f32) = a1) :
    (W14 m ρ c (Proc.devRef .tc main_v127) : Vec Ideal S100000x256 .f32) = reluResidual a0 a1 := by
  subst e0 e1
  exact (W14_arr m ρ c 2).trans (hr (V13 m ρ) c)

/-- Tiled stage 7: its result array, from what its input arrays hold when it is entered. -/
theorem step7 (hr : Region7Value)
    (a0 : Vec Ideal S100000x256 .f32) (a1 : Vec Ideal S1x256 .f32) (a2 : Vec Ideal S1x256 .f32) (a3 : Vec Ideal S256x256 .f32) (a4 : Vec Ideal S1x256 .f32)
    (e0 : (W15 m ρ c (Proc.devRef .tc main_v127) : Vec Ideal S100000x256 .f32) = a0)
    (e1 : (W15 m ρ c (Proc.devRef .tc main_v130) : Vec Ideal S1x256 .f32) = a1)
    (e2 : (W15 m ρ c (Proc.devRef .tc main_v133) : Vec Ideal S1x256 .f32) = a2)
    (e3 : (W15 m ρ c (Proc.devRef .tc main_v138) : Vec Ideal S256x256 .f32) = a3)
    (e4 : (W15 m ρ c (Proc.devRef .tc main_v136) : Vec Ideal S1x256 .f32) = a4) :
    (W16 m ρ c (Proc.devRef .tc main_v139) : Vec Ideal S100000x256 .f32) = lnReluLinear a0 a1 a2 a3 a4 := by
  subst e0 e1 e2 e3 e4
  exact (W16_arr m ρ c 5).trans (hr (V15 m ρ) c)

/-- Tiled stage 8: its result array, from what its input arrays hold when it is entered. -/
theorem step8 (hr : Region8Value)
    (a0 : Vec Ideal S100000x256 .f32) (a1 : Vec Ideal S100000x256 .f32)
    (e0 : (W17 m ρ c (Proc.devRef .tc main_v165) : Vec Ideal S100000x256 .f32) = a0)
    (e1 : (W17 m ρ c (Proc.devRef .tc main_v127) : Vec Ideal S100000x256 .f32) = a1) :
    (W18 m ρ c (Proc.devRef .tc main_v166) : Vec Ideal S100000x256 .f32) = reluResidual a0 a1 := by
  subst e0 e1
  exact (W18_arr m ρ c 2).trans (hr (V17 m ρ) c)

/-- Tiled stage 9: its result array, from what its input arrays hold when it is entered. -/
theorem step9 (hr : Region9Value)
    (a0 : Vec Ideal S100000x256 .f32) (a1 : Vec Ideal S1x256 .f32) (a2 : Vec Ideal S1x256 .f32) (a3 : Vec Ideal S256x16 .f32) (a4 : Vec Ideal S1x16 .f32)
    (e0 : (W19 m ρ c (Proc.devRef .tc main_v166) : Vec Ideal S100000x256 .f32) = a0)
    (e1 : (W19 m ρ c (Proc.devRef .tc main_v169) : Vec Ideal S1x256 .f32) = a1)
    (e2 : (W19 m ρ c (Proc.devRef .tc main_v172) : Vec Ideal S1x256 .f32) = a2)
    (e3 : (W19 m ρ c (Proc.devRef .tc main_arg9) : Vec Ideal S256x16 .f32) = a3)
    (e4 : (W19 m ρ c (Proc.devRef .tc main_v173) : Vec Ideal S1x16 .f32) = a4) :
    (W20 m ρ c (Proc.devRef .tc main_v174) : Vec Ideal S100000x16 .f32) = finalG a0 a1 a2 a3 a4 := by
  subst e0 e1 e2 e3 e4
  exact (W20_arr m ρ c 5).trans (hr (V19 m ρ) c)

/-- Tiled stage 3 leaves its first input array as it found it. -/
theorem keepIn3 : W8 m ρ c (Proc.devRef .tc main_v49) = W7 m ρ c (Proc.devRef .tc main_v49) :=
  (W8_arr m ρ c 0).trans (((dat3 (V7 m ρ) c).arrAt_in 0 rfl _).trans (A_eq3 (V7 m ρ) c 0))

/-- Tiled stage 5 leaves its first input array as it found it. -/
theorem keepIn5 : W12 m ρ c (Proc.devRef .tc main_v88) = W11 m ρ c (Proc.devRef .tc main_v88) :=
  (W12_arr m ρ c 0).trans (((dat5 (V11 m ρ) c).arrAt_in 0 rfl _).trans (A_eq5 (V11 m ρ) c 0))

/-- Tiled stage 7 leaves its first input array as it found it. -/
theorem keepIn7 : W16 m ρ c (Proc.devRef .tc main_v127) = W15 m ρ c (Proc.devRef .tc main_v127) :=
  (W16_arr m ρ c 0).trans (((dat7 (V15 m ρ) c).arrAt_in 0 rfl _).trans (A_eq7 (V15 m ρ) c 0))

/-- Equal arrays in, equal messages out. -/
theorem v2v_congr {vidx vidx' eidx eidx' : Vec Ideal S800000 .i32} {de de' : Vec Ideal S20000 .f32} {dv dv' : Vec Ideal S100000 .f32}
    {z z' : Vec Ideal S100000x256 .f32} (h1 : vidx = vidx') (h2 : eidx = eidx') (h3 : de = de') (h4 : dv = dv') (h5 : z = z') :
    v2v vidx eidx de dv z = v2v vidx' eidx' de' dv' z' := by
  subst h1 h2 h3 h4 h5; rfl

end Cert.Hgnn.Ker

end
-- ==== Proof.KChain.lean ====
/-
  The run's last boundary holds the model's value in the result array.

  The stages of the network are named as functions of the launch memory (the eleven argument arrays read off
  it), and the run is walked boundary by boundary: a stretch of host operations prepares a stage's parameter
  rows or passes messages, a tiled stage turns its input arrays into its result array, and every buffer a later
  segment reads is carried to it unchanged.  That each tiled stage computes its whole-array function is a hypothesis here
  (`RegionKValue`).
-/
import proofs.«108867_j88295937671288_1_alg».proof.Proof.KChainCarry
import proofs.«108867_j88295937671288_1_alg».proof.Proof.KChainSteps

set_option maxRecDepth 16384

noncomputable section

namespace Cert.Hgnn.Ker

open Idealize.ShloMosaic Idealize.ShloMosaic.TcCoe Cert.KernelIdeal Cert.KernelIdeal.Gen

variable (m : (ℓ : Loc nD τ sig) → Buf (Elt Ideal) ℓ) (c : Dev nD)

/-! ## The argument arrays, read off the launch memory -/

abbrev aX : Vec Ideal S100000x384 .f32 := m ((c.tc : Thread nD τ).loc main_arg0)
abbrev aVidx : Vec Ideal S800000 .i32 := m ((c.tc : Thread nD τ).loc main_arg1)
abbrev aEidx : Vec Ideal S800000 .i32 := m ((c.tc : Thread nD τ).loc main_arg2)
abbrev aEncW : Vec Ideal S384x256 .f32 := m ((c.tc : Thread nD τ).loc main_arg3)
abbrev aEncB : Vec Ideal S256 .f32 := m ((c.tc : Thread nD τ).loc main_arg4)
abbrev aThetaW : Vec Ideal S4x256x256 .f32 := m ((c.tc : Thread nD τ).loc main_arg5)
abbrev aThetaB : Vec Ideal S4x256 .f32 := m ((c.tc : Thread nD τ).loc main_arg6)
abbrev aLnG : Vec Ideal S4x256 .f32 := m ((c.tc : Thread nD τ).loc main_arg7)
abbrev aLnB : Vec Ideal S4x256 .f32 := m ((c.tc : Thread nD τ).loc main_arg8)
abbrev aLinW : Vec Ideal S256x16 .f32 := m ((c.tc : Thread nD τ).loc main_arg9)
abbrev aLinB : Vec Ideal S16 .f32 := m ((c.tc : Thread nD τ).loc main_arg10)

/-! ## The stages, in order -/

/-- The reciprocal hyperedge degrees. -/
def sDe : Vec Ideal S20000 .f32 := invDegE (aEidx m c)
/-- The reciprocal node degrees. -/
def sDv : Vec Ideal S100000 .f32 := invDegV (aVidx m c)
/-- The encoded rows. -/
def sH0 : Vec Ideal S100000x256 .f32 := encode (aX m c) (aEncW m c) (aEncB m c)
/-- The first affine layer. -/
def sZ0 : Vec Ideal S100000x256 .f32 := theta0 (sH0 m c) (aThetaW m c) (aThetaB m c)
/-- Its messages. -/
def sY0 : Vec Ideal S100000x256 .f32 := v2v (aVidx m c) (aEidx m c) (sDe m c) (sDv m c) (sZ0 m c)
/-- Their positive part. -/
def sH1 : Vec Ideal S100000x256 .f32 := reluStage (sY0 m c)
/-- Layer 1. -/
def sZ1 : Vec Ideal S100000x256 .f32 := lnLayer1 (sH1 m c) (aLnG m c) (aLnB m c) (aThetaW m c) (aThetaB m c)
def sY1 : Vec Ideal S100000x256 .f32 := v2v (aVidx m c) (aEidx m c) (sDe m c) (sDv m c) (sZ1 m c)
def sH2 : Vec Ideal S100000x256 .f32 := residual (sY1 m c) (sH1 m c)
/-- Layer 2. -/
def sZ2 : Vec Ideal S100000x256 .f32 := lnLayer2 (sH2 m c) (aLnG m c) (aLnB m c) (aThetaW m c) (aThetaB m c)
def sY2 : Vec Ideal S100000x256 .f32 := v2v (aVidx m c) (aEidx m c) (sDe m c) (sDv m c) (sZ2 m c)
def sH3 : Vec Ideal S100000x256 .f32 := residual (sY2 m c) (sH2 m c)
/-- Layer 3. -/
def sZ3 : Vec Ideal S100000x256 .f32 := lnLayer3 (sH3 m c) (aLnG m c) (aLnB m c) (aThetaW m c) (aThetaB m c)
def sY3 : Vec Ideal S100000x256 .f32 := v2v (aVidx m c) (aEidx m c) (sDe m c) (sDv m c) (sZ3 m c)
def sH4 : Vec Ideal S100000x256 .f32 := residual (sY3 m c) (sH3 m c)

/-- The model is the last stage applied to the fourth residual rows. -/
theorem model_eq : model (aX m c) (aVidx m c) (aEidx m c) (aEncW m c) (aEncB m c) (aThetaW m c) (aThetaB m c) (aLnG m c) (aLnB m c) (aLinW m c) (aLinB m c)
    = finalStage (sH4 m c) (aLnG m c) (aLnB m c) (aLinW m c) (aLinB m c) := rfl

/-! ## The walk -/

variable (ρ : Dev nD → PrngReg)

set_option maxHeartbeats 1000000 in
/-- At the run's last boundary the result array holds the model of the launch memory's argument arrays. -/
theorem W20_result
    (hr0 : Region0Value) (hr1 : Region1Value) (hr2 : Region2Value) (hr3 : Region3Value) (hr4 : Region4Value) (hr5 : Region5Value) (hr6 : Region6Value) (hr7 : Region7Value) (hr8 : Region8Value) (hr9 : Region9Value) :
    (W20 m ρ c (Proc.devRef .tc main_v174) : Vec Ideal S100000x16 .f32)
      = model (aX m c) (aVidx m c) (aEidx m c) (aEncW m c) (aEncB m c) (aThetaW m c) (aThetaB m c) (aLnG m c) (aLnB m c) (aLinW m c) (aLinB m c) := by
  -- the carried buffers, boundary by boundary
  have C1 : Carried (W1 m ρ c) (aVidx m c) (aEidx m c) (aThetaW m c) (aThetaB m c) (aLnG m c) (aLnB m c) (aLinW m c) (aLinB m c) (sDe m c) (sDv m c) :=
    ⟨carry0 (W0 m ρ c) main_arg1 (by decide), carry0 (W0 m ρ c) main_arg2 (by decide), carry0 (W0 m ρ c) main_arg5 (by decide),
     carry0 (W0 m ρ c) main_arg6 (by decide), carry0 (W0 m ρ c) main_arg7 (by decide), carry0 (W0 m ρ c) main_arg8 (by decide),
     carry0 (W0 m ρ c) main_arg9 (by decide), carry0 (W0 m ρ c) main_arg10 (by decide), host0_de (W0 m ρ c), host0_dv (W0 m ρ c)⟩
  have C2 : Carried (W2 m ρ c) (aVidx m c) (aEidx m c) (aThetaW m c) (aThetaB m c) (aLnG m c) (aLnB m c) (aLinW m c) (aLinB m c) (sDe m c) (sDv m c) := C1.of_keep (keepR0 m ρ c)
  have C3 : Carried (W3 m ρ c) (aVidx m c) (aEidx m c) (aThetaW m c) (aThetaB m c) (aLnG m c) (aLnB m c) (aLinW m c) (aLinB m c) (sDe m c) (sDv m c) := C2.of_keep (keepH1 (W2 m ρ c))
  have C4 : Carried (W4 m ρ c) (aVidx m c) (aEidx m c) (aThetaW m c) (aThetaB m c) (aLnG m c) (aLnB m c) (aLinW m c) (aLinB m c) (sDe m c) (sDv m c) := C3.of_keep (keepR1 m ρ c)
  have C5 : Carried (W5 m ρ c) (aVidx m c) (aEidx m c) (aThetaW m c) (aThetaB m c) (aLnG m c) (aLnB m c) (aLinW m c) (aLinB m c) (sDe m c) (sDv m c) := C4.of_keep (keepH2 (W4 m ρ c))
  have C6 : Carried (W6 m ρ c) (aVidx m c) (aEidx m c) (aThetaW m c) (aThetaB m c) (aLnG m c) (aLnB m c) (aLinW m c) (aLinB m c) (sDe m c) (sDv m c) := C5.of_keep (keepR2 m ρ c)
  have C7 : Carried (W7 m ρ c) (aVidx m c) (aEidx m c) (aThetaW m c) (aThetaB m c) (aLnG m c) (aLnB m c) (aLinW m c) (aLinB m c) (sDe m c) (sDv m c) := C6.of_keep (keepH3 (W6 m ρ c))
  have C8 : Carried (W8 m ρ c) (aVidx m c) (aEidx m c) (aThetaW m c) (aThetaB m c) (aLnG m c) (aLnB m c) (aLinW m c) (aLinB m c) (sDe m c) (sDv m c) := C7.of_keep (keepR3 m ρ c)
  have C9 : Carried (W9 m ρ c) (aVidx m c) (aEidx m c) (aThetaW m c) (aThetaB m c) (aLnG m c) (aLnB m c) (aLinW m c) (aLinB m c) (sDe m c) (sDv m c) := C8.of_keep (keepH4 (W8 m ρ c))
  have C10 : Carried (W10 m ρ c) (aVidx m c) (aEidx m c) (aThetaW m c) (aThetaB m c) (aLnG m c) (aLnB m c) (aLinW m c) (aLinB m c) (sDe m c) (sDv m c) := C9.of_keep (keepR4 m ρ c)
  have C11 : Carried (W11 m ρ c) (aVidx m c) (aEidx m c) (aThetaW m c) (aThetaB m c) (aLnG m c) (aLnB m c) (aLinW m c) (aLinB m c) (sDe m c) (sDv m c) := C10.of_keep (keepH5 (W10 m ρ c))
  have C12 : Carried (W12 m ρ c) (aVidx m c) (aEidx m c) (aThetaW m c) (aThetaB m c) (aLnG m c) (aLnB m c) (aLinW m c) (aLinB m c) (sDe m c) (sDv m c) := C11.of_keep (keepR5 m ρ c)
  have C13 : Carried (W13 m ρ c) (aVidx m c) (aEidx m c) (aThetaW m c) (aThetaB m c) (aLnG m c) (aLnB m c) (aLinW m c) (aLinB m c) (sDe m c) (sDv m c) := C12.of_keep (keepH6 (W12 m ρ c))
  have C14 : Carried (W14 m ρ c) (aVidx m c) (aEidx m c) (aThetaW m c) (aThetaB m c) (aLnG m c) (aLnB m c) (aLinW m c) (aLinB m c) (sDe m c) (sDv m c) := C13.of_keep (keepR6 m ρ c)
  have C15 : Carried (W15 m ρ c) (aVidx m c) (aEidx m c) (aThetaW m c) (aThetaB m c) (aLnG m c) (aLnB m c) (aLinW m c) (aLinB m c) (sDe m c) (sDv m c) := C14.of_keep (keepH7 (W14 m ρ c))
  have C16 : Carried (W16 m ρ c) (aVidx m c) (aEidx m c) (aThetaW m c) (aThetaB m c) (aLnG m c) (aLnB m c) (aLinW m c) (aLinB m c) (sDe m c) (sDv m c) := C15.of_keep (keepR7 m ρ c)
  have C17 : Carried (W17 m ρ c) (aVidx m c) (aEidx m c) (aThetaW m c) (aThetaB m c) (aLnG m c) (aLnB m c) (aLinW m c) (aLinB m c) (sDe m c) (sDv m c) := C16.of_keep (keepH8 (W16 m ρ c))
  have C18 : Carried (W18 m ρ c) (aVidx m c) (aEidx m c) (aThetaW m c) (aThetaB m c) (aLnG m c) (aLnB m c) (aLinW m c) (aLinB m c) (sDe m c) (sDv m c) := C17.of_keep (keepR8 m ρ c)
  have C19 : Carried (W19 m ρ c) (aVidx m c) (aEidx m c) (aThetaW m c) (aThetaB m c) (aLnG m c) (aLnB m c) (aLinW m c) (aLinB m c) (sDe m c) (sDv m c) := C18.of_keep (keepH9 (W18 m ρ c))
  -- the encoder
  have ex : (W1 m ρ c (Proc.devRef .tc main_arg0) : Vec Ideal S100000x384 .f32) = (aX m c) := carry0 (W0 m ρ c) main_arg0 (by decide)
  have ew : (W1 m ρ c (Proc.devRef .tc main_arg3) : Vec Ideal S384x256 .f32) = (aEncW m c) := carry0 (W0 m ρ c) main_arg3 (by decide)
  have eb : (W1 m ρ c (Proc.devRef .tc main_v15) : Vec Ideal S1x256 .f32) = asRow256 (aEncB m c) := host0_encB (W0 m ρ c)
  have h0 : (W2 m ρ c (Proc.devRef .tc main_v16) : Vec Ideal S100000x256 .f32) = (sH0 m c) := step0 m ρ c hr0 _ _ _ ex ew eb
  -- the first affine layer and its messages
  have h0' : (W3 m ρ c (Proc.devRef .tc main_v16) : Vec Ideal S100000x256 .f32) = (sH0 m c) := (carry1 (W2 m ρ c) main_v16 (by decide)).trans h0
  have t0 : (W3 m ρ c (Proc.devRef .tc main_v19) : Vec Ideal S1x256 .f32) = row0 (aThetaB m c) := (host1_bias (W2 m ρ c)).trans (congrArg row0 C2.thetaB_eq)
  have w0 : (W3 m ρ c (Proc.devRef .tc main_v21) : Vec Ideal S256x256 .f32) = mat0 (aThetaW m c) := (host1_W (W2 m ρ c)).trans (congrArg mat0 C2.thetaW_eq)
  have z0 : (W4 m ρ c (Proc.devRef .tc main_v22) : Vec Ideal S100000x256 .f32) = (sZ0 m c) := step1 m ρ c hr1 _ _ _ h0' w0 t0
  have y0 : (W5 m ρ c (Proc.devRef .tc main_v48) : Vec Ideal S100000x256 .f32) = (sY0 m c) :=
    (host2_v2v (W4 m ρ c)).trans (v2v_congr C4.vidx_eq C4.eidx_eq C4.de_eq C4.dv_eq z0)
  have h1 : (W6 m ρ c (Proc.devRef .tc main_v49) : Vec Ideal S100000x256 .f32) = (sH1 m c) := step2 m ρ c hr2 _ y0
  -- layer 1
  have h1a : (W7 m ρ c (Proc.devRef .tc main_v49) : Vec Ideal S100000x256 .f32) = (sH1 m c) := (carry3 (W6 m ρ c) main_v49 (by decide)).trans h1
  have g1 : (W7 m ρ c (Proc.devRef .tc main_v52) : Vec Ideal S1x256 .f32) = row1 (aLnG m c) := (host3_g (W6 m ρ c)).trans (congrArg row1 C6.lnG_eq)
  have s1 : (W7 m ρ c (Proc.devRef .tc main_v55) : Vec Ideal S1x256 .f32) = row1 (aLnB m c) := (host3_b (W6 m ρ c)).trans (congrArg row1 C6.lnB_eq)
  have t1 : (W7 m ρ c (Proc.devRef .tc main_v58) : Vec Ideal S1x256 .f32) = row1 (aThetaB m c) := (host3_bias (W6 m ρ c)).trans (congrArg row1 C6.thetaB_eq)
  have w1 : (W7 m ρ c (Proc.devRef .tc main_v60) : Vec Ideal S256x256 .f32) = mat1 (aThetaW m c) := (host3_W (W6 m ρ c)).trans (congrArg mat1 C6.thetaW_eq)
  have z1 : (W8 m ρ c (Proc.devRef .tc main_v61) : Vec Ideal S100000x256 .f32) = (sZ1 m c) := step3 m ρ c hr3 _ _ _ _ _ h1a g1 s1 w1 t1
  have h1b : (W8 m ρ c (Proc.devRef .tc main_v49) : Vec Ideal S100000x256 .f32) = (sH1 m c) := (keepIn3 m ρ c).trans h1a
  have h1c : (W9 m ρ c (Proc.devRef .tc main_v49) : Vec Ideal S100000x256 .f32) = (sH1 m c) := (carry4 (W8 m ρ c) main_v49 (by decide)).trans h1b
  have y1 : (W9 m ρ c (Proc.devRef .tc main_v87) : Vec Ideal S100000x256 .f32) = (sY1 m c) :=
    (host4_v2v (W8 m ρ c)).trans (v2v_congr C8.vidx_eq C8.eidx_eq C8.de_eq C8.dv_eq z1)
  have h2 : (W10 m ρ c (Proc.devRef .tc main_v88) : Vec Ideal S100000x256 .f32) = (sH2 m c) := step4 m ρ c hr4 _ _ y1 h1c
  -- layer 2
  have h2a : (W11 m ρ c (Proc.devRef .tc main_v88) : Vec Ideal S100000x256 .f32) = (sH2 m c) := (carry5 (W10 m ρ c) main_v88 (by decide)).trans h2
  have g2 : (W11 m ρ c (Proc.devRef .tc main_v91) : Vec Ideal S1x256 .f32) = row2 (aLnG m c) := (host5_g (W10 m ρ c)).trans (congrArg row2 C10.lnG_eq)
  have s2 : (W11 m ρ c (Proc.devRef .tc main_v94) : Vec Ideal S1x256 .f32) = row2 (aLnB m c) := (host5_b (W10 m ρ c)).trans (congrArg row2 C10.lnB_eq)
  have t2 : (W11 m ρ c (Proc.devRef .tc main_v97) : Vec Ideal S1x256 .f32) = row2 (aThetaB m c) := (host5_bias (W10 m ρ c)).trans (congrArg row2 C10.thetaB_eq)
  have w2 : (W11 m ρ c (Proc.devRef .tc main_v99) : Vec Ideal S256x256 .f32) = mat2 (aThetaW m c) := (host5_W (W10 m ρ c)).trans (congrArg mat2 C10.thetaW_eq)
  have z2 : (W12 m ρ c (Proc.devRef .tc main_v100) : Vec Ideal S100000x256 .f32) = (sZ2 m c) := step5 m ρ c hr5 _ _ _ _ _ h2a g2 s2 w2 t2
  have h2b : (W12 m ρ c (Proc.devRef .tc main_v88) : Vec Ideal S100000x256 .f32) = (sH2 m c) := (keepIn5 m ρ c).trans h2a
  have h2c : (W13 m ρ c (Proc.devRef .tc main_v88) : Vec Ideal S100000x256 .f32) = (sH2 m c) := (carry6 (W12 m ρ c) main_v88 (by decide)).trans h2b
  have y2 : (W13 m ρ c (Proc.devRef .tc main_v126) : Vec Ideal S100000x256 .f32) = (sY2 m c) :=
    (host6_v2v (W12 m ρ c)).trans (v2v_congr C12.vidx_eq C12.eidx_eq C12.de_eq C12.dv_eq z2)
  have h3 : (W14 m ρ c (Proc.devRef .tc main_v127) : Vec Ideal S100000x256 .f32) = (sH3 m c) := step6 m ρ c hr6 _ _ y2 h2c
  -- layer 3
  have h3a : (W15 m ρ c (Proc.devRef .tc main_v127) : Vec Ideal S100000x256 .f32) = (sH3 m c) := (carry7 (W14 m ρ c) main_v127 (by decide)).trans h3
  have g3 : (W15 m ρ c (Proc.devRef .tc main_v130) : Vec Ideal S1x256 .f32) = row3 (aLnG m c) := (host7_g (W14 m ρ c)).trans (congrArg row3 C14.lnG_eq)
  have s3 : (W15 m ρ c (Proc.devRef .tc main_v133) : Vec Ideal S1x256 .f32) = row3 (aLnB m c) := (host7_b (W14 m ρ c)).trans (congrArg row3 C14.lnB_eq)
  have t3 : (W15 m ρ c (Proc.devRef .tc main_v136) : Vec Ideal S1x256 .f32) = row3 (aThetaB m c) := (host7_bias (W14 m ρ c)).trans (congrArg row3 C14.thetaB_eq)
  have w3 : (W15 m ρ c (Proc.devRef .tc main_v138) : Vec Ideal S256x256 .f32) = mat3 (aThetaW m c) := (host7_W (W14 m ρ c)).trans (congrArg mat3 C14.thetaW_eq)
  have z3 : (W16 m ρ c (Proc.devRef .tc main_v139) : Vec Ideal S100000x256 .f32) = (sZ3 m c) := step7 m ρ c hr7 _ _ _ _ _ h3a g3 s3 w3 t3
  have h3b : (W16 m ρ c (Proc.devRef .tc main_v127) : Vec Ideal S100000x256 .f32) = (sH3 m c) := (keepIn7 m ρ c).trans h3a
  have h3c : (W17 m ρ c (Proc.devRef .tc main_v127) : Vec Ideal S100000x256 .f32) = (sH3 m c) := (carry8 (W16 m ρ c) main_v127 (by decide)).trans h3b
  have y3 : (W17 m ρ c (Proc.devRef .tc main_v165) : Vec Ideal S100000x256 .f32) = (sY3 m c) :=
    (host8_v2v (W16 m ρ c)).trans (v2v_congr C16.vidx_eq C16.eidx_eq C16.de_eq C16.dv_eq z3)
  have h4 : (W18 m ρ c (Proc.devRef .tc main_v166) : Vec Ideal S100000x256 .f32) = (sH4 m c) := step8 m ρ c hr8 _ _ y3 h3c
  -- the last stage
  have h4a : (W19 m ρ c (Proc.devRef .tc main_v166) : Vec Ideal S100000x256 .f32) = (sH4 m c) := (carry9 (W18 m ρ c) main_v166 (by decide)).trans h4
  have gL : (W19 m ρ c (Proc.devRef .tc main_v169) : Vec Ideal S1x256 .f32) = row0 (aLnG m c) := (host9_g (W18 m ρ c)).trans (congrArg row0 C18.lnG_eq)
  have sL : (W19 m ρ c (Proc.devRef .tc main_v172) : Vec Ideal S1x256 .f32) = row0 (aLnB m c) := (host9_b (W18 m ρ c)).trans (congrArg row0 C18.lnB_eq)
  have tL : (W19 m ρ c (Proc.devRef .tc main_v173) : Vec Ideal S1x16 .f32) = asRow16 (aLinB m c) := (host9_bias (W18 m ρ c)).trans (congrArg asRow16 C18.linB_eq)
  exact (step9 m ρ c hr9 _ _ _ _ _ h4a gL sL C19.linW_eq tL).trans (model_eq m c).symm

end Cert.Hgnn.Ker

end
-- ==== Proof.KChainRun.lean ====
/-
  The kernel program's run, with its result named by the model: every weakly fair execution from a launch
  memory with zero counters terminates without a fault, the result array ends at the model of the launch
  memory's eleven argument arrays, and those arrays end as launched.  The run's own statement names the result by
  the last boundary's contents; the walk along the boundaries identifies those contents with the model.
-/
import proofs.«108867_j88295937671288_1_alg».proof.Proof.KRun
import proofs.«108867_j88295937671288_1_alg».proof.Proof.KChain

set_option maxRecDepth 16384

noncomputable section

namespace Cert.Hgnn.Ker

open Idealize.ShloMosaic Idealize.ShloMosaic.TcCoe Cert.KernelIdeal Cert.KernelIdeal.Gen
open Idealize.SL.Sem

/-- The run of the kernel program ends with the model's value in the result array. -/
theorem run
    (hr0 : Region0Value) (hr1 : Region1Value) (hr2 : Region2Value) (hr3 : Region3Value) (hr4 : Region4Value) (hr5 : Region5Value) (hr6 : Region6Value) (hr7 : Region7Value) (hr8 : Region8Value) (hr9 : Region9Value)
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v174) : Vec Ideal S100000x16 .f32)
        = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨(h c).1.trans (W20_result m c ρ hr0 hr1 hr2 hr3 hr4 hr5 hr6 hr7 hr8 hr9), (h c).2⟩)
    (run_result m ρ)

end Cert.Hgnn.Ker

end
-- ==== Proof.RModel.lean ====
import Idealize.ShloMosaic.Lib.StableHlo
import Idealize.ShloMosaic.PureOps
import Idealize.ShloMosaic.PureOps.Ideal
import proofs.«108867_j88295937671288_1_alg».proof.ReferenceIdeal

/-!
# The reference network as one function of its eleven arguments

The reference is a four-layer hypergraph network over N = 100000 vertices, 20000 hyperedges and 800000
incidences (vertex `vidx k`, hyperedge `eidx k`). Each stage below is the composition of the host
operations the reference program applies, in the program's own order and with its own literals kept as
words: `0x3F800000` is 1, `0x43800000` is 256, `0x3727C5AC` is the layer norm's epsilon, `0x7FC00000`
the word the variance's guard would select were its divisor not positive.

* `invDegE`, `invDegV`: 1 / max(number of incidences of the hyperedge / of the vertex, 1).
* `v2v`: vertex features to hyperedges (gather by vertex, scatter-add by hyperedge, scale by `invDegE`)
  and back (gather by hyperedge, scatter-add by vertex, scale by `invDegV`); a negative index is first
  wrapped by the axis length, as the program does.
* `encode`, `theta0`, `lnLayer1..3`, `finalStage`: affine maps `h · W + b`, the later ones after a layer
  norm over the 256 features and a relu.
* `residual`: `h + relu y`.
-/

noncomputable section

namespace Cert.Hgnn.Ref

open Idealize.ShloMosaic Cert.ReferenceIdeal

variable [Facts]
open Facts₀ Facts

/-- 1 / max(d, 1) per hyperedge, `d` the number of incidences naming it: ones scatter-added into zeros by
    `eidx`, the maximum with 1, then 1 divided by it. -/
def invDegE (eidx : Vec Ideal S800000 .i32) : Vec Ideal S20000 .f32 :=
  Host.divf (F := Ideal) (φ := .f32) (broadcastInDim S20000 ![] bcast_S_S20000 (constant (F := Ideal) S_ .f32 0x3F800000#32))
    (maximumf
      (Host.scatterAdd (F := Ideal) (φ := .f32) scatter_S20000_S800000x1_S800000_n_0_0_1 (broadcastInDim S20000 ![] bcast_S_S20000 (constant (F := Ideal) S_ .f32 0x00000000#32))
        (broadcastInDim S800000x1 ![0] bcast_S800000_S800000x1_0 eidx) (broadcastInDim S800000 ![] bcast_S_S800000 (constant (F := Ideal) S_ .f32 0x3F800000#32)))
      (broadcastInDim S20000 ![] bcast_S_S20000 (constant (F := Ideal) S_ .f32 0x3F800000#32)))

/-- 1 / max(d, 1) per vertex, `d` the number of incidences naming it. -/
def invDegV (vidx : Vec Ideal S800000 .i32) : Vec Ideal S100000 .f32 :=
  Host.divf (F := Ideal) (φ := .f32) (broadcastInDim S100000 ![] bcast_S_S100000 (constant (F := Ideal) S_ .f32 0x3F800000#32))
    (maximumf
      (Host.scatterAdd (F := Ideal) (φ := .f32) scatter_S100000_S800000x1_S800000_n_0_0_1 (broadcastInDim S100000 ![] bcast_S_S100000 (constant (F := Ideal) S_ .f32 0x00000000#32))
        (broadcastInDim S800000x1 ![0] bcast_S800000_S800000x1_0 vidx) (broadcastInDim S800000 ![] bcast_S_S800000 (constant (F := Ideal) S_ .f32 0x3F800000#32)))
      (broadcastInDim S100000 ![] bcast_S_S100000 (constant (F := Ideal) S_ .f32 0x3F800000#32)))

/-- Vertex features to hyperedges and back. Row `e` of the inner product is `de e` times the sum of the rows
    `z (vidx k)` over the incidences `k` with `eidx k = e`; row `v` of the result is `dv v` times the sum of
    those hyperedge rows over the incidences with `vidx k = v`. -/
def v2v (vidx eidx : Vec Ideal S800000 .i32) (de : Vec Ideal S20000 .f32) (dv : Vec Ideal S100000 .f32)
    (z : Vec Ideal S100000x256 .f32) : Vec Ideal S100000x256 .f32 :=
  mulf
    (Host.scatterAdd (F := Ideal) (φ := .f32) scatter_S100000x256_S800000x1_S800000x256_1_0_0_1 (broadcastInDim S100000x256 ![] bcast_S_S100000x256 (constant (F := Ideal) S_ .f32 0x00000000#32))
      (broadcastInDim S800000x1 ![0] bcast_S800000_S800000x1_0 vidx)
      (Host.gather gather_S20000x256_S800000x1_S800000x256_1_0_n_n_0_1_1256
        (mulf
          (Host.scatterAdd (F := Ideal) (φ := .f32) scatter_S20000x256_S800000x1_S800000x256_1_0_0_1 (broadcastInDim S20000x256 ![] bcast_S_S20000x256 (constant (F := Ideal) S_ .f32 0x00000000#32))
            (broadcastInDim S800000x1 ![0] bcast_S800000_S800000x1_0 eidx)
            (Host.gather gather_S100000x256_S800000x1_S800000x256_1_0_n_n_0_1_1256 z (broadcastInDim S800000x1 ![0] bcast_S800000_S800000x1_0 (select (cmpi .slt vidx (broadcastInDim S800000 ![] bcast_S_S800000 (constantI S_ 32 0#32))) (addi vidx (broadcastInDim S800000 ![] bcast_S_S800000 (constantI S_ 32 100000#32))) vidx))))
          (broadcastInDim S20000x256 ![0, 1] bcast_S20000x1_S20000x256_0_1 (broadcastInDim S20000x1 ![0] bcast_S20000_S20000x1_0 de)))
        (broadcastInDim S800000x1 ![0] bcast_S800000_S800000x1_0 (select (cmpi .slt eidx (broadcastInDim S800000 ![] bcast_S_S800000 (constantI S_ 32 0#32))) (addi eidx (broadcastInDim S800000 ![] bcast_S_S800000 (constantI S_ 32 20000#32))) eidx))))
    (broadcastInDim S100000x256 ![0, 1] bcast_S100000x1_S100000x256_0_1 (broadcastInDim S100000x1 ![0] bcast_S100000_S100000x1_0 dv))

/-- `x · encW + encB`: the contraction first, then the bias row broadcast down the rows. -/
def encode (x : Vec Ideal S100000x384 .f32) (encW : Vec Ideal S384x256 .f32) (encB : Vec Ideal S256 .f32) :
    Vec Ideal S100000x256 .f32 :=
  addf (F := Ideal) (φ := .f32) (Host.dotGeneral (F := Ideal) (φ₁ := .f32) (φ₂ := .f32) dot_S100000x384_S384x256_S100000x256_1_0_0_1_n_n none x encW)
    (broadcastInDim S100000x256 ![0, 1] bcast_S1x256_S100000x256_0_1 (broadcastInDim S1x256 ![1] bcast_S256_S1x256_1 encB))

/-- `h · W + b` for a 256 × 256 matrix and a bias vector of 256. -/
def linear256 (h : Vec Ideal S100000x256 .f32) (W : Vec Ideal S256x256 .f32) (b : Vec Ideal S256 .f32) :
    Vec Ideal S100000x256 .f32 :=
  addf (F := Ideal) (φ := .f32) (Host.dotGeneral (F := Ideal) (φ₁ := .f32) (φ₂ := .f32) dot_S100000x256_S256x256_S100000x256_1_0_0_1_n_n none h W)
    (broadcastInDim S100000x256 ![0, 1] bcast_S1x256_S100000x256_0_1 (broadcastInDim S1x256 ![1] bcast_S256_S1x256_1 b))

/-- Row 0 of a [4,256] parameter as a vector of 256: the slice [0:1, 0:256] reshaped. -/
def row0 (p : Vec Ideal S4x256 .f32) : Vec Ideal S256 .f32 :=
  shapeCast S256 (extractStridedSlice S1x256 ![0, 0] p slices_S4x256_S1x256_0_0) shapeCasts_S1x256_S256

/-- Matrix 0 of the [4,256,256] weights: the slice [0:1, 0:256, 0:256] reshaped to [256,256]. -/
def mat0 (w : Vec Ideal S4x256x256 .f32) : Vec Ideal S256x256 .f32 :=
  shapeCast S256x256 (extractStridedSlice S1x256x256 ![0, 0, 0] w slices_S4x256x256_S1x256x256_0_0_0) shapeCasts_S1x256x256_S256x256

/-- Row 1 of a [4,256] parameter as a vector of 256: the slice [1:2, 0:256] reshaped. -/
def row1 (p : Vec Ideal S4x256 .f32) : Vec Ideal S256 .f32 :=
  shapeCast S256 (extractStridedSlice S1x256 ![1, 0] p slices_S4x256_S1x256_1_0) shapeCasts_S1x256_S256

/-- Matrix 1 of the [4,256,256] weights: the slice [1:2, 0:256, 0:256] reshaped to [256,256]. -/
def mat1 (w : Vec Ideal S4x256x256 .f32) : Vec Ideal S256x256 .f32 :=
  shapeCast S256x256 (extractStridedSlice S1x256x256 ![1, 0, 0] w slices_S4x256x256_S1x256x256_1_0_0) shapeCasts_S1x256x256_S256x256

/-- Row 2 of a [4,256] parameter as a vector of 256: the slice [2:3, 0:256] reshaped. -/
def row2 (p : Vec Ideal S4x256 .f32) : Vec Ideal S256 .f32 :=
  shapeCast S256 (extractStridedSlice S1x256 ![2, 0] p slices_S4x256_S1x256_2_0) shapeCasts_S1x256_S256

/-- Matrix 2 of the [4,256,256] weights: the slice [2:3, 0:256, 0:256] reshaped to [256,256]. -/
def mat2 (w : Vec Ideal S4x256x256 .f32) : Vec Ideal S256x256 .f32 :=
  shapeCast S256x256 (extractStridedSlice S1x256x256 ![2, 0, 0] w slices_S4x256x256_S1x256x256_2_0_0) shapeCasts_S1x256x256_S256x256

/-- Row 3 of a [4,256] parameter as a vector of 256: the slice [3:4, 0:256] reshaped. -/
def row3 (p : Vec Ideal S4x256 .f32) : Vec Ideal S256 .f32 :=
  shapeCast S256 (extractStridedSlice S1x256 ![3, 0] p slices_S4x256_S1x256_3_0) shapeCasts_S1x256_S256

/-- Matrix 3 of the [4,256,256] weights: the slice [3:4, 0:256, 0:256] reshaped to [256,256]. -/
def mat3 (w : Vec Ideal S4x256x256 .f32) : Vec Ideal S256x256 .f32 :=
  shapeCast S256x256 (extractStridedSlice S1x256x256 ![3, 0, 0] w slices_S4x256x256_S1x256x256_3_0_0) shapeCasts_S1x256x256_S256x256

/-- The first affine map of the propagation: matrix 0 and bias row 0. -/
def theta0 (h : Vec Ideal S100000x256 .f32) (thetaW : Vec Ideal S4x256x256 .f32) (thetaB : Vec Ideal S4x256 .f32) :
    Vec Ideal S100000x256 .f32 :=
  linear256 h (mat0 thetaW) (row0 thetaB)

/-- relu: the maximum with a zero array, the argument first. -/
def reluStage (y : Vec Ideal S100000x256 .f32) : Vec Ideal S100000x256 .f32 :=
  maximumf (F := Ideal) (φ := .f32) y (broadcastInDim S100000x256 ![] bcast_S_S100000x256 (constant (F := Ideal) S_ .f32 0x00000000#32))

/-- `h + relu y`. -/
def residual (y h : Vec Ideal S100000x256 .f32) : Vec Ideal S100000x256 .f32 :=
  addf (F := Ideal) (φ := .f32) h (reluStage y)

/-- The mean of each row, as a column: the row sum from 0, divided by the word 256. -/
def rowMean (h : Vec Ideal S100000x256 .f32) : Vec Ideal S100000x1 .f32 :=
  Host.divf
    (broadcastInDim S100000x1 ![0] bcast_S100000_S100000x1_0 (Host.reduceAdd (F := Ideal) (φ := .f32) h (constant (F := Ideal) S_ .f32 0x00000000#32) reducesTo_S100000x256_S100000_d1 h_S_))
    (broadcastInDim S100000x1 ![] bcast_S_S100000x1 (constant (F := Ideal) S_ .f32 0x43800000#32))

/-- The divisor of the variance: 256 minus the integer `ddof` as a float. -/
def varDivisor (ddof : Vec Ideal S_ .i32) : Vec Ideal S_ .f32 :=
  subf (F := Ideal) (φ := .f32) (constant (F := Ideal) S_ .f32 0x43800000#32) (sitofp (F := Ideal) .f32 ddof)

/-- The variance of each row with `ddof` delta degrees of freedom, as a column: the row sum of the squared
    deviations from the row mean divided by `256 - ddof`, kept where that divisor is positive and replaced
    by the word `0x7FC00000` where it is not. -/
def variance (h : Vec Ideal S100000x256 .f32) (ddof : Vec Ideal S_ .i32) : Vec Ideal S100000x1 .f32 :=
  select (broadcastInDim S100000x1 ![] bcast_S_S100000x1 (cmpf (F := Ideal) (φ := .f32) .ogt (varDivisor ddof) (constant (F := Ideal) S_ .f32 0x00000000#32)))
    (Host.divf
      (broadcastInDim S100000x1 ![0] bcast_S100000_S100000x1_0
        (Host.reduceAdd
          (mulf (F := Ideal) (φ := .f32) (subf (F := Ideal) (φ := .f32) h (broadcastInDim S100000x256 ![0, 1] bcast_S100000x1_S100000x256_0_1 (rowMean h))) (subf (F := Ideal) (φ := .f32) h (broadcastInDim S100000x256 ![0, 1] bcast_S100000x1_S100000x256_0_1 (rowMean h))))
          (constant (F := Ideal) S_ .f32 0x00000000#32) reducesTo_S100000x256_S100000_d1 h_S_))
      (broadcastInDim S100000x1 ![] bcast_S_S100000x1 (varDivisor ddof)))
    (broadcastInDim S100000x1 ![] bcast_S_S100000x1 (id (constant (F := Ideal) S_ .f32 0x7FC00000#32)))

/-- Layer norm over the 256 features with scale `g` and shift `b`:
    `((h - mean) * rsqrt(var + eps)) * g + b`, the variance with `ddof = 0`. -/
def layerNorm (h : Vec Ideal S100000x256 .f32) (g b : Vec Ideal S256 .f32) : Vec Ideal S100000x256 .f32 :=
  addf
    (mulf
      (mulf (F := Ideal) (φ := .f32) (subf (F := Ideal) (φ := .f32) h (broadcastInDim S100000x256 ![0, 1] bcast_S100000x1_S100000x256_0_1 (rowMean h)))
        (broadcastInDim S100000x256 ![0, 1] bcast_S100000x1_S100000x256_0_1
          (Host.rsqrt (F := Ideal) (φ := .f32) (addf (F := Ideal) (φ := .f32) (variance h (constantI S_ 32 0#32)) (broadcastInDim S100000x1 ![] bcast_S_S100000x1 (constant (F := Ideal) S_ .f32 0x3727C5AC#32))))))
      (broadcastInDim S100000x256 ![0, 1] bcast_S1x256_S100000x256_0_1 (broadcastInDim S1x256 ![1] bcast_S256_S1x256_1 g)))
    (broadcastInDim S100000x256 ![0, 1] bcast_S1x256_S100000x256_0_1 (broadcastInDim S1x256 ![1] bcast_S256_S1x256_1 b))

/-- Layer 1: layer norm with row 1 of the scales and shifts, relu, then the affine map with matrix 1 and bias row 1. -/
def lnLayer1 (h : Vec Ideal S100000x256 .f32) (lnG lnB : Vec Ideal S4x256 .f32) (thetaW : Vec Ideal S4x256x256 .f32)
    (thetaB : Vec Ideal S4x256 .f32) : Vec Ideal S100000x256 .f32 :=
  linear256 (reluStage (layerNorm h (row1 lnG) (row1 lnB))) (mat1 thetaW) (row1 thetaB)

/-- Layer 2: layer norm with row 2 of the scales and shifts, relu, then the affine map with matrix 2 and bias row 2. -/
def lnLayer2 (h : Vec Ideal S100000x256 .f32) (lnG lnB : Vec Ideal S4x256 .f32) (thetaW : Vec Ideal S4x256x256 .f32)
    (thetaB : Vec Ideal S4x256 .f32) : Vec Ideal S100000x256 .f32 :=
  linear256 (reluStage (layerNorm h (row2 lnG) (row2 lnB))) (mat2 thetaW) (row2 thetaB)

/-- Layer 3: layer norm with row 3 of the scales and shifts, relu, then the affine map with matrix 3 and bias row 3. -/
def lnLayer3 (h : Vec Ideal S100000x256 .f32) (lnG lnB : Vec Ideal S4x256 .f32) (thetaW : Vec Ideal S4x256x256 .f32)
    (thetaB : Vec Ideal S4x256 .f32) : Vec Ideal S100000x256 .f32 :=
  linear256 (reluStage (layerNorm h (row3 lnG) (row3 lnB))) (mat3 thetaW) (row3 thetaB)

/-- The read-out: layer norm with row 0 of the scales and shifts, relu, then `· linW + linB`. -/
def finalStage (h : Vec Ideal S100000x256 .f32) (lnG lnB : Vec Ideal S4x256 .f32) (linW : Vec Ideal S256x16 .f32)
    (linB : Vec Ideal S16 .f32) : Vec Ideal S100000x16 .f32 :=
  addf
    (Host.dotGeneral (F := Ideal) (φ₁ := .f32) (φ₂ := .f32) dot_S100000x256_S256x16_S100000x16_1_0_0_1_n_n none
      (reluStage (layerNorm h (row0 lnG) (row0 lnB))) linW)
    (broadcastInDim S100000x16 ![0, 1] bcast_S1x16_S100000x16_0_1 (broadcastInDim S1x16 ![1] bcast_S16_S1x16_1 linB))

/-- The reference's result as a function of its eleven arguments. -/
def model (x : Vec Ideal S100000x384 .f32) (vidx eidx : Vec Ideal S800000 .i32) (encW : Vec Ideal S384x256 .f32)
    (encB : Vec Ideal S256 .f32) (thetaW : Vec Ideal S4x256x256 .f32) (thetaB lnG lnB : Vec Ideal S4x256 .f32)
    (linW : Vec Ideal S256x16 .f32) (linB : Vec Ideal S16 .f32) : Vec Ideal S100000x16 .f32 :=
  let de := invDegE eidx
  let dv := invDegV vidx
  let h0 := encode x encW encB
  let z0 := theta0 h0 thetaW thetaB
  let h1 := reluStage (v2v vidx eidx de dv z0)
  let z1 := lnLayer1 h1 lnG lnB thetaW thetaB
  let h2 := residual (v2v vidx eidx de dv z1) h1
  let z2 := lnLayer2 h2 lnG lnB thetaW thetaB
  let h3 := residual (v2v vidx eidx de dv z2) h2
  let z3 := lnLayer3 h3 lnG lnB thetaW thetaB
  let h4 := residual (v2v vidx eidx de dv z3) h3
  finalStage h4 lnG lnB linW linB

end Cert.Hgnn.Ref

end
-- ==== Proof.RRunP0.lean ====
import proofs.«108867_j88295937671288_1_alg».proof.Proof.Gen.ReferenceIdeal
import Idealize.ShloMosaic.Lib.StableHlo.Run

/-!
# The reference's host operations 1 … 60, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- The reciprocal degrees: ones scatter-added by hyperedge index and by vertex index, the maximum with 1, and 1 divided by it. -/
abbrev degs : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S20000 ![] bcast_S_S20000 : (⟨S_, .f32⟩ : BufTy).Contents (Elt F) → (⟨S20000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S20000_S800000x1_S800000_n_0_0_1 x i u) : (⟨S20000, .f32⟩ : BufTy).Contents (Elt F) → (⟨S800000x1, .i32⟩ : BufTy).Contents (Elt F) → (⟨S800000, .f32⟩ : BufTy).Contents (Elt F) → (⟨S20000, .f32⟩ : BufTy).Contents (Elt F)),
    nullary main_cst_1 (constant S_ .f32 0x3F800000#32),
    unary main_cst_1 main_v4 (broadcastInDim S20000 ![] bcast_S_S20000 : (⟨S_, .f32⟩ : BufTy).Contents (Elt F) → (⟨S20000, .f32⟩ : BufTy).Contents (Elt F)),
    binary main_v3 main_v4 main_v5 (maximumf : (⟨S20000, .f32⟩ : BufTy).Contents (Elt F) → (⟨S20000, .f32⟩ : BufTy).Contents (Elt F) → (⟨S20000, .f32⟩ : BufTy).Contents (Elt F)),
    nullary main_cst_2 (constant S_ .f32 0x3F800000#32),
    unary main_cst_2 main_v6 (broadcastInDim S20000 ![] bcast_S_S20000 : (⟨S_, .f32⟩ : BufTy).Contents (Elt F) → (⟨S20000, .f32⟩ : BufTy).Contents (Elt F)),
    binary main_v6 main_v5 main_v7 (Host.divf : (⟨S20000, .f32⟩ : BufTy).Contents (Elt F) → (⟨S20000, .f32⟩ : BufTy).Contents (Elt F) → (⟨S20000, .f32⟩ : BufTy).Contents (Elt F)),
    nullary main_cst_3 (constant S_ .f32 0x00000000#32),
    unary main_cst_3 main_v8 (broadcastInDim S100000 ![] bcast_S_S100000 : (⟨S_, .f32⟩ : BufTy).Contents (Elt F) → (⟨S100000, .f32⟩ : BufTy).Contents (Elt F)),
    unary main_arg1 main_v9 (broadcastInDim S800000x1 ![0] bcast_S800000_S800000x1_0 : (⟨S800000, .i32⟩ : BufTy).Contents (Elt F) → (⟨S800000x1, .i32⟩ : BufTy).Contents (Elt F)),
    ternary main_v8 main_v9 main_v0 main_v10 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_4 (constant S_ .f32 0x3F800000#32),
    unary main_cst_4 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    nullary main_cst_5 (constant S_ .f32 0x3F800000#32),
    unary main_cst_5 main_v13 (broadcastInDim S100000 ![] bcast_S_S100000 : (⟨S_, .f32⟩ : BufTy).Contents (Elt F) → (⟨S100000, .f32⟩ : BufTy).Contents (Elt F)),
    binary main_v13 main_v12 main_v14 (Host.divf : (⟨S100000, .f32⟩ : BufTy).Contents (Elt F) → (⟨S100000, .f32⟩ : BufTy).Contents (Elt F) → (⟨S100000, .f32⟩ : BufTy).Contents (Elt F)) ]

theorem degs_sub : (degs : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

theorem degs_fresh : ∀ op ∈ (degs : List (HloOp τ sig (Elt F))), op.fresh = ∅ := by
  intro _ h; (repeat (cases h with | head => rfl | tail _ h => ?_)); exact nomatch h

/-- The encoder: the contraction of the input with its 384 × 256 matrix, plus the bias row. -/
abbrev enc : List (HloOp τ sig (Elt F)) :=
  [ binary main_arg0 main_arg3 main_v15 ((fun l r => Host.dotGeneral dot_S100000x384_S384x256_S100000x256_1_0_0_1_n_n none l r) : (⟨S100000x384, .f32⟩ : BufTy).Contents (Elt F) → (⟨S384x256, .f32⟩ : BufTy).Contents (Elt F) → (⟨S100000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S100000x256 ![0, 1] bcast_S1x256_S100000x256_0_1 : (⟨S1x256, .f32⟩ : BufTy).Contents (Elt F) → (⟨S100000x256, .f32⟩ : BufTy).Contents (Elt F)),
    binary main_v15 main_v17 main_v18 (addf : (⟨S100000x256, .f32⟩ : BufTy).Contents (Elt F) → (⟨S100000x256, .f32⟩ : BufTy).Contents (Elt F) → (⟨S100000x256, .f32⟩ : BufTy).Contents (Elt F)) ]

theorem enc_sub : (enc : List (HloOp τ sig (Elt F))).Forall fun op => op.bufs ⊆ tcRefs τ sig :=
  ⟨binary_bufs_sub .., unary_bufs_sub .., unary_bufs_sub .., binary_bufs_sub ..⟩

theorem enc_fresh : ∀ op ∈ (enc : List (HloOp τ sig (Elt F))), op.fresh = ∅ := by
  intro _ h; (repeat (cases h with | head => rfl | tail _ h => ?_)); exact nomatch h

/-- The first propagation map: matrix 0 and bias row 0 of the stacked parameters, the contraction, plus the bias row. -/
abbrev th0 : List (HloOp τ sig (Elt F)) :=
  [ unary main_arg5 main_v19 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v19 main_v20 rfl shapeCasts_S1x256x256_S256x256,
    binary main_v18 main_v20 main_v21 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v22 ((extractStridedSlice S1x256 ![0, 0] · slices_S4x256_S1x256_0_0) : (⟨S4x256, .f32⟩ : BufTy).Contents (Elt F) → (⟨S1x256, .f32⟩ : BufTy).Contents (Elt F)),
    reshape main_v22 main_v23 rfl shapeCasts_S1x256_S256,
    unary main_v23 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v21 main_v25 main_v26 (addf : (⟨S100000x256, .f32⟩ : BufTy).Contents (Elt F) → (⟨S100000x256, .f32⟩ : BufTy).Contents (Elt F) → (⟨S100000x256, .f32⟩ : BufTy).Contents (Elt F)) ]

theorem th0_sub : (th0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩

theorem th0_fresh : ∀ op ∈ (th0 : List (HloOp τ sig (Elt F))), op.fresh = ∅ := by
  intro _ h; (repeat (cases h with | head => rfl | tail _ h => ?_)); exact nomatch h

/-- One vertex-to-hyperedge-to-vertex averaging: index wrap, gather by vertex, scatter-add by hyperedge, scale, index wrap, gather by hyperedge, scatter-add by vertex, scale (the first operations of it). -/
abbrev vv0_a : List (HloOp τ sig (Elt F)) :=
  [ nullary main_c (constantI S_ 32 0#32),
    unary main_c main_v27 (broadcastInDim S800000 ![] bcast_S_S800000 : (⟨S_, .i32⟩ : BufTy).Contents (Elt F) → (⟨S800000, .i32⟩ : BufTy).Contents (Elt F)),
    binary main_arg1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v29 (broadcastInDim S800000 ![] bcast_S_S800000 : (⟨S_, .i32⟩ : BufTy).Contents (Elt F) → (⟨S800000, .i32⟩ : BufTy).Contents (Elt F)),
    binary main_arg1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_arg1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v26 main_v32 main_v33 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v34 (broadcastInDim S20000x256 ![] bcast_S_S20000x256 : (⟨S_, .f32⟩ : BufTy).Contents (Elt F) → (⟨S20000x256, .f32⟩ : BufTy).Contents (Elt F)),
    unary main_arg2 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S20000x256_S800000x1_S800000x256_1_0_0_1 x i u) : (⟨S20000x256, .f32⟩ : BufTy).Contents (Elt F) → (⟨S800000x1, .i32⟩ : BufTy).Contents (Elt F) → (⟨S800000x256, .f32⟩ : BufTy).Contents (Elt F) → (⟨S20000x256, .f32⟩ : BufTy).Contents (Elt F)),
    unary main_v7 main_v37 (broadcastInDim S20000x1 ![0] bcast_S20000_S20000x1_0 : (⟨S20000, .f32⟩ : BufTy).Contents (Elt F) → (⟨S20000x1, .f32⟩ : BufTy).Contents (Elt F)),
    unary main_v37 main_v38 (broadcastInDim S20000x256 ![0, 1] bcast_S20000x1_S20000x256_0_1 : (⟨S20000x1, .f32⟩ : BufTy).Contents (Elt F) → (⟨S20000x256, .f32⟩ : BufTy).Contents (Elt F)),
    binary main_v36 main_v38 main_v39 (mulf : (⟨S20000x256, .f32⟩ : BufTy).Contents (Elt F) → (⟨S20000x256, .f32⟩ : BufTy).Contents (Elt F) → (⟨S20000x256, .f32⟩ : BufTy).Contents (Elt F)),
    nullary main_c_8 (constantI S_ 32 0#32),
    unary main_c_8 main_v40 (broadcastInDim S800000 ![] bcast_S_S800000 : (⟨S_, .i32⟩ : BufTy).Contents (Elt F) → (⟨S800000, .i32⟩ : BufTy).Contents (Elt F)),
    binary main_arg2 main_v40 main_v41 (cmpi .slt : (⟨S800000, .i32⟩ : BufTy).Contents (Elt F) → (⟨S800000, .i32⟩ : BufTy).Contents (Elt F) → (⟨S800000, .i1⟩ : BufTy).Contents (Elt F)),
    nullary main_c_9 (constantI S_ 32 20000#32),
    unary main_c_9 main_v42 (broadcastInDim S800000 ![] bcast_S_S800000 : (⟨S_, .i32⟩ : BufTy).Contents (Elt F) → (⟨S800000, .i32⟩ : BufTy).Contents (Elt F)),
    binary main_arg2 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_arg2 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v39 main_v45 main_v46 ((fun x i => Host.gather gather_S20000x256_S800000x1_S800000x256_1_0_n_n_0_1_1256 x i) : (⟨S20000x256, .f32⟩ : BufTy).Contents (Elt F) → (⟨S800000x1, .i32⟩ : BufTy).Contents (Elt F) → (⟨S800000x256, .f32⟩ : BufTy).Contents (Elt F)),
    nullary main_cst_10 (constant S_ .f32 0x00000000#32) ]

theorem vv0_a_sub : (vv0_a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem vv0_a_fresh : ∀ op ∈ (vv0_a : List (HloOp τ sig (Elt F))), op.fresh = ∅ := by
  intro _ h; (repeat (cases h with | head => rfl | tail _ h => ?_)); exact nomatch h

/-- The buffers `degs` writes, one per operation, in order. -/
abbrev degsW : List (Ref sig .tc) :=
  [main_cst, main_v0, main_cst_0, main_v1, main_v2, main_v3, main_cst_1, main_v4, main_v5, main_cst_2, main_v6, main_v7, main_cst_3, main_v8, main_v9, main_v10, main_cst_4, main_v11, main_v12, main_cst_5, main_v13, main_v14]

theorem degs_writes : (degs : List (HloOp τ sig (Elt F))).Forall fun op => op.writes ⊆ ((degsW).map (Proc.devRef (τ := τ) .tc)).toFinset := by
  simp only [degs, List.Forall, nullary_writes, unary_writes, binary_writes, ternary_writes, reshape_writes, Finset.singleton_subset_iff, List.mem_toFinset]
  repeat' apply And.intro
  all_goals exact List.mem_map_of_mem (by decide)

/-- A buffer outside that list keeps its contents across `degs`. -/
theorem degs_keeps (V : Valuation τ sig (Elt F)) {r : Ref sig .tc} (hr : r ∉ degsW) :
    after degs V (Proc.devRef .tc r) = V (Proc.devRef .tc r) :=
  after_of_writes_sub degs V degs_writes hr

/-- The buffers `enc` writes, one per operation, in order. -/
abbrev encW : List (Ref sig .tc) :=
  [main_v15, main_v16, main_v17, main_v18]

theorem enc_writes : (enc : List (HloOp τ sig (Elt F))).Forall fun op => op.writes ⊆ ((encW).map (Proc.devRef (τ := τ) .tc)).toFinset := by
  simp only [enc, List.Forall, nullary_writes, unary_writes, binary_writes, ternary_writes, reshape_writes, Finset.singleton_subset_iff, List.mem_toFinset]
  repeat' apply And.intro
  all_goals exact List.mem_map_of_mem (by decide)

/-- A buffer outside that list keeps its contents across `enc`. -/
theorem enc_keeps (V : Valuation τ sig (Elt F)) {r : Ref sig .tc} (hr : r ∉ encW) :
    after enc V (Proc.devRef .tc r) = V (Proc.devRef .tc r) :=
  after_of_writes_sub enc V enc_writes hr

/-- The buffers `th0` writes, one per operation, in order. -/
abbrev th0W : List (Ref sig .tc) :=
  [main_v19, main_v20, main_v21, main_v22, main_v23, main_v24, main_v25, main_v26]

theorem th0_writes : (th0 : List (HloOp τ sig (Elt F))).Forall fun op => op.writes ⊆ ((th0W).map (Proc.devRef (τ := τ) .tc)).toFinset := by
  simp only [th0, List.Forall, nullary_writes, unary_writes, binary_writes, ternary_writes, reshape_writes, Finset.singleton_subset_iff, List.mem_toFinset]
  repeat' apply And.intro
  all_goals exact List.mem_map_of_mem (by decide)

/-- A buffer outside that list keeps its contents across `th0`. -/
theorem th0_keeps (V : Valuation τ sig (Elt F)) {r : Ref sig .tc} (hr : r ∉ th0W) :
    after th0 V (Proc.devRef .tc r) = V (Proc.devRef .tc r) :=
  after_of_writes_sub th0 V th0_writes hr

/-- The buffers `vv0_a` writes, one per operation, in order. -/
abbrev vv0_aW : List (Ref sig .tc) :=
  [main_c, main_v27, main_v28, main_c_6, main_v29, main_v30, main_v31, main_v32, main_v33, main_cst_7, main_v34, main_v35, main_v36, main_v37, main_v38, main_v39, main_c_8, main_v40, main_v41, main_c_9, main_v42, main_v43, main_v44, main_v45, main_v46, main_cst_10]

theorem vv0_a_writes : (vv0_a : List (HloOp τ sig (Elt F))).Forall fun op => op.writes ⊆ ((vv0_aW).map (Proc.devRef (τ := τ) .tc)).toFinset := by
  simp only [vv0_a, List.Forall, nullary_writes, unary_writes, binary_writes, ternary_writes, reshape_writes, Finset.singleton_subset_iff, List.mem_toFinset]
  repeat' apply And.intro
  all_goals exact List.mem_map_of_mem (by decide)

/-- A buffer outside that list keeps its contents across `vv0_a`. -/
theorem vv0_a_keeps (V : Valuation τ sig (Elt F)) {r : Ref sig .tc} (hr : r ∉ vv0_aW) :
    after vv0_a V (Proc.devRef .tc r) = V (Proc.devRef .tc r) :=
  after_of_writes_sub vv0_a V vv0_a_writes hr

/-- This stretch of the program is the straight line of its lists. -/
theorem part0_eq (c : Dev nD) : main_part0 (F := F) c = seq (degs ++ enc ++ th0 ++ vv0_a) := rfl

end Cert.Hgnn.Ref.Ops

end
-- ==== Proof.RRunSA.lean ====
import proofs.«108867_j88295937671288_1_alg».proof.Proof.RModel
import proofs.«108867_j88295937671288_1_alg».proof.Proof.RRunP0

/-!
# What the stages degs, enc, th0 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After the degree operations the two reciprocal-degree buffers hold `invDegE` of the hyperedge indices and `invDegV` of the vertex indices. -/
theorem degs_de (V : Valuation τ sig (Elt Ideal)) :
    after (Ops.degs (F := Ideal)) V (Proc.devRef .tc main_v7)
      = invDegE (V (Proc.devRef .tc main_arg2)) := by
  simp only [Ops.degs]
  after_results_simp
  rfl

/-- After the degree operations the two reciprocal-degree buffers hold `invDegE` of the hyperedge indices and `invDegV` of the vertex indices. -/
theorem degs_dv (V : Valuation τ sig (Elt Ideal)) :
    after (Ops.degs (F := Ideal)) V (Proc.devRef .tc main_v14)
      = invDegV (V (Proc.devRef .tc main_arg1)) := by
  simp only [Ops.degs]
  after_results_simp
  rfl

/-- After the encoder's operations its result buffer holds `encode` of the input, the matrix and the bias. -/
theorem enc_out (V : Valuation τ sig (Elt Ideal)) :
    after (Ops.enc (F := Ideal)) V (Proc.devRef .tc main_v18)
      = encode (V (Proc.devRef .tc main_arg0)) (V (Proc.devRef .tc main_arg3)) (V (Proc.devRef .tc main_arg4)) := by
  simp only [Ops.enc]
  after_results_simp
  rfl

/-- After the first propagation map's operations its result buffer holds `theta0` of the encoded features and the stacked parameters. -/
theorem th0_out (V : Valuation τ sig (Elt Ideal)) :
    after (Ops.th0 (F := Ideal)) V (Proc.devRef .tc main_v26)
      = theta0 (V (Proc.devRef .tc main_v18)) (V (Proc.devRef .tc main_arg5)) (V (Proc.devRef .tc main_arg6)) := by
  simp only [Ops.th0]
  after_results_simp
  rfl

end Cert.Hgnn.Ref.Stage

end
-- ==== Proof.RRunP1.lean ====
import proofs.«108867_j88295937671288_1_alg».proof.Proof.Gen.ReferenceIdeal
import Idealize.ShloMosaic.Lib.StableHlo.Run

/-!
# The reference's host operations 61 … 120, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- One vertex-to-hyperedge-to-vertex averaging: index wrap, gather by vertex, scatter-add by hyperedge, scale, index wrap, gather by hyperedge, scatter-add by vertex, scale (the remaining operations of it). -/
abbrev vv0_b : List (HloOp τ sig (Elt F)) :=
  [ unary main_cst_10 main_v47 (broadcastInDim S100000x256 ![] bcast_S_S100000x256 : (⟨S_, .f32⟩ : BufTy).Contents (Elt F) → (⟨S100000x256, .f32⟩ : BufTy).Contents (Elt F)),
    unary main_arg1 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v14 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x256 ![0, 1] bcast_S100000x1_S100000x256_0_1 : (⟨S100000x1, .f32⟩ : BufTy).Contents (Elt F) → (⟨S100000x256, .f32⟩ : BufTy).Contents (Elt F)),
    binary main_v49 main_v51 main_v52 (mulf : (⟨S100000x256, .f32⟩ : BufTy).Contents (Elt F) → (⟨S100000x256, .f32⟩ : BufTy).Contents (Elt F) → (⟨S100000x256, .f32⟩ : BufTy).Contents (Elt F)) ]

theorem vv0_b_sub : (vv0_b : List (HloOp τ sig (Elt F))).Forall fun op => op.bufs ⊆ tcRefs τ sig :=
  ⟨unary_bufs_sub .., unary_bufs_sub .., ternary_bufs_sub .., unary_bufs_sub .., unary_bufs_sub .., binary_bufs_sub ..⟩

theorem vv0_b_fresh : ∀ op ∈ (vv0_b : List (HloOp τ sig (Elt F))), op.fresh = ∅ := by
  intro _ h; (repeat (cases h with | head => rfl | tail _ h => ?_)); exact nomatch h

/-- The relu after the first averaging: a zero array and the maximum with it. -/
abbrev relu0 : List (HloOp τ sig (Elt F)) :=
  [ TRef.nullary main_call0.cst (constant S_ .f32 0x00000000#32),
    TRef.unary main_call0.cst main_call0.v0 (broadcastInDim S100000x256 ![] bcast_S_S100000x256),
    TRef.binary (.of main_v52) main_call0.v0 main_call0.v1 maximumf ]

theorem relu0_sub : (relu0 : List (HloOp τ sig (Elt F))).Forall fun op => op.bufs ⊆ tcRefs τ sig :=
  ⟨nullary_bufs_sub .., unary_bufs_sub .., binary_bufs_sub ..⟩

theorem relu0_fresh : ∀ op ∈ (relu0 : List (HloOp τ sig (Elt F))), op.fresh = ∅ := by
  intro _ h; (repeat (cases h with | head => rfl | tail _ h => ?_)); exact nomatch h

/-- One normalised layer: the parameter rows, the row mean, the variance (mean again, deviations, squares, their sum over the divisor, the guard on the divisor), the scaling by the reciprocal square root, scale and shift, the relu, and the affine map. -/
abbrev ln1 : List (HloOp τ sig (Elt F)) :=
  [ unary main_arg7 main_v54 ((extractStridedSlice S1x256 ![1, 0] · slices_S4x256_S1x256_1_0) : (⟨S4x256, .f32⟩ : BufTy).Contents (Elt F) → (⟨S1x256, .f32⟩ : BufTy).Contents (Elt F)),
    reshape main_v54 main_v55 rfl shapeCasts_S1x256_S256,
    unary main_arg8 main_v56 ((extractStridedSlice S1x256 ![1, 0] · slices_S4x256_S1x256_1_0) : (⟨S4x256, .f32⟩ : BufTy).Contents (Elt F) → (⟨S1x256, .f32⟩ : BufTy).Contents (Elt F)),
    reshape main_v56 main_v57 rfl shapeCasts_S1x256_S256,
    nullary main_cst_11 (constant S_ .f32 0x00000000#32),
    binary main_v53 main_cst_11 main_v58 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43800000#32),
    unary main_cst_12 main_v60 (broadcastInDim S100000x1 ![] bcast_S_S100000x1 : (⟨S_, .f32⟩ : BufTy).Contents (Elt F) → (⟨S100000x1, .f32⟩ : BufTy).Contents (Elt F)),
    binary main_v59 main_v60 main_v61 (Host.divf : (⟨S100000x1, .f32⟩ : BufTy).Contents (Elt F) → (⟨S100000x1, .f32⟩ : BufTy).Contents (Elt F) → (⟨S100000x1, .f32⟩ : BufTy).Contents (Elt F)),
    nullary main_c_13 (constantI S_ 32 0#32),
    TRef.nullary main_call1.cst (constant S_ .f32 0x00000000#32),
    TRef.binary (.of main_v53) main_call1.cst main_call1.v0 (fun x v => Host.reduceAdd x v reducesTo_S100000x256_S100000_d1 h_S_),
    TRef.unary main_call1.v0 main_call1.v1 (broadcastInDim S100000x1 ![0] bcast_S100000_S100000x1_0),
    TRef.nullary main_call1.cst_0 (constant S_ .f32 0x43800000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x256 ![0, 1] bcast_S100000x1_S100000x256_0_1),
    TRef.binary (.of main_v53) main_call1.v4 main_call1.v5 subf,
    TRef.binary main_call1.v5 main_call1.v5 main_call1.v6 mulf,
    TRef.unary (.of main_c_13) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x256_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2 (fun p a b => select (broadcastInDim S100000x1 ![] bcast_S_S100000x1 p) a b),
    unary main_v61 main_v63 (broadcastInDim S100000x256 ![0, 1] bcast_S100000x1_S100000x256_0_1 : (⟨S100000x1, .f32⟩ : BufTy).Contents (Elt F) → (⟨S100000x256, .f32⟩ : BufTy).Contents (Elt F)),
    binary main_v53 main_v63 main_v64 (subf : (⟨S100000x256, .f32⟩ : BufTy).Contents (Elt F) → (⟨S100000x256, .f32⟩ : BufTy).Contents (Elt F) → (⟨S100000x256, .f32⟩ : BufTy).Contents (Elt F)),
    nullary main_cst_14 (constant S_ .f32 0x3727C5AC#32),
    unary main_cst_14 main_v65 (broadcastInDim S100000x1 ![] bcast_S_S100000x1 : (⟨S_, .f32⟩ : BufTy).Contents (Elt F) → (⟨S100000x1, .f32⟩ : BufTy).Contents (Elt F)),
    binary main_v62 main_v65 main_v66 (addf : (⟨S100000x1, .f32⟩ : BufTy).Contents (Elt F) → (⟨S100000x1, .f32⟩ : BufTy).Contents (Elt F) → (⟨S100000x1, .f32⟩ : BufTy).Contents (Elt F)),
    unary main_v66 main_v67 (Host.rsqrt : (⟨S100000x1, .f32⟩ : BufTy).Contents (Elt F) → (⟨S100000x1, .f32⟩ : BufTy).Contents (Elt F)),
    unary main_v67 main_v68 (broadcastInDim S100000x256 ![0, 1] bcast_S100000x1_S100000x256_0_1 : (⟨S100000x1, .f32⟩ : BufTy).Contents (Elt F) → (⟨S100000x256, .f32⟩ : BufTy).Contents (Elt F)),
    binary main_v64 main_v68 main_v69 (mulf : (⟨S100000x256, .f32⟩ : BufTy).Contents (Elt F) → (⟨S100000x256, .f32⟩ : BufTy).Contents (Elt F) → (⟨S100000x256, .f32⟩ : BufTy).Contents (Elt F)),
    unary main_v55 main_v70 (broadcastInDim S1x256 ![1] bcast_S256_S1x256_1 : (⟨S256, .f32⟩ : BufTy).Contents (Elt F) → (⟨S1x256, .f32⟩ : BufTy).Contents (Elt F)),
    unary main_v70 main_v71 (broadcastInDim S100000x256 ![0, 1] bcast_S1x256_S100000x256_0_1 : (⟨S1x256, .f32⟩ : BufTy).Contents (Elt F) → (⟨S100000x256, .f32⟩ : BufTy).Contents (Elt F)),
    binary main_v69 main_v71 main_v72 (mulf : (⟨S100000x256, .f32⟩ : BufTy).Contents (Elt F) → (⟨S100000x256, .f32⟩ : BufTy).Contents (Elt F) → (⟨S100000x256, .f32⟩ : BufTy).Contents (Elt F)),
    unary main_v57 main_v73 (broadcastInDim S1x256 ![1] bcast_S256_S1x256_1 : (⟨S256, .f32⟩ : BufTy).Contents (Elt F) → (⟨S1x256, .f32⟩ : BufTy).Contents (Elt F)),
    unary main_v73 main_v74 (broadcastInDim S100000x256 ![0, 1] bcast_S1x256_S100000x256_0_1 : (⟨S1x256, .f32⟩ : BufTy).Contents (Elt F) → (⟨S100000x256, .f32⟩ : BufTy).Contents (Elt F)),
    binary main_v72 main_v74 main_v75 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (.of main_v75) main_call2.v0 main_call2.v1 maximumf,
    unary main_arg5 main_v77 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v77 main_v78 rfl shapeCasts_S1x256x256_S256x256,
    binary main_v76 main_v78 main_v79 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v80 ((extractStridedSlice S1x256 ![1, 0] · slices_S4x256_S1x256_1_0) : (⟨S4x256, .f32⟩ : BufTy).Contents (Elt F) → (⟨S1x256, .f32⟩ : BufTy).Contents (Elt F)),
    reshape main_v80 main_v81 rfl shapeCasts_S1x256_S256,
    unary main_v81 main_v82 (broadcastInDim S1x256 ![1] bcast_S256_S1x256_1 : (⟨S256, .f32⟩ : BufTy).Contents (Elt F) → (⟨S1x256, .f32⟩ : BufTy).Contents (Elt F)),
    unary main_v82 main_v83 (broadcastInDim S100000x256 ![0, 1] bcast_S1x256_S100000x256_0_1 : (⟨S1x256, .f32⟩ : BufTy).Contents (Elt F) → (⟨S100000x256, .f32⟩ : BufTy).Contents (Elt F)),
    binary main_v79 main_v83 main_v84 (addf : (⟨S100000x256, .f32⟩ : BufTy).Contents (Elt F) → (⟨S100000x256, .f32⟩ : BufTy).Contents (Elt F) → (⟨S100000x256, .f32⟩ : BufTy).Contents (Elt F)) ]

theorem ln1_sub : (ln1 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem ln1_fresh : ∀ op ∈ (ln1 : List (HloOp τ sig (Elt F))), op.fresh = ∅ := by
  intro _ h; (repeat (cases h with | head => rfl | tail _ h => ?_)); exact nomatch h

/-- One vertex-to-hyperedge-to-vertex averaging: index wrap, gather by vertex, scatter-add by hyperedge, scale, index wrap, gather by hyperedge, scatter-add by vertex, scale (the first operations of it). -/
abbrev vv1_a : List (HloOp τ sig (Elt F)) :=
  [ nullary main_c_15 (constantI S_ 32 0#32),
    unary main_c_15 main_v85 (broadcastInDim S800000 ![] bcast_S_S800000 : (⟨S_, .i32⟩ : BufTy).Contents (Elt F) → (⟨S800000, .i32⟩ : BufTy).Contents (Elt F)),
    binary main_arg1 main_v85 main_v86 (cmpi .slt : (⟨S800000, .i32⟩ : BufTy).Contents (Elt F) → (⟨S800000, .i32⟩ : BufTy).Contents (Elt F) → (⟨S800000, .i1⟩ : BufTy).Contents (Elt F)),
    nullary main_c_16 (constantI S_ 32 100000#32),
    unary main_c_16 main_v87 (broadcastInDim S800000 ![] bcast_S_S800000 : (⟨S_, .i32⟩ : BufTy).Contents (Elt F) → (⟨S800000, .i32⟩ : BufTy).Contents (Elt F)),
    binary main_arg1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_arg1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v84 main_v90 main_v91 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_17 (constant S_ .f32 0x00000000#32),
    unary main_cst_17 main_v92 (broadcastInDim S20000x256 ![] bcast_S_S20000x256 : (⟨S_, .f32⟩ : BufTy).Contents (Elt F) → (⟨S20000x256, .f32⟩ : BufTy).Contents (Elt F)),
    unary main_arg2 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S20000x256_S800000x1_S800000x256_1_0_0_1 x i u) : (⟨S20000x256, .f32⟩ : BufTy).Contents (Elt F) → (⟨S800000x1, .i32⟩ : BufTy).Contents (Elt F) → (⟨S800000x256, .f32⟩ : BufTy).Contents (Elt F) → (⟨S20000x256, .f32⟩ : BufTy).Contents (Elt F)),
    unary main_v7 main_v95 (broadcastInDim S20000x1 ![0] bcast_S20000_S20000x1_0 : (⟨S20000, .f32⟩ : BufTy).Contents (Elt F) → (⟨S20000x1, .f32⟩ : BufTy).Contents (Elt F)),
    unary main_v95 main_v96 (broadcastInDim S20000x256 ![0, 1] bcast_S20000x1_S20000x256_0_1 : (⟨S20000x1, .f32⟩ : BufTy).Contents (Elt F) → (⟨S20000x256, .f32⟩ : BufTy).Contents (Elt F)),
    binary main_v94 main_v96 main_v97 (mulf : (⟨S20000x256, .f32⟩ : BufTy).Contents (Elt F) → (⟨S20000x256, .f32⟩ : BufTy).Contents (Elt F) → (⟨S20000x256, .f32⟩ : BufTy).Contents (Elt F)),
    nullary main_c_18 (constantI S_ 32 0#32),
    unary main_c_18 main_v98 (broadcastInDim S800000 ![] bcast_S_S800000 : (⟨S_, .i32⟩ : BufTy).Contents (Elt F) → (⟨S800000, .i32⟩ : BufTy).Contents (Elt F)) ]

theorem vv1_a_sub : (vv1_a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem vv1_a_fresh : ∀ op ∈ (vv1_a : List (HloOp τ sig (Elt F))), op.fresh = ∅ := by
  intro _ h; (repeat (cases h with | head => rfl | tail _ h => ?_)); exact nomatch h

/-- The buffers `vv0_b` writes, one per operation, in order. -/
abbrev vv0_bW : List (Ref sig .tc) :=
  [main_v47, main_v48, main_v49, main_v50, main_v51, main_v52]

theorem vv0_b_writes : (vv0_b : List (HloOp τ sig (Elt F))).Forall fun op => op.writes ⊆ ((vv0_bW).map (Proc.devRef (τ := τ) .tc)).toFinset := by
  simp only [vv0_b, List.Forall, nullary_writes, unary_writes, binary_writes, ternary_writes, reshape_writes, Finset.singleton_subset_iff, List.mem_toFinset]
  repeat' apply And.intro
  all_goals exact List.mem_map_of_mem (by decide)

/-- A buffer outside that list keeps its contents across `vv0_b`. -/
theorem vv0_b_keeps (V : Valuation τ sig (Elt F)) {r : Ref sig .tc} (hr : r ∉ vv0_bW) :
    after vv0_b V (Proc.devRef .tc r) = V (Proc.devRef .tc r) :=
  after_of_writes_sub vv0_b V vv0_b_writes hr

/-- The buffers `relu0` writes, one per operation, in order. -/
abbrev relu0W : List (Ref sig .tc) :=
  [main_call0.cst.ref, main_call0.v0.ref, main_call0.v1.ref]

theorem relu0_writes : (relu0 : List (HloOp τ sig (Elt F))).Forall fun op => op.writes ⊆ ((relu0W).map (Proc.devRef (τ := τ) .tc)).toFinset := by
  simp only [relu0, List.Forall, nullary_writes, unary_writes, binary_writes, ternary_writes, reshape_writes, Finset.singleton_subset_iff, List.mem_toFinset]
  repeat' apply And.intro
  all_goals exact List.mem_map_of_mem (by decide)

/-- A buffer outside that list keeps its contents across `relu0`. -/
theorem relu0_keeps (V : Valuation τ sig (Elt F)) {r : Ref sig .tc} (hr : r ∉ relu0W) :
    after relu0 V (Proc.devRef .tc r) = V (Proc.devRef .tc r) :=
  after_of_writes_sub relu0 V relu0_writes hr

/-- The buffers `ln1` writes, one per operation, in order. -/
abbrev ln1W : List (Ref sig .tc) :=
  [main_v54, main_v55, main_v56, main_v57, main_cst_11, main_v58, main_v59, main_cst_12, main_v60, main_v61, main_c_13, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v63, main_v64, main_cst_14, main_v65, main_v66, main_v67, main_v68, main_v69, main_v70, main_v71, main_v72, main_v73, main_v74, main_v75, main_call2.cst.ref, main_call2.v0.ref, main_call2.v1.ref, main_v77, main_v78, main_v79, main_v80, main_v81, main_v82, main_v83, main_v84]

theorem ln1_writes : (ln1 : List (HloOp τ sig (Elt F))).Forall fun op => op.writes ⊆ ((ln1W).map (Proc.devRef (τ := τ) .tc)).toFinset := by
  simp only [ln1, List.Forall, nullary_writes, unary_writes, binary_writes, ternary_writes, reshape_writes, Finset.singleton_subset_iff, List.mem_toFinset]
  repeat' apply And.intro
  all_goals exact List.mem_map_of_mem (by decide)

/-- A buffer outside that list keeps its contents across `ln1`. -/
theorem ln1_keeps (V : Valuation τ sig (Elt F)) {r : Ref sig .tc} (hr : r ∉ ln1W) :
    after ln1 V (Proc.devRef .tc r) = V (Proc.devRef .tc r) :=
  after_of_writes_sub ln1 V ln1_writes hr

/-- The buffers `vv1_a` writes, one per operation, in order. -/
abbrev vv1_aW : List (Ref sig .tc) :=
  [main_c_15, main_v85, main_v86, main_c_16, main_v87, main_v88, main_v89, main_v90, main_v91, main_cst_17, main_v92, main_v93, main_v94, main_v95, main_v96, main_v97, main_c_18, main_v98]

theorem vv1_a_writes : (vv1_a : List (HloOp τ sig (Elt F))).Forall fun op => op.writes ⊆ ((vv1_aW).map (Proc.devRef (τ := τ) .tc)).toFinset := by
  simp only [vv1_a, List.Forall, nullary_writes, unary_writes, binary_writes, ternary_writes, reshape_writes, Finset.singleton_subset_iff, List.mem_toFinset]
  repeat' apply And.intro
  all_goals exact List.mem_map_of_mem (by decide)

/-- A buffer outside that list keeps its contents across `vv1_a`. -/
theorem vv1_a_keeps (V : Valuation τ sig (Elt F)) {r : Ref sig .tc} (hr : r ∉ vv1_aW) :
    after vv1_a V (Proc.devRef .tc r) = V (Proc.devRef .tc r) :=
  after_of_writes_sub vv1_a V vv1_a_writes hr

/-- This stretch of the program is the straight line of its lists. -/
theorem part1_eq (c : Dev nD) : main_part1 (F := F) c = seq (vv0_b ++ relu0 ++ ln1 ++ vv1_a) := by
  simp only [main_part1, fn_relu.body, fn_var.body, fn_where.body, vv0_b, relu0, ln1, vv1_a, List.cons_append, List.nil_append, seq, bind_assoc, pure_bind]
  rfl

end Cert.Hgnn.Ref.Ops

end
-- ==== Proof.RRunV0.lean ====
import proofs.«108867_j88295937671288_1_alg».proof.Proof.RModel
import proofs.«108867_j88295937671288_1_alg».proof.Proof.RRunP0
import proofs.«108867_j88295937671288_1_alg».proof.Proof.RRunP1

/-!
# What the stages vv0 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one averaging's operations its result buffer holds `v2v` of the two index arrays, the two reciprocal degrees and the features it was given. -/
theorem vv0_out (V : Valuation τ sig (Elt Ideal)) :
    after (Ops.vv0_b (F := Ideal)) (after (Ops.vv0_a (F := Ideal)) V) (Proc.devRef .tc main_v52)
      = v2v (V (Proc.devRef .tc main_arg1)) (V (Proc.devRef .tc main_arg2)) (V (Proc.devRef .tc main_v7)) (V (Proc.devRef .tc main_v14)) (V (Proc.devRef .tc main_v26)) := by
  simp only [Ops.vv0_a, Ops.vv0_b]
  after_results_simp
  rfl

end Cert.Hgnn.Ref.Stage

end
-- ==== Proof.RRunL1.lean ====
import proofs.«108867_j88295937671288_1_alg».proof.Proof.RModel
import proofs.«108867_j88295937671288_1_alg».proof.Proof.RRunP1

/-!
# What the stages relu0, ln1 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After the relu's operations its result buffer holds `reluStage` of the averaged features. -/
theorem relu0_out (V : Valuation τ sig (Elt Ideal)) :
    after (Ops.relu0 (F := Ideal)) V (Proc.devRef .tc main_v53)
      = reluStage (V (Proc.devRef .tc main_v52)) := by
  simp only [Ops.relu0]
  after_results_simp
  rfl

/-- After one normalised layer's operations its result buffer holds that layer's function of the carried features and the stacked parameters. -/
theorem ln1_out (V : Valuation τ sig (Elt Ideal)) :
    after (Ops.ln1 (F := Ideal)) V (Proc.devRef .tc main_v84)
      = lnLayer1 (V (Proc.devRef .tc main_v53)) (V (Proc.devRef .tc main_arg7)) (V (Proc.devRef .tc main_arg8)) (V (Proc.devRef .tc main_arg5)) (V (Proc.devRef .tc main_arg6)) := by
  simp only [Ops.ln1]
  after_results_simp
  rfl

end Cert.Hgnn.Ref.Stage

end
-- ==== Proof.RRunP2.lean ====
import proofs.«108867_j88295937671288_1_alg».proof.Proof.Gen.ReferenceIdeal
import Idealize.ShloMosaic.Lib.StableHlo.Run

/-!
# The reference's host operations 121 … 180, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- One vertex-to-hyperedge-to-vertex averaging: index wrap, gather by vertex, scatter-add by hyperedge, scale, index wrap, gather by hyperedge, scatter-add by vertex, scale (the remaining operations of it). -/
abbrev vv1_b : List (HloOp τ sig (Elt F)) :=
  [ binary main_arg2 main_v98 main_v99 (cmpi .slt : (⟨S800000, .i32⟩ : BufTy).Contents (Elt F) → (⟨S800000, .i32⟩ : BufTy).Contents (Elt F) → (⟨S800000, .i1⟩ : BufTy).Contents (Elt F)),
    nullary main_c_19 (constantI S_ 32 20000#32),
    unary main_c_19 main_v100 (broadcastInDim S800000 ![] bcast_S_S800000 : (⟨S_, .i32⟩ : BufTy).Contents (Elt F) → (⟨S800000, .i32⟩ : BufTy).Contents (Elt F)),
    binary main_arg2 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_arg2 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v97 main_v103 main_v104 ((fun x i => Host.gather gather_S20000x256_S800000x1_S800000x256_1_0_n_n_0_1_1256 x i) : (⟨S20000x256, .f32⟩ : BufTy).Contents (Elt F) → (⟨S800000x1, .i32⟩ : BufTy).Contents (Elt F) → (⟨S800000x256, .f32⟩ : BufTy).Contents (Elt F)),
    nullary main_cst_20 (constant S_ .f32 0x00000000#32),
    unary main_cst_20 main_v105 (broadcastInDim S100000x256 ![] bcast_S_S100000x256 : (⟨S_, .f32⟩ : BufTy).Contents (Elt F) → (⟨S100000x256, .f32⟩ : BufTy).Contents (Elt F)),
    unary main_arg1 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v14 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x256 ![0, 1] bcast_S100000x1_S100000x256_0_1 : (⟨S100000x1, .f32⟩ : BufTy).Contents (Elt F) → (⟨S100000x256, .f32⟩ : BufTy).Contents (Elt F)),
    binary main_v107 main_v109 main_v110 (mulf : (⟨S100000x256, .f32⟩ : BufTy).Contents (Elt F) → (⟨S100000x256, .f32⟩ : BufTy).Contents (Elt F) → (⟨S100000x256, .f32⟩ : BufTy).Contents (Elt F)) ]

theorem vv1_b_sub : (vv1_b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem vv1_b_fresh : ∀ op ∈ (vv1_b : List (HloOp τ sig (Elt F))), op.fresh = ∅ := by
  intro _ h; (repeat (cases h with | head => rfl | tail _ h => ?_)); exact nomatch h

/-- One residual step: the relu of the averaged features added to the carried features. -/
abbrev res1 : List (HloOp τ sig (Elt F)) :=
  [ TRef.nullary main_call3.cst (constant S_ .f32 0x00000000#32),
    TRef.unary main_call3.cst main_call3.v0 (broadcastInDim S100000x256 ![] bcast_S_S100000x256),
    TRef.binary (.of main_v110) main_call3.v0 main_call3.v1 maximumf,
    binary main_v53 main_v111 main_v112 (addf : (⟨S100000x256, .f32⟩ : BufTy).Contents (Elt F) → (⟨S100000x256, .f32⟩ : BufTy).Contents (Elt F) → (⟨S100000x256, .f32⟩ : BufTy).Contents (Elt F)) ]

theorem res1_sub : (res1 : List (HloOp τ sig (Elt F))).Forall fun op => op.bufs ⊆ tcRefs τ sig :=
  ⟨nullary_bufs_sub .., unary_bufs_sub .., binary_bufs_sub .., binary_bufs_sub ..⟩

theorem res1_fresh : ∀ op ∈ (res1 : List (HloOp τ sig (Elt F))), op.fresh = ∅ := by
  intro _ h; (repeat (cases h with | head => rfl | tail _ h => ?_)); exact nomatch h

/-- One normalised layer: the parameter rows, the row mean, the variance (mean again, deviations, squares, their sum over the divisor, the guard on the divisor), the scaling by the reciprocal square root, scale and shift, the relu, and the affine map. -/
abbrev ln2 : List (HloOp τ sig (Elt F)) :=
  [ unary main_arg7 main_v113 ((extractStridedSlice S1x256 ![2, 0] · slices_S4x256_S1x256_2_0) : (⟨S4x256, .f32⟩ : BufTy).Contents (Elt F) → (⟨S1x256, .f32⟩ : BufTy).Contents (Elt F)),
    reshape main_v113 main_v114 rfl shapeCasts_S1x256_S256,
    unary main_arg8 main_v115 ((extractStridedSlice S1x256 ![2, 0] · slices_S4x256_S1x256_2_0) : (⟨S4x256, .f32⟩ : BufTy).Contents (Elt F) → (⟨S1x256, .f32⟩ : BufTy).Contents (Elt F)),
    reshape main_v115 main_v116 rfl shapeCasts_S1x256_S256,
    nullary main_cst_21 (constant S_ .f32 0x00000000#32),
    binary main_v112 main_cst_21 main_v117 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v117 main_v118 (broadcastInDim S100000x1 ![0] bcast_S100000_S100000x1_0 : (⟨S100000, .f32⟩ : BufTy).Contents (Elt F) → (⟨S100000x1, .f32⟩ : BufTy).Contents (Elt F)),
    nullary main_cst_22 (constant S_ .f32 0x43800000#32),
    unary main_cst_22 main_v119 (broadcastInDim S100000x1 ![] bcast_S_S100000x1 : (⟨S_, .f32⟩ : BufTy).Contents (Elt F) → (⟨S100000x1, .f32⟩ : BufTy).Contents (Elt F)),
    binary main_v118 main_v119 main_v120 (Host.divf : (⟨S100000x1, .f32⟩ : BufTy).Contents (Elt F) → (⟨S100000x1, .f32⟩ : BufTy).Contents (Elt F) → (⟨S100000x1, .f32⟩ : BufTy).Contents (Elt F)),
    nullary main_c_23 (constantI S_ 32 0#32),
    TRef.nullary main_call4.cst (constant S_ .f32 0x00000000#32),
    TRef.binary (.of main_v112) main_call4.cst main_call4.v0 (fun x v => Host.reduceAdd x v reducesTo_S100000x256_S100000_d1 h_S_),
    TRef.unary main_call4.v0 main_call4.v1 (broadcastInDim S100000x1 ![0] bcast_S100000_S100000x1_0),
    TRef.nullary main_call4.cst_0 (constant S_ .f32 0x43800000#32),
    TRef.unary main_call4.cst_0 main_call4.v2 (broadcastInDim S100000x1 ![] bcast_S_S100000x1),
    TRef.binary main_call4.v1 main_call4.v2 main_call4.v3 Host.divf,
    TRef.unary main_call4.v3 main_call4.v4 (broadcastInDim S100000x256 ![0, 1] bcast_S100000x1_S100000x256_0_1),
    TRef.binary (.of main_v112) main_call4.v4 main_call4.v5 subf,
    TRef.binary main_call4.v5 main_call4.v5 main_call4.v6 mulf,
    TRef.unary (.of main_c_23) main_call4.v7 (sitofp .f32),
    TRef.nullary main_call4.cst_1 (constant S_ .f32 0x43800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x256_S100000_d1 h_S_),
    TRef.unary main_call4.v9 main_call4.v10 (broadcastInDim S100000x1 ![0] bcast_S100000_S100000x1_0),
    TRef.unary main_call4.v8 main_call4.v11 (broadcastInDim S100000x1 ![] bcast_S_S100000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S100000x1 ![] bcast_S_S100000x1),
    TRef.ternary main_call4.v13 main_call4.v12 main_call4.call0.v1 main_call4.call0.v2 (fun p a b => select (broadcastInDim S100000x1 ![] bcast_S_S100000x1 p) a b),
    unary main_v120 main_v122 (broadcastInDim S100000x256 ![0, 1] bcast_S100000x1_S100000x256_0_1 : (⟨S100000x1, .f32⟩ : BufTy).Contents (Elt F) → (⟨S100000x256, .f32⟩ : BufTy).Contents (Elt F)),
    binary main_v112 main_v122 main_v123 (subf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x3727C5AC#32),
    unary main_cst_24 main_v124 (broadcastInDim S100000x1 ![] bcast_S_S100000x1 : (⟨S_, .f32⟩ : BufTy).Contents (Elt F) → (⟨S100000x1, .f32⟩ : BufTy).Contents (Elt F)),
    binary main_v121 main_v124 main_v125 (addf : (⟨S100000x1, .f32⟩ : BufTy).Contents (Elt F) → (⟨S100000x1, .f32⟩ : BufTy).Contents (Elt F) → (⟨S100000x1, .f32⟩ : BufTy).Contents (Elt F)),
    unary main_v125 main_v126 (Host.rsqrt : (⟨S100000x1, .f32⟩ : BufTy).Contents (Elt F) → (⟨S100000x1, .f32⟩ : BufTy).Contents (Elt F)),
    unary main_v126 main_v127 (broadcastInDim S100000x256 ![0, 1] bcast_S100000x1_S100000x256_0_1 : (⟨S100000x1, .f32⟩ : BufTy).Contents (Elt F) → (⟨S100000x256, .f32⟩ : BufTy).Contents (Elt F)),
    binary main_v123 main_v127 main_v128 (mulf : (⟨S100000x256, .f32⟩ : BufTy).Contents (Elt F) → (⟨S100000x256, .f32⟩ : BufTy).Contents (Elt F) → (⟨S100000x256, .f32⟩ : BufTy).Contents (Elt F)),
    unary main_v114 main_v129 (broadcastInDim S1x256 ![1] bcast_S256_S1x256_1 : (⟨S256, .f32⟩ : BufTy).Contents (Elt F) → (⟨S1x256, .f32⟩ : BufTy).Contents (Elt F)),
    unary main_v129 main_v130 (broadcastInDim S100000x256 ![0, 1] bcast_S1x256_S100000x256_0_1 : (⟨S1x256, .f32⟩ : BufTy).Contents (Elt F) → (⟨S100000x256, .f32⟩ : BufTy).Contents (Elt F)),
    binary main_v128 main_v130 main_v131 (mulf : (⟨S100000x256, .f32⟩ : BufTy).Contents (Elt F) → (⟨S100000x256, .f32⟩ : BufTy).Contents (Elt F) → (⟨S100000x256, .f32⟩ : BufTy).Contents (Elt F)),
    unary main_v116 main_v132 (broadcastInDim S1x256 ![1] bcast_S256_S1x256_1 : (⟨S256, .f32⟩ : BufTy).Contents (Elt F) → (⟨S1x256, .f32⟩ : BufTy).Contents (Elt F)),
    unary main_v132 main_v133 (broadcastInDim S100000x256 ![0, 1] bcast_S1x256_S100000x256_0_1 : (⟨S1x256, .f32⟩ : BufTy).Contents (Elt F) → (⟨S100000x256, .f32⟩ : BufTy).Contents (Elt F)),
    binary main_v131 main_v133 main_v134 (addf : (⟨S100000x256, .f32⟩ : BufTy).Contents (Elt F) → (⟨S100000x256, .f32⟩ : BufTy).Contents (Elt F) → (⟨S100000x256, .f32⟩ : BufTy).Contents (Elt F)),
    TRef.nullary main_call5.cst (constant S_ .f32 0x00000000#32),
    TRef.unary main_call5.cst main_call5.v0 (broadcastInDim S100000x256 ![] bcast_S_S100000x256),
    TRef.binary (.of main_v134) main_call5.v0 main_call5.v1 maximumf,
    unary main_arg5 main_v136 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v136 main_v137 rfl shapeCasts_S1x256x256_S256x256,
    binary main_v135 main_v137 main_v138 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v139 ((extractStridedSlice S1x256 ![2, 0] · slices_S4x256_S1x256_2_0) : (⟨S4x256, .f32⟩ : BufTy).Contents (Elt F) → (⟨S1x256, .f32⟩ : BufTy).Contents (Elt F)),
    reshape main_v139 main_v140 rfl shapeCasts_S1x256_S256,
    unary main_v140 main_v141 (broadcastInDim S1x256 ![1] bcast_S256_S1x256_1 : (⟨S256, .f32⟩ : BufTy).Contents (Elt F) → (⟨S1x256, .f32⟩ : BufTy).Contents (Elt F)),
    unary main_v141 main_v142 (broadcastInDim S100000x256 ![0, 1] bcast_S1x256_S100000x256_0_1 : (⟨S1x256, .f32⟩ : BufTy).Contents (Elt F) → (⟨S100000x256, .f32⟩ : BufTy).Contents (Elt F)),
    binary main_v138 main_v142 main_v143 (addf : (⟨S100000x256, .f32⟩ : BufTy).Contents (Elt F) → (⟨S100000x256, .f32⟩ : BufTy).Contents (Elt F) → (⟨S100000x256, .f32⟩ : BufTy).Contents (Elt F)) ]

theorem ln2_sub : (ln2 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem ln2_fresh : ∀ op ∈ (ln2 : List (HloOp τ sig (Elt F))), op.fresh = ∅ := by
  intro _ h; (repeat (cases h with | head => rfl | tail _ h => ?_)); exact nomatch h

/-- One vertex-to-hyperedge-to-vertex averaging: index wrap, gather by vertex, scatter-add by hyperedge, scale, index wrap, gather by hyperedge, scatter-add by vertex, scale (the first operations of it). -/
abbrev vv2_a : List (HloOp τ sig (Elt F)) :=
  [ nullary main_c_25 (constantI S_ 32 0#32),
    unary main_c_25 main_v144 (broadcastInDim S800000 ![] bcast_S_S800000 : (⟨S_, .i32⟩ : BufTy).Contents (Elt F) → (⟨S800000, .i32⟩ : BufTy).Contents (Elt F)),
    binary main_arg1 main_v144 main_v145 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v146 (broadcastInDim S800000 ![] bcast_S_S800000 : (⟨S_, .i32⟩ : BufTy).Contents (Elt F) → (⟨S800000, .i32⟩ : BufTy).Contents (Elt F)),
    binary main_arg1 main_v146 main_v147 (addi : (⟨S800000, .i32⟩ : BufTy).Contents (Elt F) → (⟨S800000, .i32⟩ : BufTy).Contents (Elt F) → (⟨S800000, .i32⟩ : BufTy).Contents (Elt F)),
    ternary main_v145 main_v147 main_arg1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v148 main_v149 (broadcastInDim S800000x1 ![0] bcast_S800000_S800000x1_0 : (⟨S800000, .i32⟩ : BufTy).Contents (Elt F) → (⟨S800000x1, .i32⟩ : BufTy).Contents (Elt F)),
    binary main_v143 main_v149 main_v150 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)) ]

theorem vv2_a_sub : (vv2_a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem vv2_a_fresh : ∀ op ∈ (vv2_a : List (HloOp τ sig (Elt F))), op.fresh = ∅ := by
  intro _ h; (repeat (cases h with | head => rfl | tail _ h => ?_)); exact nomatch h

/-- The buffers `vv1_b` writes, one per operation, in order. -/
abbrev vv1_bW : List (Ref sig .tc) :=
  [main_v99, main_c_19, main_v100, main_v101, main_v102, main_v103, main_v104, main_cst_20, main_v105, main_v106, main_v107, main_v108, main_v109, main_v110]

theorem vv1_b_writes : (vv1_b : List (HloOp τ sig (Elt F))).Forall fun op => op.writes ⊆ ((vv1_bW).map (Proc.devRef (τ := τ) .tc)).toFinset := by
  simp only [vv1_b, List.Forall, nullary_writes, unary_writes, binary_writes, ternary_writes, reshape_writes, Finset.singleton_subset_iff, List.mem_toFinset]
  repeat' apply And.intro
  all_goals exact List.mem_map_of_mem (by decide)

/-- A buffer outside that list keeps its contents across `vv1_b`. -/
theorem vv1_b_keeps (V : Valuation τ sig (Elt F)) {r : Ref sig .tc} (hr : r ∉ vv1_bW) :
    after vv1_b V (Proc.devRef .tc r) = V (Proc.devRef .tc r) :=
  after_of_writes_sub vv1_b V vv1_b_writes hr

/-- The buffers `res1` writes, one per operation, in order. -/
abbrev res1W : List (Ref sig .tc) :=
  [main_call3.cst.ref, main_call3.v0.ref, main_call3.v1.ref, main_v112]

theorem res1_writes : (res1 : List (HloOp τ sig (Elt F))).Forall fun op => op.writes ⊆ ((res1W).map (Proc.devRef (τ := τ) .tc)).toFinset := by
  simp only [res1, List.Forall, nullary_writes, unary_writes, binary_writes, ternary_writes, reshape_writes, Finset.singleton_subset_iff, List.mem_toFinset]
  repeat' apply And.intro
  all_goals exact List.mem_map_of_mem (by decide)

/-- A buffer outside that list keeps its contents across `res1`. -/
theorem res1_keeps (V : Valuation τ sig (Elt F)) {r : Ref sig .tc} (hr : r ∉ res1W) :
    after res1 V (Proc.devRef .tc r) = V (Proc.devRef .tc r) :=
  after_of_writes_sub res1 V res1_writes hr

/-- The buffers `ln2` writes, one per operation, in order. -/
abbrev ln2W : List (Ref sig .tc) :=
  [main_v113, main_v114, main_v115, main_v116, main_cst_21, main_v117, main_v118, main_cst_22, main_v119, main_v120, main_c_23, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.v12.ref, main_call4.cst_3.ref, main_call4.v13.ref, main_call4.cst_4.ref, main_call4.call0.v0.ref, main_call4.call0.v1.ref, main_call4.call0.v2.ref, main_v122, main_v123, main_cst_24, main_v124, main_v125, main_v126, main_v127, main_v128, main_v129, main_v130, main_v131, main_v132, main_v133, main_v134, main_call5.cst.ref, main_call5.v0.ref, main_call5.v1.ref, main_v136, main_v137, main_v138, main_v139, main_v140, main_v141, main_v142, main_v143]

theorem ln2_writes : (ln2 : List (HloOp τ sig (Elt F))).Forall fun op => op.writes ⊆ ((ln2W).map (Proc.devRef (τ := τ) .tc)).toFinset := by
  simp only [ln2, List.Forall, nullary_writes, unary_writes, binary_writes, ternary_writes, reshape_writes, Finset.singleton_subset_iff, List.mem_toFinset]
  repeat' apply And.intro
  all_goals exact List.mem_map_of_mem (by decide)

/-- A buffer outside that list keeps its contents across `ln2`. -/
theorem ln2_keeps (V : Valuation τ sig (Elt F)) {r : Ref sig .tc} (hr : r ∉ ln2W) :
    after ln2 V (Proc.devRef .tc r) = V (Proc.devRef .tc r) :=
  after_of_writes_sub ln2 V ln2_writes hr

/-- The buffers `vv2_a` writes, one per operation, in order. -/
abbrev vv2_aW : List (Ref sig .tc) :=
  [main_c_25, main_v144, main_v145, main_c_26, main_v146, main_v147, main_v148, main_v149, main_v150]

theorem vv2_a_writes : (vv2_a : List (HloOp τ sig (Elt F))).Forall fun op => op.writes ⊆ ((vv2_aW).map (Proc.devRef (τ := τ) .tc)).toFinset := by
  simp only [vv2_a, List.Forall, nullary_writes, unary_writes, binary_writes, ternary_writes, reshape_writes, Finset.singleton_subset_iff, List.mem_toFinset]
  repeat' apply And.intro
  all_goals exact List.mem_map_of_mem (by decide)

/-- A buffer outside that list keeps its contents across `vv2_a`. -/
theorem vv2_a_keeps (V : Valuation τ sig (Elt F)) {r : Ref sig .tc} (hr : r ∉ vv2_aW) :
    after vv2_a V (Proc.devRef .tc r) = V (Proc.devRef .tc r) :=
  after_of_writes_sub vv2_a V vv2_a_writes hr

/-- This stretch of the program is the straight line of its lists. -/
theorem part2_eq (c : Dev nD) : main_part2 (F := F) c = seq (vv1_b ++ res1 ++ ln2 ++ vv2_a) := by
  simp only [main_part2, fn_relu.body, fn_var.body, fn_where.body, vv1_b, res1, ln2, vv2_a, List.cons_append, List.nil_append, seq, bind_assoc, pure_bind]
  rfl

end Cert.Hgnn.Ref.Ops

end
-- ==== Proof.RRunV1.lean ====
import proofs.«108867_j88295937671288_1_alg».proof.Proof.RModel
import proofs.«108867_j88295937671288_1_alg».proof.Proof.RRunP1
import proofs.«108867_j88295937671288_1_alg».proof.Proof.RRunP2

/-!
# What the stages vv1 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one averaging's operations its result buffer holds `v2v` of the two index arrays, the two reciprocal degrees and the features it was given. -/
theorem vv1_out (V : Valuation τ sig (Elt Ideal)) :
    after (Ops.vv1_b (F := Ideal)) (after (Ops.vv1_a (F := Ideal)) V) (Proc.devRef .tc main_v110)
      = v2v (V (Proc.devRef .tc main_arg1)) (V (Proc.devRef .tc main_arg2)) (V (Proc.devRef .tc main_v7)) (V (Proc.devRef .tc main_v14)) (V (Proc.devRef .tc main_v84)) := by
  simp only [Ops.vv1_a, Ops.vv1_b]
  after_results_simp
  rfl

end Cert.Hgnn.Ref.Stage

end
-- ==== Proof.RRunL2.lean ====
import proofs.«108867_j88295937671288_1_alg».proof.Proof.RModel
import proofs.«108867_j88295937671288_1_alg».proof.Proof.RRunP2

/-!
# What the stages res1, ln2 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one residual step's operations its result buffer holds `residual` of the averaged and the carried features. -/
theorem res1_out (V : Valuation τ sig (Elt Ideal)) :
    after (Ops.res1 (F := Ideal)) V (Proc.devRef .tc main_v112)
      = residual (V (Proc.devRef .tc main_v110)) (V (Proc.devRef .tc main_v53)) := by
  simp only [Ops.res1]
  after_results_simp
  rfl

/-- After one normalised layer's operations its result buffer holds that layer's function of the carried features and the stacked parameters. -/
theorem ln2_out (V : Valuation τ sig (Elt Ideal)) :
    after (Ops.ln2 (F := Ideal)) V (Proc.devRef .tc main_v143)
      = lnLayer2 (V (Proc.devRef .tc main_v112)) (V (Proc.devRef .tc main_arg7)) (V (Proc.devRef .tc main_arg8)) (V (Proc.devRef .tc main_arg5)) (V (Proc.devRef .tc main_arg6)) := by
  simp only [Ops.ln2]
  after_results_simp
  rfl

end Cert.Hgnn.Ref.Stage

end
-- ==== Proof.RRunP3.lean ====
import proofs.«108867_j88295937671288_1_alg».proof.Proof.Gen.ReferenceIdeal
import Idealize.ShloMosaic.Lib.StableHlo.Run

/-!
# The reference's host operations 181 … 240, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- One vertex-to-hyperedge-to-vertex averaging: index wrap, gather by vertex, scatter-add by hyperedge, scale, index wrap, gather by hyperedge, scatter-add by vertex, scale (the remaining operations of it). -/
abbrev vv2_b : List (HloOp τ sig (Elt F)) :=
  [ nullary main_cst_27 (constant S_ .f32 0x00000000#32),
    unary main_cst_27 main_v151 (broadcastInDim S20000x256 ![] bcast_S_S20000x256 : (⟨S_, .f32⟩ : BufTy).Contents (Elt F) → (⟨S20000x256, .f32⟩ : BufTy).Contents (Elt F)),
    unary main_arg2 main_v152 (broadcastInDim S800000x1 ![0] bcast_S800000_S800000x1_0 : (⟨S800000, .i32⟩ : BufTy).Contents (Elt F) → (⟨S800000x1, .i32⟩ : BufTy).Contents (Elt F)),
    ternary main_v151 main_v152 main_v150 main_v153 ((fun x i u => Host.scatterAdd scatter_S20000x256_S800000x1_S800000x256_1_0_0_1 x i u) : (⟨S20000x256, .f32⟩ : BufTy).Contents (Elt F) → (⟨S800000x1, .i32⟩ : BufTy).Contents (Elt F) → (⟨S800000x256, .f32⟩ : BufTy).Contents (Elt F) → (⟨S20000x256, .f32⟩ : BufTy).Contents (Elt F)),
    unary main_v7 main_v154 (broadcastInDim S20000x1 ![0] bcast_S20000_S20000x1_0 : (⟨S20000, .f32⟩ : BufTy).Contents (Elt F) → (⟨S20000x1, .f32⟩ : BufTy).Contents (Elt F)),
    unary main_v154 main_v155 (broadcastInDim S20000x256 ![0, 1] bcast_S20000x1_S20000x256_0_1 : (⟨S20000x1, .f32⟩ : BufTy).Contents (Elt F) → (⟨S20000x256, .f32⟩ : BufTy).Contents (Elt F)),
    binary main_v153 main_v155 main_v156 (mulf : (⟨S20000x256, .f32⟩ : BufTy).Contents (Elt F) → (⟨S20000x256, .f32⟩ : BufTy).Contents (Elt F) → (⟨S20000x256, .f32⟩ : BufTy).Contents (Elt F)),
    nullary main_c_28 (constantI S_ 32 0#32),
    unary main_c_28 main_v157 (broadcastInDim S800000 ![] bcast_S_S800000 : (⟨S_, .i32⟩ : BufTy).Contents (Elt F) → (⟨S800000, .i32⟩ : BufTy).Contents (Elt F)),
    binary main_arg2 main_v157 main_v158 (cmpi .slt : (⟨S800000, .i32⟩ : BufTy).Contents (Elt F) → (⟨S800000, .i32⟩ : BufTy).Contents (Elt F) → (⟨S800000, .i1⟩ : BufTy).Contents (Elt F)),
    nullary main_c_29 (constantI S_ 32 20000#32),
    unary main_c_29 main_v159 (broadcastInDim S800000 ![] bcast_S_S800000 : (⟨S_, .i32⟩ : BufTy).Contents (Elt F) → (⟨S800000, .i32⟩ : BufTy).Contents (Elt F)),
    binary main_arg2 main_v159 main_v160 (addi : (⟨S800000, .i32⟩ : BufTy).Contents (Elt F) → (⟨S800000, .i32⟩ : BufTy).Contents (Elt F) → (⟨S800000, .i32⟩ : BufTy).Contents (Elt F)),
    ternary main_v158 main_v160 main_arg2 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v161 main_v162 (broadcastInDim S800000x1 ![0] bcast_S800000_S800000x1_0 : (⟨S800000, .i32⟩ : BufTy).Contents (Elt F) → (⟨S800000x1, .i32⟩ : BufTy).Contents (Elt F)),
    binary main_v156 main_v162 main_v163 ((fun x i => Host.gather gather_S20000x256_S800000x1_S800000x256_1_0_n_n_0_1_1256 x i) : (⟨S20000x256, .f32⟩ : BufTy).Contents (Elt F) → (⟨S800000x1, .i32⟩ : BufTy).Contents (Elt F) → (⟨S800000x256, .f32⟩ : BufTy).Contents (Elt F)),
    nullary main_cst_30 (constant S_ .f32 0x00000000#32),
    unary main_cst_30 main_v164 (broadcastInDim S100000x256 ![] bcast_S_S100000x256 : (⟨S_, .f32⟩ : BufTy).Contents (Elt F) → (⟨S100000x256, .f32⟩ : BufTy).Contents (Elt F)),
    unary main_arg1 main_v165 (broadcastInDim S800000x1 ![0] bcast_S800000_S800000x1_0 : (⟨S800000, .i32⟩ : BufTy).Contents (Elt F) → (⟨S800000x1, .i32⟩ : BufTy).Contents (Elt F)),
    ternary main_v164 main_v165 main_v163 main_v166 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v14 main_v167 (broadcastInDim S100000x1 ![0] bcast_S100000_S100000x1_0 : (⟨S100000, .f32⟩ : BufTy).Contents (Elt F) → (⟨S100000x1, .f32⟩ : BufTy).Contents (Elt F)),
    unary main_v167 main_v168 (broadcastInDim S100000x256 ![0, 1] bcast_S100000x1_S100000x256_0_1 : (⟨S100000x1, .f32⟩ : BufTy).Contents (Elt F) → (⟨S100000x256, .f32⟩ : BufTy).Contents (Elt F)),
    binary main_v166 main_v168 main_v169 (mulf : (⟨S100000x256, .f32⟩ : BufTy).Contents (Elt F) → (⟨S100000x256, .f32⟩ : BufTy).Contents (Elt F) → (⟨S100000x256, .f32⟩ : BufTy).Contents (Elt F)) ]

theorem vv2_b_sub : (vv2_b : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem vv2_b_fresh : ∀ op ∈ (vv2_b : List (HloOp τ sig (Elt F))), op.fresh = ∅ := by
  intro _ h; (repeat (cases h with | head => rfl | tail _ h => ?_)); exact nomatch h

/-- One residual step: the relu of the averaged features added to the carried features. -/
abbrev res2 : List (HloOp τ sig (Elt F)) :=
  [ TRef.nullary main_call6.cst (constant S_ .f32 0x00000000#32),
    TRef.unary main_call6.cst main_call6.v0 (broadcastInDim S100000x256 ![] bcast_S_S100000x256),
    TRef.binary (.of main_v169) main_call6.v0 main_call6.v1 maximumf,
    binary main_v112 main_v170 main_v171 (addf : (⟨S100000x256, .f32⟩ : BufTy).Contents (Elt F) → (⟨S100000x256, .f32⟩ : BufTy).Contents (Elt F) → (⟨S100000x256, .f32⟩ : BufTy).Contents (Elt F)) ]

theorem res2_sub : (res2 : List (HloOp τ sig (Elt F))).Forall fun op => op.bufs ⊆ tcRefs τ sig :=
  ⟨nullary_bufs_sub .., unary_bufs_sub .., binary_bufs_sub .., binary_bufs_sub ..⟩

theorem res2_fresh : ∀ op ∈ (res2 : List (HloOp τ sig (Elt F))), op.fresh = ∅ := by
  intro _ h; (repeat (cases h with | head => rfl | tail _ h => ?_)); exact nomatch h

/-- One normalised layer: the parameter rows, the row mean, the variance (mean again, deviations, squares, their sum over the divisor, the guard on the divisor), the scaling by the reciprocal square root, scale and shift, the relu, and the affine map. -/
abbrev ln3 : List (HloOp τ sig (Elt F)) :=
  [ unary main_arg7 main_v172 ((extractStridedSlice S1x256 ![3, 0] · slices_S4x256_S1x256_3_0) : (⟨S4x256, .f32⟩ : BufTy).Contents (Elt F) → (⟨S1x256, .f32⟩ : BufTy).Contents (Elt F)),
    reshape main_v172 main_v173 rfl shapeCasts_S1x256_S256,
    unary main_arg8 main_v174 ((extractStridedSlice S1x256 ![3, 0] · slices_S4x256_S1x256_3_0) : (⟨S4x256, .f32⟩ : BufTy).Contents (Elt F) → (⟨S1x256, .f32⟩ : BufTy).Contents (Elt F)),
    reshape main_v174 main_v175 rfl shapeCasts_S1x256_S256,
    nullary main_cst_31 (constant S_ .f32 0x00000000#32),
    binary main_v171 main_cst_31 main_v176 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v176 main_v177 (broadcastInDim S100000x1 ![0] bcast_S100000_S100000x1_0 : (⟨S100000, .f32⟩ : BufTy).Contents (Elt F) → (⟨S100000x1, .f32⟩ : BufTy).Contents (Elt F)),
    nullary main_cst_32 (constant S_ .f32 0x43800000#32),
    unary main_cst_32 main_v178 (broadcastInDim S100000x1 ![] bcast_S_S100000x1 : (⟨S_, .f32⟩ : BufTy).Contents (Elt F) → (⟨S100000x1, .f32⟩ : BufTy).Contents (Elt F)),
    binary main_v177 main_v178 main_v179 (Host.divf : (⟨S100000x1, .f32⟩ : BufTy).Contents (Elt F) → (⟨S100000x1, .f32⟩ : BufTy).Contents (Elt F) → (⟨S100000x1, .f32⟩ : BufTy).Contents (Elt F)),
    nullary main_c_33 (constantI S_ 32 0#32),
    TRef.nullary main_call7.cst (constant S_ .f32 0x00000000#32),
    TRef.binary (.of main_v171) main_call7.cst main_call7.v0 (fun x v => Host.reduceAdd x v reducesTo_S100000x256_S100000_d1 h_S_),
    TRef.unary main_call7.v0 main_call7.v1 (broadcastInDim S100000x1 ![0] bcast_S100000_S100000x1_0),
    TRef.nullary main_call7.cst_0 (constant S_ .f32 0x43800000#32),
    TRef.unary main_call7.cst_0 main_call7.v2 (broadcastInDim S100000x1 ![] bcast_S_S100000x1),
    TRef.binary main_call7.v1 main_call7.v2 main_call7.v3 Host.divf,
    TRef.unary main_call7.v3 main_call7.v4 (broadcastInDim S100000x256 ![0, 1] bcast_S100000x1_S100000x256_0_1),
    TRef.binary (.of main_v171) main_call7.v4 main_call7.v5 subf,
    TRef.binary main_call7.v5 main_call7.v5 main_call7.v6 mulf,
    TRef.unary (.of main_c_33) main_call7.v7 (sitofp .f32),
    TRef.nullary main_call7.cst_1 (constant S_ .f32 0x43800000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x256_S100000_d1 h_S_),
    TRef.unary main_call7.v9 main_call7.v10 (broadcastInDim S100000x1 ![0] bcast_S100000_S100000x1_0),
    TRef.unary main_call7.v8 main_call7.v11 (broadcastInDim S100000x1 ![] bcast_S_S100000x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S100000x1 ![] bcast_S_S100000x1),
    TRef.ternary main_call7.v13 main_call7.v12 main_call7.call0.v1 main_call7.call0.v2 (fun p a b => select (broadcastInDim S100000x1 ![] bcast_S_S100000x1 p) a b),
    unary main_v179 main_v181 (broadcastInDim S100000x256 ![0, 1] bcast_S100000x1_S100000x256_0_1 : (⟨S100000x1, .f32⟩ : BufTy).Contents (Elt F) → (⟨S100000x256, .f32⟩ : BufTy).Contents (Elt F)),
    binary main_v171 main_v181 main_v182 (subf : (⟨S100000x256, .f32⟩ : BufTy).Contents (Elt F) → (⟨S100000x256, .f32⟩ : BufTy).Contents (Elt F) → (⟨S100000x256, .f32⟩ : BufTy).Contents (Elt F)),
    nullary main_cst_34 (constant S_ .f32 0x3727C5AC#32),
    unary main_cst_34 main_v183 (broadcastInDim S100000x1 ![] bcast_S_S100000x1 : (⟨S_, .f32⟩ : BufTy).Contents (Elt F) → (⟨S100000x1, .f32⟩ : BufTy).Contents (Elt F)),
    binary main_v180 main_v183 main_v184 (addf : (⟨S100000x1, .f32⟩ : BufTy).Contents (Elt F) → (⟨S100000x1, .f32⟩ : BufTy).Contents (Elt F) → (⟨S100000x1, .f32⟩ : BufTy).Contents (Elt F)),
    unary main_v184 main_v185 (Host.rsqrt : (⟨S100000x1, .f32⟩ : BufTy).Contents (Elt F) → (⟨S100000x1, .f32⟩ : BufTy).Contents (Elt F)),
    unary main_v185 main_v186 (broadcastInDim S100000x256 ![0, 1] bcast_S100000x1_S100000x256_0_1 : (⟨S100000x1, .f32⟩ : BufTy).Contents (Elt F) → (⟨S100000x256, .f32⟩ : BufTy).Contents (Elt F)),
    binary main_v182 main_v186 main_v187 (mulf : (⟨S100000x256, .f32⟩ : BufTy).Contents (Elt F) → (⟨S100000x256, .f32⟩ : BufTy).Contents (Elt F) → (⟨S100000x256, .f32⟩ : BufTy).Contents (Elt F)),
    unary main_v173 main_v188 (broadcastInDim S1x256 ![1] bcast_S256_S1x256_1 : (⟨S256, .f32⟩ : BufTy).Contents (Elt F) → (⟨S1x256, .f32⟩ : BufTy).Contents (Elt F)),
    unary main_v188 main_v189 (broadcastInDim S100000x256 ![0, 1] bcast_S1x256_S100000x256_0_1 : (⟨S1x256, .f32⟩ : BufTy).Contents (Elt F) → (⟨S100000x256, .f32⟩ : BufTy).Contents (Elt F)),
    binary main_v187 main_v189 main_v190 (mulf : (⟨S100000x256, .f32⟩ : BufTy).Contents (Elt F) → (⟨S100000x256, .f32⟩ : BufTy).Contents (Elt F) → (⟨S100000x256, .f32⟩ : BufTy).Contents (Elt F)),
    unary main_v175 main_v191 (broadcastInDim S1x256 ![1] bcast_S256_S1x256_1 : (⟨S256, .f32⟩ : BufTy).Contents (Elt F) → (⟨S1x256, .f32⟩ : BufTy).Contents (Elt F)),
    unary main_v191 main_v192 (broadcastInDim S100000x256 ![0, 1] bcast_S1x256_S100000x256_0_1 : (⟨S1x256, .f32⟩ : BufTy).Contents (Elt F) → (⟨S100000x256, .f32⟩ : BufTy).Contents (Elt F)),
    binary main_v190 main_v192 main_v193 (addf : (⟨S100000x256, .f32⟩ : BufTy).Contents (Elt F) → (⟨S100000x256, .f32⟩ : BufTy).Contents (Elt F) → (⟨S100000x256, .f32⟩ : BufTy).Contents (Elt F)),
    TRef.nullary main_call8.cst (constant S_ .f32 0x00000000#32),
    TRef.unary main_call8.cst main_call8.v0 (broadcastInDim S100000x256 ![] bcast_S_S100000x256),
    TRef.binary (.of main_v193) main_call8.v0 main_call8.v1 maximumf,
    unary main_arg5 main_v195 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v195 main_v196 rfl shapeCasts_S1x256x256_S256x256,
    binary main_v194 main_v196 main_v197 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v198 ((extractStridedSlice S1x256 ![3, 0] · slices_S4x256_S1x256_3_0) : (⟨S4x256, .f32⟩ : BufTy).Contents (Elt F) → (⟨S1x256, .f32⟩ : BufTy).Contents (Elt F)),
    reshape main_v198 main_v199 rfl shapeCasts_S1x256_S256,
    unary main_v199 main_v200 (broadcastInDim S1x256 ![1] bcast_S256_S1x256_1 : (⟨S256, .f32⟩ : BufTy).Contents (Elt F) → (⟨S1x256, .f32⟩ : BufTy).Contents (Elt F)),
    unary main_v200 main_v201 (broadcastInDim S100000x256 ![0, 1] bcast_S1x256_S100000x256_0_1 : (⟨S1x256, .f32⟩ : BufTy).Contents (Elt F) → (⟨S100000x256, .f32⟩ : BufTy).Contents (Elt F)),
    binary main_v197 main_v201 main_v202 (addf : (⟨S100000x256, .f32⟩ : BufTy).Contents (Elt F) → (⟨S100000x256, .f32⟩ : BufTy).Contents (Elt F) → (⟨S100000x256, .f32⟩ : BufTy).Contents (Elt F)) ]

theorem ln3_sub : (ln3 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem ln3_fresh : ∀ op ∈ (ln3 : List (HloOp τ sig (Elt F))), op.fresh = ∅ := by
  intro _ h; (repeat (cases h with | head => rfl | tail _ h => ?_)); exact nomatch h

/-- The buffers `vv2_b` writes, one per operation, in order. -/
abbrev vv2_bW : List (Ref sig .tc) :=
  [main_cst_27, main_v151, main_v152, main_v153, main_v154, main_v155, main_v156, main_c_28, main_v157, main_v158, main_c_29, main_v159, main_v160, main_v161, main_v162, main_v163, main_cst_30, main_v164, main_v165, main_v166, main_v167, main_v168, main_v169]

theorem vv2_b_writes : (vv2_b : List (HloOp τ sig (Elt F))).Forall fun op => op.writes ⊆ ((vv2_bW).map (Proc.devRef (τ := τ) .tc)).toFinset := by
  simp only [vv2_b, List.Forall, nullary_writes, unary_writes, binary_writes, ternary_writes, reshape_writes, Finset.singleton_subset_iff, List.mem_toFinset]
  repeat' apply And.intro
  all_goals exact List.mem_map_of_mem (by decide)

/-- A buffer outside that list keeps its contents across `vv2_b`. -/
theorem vv2_b_keeps (V : Valuation τ sig (Elt F)) {r : Ref sig .tc} (hr : r ∉ vv2_bW) :
    after vv2_b V (Proc.devRef .tc r) = V (Proc.devRef .tc r) :=
  after_of_writes_sub vv2_b V vv2_b_writes hr

/-- The buffers `res2` writes, one per operation, in order. -/
abbrev res2W : List (Ref sig .tc) :=
  [main_call6.cst.ref, main_call6.v0.ref, main_call6.v1.ref, main_v171]

theorem res2_writes : (res2 : List (HloOp τ sig (Elt F))).Forall fun op => op.writes ⊆ ((res2W).map (Proc.devRef (τ := τ) .tc)).toFinset := by
  simp only [res2, List.Forall, nullary_writes, unary_writes, binary_writes, ternary_writes, reshape_writes, Finset.singleton_subset_iff, List.mem_toFinset]
  repeat' apply And.intro
  all_goals exact List.mem_map_of_mem (by decide)

/-- A buffer outside that list keeps its contents across `res2`. -/
theorem res2_keeps (V : Valuation τ sig (Elt F)) {r : Ref sig .tc} (hr : r ∉ res2W) :
    after res2 V (Proc.devRef .tc r) = V (Proc.devRef .tc r) :=
  after_of_writes_sub res2 V res2_writes hr

/-- The buffers `ln3` writes, one per operation, in order. -/
abbrev ln3W : List (Ref sig .tc) :=
  [main_v172, main_v173, main_v174, main_v175, main_cst_31, main_v176, main_v177, main_cst_32, main_v178, main_v179, main_c_33, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.v12.ref, main_call7.cst_3.ref, main_call7.v13.ref, main_call7.cst_4.ref, main_call7.call0.v0.ref, main_call7.call0.v1.ref, main_call7.call0.v2.ref, main_v181, main_v182, main_cst_34, main_v183, main_v184, main_v185, main_v186, main_v187, main_v188, main_v189, main_v190, main_v191, main_v192, main_v193, main_call8.cst.ref, main_call8.v0.ref, main_call8.v1.ref, main_v195, main_v196, main_v197, main_v198, main_v199, main_v200, main_v201, main_v202]

theorem ln3_writes : (ln3 : List (HloOp τ sig (Elt F))).Forall fun op => op.writes ⊆ ((ln3W).map (Proc.devRef (τ := τ) .tc)).toFinset := by
  simp only [ln3, List.Forall, nullary_writes, unary_writes, binary_writes, ternary_writes, reshape_writes, Finset.singleton_subset_iff, List.mem_toFinset]
  repeat' apply And.intro
  all_goals exact List.mem_map_of_mem (by decide)

/-- A buffer outside that list keeps its contents across `ln3`. -/
theorem ln3_keeps (V : Valuation τ sig (Elt F)) {r : Ref sig .tc} (hr : r ∉ ln3W) :
    after ln3 V (Proc.devRef .tc r) = V (Proc.devRef .tc r) :=
  after_of_writes_sub ln3 V ln3_writes hr

/-- This stretch of the program is the straight line of its lists. -/
theorem part3_eq (c : Dev nD) : main_part3 (F := F) c = seq (vv2_b ++ res2 ++ ln3) := by
  simp only [main_part3, fn_relu.body, fn_var.body, fn_where.body, vv2_b, res2, ln3, List.cons_append, List.nil_append, seq, bind_assoc, pure_bind]
  rfl

end Cert.Hgnn.Ref.Ops

end
-- ==== Proof.RRunV2.lean ====
import proofs.«108867_j88295937671288_1_alg».proof.Proof.RModel
import proofs.«108867_j88295937671288_1_alg».proof.Proof.RRunP2
import proofs.«108867_j88295937671288_1_alg».proof.Proof.RRunP3

/-!
# What the stages vv2 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one averaging's operations its result buffer holds `v2v` of the two index arrays, the two reciprocal degrees and the features it was given. -/
theorem vv2_out (V : Valuation τ sig (Elt Ideal)) :
    after (Ops.vv2_b (F := Ideal)) (after (Ops.vv2_a (F := Ideal)) V) (Proc.devRef .tc main_v169)
      = v2v (V (Proc.devRef .tc main_arg1)) (V (Proc.devRef .tc main_arg2)) (V (Proc.devRef .tc main_v7)) (V (Proc.devRef .tc main_v14)) (V (Proc.devRef .tc main_v143)) := by
  simp only [Ops.vv2_a, Ops.vv2_b]
  after_results_simp
  rfl

end Cert.Hgnn.Ref.Stage

end
-- ==== Proof.RRunL3.lean ====
import proofs.«108867_j88295937671288_1_alg».proof.Proof.RModel
import proofs.«108867_j88295937671288_1_alg».proof.Proof.RRunP3

/-!
# What the stages res2, ln3 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one residual step's operations its result buffer holds `residual` of the averaged and the carried features. -/
theorem res2_out (V : Valuation τ sig (Elt Ideal)) :
    after (Ops.res2 (F := Ideal)) V (Proc.devRef .tc main_v171)
      = residual (V (Proc.devRef .tc main_v169)) (V (Proc.devRef .tc main_v112)) := by
  simp only [Ops.res2]
  after_results_simp
  rfl

/-- After one normalised layer's operations its result buffer holds that layer's function of the carried features and the stacked parameters. -/
theorem ln3_out (V : Valuation τ sig (Elt Ideal)) :
    after (Ops.ln3 (F := Ideal)) V (Proc.devRef .tc main_v202)
      = lnLayer3 (V (Proc.devRef .tc main_v171)) (V (Proc.devRef .tc main_arg7)) (V (Proc.devRef .tc main_arg8)) (V (Proc.devRef .tc main_arg5)) (V (Proc.devRef .tc main_arg6)) := by
  simp only [Ops.ln3]
  after_results_simp
  rfl

end Cert.Hgnn.Ref.Stage

end
-- ==== Proof.RRunP4.lean ====
import proofs.«108867_j88295937671288_1_alg».proof.Proof.Gen.ReferenceIdeal
import Idealize.ShloMosaic.Lib.StableHlo.Run

/-!
# The reference's host operations 241 … 300, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- One vertex-to-hyperedge-to-vertex averaging: index wrap, gather by vertex, scatter-add by hyperedge, scale, index wrap, gather by hyperedge, scatter-add by vertex, scale. -/
abbrev vv3 : List (HloOp τ sig (Elt F)) :=
  [ nullary main_c_35 (constantI S_ 32 0#32),
    unary main_c_35 main_v203 (broadcastInDim S800000 ![] bcast_S_S800000 : (⟨S_, .i32⟩ : BufTy).Contents (Elt F) → (⟨S800000, .i32⟩ : BufTy).Contents (Elt F)),
    binary main_arg1 main_v203 main_v204 (cmpi .slt : (⟨S800000, .i32⟩ : BufTy).Contents (Elt F) → (⟨S800000, .i32⟩ : BufTy).Contents (Elt F) → (⟨S800000, .i1⟩ : BufTy).Contents (Elt F)),
    nullary main_c_36 (constantI S_ 32 100000#32),
    unary main_c_36 main_v205 (broadcastInDim S800000 ![] bcast_S_S800000 : (⟨S_, .i32⟩ : BufTy).Contents (Elt F) → (⟨S800000, .i32⟩ : BufTy).Contents (Elt F)),
    binary main_arg1 main_v205 main_v206 (addi : (⟨S800000, .i32⟩ : BufTy).Contents (Elt F) → (⟨S800000, .i32⟩ : BufTy).Contents (Elt F) → (⟨S800000, .i32⟩ : BufTy).Contents (Elt F)),
    ternary main_v204 main_v206 main_arg1 main_v207 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v207 main_v208 (broadcastInDim S800000x1 ![0] bcast_S800000_S800000x1_0 : (⟨S800000, .i32⟩ : BufTy).Contents (Elt F) → (⟨S800000x1, .i32⟩ : BufTy).Contents (Elt F)),
    binary main_v202 main_v208 main_v209 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_37 (constant S_ .f32 0x00000000#32),
    unary main_cst_37 main_v210 (broadcastInDim S20000x256 ![] bcast_S_S20000x256 : (⟨S_, .f32⟩ : BufTy).Contents (Elt F) → (⟨S20000x256, .f32⟩ : BufTy).Contents (Elt F)),
    unary main_arg2 main_v211 (broadcastInDim S800000x1 ![0] bcast_S800000_S800000x1_0 : (⟨S800000, .i32⟩ : BufTy).Contents (Elt F) → (⟨S800000x1, .i32⟩ : BufTy).Contents (Elt F)),
    ternary main_v210 main_v211 main_v209 main_v212 ((fun x i u => Host.scatterAdd scatter_S20000x256_S800000x1_S800000x256_1_0_0_1 x i u) : (⟨S20000x256, .f32⟩ : BufTy).Contents (Elt F) → (⟨S800000x1, .i32⟩ : BufTy).Contents (Elt F) → (⟨S800000x256, .f32⟩ : BufTy).Contents (Elt F) → (⟨S20000x256, .f32⟩ : BufTy).Contents (Elt F)),
    unary main_v7 main_v213 (broadcastInDim S20000x1 ![0] bcast_S20000_S20000x1_0 : (⟨S20000, .f32⟩ : BufTy).Contents (Elt F) → (⟨S20000x1, .f32⟩ : BufTy).Contents (Elt F)),
    unary main_v213 main_v214 (broadcastInDim S20000x256 ![0, 1] bcast_S20000x1_S20000x256_0_1 : (⟨S20000x1, .f32⟩ : BufTy).Contents (Elt F) → (⟨S20000x256, .f32⟩ : BufTy).Contents (Elt F)),
    binary main_v212 main_v214 main_v215 (mulf : (⟨S20000x256, .f32⟩ : BufTy).Contents (Elt F) → (⟨S20000x256, .f32⟩ : BufTy).Contents (Elt F) → (⟨S20000x256, .f32⟩ : BufTy).Contents (Elt F)),
    nullary main_c_38 (constantI S_ 32 0#32),
    unary main_c_38 main_v216 (broadcastInDim S800000 ![] bcast_S_S800000 : (⟨S_, .i32⟩ : BufTy).Contents (Elt F) → (⟨S800000, .i32⟩ : BufTy).Contents (Elt F)),
    binary main_arg2 main_v216 main_v217 (cmpi .slt : (⟨S800000, .i32⟩ : BufTy).Contents (Elt F) → (⟨S800000, .i32⟩ : BufTy).Contents (Elt F) → (⟨S800000, .i1⟩ : BufTy).Contents (Elt F)),
    nullary main_c_39 (constantI S_ 32 20000#32),
    unary main_c_39 main_v218 (broadcastInDim S800000 ![] bcast_S_S800000 : (⟨S_, .i32⟩ : BufTy).Contents (Elt F) → (⟨S800000, .i32⟩ : BufTy).Contents (Elt F)),
    binary main_arg2 main_v218 main_v219 (addi : (⟨S800000, .i32⟩ : BufTy).Contents (Elt F) → (⟨S800000, .i32⟩ : BufTy).Contents (Elt F) → (⟨S800000, .i32⟩ : BufTy).Contents (Elt F)),
    ternary main_v217 main_v219 main_arg2 main_v220 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v220 main_v221 (broadcastInDim S800000x1 ![0] bcast_S800000_S800000x1_0 : (⟨S800000, .i32⟩ : BufTy).Contents (Elt F) → (⟨S800000x1, .i32⟩ : BufTy).Contents (Elt F)),
    binary main_v215 main_v221 main_v222 ((fun x i => Host.gather gather_S20000x256_S800000x1_S800000x256_1_0_n_n_0_1_1256 x i) : (⟨S20000x256, .f32⟩ : BufTy).Contents (Elt F) → (⟨S800000x1, .i32⟩ : BufTy).Contents (Elt F) → (⟨S800000x256, .f32⟩ : BufTy).Contents (Elt F)),
    nullary main_cst_40 (constant S_ .f32 0x00000000#32),
    unary main_cst_40 main_v223 (broadcastInDim S100000x256 ![] bcast_S_S100000x256 : (⟨S_, .f32⟩ : BufTy).Contents (Elt F) → (⟨S100000x256, .f32⟩ : BufTy).Contents (Elt F)),
    unary main_arg1 main_v224 (broadcastInDim S800000x1 ![0] bcast_S800000_S800000x1_0 : (⟨S800000, .i32⟩ : BufTy).Contents (Elt F) → (⟨S800000x1, .i32⟩ : BufTy).Contents (Elt F)),
    ternary main_v223 main_v224 main_v222 main_v225 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v14 main_v226 (broadcastInDim S100000x1 ![0] bcast_S100000_S100000x1_0 : (⟨S100000, .f32⟩ : BufTy).Contents (Elt F) → (⟨S100000x1, .f32⟩ : BufTy).Contents (Elt F)),
    unary main_v226 main_v227 (broadcastInDim S100000x256 ![0, 1] bcast_S100000x1_S100000x256_0_1 : (⟨S100000x1, .f32⟩ : BufTy).Contents (Elt F) → (⟨S100000x256, .f32⟩ : BufTy).Contents (Elt F)),
    binary main_v225 main_v227 main_v228 (mulf : (⟨S100000x256, .f32⟩ : BufTy).Contents (Elt F) → (⟨S100000x256, .f32⟩ : BufTy).Contents (Elt F) → (⟨S100000x256, .f32⟩ : BufTy).Contents (Elt F)) ]

theorem vv3_sub : (vv3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem vv3_fresh : ∀ op ∈ (vv3 : List (HloOp τ sig (Elt F))), op.fresh = ∅ := by
  intro _ h; (repeat (cases h with | head => rfl | tail _ h => ?_)); exact nomatch h

/-- One residual step: the relu of the averaged features added to the carried features. -/
abbrev res3 : List (HloOp τ sig (Elt F)) :=
  [ TRef.nullary main_call9.cst (constant S_ .f32 0x00000000#32),
    TRef.unary main_call9.cst main_call9.v0 (broadcastInDim S100000x256 ![] bcast_S_S100000x256),
    TRef.binary (.of main_v228) main_call9.v0 main_call9.v1 maximumf,
    binary main_v171 main_v229 main_v230 (addf : (⟨S100000x256, .f32⟩ : BufTy).Contents (Elt F) → (⟨S100000x256, .f32⟩ : BufTy).Contents (Elt F) → (⟨S100000x256, .f32⟩ : BufTy).Contents (Elt F)) ]

theorem res3_sub : (res3 : List (HloOp τ sig (Elt F))).Forall fun op => op.bufs ⊆ tcRefs τ sig :=
  ⟨nullary_bufs_sub .., unary_bufs_sub .., binary_bufs_sub .., binary_bufs_sub ..⟩

theorem res3_fresh : ∀ op ∈ (res3 : List (HloOp τ sig (Elt F))), op.fresh = ∅ := by
  intro _ h; (repeat (cases h with | head => rfl | tail _ h => ?_)); exact nomatch h

/-- The read-out: layer norm with row 0, relu, the 256 × 16 contraction, plus the bias row (the first operations of it). -/
abbrev fin_a : List (HloOp τ sig (Elt F)) :=
  [ unary main_arg7 main_v231 ((extractStridedSlice S1x256 ![0, 0] · slices_S4x256_S1x256_0_0) : (⟨S4x256, .f32⟩ : BufTy).Contents (Elt F) → (⟨S1x256, .f32⟩ : BufTy).Contents (Elt F)),
    reshape main_v231 main_v232 rfl shapeCasts_S1x256_S256,
    unary main_arg8 main_v233 ((extractStridedSlice S1x256 ![0, 0] · slices_S4x256_S1x256_0_0) : (⟨S4x256, .f32⟩ : BufTy).Contents (Elt F) → (⟨S1x256, .f32⟩ : BufTy).Contents (Elt F)),
    reshape main_v233 main_v234 rfl shapeCasts_S1x256_S256,
    nullary main_cst_41 (constant S_ .f32 0x00000000#32),
    binary main_v230 main_cst_41 main_v235 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v235 main_v236 (broadcastInDim S100000x1 ![0] bcast_S100000_S100000x1_0 : (⟨S100000, .f32⟩ : BufTy).Contents (Elt F) → (⟨S100000x1, .f32⟩ : BufTy).Contents (Elt F)),
    nullary main_cst_42 (constant S_ .f32 0x43800000#32),
    unary main_cst_42 main_v237 (broadcastInDim S100000x1 ![] bcast_S_S100000x1 : (⟨S_, .f32⟩ : BufTy).Contents (Elt F) → (⟨S100000x1, .f32⟩ : BufTy).Contents (Elt F)),
    binary main_v236 main_v237 main_v238 (Host.divf : (⟨S100000x1, .f32⟩ : BufTy).Contents (Elt F) → (⟨S100000x1, .f32⟩ : BufTy).Contents (Elt F) → (⟨S100000x1, .f32⟩ : BufTy).Contents (Elt F)),
    nullary main_c_43 (constantI S_ 32 0#32),
    TRef.nullary main_call10.cst (constant S_ .f32 0x00000000#32),
    TRef.binary (.of main_v230) main_call10.cst main_call10.v0 (fun x v => Host.reduceAdd x v reducesTo_S100000x256_S100000_d1 h_S_),
    TRef.unary main_call10.v0 main_call10.v1 (broadcastInDim S100000x1 ![0] bcast_S100000_S100000x1_0),
    TRef.nullary main_call10.cst_0 (constant S_ .f32 0x43800000#32),
    TRef.unary main_call10.cst_0 main_call10.v2 (broadcastInDim S100000x1 ![] bcast_S_S100000x1),
    TRef.binary main_call10.v1 main_call10.v2 main_call10.v3 Host.divf,
    TRef.unary main_call10.v3 main_call10.v4 (broadcastInDim S100000x256 ![0, 1] bcast_S100000x1_S100000x256_0_1),
    TRef.binary (.of main_v230) main_call10.v4 main_call10.v5 subf,
    TRef.binary main_call10.v5 main_call10.v5 main_call10.v6 mulf,
    TRef.unary (.of main_c_43) main_call10.v7 (sitofp .f32),
    TRef.nullary main_call10.cst_1 (constant S_ .f32 0x43800000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x256_S100000_d1 h_S_),
    TRef.unary main_call10.v9 main_call10.v10 (broadcastInDim S100000x1 ![0] bcast_S100000_S100000x1_0),
    TRef.unary main_call10.v8 main_call10.v11 (broadcastInDim S100000x1 ![] bcast_S_S100000x1),
    TRef.binary main_call10.v10 main_call10.v11 main_call10.v12 Host.divf,
    TRef.nullary main_call10.cst_3 (constant S_ .f32 0x00000000#32),
    TRef.binary main_call10.v8 main_call10.cst_3 main_call10.v13 (cmpf .ogt),
    TRef.nullary main_call10.cst_4 (constant S_ .f32 0x7FC00000#32),
    TRef.unary main_call10.cst_4 main_call10.call0.v0 id,
    TRef.unary main_call10.call0.v0 main_call10.call0.v1 (broadcastInDim S100000x1 ![] bcast_S_S100000x1),
    TRef.ternary main_call10.v13 main_call10.v12 main_call10.call0.v1 main_call10.call0.v2 (fun p a b => select (broadcastInDim S100000x1 ![] bcast_S_S100000x1 p) a b),
    unary main_v238 main_v240 (broadcastInDim S100000x256 ![0, 1] bcast_S100000x1_S100000x256_0_1 : (⟨S100000x1, .f32⟩ : BufTy).Contents (Elt F) → (⟨S100000x256, .f32⟩ : BufTy).Contents (Elt F)),
    binary main_v230 main_v240 main_v241 (subf : (⟨S100000x256, .f32⟩ : BufTy).Contents (Elt F) → (⟨S100000x256, .f32⟩ : BufTy).Contents (Elt F) → (⟨S100000x256, .f32⟩ : BufTy).Contents (Elt F)),
    nullary main_cst_44 (constant S_ .f32 0x3727C5AC#32),
    unary main_cst_44 main_v242 (broadcastInDim S100000x1 ![] bcast_S_S100000x1 : (⟨S_, .f32⟩ : BufTy).Contents (Elt F) → (⟨S100000x1, .f32⟩ : BufTy).Contents (Elt F)),
    binary main_v239 main_v242 main_v243 (addf : (⟨S100000x1, .f32⟩ : BufTy).Contents (Elt F) → (⟨S100000x1, .f32⟩ : BufTy).Contents (Elt F) → (⟨S100000x1, .f32⟩ : BufTy).Contents (Elt F)),
    unary main_v243 main_v244 (Host.rsqrt : (⟨S100000x1, .f32⟩ : BufTy).Contents (Elt F) → (⟨S100000x1, .f32⟩ : BufTy).Contents (Elt F)),
    unary main_v244 main_v245 (broadcastInDim S100000x256 ![0, 1] bcast_S100000x1_S100000x256_0_1 : (⟨S100000x1, .f32⟩ : BufTy).Contents (Elt F) → (⟨S100000x256, .f32⟩ : BufTy).Contents (Elt F)),
    binary main_v241 main_v245 main_v246 (mulf : (⟨S100000x256, .f32⟩ : BufTy).Contents (Elt F) → (⟨S100000x256, .f32⟩ : BufTy).Contents (Elt F) → (⟨S100000x256, .f32⟩ : BufTy).Contents (Elt F)),
    unary main_v232 main_v247 (broadcastInDim S1x256 ![1] bcast_S256_S1x256_1 : (⟨S256, .f32⟩ : BufTy).Contents (Elt F) → (⟨S1x256, .f32⟩ : BufTy).Contents (Elt F)),
    unary main_v247 main_v248 (broadcastInDim S100000x256 ![0, 1] bcast_S1x256_S100000x256_0_1 : (⟨S1x256, .f32⟩ : BufTy).Contents (Elt F) → (⟨S100000x256, .f32⟩ : BufTy).Contents (Elt F)),
    binary main_v246 main_v248 main_v249 (mulf : (⟨S100000x256, .f32⟩ : BufTy).Contents (Elt F) → (⟨S100000x256, .f32⟩ : BufTy).Contents (Elt F) → (⟨S100000x256, .f32⟩ : BufTy).Contents (Elt F)),
    unary main_v234 main_v250 (broadcastInDim S1x256 ![1] bcast_S256_S1x256_1 : (⟨S256, .f32⟩ : BufTy).Contents (Elt F) → (⟨S1x256, .f32⟩ : BufTy).Contents (Elt F)),
    unary main_v250 main_v251 (broadcastInDim S100000x256 ![0, 1] bcast_S1x256_S100000x256_0_1 : (⟨S1x256, .f32⟩ : BufTy).Contents (Elt F) → (⟨S100000x256, .f32⟩ : BufTy).Contents (Elt F)),
    binary main_v249 main_v251 main_v252 (addf : (⟨S100000x256, .f32⟩ : BufTy).Contents (Elt F) → (⟨S100000x256, .f32⟩ : BufTy).Contents (Elt F) → (⟨S100000x256, .f32⟩ : BufTy).Contents (Elt F)) ]

theorem fin_a_sub : (fin_a : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem fin_a_fresh : ∀ op ∈ (fin_a : List (HloOp τ sig (Elt F))), op.fresh = ∅ := by
  intro _ h; (repeat (cases h with | head => rfl | tail _ h => ?_)); exact nomatch h

/-- The buffers `vv3` writes, one per operation, in order. -/
abbrev vv3W : List (Ref sig .tc) :=
  [main_c_35, main_v203, main_v204, main_c_36, main_v205, main_v206, main_v207, main_v208, main_v209, main_cst_37, main_v210, main_v211, main_v212, main_v213, main_v214, main_v215, main_c_38, main_v216, main_v217, main_c_39, main_v218, main_v219, main_v220, main_v221, main_v222, main_cst_40, main_v223, main_v224, main_v225, main_v226, main_v227, main_v228]

theorem vv3_writes : (vv3 : List (HloOp τ sig (Elt F))).Forall fun op => op.writes ⊆ ((vv3W).map (Proc.devRef (τ := τ) .tc)).toFinset := by
  simp only [vv3, List.Forall, nullary_writes, unary_writes, binary_writes, ternary_writes, reshape_writes, Finset.singleton_subset_iff, List.mem_toFinset]
  repeat' apply And.intro
  all_goals exact List.mem_map_of_mem (by decide)

/-- A buffer outside that list keeps its contents across `vv3`. -/
theorem vv3_keeps (V : Valuation τ sig (Elt F)) {r : Ref sig .tc} (hr : r ∉ vv3W) :
    after vv3 V (Proc.devRef .tc r) = V (Proc.devRef .tc r) :=
  after_of_writes_sub vv3 V vv3_writes hr

/-- The buffers `res3` writes, one per operation, in order. -/
abbrev res3W : List (Ref sig .tc) :=
  [main_call9.cst.ref, main_call9.v0.ref, main_call9.v1.ref, main_v230]

theorem res3_writes : (res3 : List (HloOp τ sig (Elt F))).Forall fun op => op.writes ⊆ ((res3W).map (Proc.devRef (τ := τ) .tc)).toFinset := by
  simp only [res3, List.Forall, nullary_writes, unary_writes, binary_writes, ternary_writes, reshape_writes, Finset.singleton_subset_iff, List.mem_toFinset]
  repeat' apply And.intro
  all_goals exact List.mem_map_of_mem (by decide)

/-- A buffer outside that list keeps its contents across `res3`. -/
theorem res3_keeps (V : Valuation τ sig (Elt F)) {r : Ref sig .tc} (hr : r ∉ res3W) :
    after res3 V (Proc.devRef .tc r) = V (Proc.devRef .tc r) :=
  after_of_writes_sub res3 V res3_writes hr

/-- The buffers `fin_a` writes, one per operation, in order. -/
abbrev fin_aW : List (Ref sig .tc) :=
  [main_v231, main_v232, main_v233, main_v234, main_cst_41, main_v235, main_v236, main_cst_42, main_v237, main_v238, main_c_43, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.v12.ref, main_call10.cst_3.ref, main_call10.v13.ref, main_call10.cst_4.ref, main_call10.call0.v0.ref, main_call10.call0.v1.ref, main_call10.call0.v2.ref, main_v240, main_v241, main_cst_44, main_v242, main_v243, main_v244, main_v245, main_v246, main_v247, main_v248, main_v249, main_v250, main_v251, main_v252]

theorem fin_a_writes : (fin_a : List (HloOp τ sig (Elt F))).Forall fun op => op.writes ⊆ ((fin_aW).map (Proc.devRef (τ := τ) .tc)).toFinset := by
  simp only [fin_a, List.Forall, nullary_writes, unary_writes, binary_writes, ternary_writes, reshape_writes, Finset.singleton_subset_iff, List.mem_toFinset]
  repeat' apply And.intro
  all_goals exact List.mem_map_of_mem (by decide)

/-- A buffer outside that list keeps its contents across `fin_a`. -/
theorem fin_a_keeps (V : Valuation τ sig (Elt F)) {r : Ref sig .tc} (hr : r ∉ fin_aW) :
    after fin_a V (Proc.devRef .tc r) = V (Proc.devRef .tc r) :=
  after_of_writes_sub fin_a V fin_a_writes hr

/-- This stretch of the program is the straight line of its lists. -/
theorem part4_eq (c : Dev nD) : main_part4 (F := F) c = seq (vv3 ++ res3 ++ fin_a) := by
  simp only [main_part4, fn_relu.body, fn_var.body, fn_where.body, vv3, res3, fin_a, List.cons_append, List.nil_append, seq, bind_assoc, pure_bind]
  rfl

end Cert.Hgnn.Ref.Ops

end
-- ==== Proof.RRunV3.lean ====
import proofs.«108867_j88295937671288_1_alg».proof.Proof.RModel
import proofs.«108867_j88295937671288_1_alg».proof.Proof.RRunP4

/-!
# What the stages vv3, res3 of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After one averaging's operations its result buffer holds `v2v` of the two index arrays, the two reciprocal degrees and the features it was given. -/
theorem vv3_out (V : Valuation τ sig (Elt Ideal)) :
    after (Ops.vv3 (F := Ideal)) V (Proc.devRef .tc main_v228)
      = v2v (V (Proc.devRef .tc main_arg1)) (V (Proc.devRef .tc main_arg2)) (V (Proc.devRef .tc main_v7)) (V (Proc.devRef .tc main_v14)) (V (Proc.devRef .tc main_v202)) := by
  simp only [Ops.vv3]
  after_results_simp
  rfl

/-- After one residual step's operations its result buffer holds `residual` of the averaged and the carried features. -/
theorem res3_out (V : Valuation τ sig (Elt Ideal)) :
    after (Ops.res3 (F := Ideal)) V (Proc.devRef .tc main_v230)
      = residual (V (Proc.devRef .tc main_v228)) (V (Proc.devRef .tc main_v171)) := by
  simp only [Ops.res3]
  after_results_simp
  rfl

end Cert.Hgnn.Ref.Stage

end
-- ==== Proof.RRunP5.lean ====
import proofs.«108867_j88295937671288_1_alg».proof.Proof.Gen.ReferenceIdeal
import Idealize.ShloMosaic.Lib.StableHlo.Run

/-!
# The reference's host operations 301 … 305, as lists

The operations of this stretch of the reference in the order the program runs them, cut where one stage of the
network ends and the next begins; an outlined function's operations stand at its call site over that call's
own buffers. The stretch of the program is the straight line of these lists, one after the other.
-/

noncomputable section

namespace Cert.Hgnn.Ref.Ops

open Cert.ReferenceIdeal Cert.ReferenceIdeal.Gen Idealize.ShloMosaic Idealize.ShloMosaic.TcCoe Idealize.SL.Sem Idealize.ShloMosaic.StableHlo

variable {F : FTy → Type} [FloatOps F]

/-- The read-out: layer norm with row 0, relu, the 256 × 16 contraction, plus the bias row (the remaining operations of it). -/
abbrev fin_b : List (HloOp τ sig (Elt F)) :=
  [ TRef.nullary main_call11.cst (constant S_ .f32 0x00000000#32),
    TRef.unary main_call11.cst main_call11.v0 (broadcastInDim S100000x256 ![] bcast_S_S100000x256),
    TRef.binary (.of main_v252) main_call11.v0 main_call11.v1 maximumf,
    binary main_v253 main_arg9 main_v254 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    unary main_arg10 main_v255 (broadcastInDim S1x16 ![1] bcast_S16_S1x16_1 : (⟨S16, .f32⟩ : BufTy).Contents (Elt F) → (⟨S1x16, .f32⟩ : BufTy).Contents (Elt F)),
    unary main_v255 main_v256 (broadcastInDim S100000x16 ![0, 1] bcast_S1x16_S100000x16_0_1 : (⟨S1x16, .f32⟩ : BufTy).Contents (Elt F) → (⟨S100000x16, .f32⟩ : BufTy).Contents (Elt F)),
    binary main_v254 main_v256 main_v257 (addf : (⟨S100000x16, .f32⟩ : BufTy).Contents (Elt F) → (⟨S100000x16, .f32⟩ : BufTy).Contents (Elt F) → (⟨S100000x16, .f32⟩ : BufTy).Contents (Elt F)) ]

theorem fin_b_sub : (fin_b : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

theorem fin_b_fresh : ∀ op ∈ (fin_b : List (HloOp τ sig (Elt F))), op.fresh = ∅ := by
  intro _ h; (repeat (cases h with | head => rfl | tail _ h => ?_)); exact nomatch h

/-- The buffers `fin_b` writes, one per operation, in order. -/
abbrev fin_bW : List (Ref sig .tc) :=
  [main_call11.cst.ref, main_call11.v0.ref, main_call11.v1.ref, main_v254, main_v255, main_v256, main_v257]

theorem fin_b_writes : (fin_b : List (HloOp τ sig (Elt F))).Forall fun op => op.writes ⊆ ((fin_bW).map (Proc.devRef (τ := τ) .tc)).toFinset := by
  simp only [fin_b, List.Forall, nullary_writes, unary_writes, binary_writes, ternary_writes, reshape_writes, Finset.singleton_subset_iff, List.mem_toFinset]
  repeat' apply And.intro
  all_goals exact List.mem_map_of_mem (by decide)

/-- A buffer outside that list keeps its contents across `fin_b`. -/
theorem fin_b_keeps (V : Valuation τ sig (Elt F)) {r : Ref sig .tc} (hr : r ∉ fin_bW) :
    after fin_b V (Proc.devRef .tc r) = V (Proc.devRef .tc r) :=
  after_of_writes_sub fin_b V fin_b_writes hr

/-- This stretch of the program is the straight line of its lists. -/
theorem part5_eq (c : Dev nD) : main_part5 (F := F) c = seq (fin_b) := by
  simp only [main_part5, fn_relu.body, fn_var.body, fn_where.body, fin_b, List.cons_append, List.nil_append, seq, bind_assoc, pure_bind]

end Cert.Hgnn.Ref.Ops

end
-- ==== Proof.RRunFin.lean ====
import proofs.«108867_j88295937671288_1_alg».proof.Proof.RModel
import proofs.«108867_j88295937671288_1_alg».proof.Proof.RRunP4
import proofs.«108867_j88295937671288_1_alg».proof.Proof.RRunP5

/-!
# What the stages fin of the reference leave in their result buffers

For any contents `V` of the buffers before a stage, the fold of the stage's operations over `V`, read at the
stage's result buffer, is the stage's function (the composition of the same operations) of `V` at the buffers
the stage reads.
-/

noncomputable section

namespace Cert.Hgnn.Ref.Stage

open Cert.ReferenceIdeal Cert.ReferenceIdeal.Gen Idealize.ShloMosaic Idealize.ShloMosaic.TcCoe Idealize.SL.Sem Idealize.ShloMosaic.StableHlo Cert.Hgnn.Ref

/-- After the read-out's operations the result buffer holds `finalStage` of the carried features and the read-out parameters. -/
theorem fin_out (V : Valuation τ sig (Elt Ideal)) :
    after (Ops.fin_b (F := Ideal)) (after (Ops.fin_a (F := Ideal)) V) (Proc.devRef .tc main_v257)
      = finalStage (V (Proc.devRef .tc main_v230)) (V (Proc.devRef .tc main_arg7)) (V (Proc.devRef .tc main_arg8)) (V (Proc.devRef .tc main_arg9)) (V (Proc.devRef .tc main_arg10)) := by
  simp only [Ops.fin_a, Ops.fin_b]
  after_results_simp
  rfl

end Cert.Hgnn.Ref.Stage

end
-- ==== Proof.RRunLine.lean ====
import proofs.«108867_j88295937671288_1_alg».proof.Proof.RRunP0
import proofs.«108867_j88295937671288_1_alg».proof.Proof.RRunP1
import proofs.«108867_j88295937671288_1_alg».proof.Proof.RRunP2
import proofs.«108867_j88295937671288_1_alg».proof.Proof.RRunP3
import proofs.«108867_j88295937671288_1_alg».proof.Proof.RRunP4
import proofs.«108867_j88295937671288_1_alg».proof.Proof.RRunP5
import Idealize.ShloMosaic.Lib.StableHlo.Run

/-!
# The reference is one straight line of host operations

The program runs its six stretches in order and each stretch is the straight line of the lists of its stages, so
the program is the straight line of all of them. Every operation touches only buffers of the device and
determines its result, and the signature scopes nothing: from any memory with zero counters every weakly fair
execution terminates with each buffer at the fold of the operations over the launch contents.
-/

noncomputable section

namespace Cert.Hgnn.Ref

open Cert.ReferenceIdeal Cert.ReferenceIdeal.Gen Idealize.ShloMosaic Idealize.ShloMosaic.TcCoe Idealize.SL.Sem Idealize.ShloMosaic.StableHlo

section Line

variable {F : FTy → Type} [FloatOps F]

/-- Every operation of the reference, in order: the six stretches' lists. -/
abbrev ops : List (HloOp τ sig (Elt F)) :=
  (Ops.degs ++ Ops.enc ++ Ops.th0 ++ Ops.vv0_a) ++ (Ops.vv0_b ++ Ops.relu0 ++ Ops.ln1 ++ Ops.vv1_a) ++ (Ops.vv1_b ++ Ops.res1 ++ Ops.ln2 ++ Ops.vv2_a) ++ (Ops.vv2_b ++ Ops.res2 ++ Ops.ln3) ++ (Ops.vv3 ++ Ops.res3 ++ Ops.fin_a) ++ (Ops.fin_b)

/-- The program is that straight line: each stretch is the line of its lists, and lines run one after the other
    are their concatenation run as one. -/
theorem main_eq (c : Dev nD) : main (F := F) c = seq ops := by
  rw [show main (F := F) c = (main_part0 c >>= fun _ => main_part1 c >>= fun _ => main_part2 c >>= fun _ =>
        main_part3 c >>= fun _ => main_part4 c >>= fun _ => main_part5 c) from rfl,
    Ops.part0_eq c, Ops.part1_eq c, Ops.part2_eq c, Ops.part3_eq c, Ops.part4_eq c, Ops.part5_eq c]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem app_forall {α : Type} {p : α → Prop} {a b : List α} (ha : a.Forall p) (hb : b.Forall p) : (a ++ b).Forall p :=
  List.forall_append.mpr ⟨ha, hb⟩

theorem app_mem {α : Type} {p : α → Prop} {a b : List α} (ha : ∀ x ∈ a, p x) (hb : ∀ x ∈ b, p x) : ∀ x ∈ a ++ b, p x :=
  fun x h => (List.mem_append.mp h).elim (ha x) (hb x)

theorem ops_sub : (ops : List (HloOp τ sig (Elt F))).Forall fun op => op.bufs ⊆ tcRefs τ sig :=
  (app_forall (app_forall (app_forall (app_forall (app_forall (app_forall (app_forall (app_forall Ops.degs_sub Ops.enc_sub) Ops.th0_sub) Ops.vv0_a_sub) (app_forall (app_forall (app_forall Ops.vv0_b_sub Ops.relu0_sub) Ops.ln1_sub) Ops.vv1_a_sub)) (app_forall (app_forall (app_forall Ops.vv1_b_sub Ops.res1_sub) Ops.ln2_sub) Ops.vv2_a_sub)) (app_forall (app_forall Ops.vv2_b_sub Ops.res2_sub) Ops.ln3_sub)) (app_forall (app_forall Ops.vv3_sub Ops.res3_sub) Ops.fin_a_sub)) Ops.fin_b_sub)

theorem ops_fresh : ∀ op ∈ (ops : List (HloOp τ sig (Elt F))), op.fresh = ∅ :=
  (app_mem (app_mem (app_mem (app_mem (app_mem (app_mem (app_mem (app_mem Ops.degs_fresh Ops.enc_fresh) Ops.th0_fresh) Ops.vv0_a_fresh) (app_mem (app_mem (app_mem Ops.vv0_b_fresh Ops.relu0_fresh) Ops.ln1_fresh) Ops.vv1_a_fresh)) (app_mem (app_mem (app_mem Ops.vv1_b_fresh Ops.res1_fresh) Ops.ln2_fresh) Ops.vv2_a_fresh)) (app_mem (app_mem Ops.vv2_b_fresh Ops.res2_fresh) Ops.ln3_fresh)) (app_mem (app_mem Ops.vv3_fresh Ops.res3_fresh) Ops.fin_a_fresh)) Ops.fin_b_fresh)

/-- From any memory with zero counters every weakly fair execution of the reference terminates with each buffer
    at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Line

end Cert.Hgnn.Ref

end
-- ==== Proof.RRun.lean ====
import proofs.«108867_j88295937671288_1_alg».proof.Proof.RRunSA
import proofs.«108867_j88295937671288_1_alg».proof.Proof.RRunV0
import proofs.«108867_j88295937671288_1_alg».proof.Proof.RRunL1
import proofs.«108867_j88295937671288_1_alg».proof.Proof.RRunV1
import proofs.«108867_j88295937671288_1_alg».proof.Proof.RRunL2
import proofs.«108867_j88295937671288_1_alg».proof.Proof.RRunV2
import proofs.«108867_j88295937671288_1_alg».proof.Proof.RRunL3
import proofs.«108867_j88295937671288_1_alg».proof.Proof.RRunV3
import proofs.«108867_j88295937671288_1_alg».proof.Proof.RRunFin
import proofs.«108867_j88295937671288_1_alg».proof.Proof.RRunLine
import Idealize.ShloMosaic.Lib.StableHlo.Run
import Idealize.ShloMosaic.Lib.Pipeline.Frame

/-!
# The reference's run

Every weakly fair execution of the reference terminates with each buffer at the fold of its operations over the
launch contents. Read at the result buffer, the fold is walked back stage by stage: a
stage's result is its function of what the stage read, a buffer a stage does not write keeps its contents, and
so the result is `Ref.model` of the eleven argument arrays; no operation writes an argument.
-/

noncomputable section

namespace Cert.Hgnn.Ref

open Cert.ReferenceIdeal Cert.ReferenceIdeal.Gen Idealize.ShloMosaic Idealize.ShloMosaic.TcCoe Idealize.SL.Sem Idealize.ShloMosaic.StableHlo

/-- The fold at the result buffer is the model of the launch contents of the eleven arguments: each stage's
    result is its function of what it read, and what a stage does not write it keeps. -/
theorem value (V : Valuation τ sig (Elt Ideal)) :
    after (ops (F := Ideal)) V (Proc.devRef .tc main_v257)
      = model (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold model
  simp only [ops, StableHlo.after_append]
  rw [Stage.fin_out]
  rw [Stage.res3_out,
    Ops.res3_keeps _ (r := main_arg7) (by decide),
    Ops.res3_keeps _ (r := main_arg8) (by decide),
    Ops.res3_keeps _ (r := main_arg9) (by decide),
    Ops.res3_keeps _ (r := main_arg10) (by decide)]
  rw [Stage.vv3_out,
    Ops.vv3_keeps _ (r := main_v171) (by decide),
    Ops.vv3_keeps _ (r := main_arg7) (by decide),
    Ops.vv3_keeps _ (r := main_arg8) (by decide),
    Ops.vv3_keeps _ (r := main_arg9) (by decide),
    Ops.vv3_keeps _ (r := main_arg10) (by decide)]
  rw [Ops.ln3_keeps _ (r := main_arg1) (by decide),
    Ops.ln3_keeps _ (r := main_arg2) (by decide),
    Ops.ln3_keeps _ (r := main_v7) (by decide),
    Ops.ln3_keeps _ (r := main_v14) (by decide),
    Stage.ln3_out,
    Ops.ln3_keeps _ (r := main_v171) (by decide),
    Ops.ln3_keeps _ (r := main_arg7) (by decide),
    Ops.ln3_keeps _ (r := main_arg8) (by decide),
    Ops.ln3_keeps _ (r := main_arg9) (by decide),
    Ops.ln3_keeps _ (r := main_arg10) (by decide)]
  rw [Ops.res2_keeps _ (r := main_arg1) (by decide),
    Ops.res2_keeps _ (r := main_arg2) (by decide),
    Ops.res2_keeps _ (r := main_v7) (by decide),
    Ops.res2_keeps _ (r := main_v14) (by decide),
    Stage.res2_out,
    Ops.res2_keeps _ (r := main_arg7) (by decide),
    Ops.res2_keeps _ (r := main_arg8) (by decide),
    Ops.res2_keeps _ (r := main_arg5) (by decide),
    Ops.res2_keeps _ (r := main_arg6) (by decide),
    Ops.res2_keeps _ (r := main_arg9) (by decide),
    Ops.res2_keeps _ (r := main_arg10) (by decide)]
  rw [Ops.vv2_b_keeps _ (r := main_arg1) (by decide),
    Ops.vv2_b_keeps _ (r := main_arg2) (by decide),
    Ops.vv2_b_keeps _ (r := main_v7) (by decide),
    Ops.vv2_b_keeps _ (r := main_v14) (by decide),
    Stage.vv2_out,
    Ops.vv2_b_keeps _ (r := main_v112) (by decide),
    Ops.vv2_b_keeps _ (r := main_arg7) (by decide),
    Ops.vv2_b_keeps _ (r := main_arg8) (by decide),
    Ops.vv2_b_keeps _ (r := main_arg5) (by decide),
    Ops.vv2_b_keeps _ (r := main_arg6) (by decide),
    Ops.vv2_b_keeps _ (r := main_arg9) (by decide),
    Ops.vv2_b_keeps _ (r := main_arg10) (by decide)]
  rw [Ops.vv2_a_keeps _ (r := main_arg1) (by decide),
    Ops.vv2_a_keeps _ (r := main_arg2) (by decide),
    Ops.vv2_a_keeps _ (r := main_v7) (by decide),
    Ops.vv2_a_keeps _ (r := main_v14) (by decide),
    Ops.vv2_a_keeps _ (r := main_v112) (by decide),
    Ops.vv2_a_keeps _ (r := main_arg7) (by decide),
    Ops.vv2_a_keeps _ (r := main_arg8) (by decide),
    Ops.vv2_a_keeps _ (r := main_arg5) (by decide),
    Ops.vv2_a_keeps _ (r := main_arg6) (by decide),
    Ops.vv2_a_keeps _ (r := main_arg9) (by decide),
    Ops.vv2_a_keeps _ (r := main_arg10) (by decide)]
  rw [Ops.ln2_keeps _ (r := main_arg1) (by decide),
    Ops.ln2_keeps _ (r := main_arg2) (by decide),
    Ops.ln2_keeps _ (r := main_v7) (by decide),
    Ops.ln2_keeps _ (r := main_v14) (by decide),
    Stage.ln2_out,
    Ops.ln2_keeps _ (r := main_v112) (by decide),
    Ops.ln2_keeps _ (r := main_arg7) (by decide),
    Ops.ln2_keeps _ (r := main_arg8) (by decide),
    Ops.ln2_keeps _ (r := main_arg5) (by decide),
    Ops.ln2_keeps _ (r := main_arg6) (by decide),
    Ops.ln2_keeps _ (r := main_arg9) (by decide),
    Ops.ln2_keeps _ (r := main_arg10) (by decide)]
  rw [Ops.res1_keeps _ (r := main_arg1) (by decide),
    Ops.res1_keeps _ (r := main_arg2) (by decide),
    Ops.res1_keeps _ (r := main_v7) (by decide),
    Ops.res1_keeps _ (r := main_v14) (by decide),
    Stage.res1_out,
    Ops.res1_keeps _ (r := main_arg7) (by decide),
    Ops.res1_keeps _ (r := main_arg8) (by decide),
    Ops.res1_keeps _ (r := main_arg5) (by decide),
    Ops.res1_keeps _ (r := main_arg6) (by decide),
    Ops.res1_keeps _ (r := main_arg9) (by decide),
    Ops.res1_keeps _ (r := main_arg10) (by decide)]
  rw [Ops.vv1_b_keeps _ (r := main_arg1) (by decide),
    Ops.vv1_b_keeps _ (r := main_arg2) (by decide),
    Ops.vv1_b_keeps _ (r := main_v7) (by decide),
    Ops.vv1_b_keeps _ (r := main_v14) (by decide),
    Stage.vv1_out,
    Ops.vv1_b_keeps _ (r := main_v53) (by decide),
    Ops.vv1_b_keeps _ (r := main_arg7) (by decide),
    Ops.vv1_b_keeps _ (r := main_arg8) (by decide),
    Ops.vv1_b_keeps _ (r := main_arg5) (by decide),
    Ops.vv1_b_keeps _ (r := main_arg6) (by decide),
    Ops.vv1_b_keeps _ (r := main_arg9) (by decide),
    Ops.vv1_b_keeps _ (r := main_arg10) (by decide)]
  rw [Ops.vv1_a_keeps _ (r := main_arg1) (by decide),
    Ops.vv1_a_keeps _ (r := main_arg2) (by decide),
    Ops.vv1_a_keeps _ (r := main_v7) (by decide),
    Ops.vv1_a_keeps _ (r := main_v14) (by decide),
    Ops.vv1_a_keeps _ (r := main_v53) (by decide),
    Ops.vv1_a_keeps _ (r := main_arg7) (by decide),
    Ops.vv1_a_keeps _ (r := main_arg8) (by decide),
    Ops.vv1_a_keeps _ (r := main_arg5) (by decide),
    Ops.vv1_a_keeps _ (r := main_arg6) (by decide),
    Ops.vv1_a_keeps _ (r := main_arg9) (by decide),
    Ops.vv1_a_keeps _ (r := main_arg10) (by decide)]
  rw [Ops.ln1_keeps _ (r := main_arg1) (by decide),
    Ops.ln1_keeps _ (r := main_arg2) (by decide),
    Ops.ln1_keeps _ (r := main_v7) (by decide),
    Ops.ln1_keeps _ (r := main_v14) (by decide),
    Stage.ln1_out,
    Ops.ln1_keeps _ (r := main_v53) (by decide),
    Ops.ln1_keeps _ (r := main_arg7) (by decide),
    Ops.ln1_keeps _ (r := main_arg8) (by decide),
    Ops.ln1_keeps _ (r := main_arg5) (by decide),
    Ops.ln1_keeps _ (r := main_arg6) (by decide),
    Ops.ln1_keeps _ (r := main_arg9) (by decide),
    Ops.ln1_keeps _ (r := main_arg10) (by decide)]
  rw [Ops.relu0_keeps _ (r := main_arg1) (by decide),
    Ops.relu0_keeps _ (r := main_arg2) (by decide),
    Ops.relu0_keeps _ (r := main_v7) (by decide),
    Ops.relu0_keeps _ (r := main_v14) (by decide),
    Stage.relu0_out,
    Ops.relu0_keeps _ (r := main_arg7) (by decide),
    Ops.relu0_keeps _ (r := main_arg8) (by decide),
    Ops.relu0_keeps _ (r := main_arg5) (by decide),
    Ops.relu0_keeps _ (r := main_arg6) (by decide),
    Ops.relu0_keeps _ (r := main_arg9) (by decide),
    Ops.relu0_keeps _ (r := main_arg10) (by decide)]
  rw [Ops.vv0_b_keeps _ (r := main_arg1) (by decide),
    Ops.vv0_b_keeps _ (r := main_arg2) (by decide),
    Ops.vv0_b_keeps _ (r := main_v7) (by decide),
    Ops.vv0_b_keeps _ (r := main_v14) (by decide),
    Stage.vv0_out,
    Ops.vv0_b_keeps _ (r := main_arg7) (by decide),
    Ops.vv0_b_keeps _ (r := main_arg8) (by decide),
    Ops.vv0_b_keeps _ (r := main_arg5) (by decide),
    Ops.vv0_b_keeps _ (r := main_arg6) (by decide),
    Ops.vv0_b_keeps _ (r := main_arg9) (by decide),
    Ops.vv0_b_keeps _ (r := main_arg10) (by decide)]
  rw [Ops.vv0_a_keeps _ (r := main_arg1) (by decide),
    Ops.vv0_a_keeps _ (r := main_arg2) (by decide),
    Ops.vv0_a_keeps _ (r := main_v7) (by decide),
    Ops.vv0_a_keeps _ (r := main_v14) (by decide),
    Ops.vv0_a_keeps _ (r := main_arg7) (by decide),
    Ops.vv0_a_keeps _ (r := main_arg8) (by decide),
    Ops.vv0_a_keeps _ (r := main_arg5) (by decide),
    Ops.vv0_a_keeps _ (r := main_arg6) (by decide),
    Ops.vv0_a_keeps _ (r := main_arg9) (by decide),
    Ops.vv0_a_keeps _ (r := main_arg10) (by decide)]
  rw [Ops.th0_keeps _ (r := main_arg1) (by decide),
    Ops.th0_keeps _ (r := main_arg2) (by decide),
    Ops.th0_keeps _ (r := main_v7) (by decide),
    Ops.th0_keeps _ (r := main_v14) (by decide),
    Stage.th0_out,
    Ops.th0_keeps _ (r := main_arg7) (by decide),
    Ops.th0_keeps _ (r := main_arg8) (by decide),
    Ops.th0_keeps _ (r := main_arg5) (by decide),
    Ops.th0_keeps _ (r := main_arg6) (by decide),
    Ops.th0_keeps _ (r := main_arg9) (by decide),
    Ops.th0_keeps _ (r := main_arg10) (by decide)]
  rw [Ops.enc_keeps _ (r := main_arg1) (by decide),
    Ops.enc_keeps _ (r := main_arg2) (by decide),
    Ops.enc_keeps _ (r := main_v7) (by decide),
    Ops.enc_keeps _ (r := main_v14) (by decide),
    Stage.enc_out,
    Ops.enc_keeps _ (r := main_arg5) (by decide),
    Ops.enc_keeps _ (r := main_arg6) (by decide),
    Ops.enc_keeps _ (r := main_arg7) (by decide),
    Ops.enc_keeps _ (r := main_arg8) (by decide),
    Ops.enc_keeps _ (r := main_arg9) (by decide),
    Ops.enc_keeps _ (r := main_arg10) (by decide)]
  rw [Ops.degs_keeps _ (r := main_arg1) (by decide),
    Ops.degs_keeps _ (r := main_arg2) (by decide),
    Stage.degs_de,
    Stage.degs_dv,
    Ops.degs_keeps _ (r := main_arg0) (by decide),
    Ops.degs_keeps _ (r := main_arg3) (by decide),
    Ops.degs_keeps _ (r := main_arg4) (by decide),
    Ops.degs_keeps _ (r := main_arg5) (by decide),
    Ops.degs_keeps _ (r := main_arg6) (by decide),
    Ops.degs_keeps _ (r := main_arg7) (by decide),
    Ops.degs_keeps _ (r := main_arg8) (by decide),
    Ops.degs_keeps _ (r := main_arg9) (by decide),
    Ops.degs_keeps _ (r := main_arg10) (by decide)]

/-- No operation writes argument 0. -/
theorem kept_arg0 (V : Valuation τ sig (Elt Ideal)) :
    after (ops (F := Ideal)) V (Proc.devRef .tc main_arg0) = V (Proc.devRef .tc main_arg0) := by
  simp only [ops, StableHlo.after_append]
  rw [Ops.fin_b_keeps _ (r := main_arg0) (by decide)]
  rw [Ops.fin_a_keeps _ (r := main_arg0) (by decide)]
  rw [Ops.res3_keeps _ (r := main_arg0) (by decide)]
  rw [Ops.vv3_keeps _ (r := main_arg0) (by decide)]
  rw [Ops.ln3_keeps _ (r := main_arg0) (by decide)]
  rw [Ops.res2_keeps _ (r := main_arg0) (by decide)]
  rw [Ops.vv2_b_keeps _ (r := main_arg0) (by decide)]
  rw [Ops.vv2_a_keeps _ (r := main_arg0) (by decide)]
  rw [Ops.ln2_keeps _ (r := main_arg0) (by decide)]
  rw [Ops.res1_keeps _ (r := main_arg0) (by decide)]
  rw [Ops.vv1_b_keeps _ (r := main_arg0) (by decide)]
  rw [Ops.vv1_a_keeps _ (r := main_arg0) (by decide)]
  rw [Ops.ln1_keeps _ (r := main_arg0) (by decide)]
  rw [Ops.relu0_keeps _ (r := main_arg0) (by decide)]
  rw [Ops.vv0_b_keeps _ (r := main_arg0) (by decide)]
  rw [Ops.vv0_a_keeps _ (r := main_arg0) (by decide)]
  rw [Ops.th0_keeps _ (r := main_arg0) (by decide)]
  rw [Ops.enc_keeps _ (r := main_arg0) (by decide)]
  rw [Ops.degs_keeps _ (r := main_arg0) (by decide)]

/-- No operation writes argument 1. -/
theorem kept_arg1 (V : Valuation τ sig (Elt Ideal)) :
    after (ops (F := Ideal)) V (Proc.devRef .tc main_arg1) = V (Proc.devRef .tc main_arg1) := by
  simp only [ops, StableHlo.after_append]
  rw [Ops.fin_b_keeps _ (r := main_arg1) (by decide)]
  rw [Ops.fin_a_keeps _ (r := main_arg1) (by decide)]
  rw [Ops.res3_keeps _ (r := main_arg1) (by decide)]
  rw [Ops.vv3_keeps _ (r := main_arg1) (by decide)]
  rw [Ops.ln3_keeps _ (r := main_arg1) (by decide)]
  rw [Ops.res2_keeps _ (r := main_arg1) (by decide)]
  rw [Ops.vv2_b_keeps _ (r := main_arg1) (by decide)]
  rw [Ops.vv2_a_keeps _ (r := main_arg1) (by decide)]
  rw [Ops.ln2_keeps _ (r := main_arg1) (by decide)]
  rw [Ops.res1_keeps _ (r := main_arg1) (by decide)]
  rw [Ops.vv1_b_keeps _ (r := main_arg1) (by decide)]
  rw [Ops.vv1_a_keeps _ (r := main_arg1) (by decide)]
  rw [Ops.ln1_keeps _ (r := main_arg1) (by decide)]
  rw [Ops.relu0_keeps _ (r := main_arg1) (by decide)]
  rw [Ops.vv0_b_keeps _ (r := main_arg1) (by decide)]
  rw [Ops.vv0_a_keeps _ (r := main_arg1) (by decide)]
  rw [Ops.th0_keeps _ (r := main_arg1) (by decide)]
  rw [Ops.enc_keeps _ (r := main_arg1) (by decide)]
  rw [Ops.degs_keeps _ (r := main_arg1) (by decide)]

/-- No operation writes argument 2. -/
theorem kept_arg2 (V : Valuation τ sig (Elt Ideal)) :
    after (ops (F := Ideal)) V (Proc.devRef .tc main_arg2) = V (Proc.devRef .tc main_arg2) := by
  simp only [ops, StableHlo.after_append]
  rw [Ops.fin_b_keeps _ (r := main_arg2) (by decide)]
  rw [Ops.fin_a_keeps _ (r := main_arg2) (by decide)]
  rw [Ops.res3_keeps _ (r := main_arg2) (by decide)]
  rw [Ops.vv3_keeps _ (r := main_arg2) (by decide)]
  rw [Ops.ln3_keeps _ (r := main_arg2) (by decide)]
  rw [Ops.res2_keeps _ (r := main_arg2) (by decide)]
  rw [Ops.vv2_b_keeps _ (r := main_arg2) (by decide)]
  rw [Ops.vv2_a_keeps _ (r := main_arg2) (by decide)]
  rw [Ops.ln2_keeps _ (r := main_arg2) (by decide)]
  rw [Ops.res1_keeps _ (r := main_arg2) (by decide)]
  rw [Ops.vv1_b_keeps _ (r := main_arg2) (by decide)]
  rw [Ops.vv1_a_keeps _ (r := main_arg2) (by decide)]
  rw [Ops.ln1_keeps _ (r := main_arg2) (by decide)]
  rw [Ops.relu0_keeps _ (r := main_arg2) (by decide)]
  rw [Ops.vv0_b_keeps _ (r := main_arg2) (by decide)]
  rw [Ops.vv0_a_keeps _ (r := main_arg2) (by decide)]
  rw [Ops.th0_keeps _ (r := main_arg2) (by decide)]
  rw [Ops.enc_keeps _ (r := main_arg2) (by decide)]
  rw [Ops.degs_keeps _ (r := main_arg2) (by decide)]

/-- No operation writes argument 3. -/
theorem kept_arg3 (V : Valuation τ sig (Elt Ideal)) :
    after (ops (F := Ideal)) V (Proc.devRef .tc main_arg3) = V (Proc.devRef .tc main_arg3) := by
  simp only [ops, StableHlo.after_append]
  rw [Ops.fin_b_keeps _ (r := main_arg3) (by decide)]
  rw [Ops.fin_a_keeps _ (r := main_arg3) (by decide)]
  rw [Ops.res3_keeps _ (r := main_arg3) (by decide)]
  rw [Ops.vv3_keeps _ (r := main_arg3) (by decide)]
  rw [Ops.ln3_keeps _ (r := main_arg3) (by decide)]
  rw [Ops.res2_keeps _ (r := main_arg3) (by decide)]
  rw [Ops.vv2_b_keeps _ (r := main_arg3) (by decide)]
  rw [Ops.vv2_a_keeps _ (r := main_arg3) (by decide)]
  rw [Ops.ln2_keeps _ (r := main_arg3) (by decide)]
  rw [Ops.res1_keeps _ (r := main_arg3) (by decide)]
  rw [Ops.vv1_b_keeps _ (r := main_arg3) (by decide)]
  rw [Ops.vv1_a_keeps _ (r := main_arg3) (by decide)]
  rw [Ops.ln1_keeps _ (r := main_arg3) (by decide)]
  rw [Ops.relu0_keeps _ (r := main_arg3) (by decide)]
  rw [Ops.vv0_b_keeps _ (r := main_arg3) (by decide)]
  rw [Ops.vv0_a_keeps _ (r := main_arg3) (by decide)]
  rw [Ops.th0_keeps _ (r := main_arg3) (by decide)]
  rw [Ops.enc_keeps _ (r := main_arg3) (by decide)]
  rw [Ops.degs_keeps _ (r := main_arg3) (by decide)]

/-- No operation writes argument 4. -/
theorem kept_arg4 (V : Valuation τ sig (Elt Ideal)) :
    after (ops (F := Ideal)) V (Proc.devRef .tc main_arg4) = V (Proc.devRef .tc main_arg4) := by
  simp only [ops, StableHlo.after_append]
  rw [Ops.fin_b_keeps _ (r := main_arg4) (by decide)]
  rw [Ops.fin_a_keeps _ (r := main_arg4) (by decide)]
  rw [Ops.res3_keeps _ (r := main_arg4) (by decide)]
  rw [Ops.vv3_keeps _ (r := main_arg4) (by decide)]
  rw [Ops.ln3_keeps _ (r := main_arg4) (by decide)]
  rw [Ops.res2_keeps _ (r := main_arg4) (by decide)]
  rw [Ops.vv2_b_keeps _ (r := main_arg4) (by decide)]
  rw [Ops.vv2_a_keeps _ (r := main_arg4) (by decide)]
  rw [Ops.ln2_keeps _ (r := main_arg4) (by decide)]
  rw [Ops.res1_keeps _ (r := main_arg4) (by decide)]
  rw [Ops.vv1_b_keeps _ (r := main_arg4) (by decide)]
  rw [Ops.vv1_a_keeps _ (r := main_arg4) (by decide)]
  rw [Ops.ln1_keeps _ (r := main_arg4) (by decide)]
  rw [Ops.relu0_keeps _ (r := main_arg4) (by decide)]
  rw [Ops.vv0_b_keeps _ (r := main_arg4) (by decide)]
  rw [Ops.vv0_a_keeps _ (r := main_arg4) (by decide)]
  rw [Ops.th0_keeps _ (r := main_arg4) (by decide)]
  rw [Ops.enc_keeps _ (r := main_arg4) (by decide)]
  rw [Ops.degs_keeps _ (r := main_arg4) (by decide)]

/-- No operation writes argument 5. -/
theorem kept_arg5 (V : Valuation τ sig (Elt Ideal)) :
    after (ops (F := Ideal)) V (Proc.devRef .tc main_arg5) = V (Proc.devRef .tc main_arg5) := by
  simp only [ops, StableHlo.after_append]
  rw [Ops.fin_b_keeps _ (r := main_arg5) (by decide)]
  rw [Ops.fin_a_keeps _ (r := main_arg5) (by decide)]
  rw [Ops.res3_keeps _ (r := main_arg5) (by decide)]
  rw [Ops.vv3_keeps _ (r := main_arg5) (by decide)]
  rw [Ops.ln3_keeps _ (r := main_arg5) (by decide)]
  rw [Ops.res2_keeps _ (r := main_arg5) (by decide)]
  rw [Ops.vv2_b_keeps _ (r := main_arg5) (by decide)]
  rw [Ops.vv2_a_keeps _ (r := main_arg5) (by decide)]
  rw [Ops.ln2_keeps _ (r := main_arg5) (by decide)]
  rw [Ops.res1_keeps _ (r := main_arg5) (by decide)]
  rw [Ops.vv1_b_keeps _ (r := main_arg5) (by decide)]
  rw [Ops.vv1_a_keeps _ (r := main_arg5) (by decide)]
  rw [Ops.ln1_keeps _ (r := main_arg5) (by decide)]
  rw [Ops.relu0_keeps _ (r := main_arg5) (by decide)]
  rw [Ops.vv0_b_keeps _ (r := main_arg5) (by decide)]
  rw [Ops.vv0_a_keeps _ (r := main_arg5) (by decide)]
  rw [Ops.th0_keeps _ (r := main_arg5) (by decide)]
  rw [Ops.enc_keeps _ (r := main_arg5) (by decide)]
  rw [Ops.degs_keeps _ (r := main_arg5) (by decide)]

/-- No operation writes argument 6. -/
theorem kept_arg6 (V : Valuation τ sig (Elt Ideal)) :
    after (ops (F := Ideal)) V (Proc.devRef .tc main_arg6) = V (Proc.devRef .tc main_arg6) := by
  simp only [ops, StableHlo.after_append]
  rw [Ops.fin_b_keeps _ (r := main_arg6) (by decide)]
  rw [Ops.fin_a_keeps _ (r := main_arg6) (by decide)]
  rw [Ops.res3_keeps _ (r := main_arg6) (by decide)]
  rw [Ops.vv3_keeps _ (r := main_arg6) (by decide)]
  rw [Ops.ln3_keeps _ (r := main_arg6) (by decide)]
  rw [Ops.res2_keeps _ (r := main_arg6) (by decide)]
  rw [Ops.vv2_b_keeps _ (r := main_arg6) (by decide)]
  rw [Ops.vv2_a_keeps _ (r := main_arg6) (by decide)]
  rw [Ops.ln2_keeps _ (r := main_arg6) (by decide)]
  rw [Ops.res1_keeps _ (r := main_arg6) (by decide)]
  rw [Ops.vv1_b_keeps _ (r := main_arg6) (by decide)]
  rw [Ops.vv1_a_keeps _ (r := main_arg6) (by decide)]
  rw [Ops.ln1_keeps _ (r := main_arg6) (by decide)]
  rw [Ops.relu0_keeps _ (r := main_arg6) (by decide)]
  rw [Ops.vv0_b_keeps _ (r := main_arg6) (by decide)]
  rw [Ops.vv0_a_keeps _ (r := main_arg6) (by decide)]
  rw [Ops.th0_keeps _ (r := main_arg6) (by decide)]
  rw [Ops.enc_keeps _ (r := main_arg6) (by decide)]
  rw [Ops.degs_keeps _ (r := main_arg6) (by decide)]

/-- No operation writes argument 7. -/
theorem kept_arg7 (V : Valuation τ sig (Elt Ideal)) :
    after (ops (F := Ideal)) V (Proc.devRef .tc main_arg7) = V (Proc.devRef .tc main_arg7) := by
  simp only [ops, StableHlo.after_append]
  rw [Ops.fin_b_keeps _ (r := main_arg7) (by decide)]
  rw [Ops.fin_a_keeps _ (r := main_arg7) (by decide)]
  rw [Ops.res3_keeps _ (r := main_arg7) (by decide)]
  rw [Ops.vv3_keeps _ (r := main_arg7) (by decide)]
  rw [Ops.ln3_keeps _ (r := main_arg7) (by decide)]
  rw [Ops.res2_keeps _ (r := main_arg7) (by decide)]
  rw [Ops.vv2_b_keeps _ (r := main_arg7) (by decide)]
  rw [Ops.vv2_a_keeps _ (r := main_arg7) (by decide)]
  rw [Ops.ln2_keeps _ (r := main_arg7) (by decide)]
  rw [Ops.res1_keeps _ (r := main_arg7) (by decide)]
  rw [Ops.vv1_b_keeps _ (r := main_arg7) (by decide)]
  rw [Ops.vv1_a_keeps _ (r := main_arg7) (by decide)]
  rw [Ops.ln1_keeps _ (r := main_arg7) (by decide)]
  rw [Ops.relu0_keeps _ (r := main_arg7) (by decide)]
  rw [Ops.vv0_b_keeps _ (r := main_arg7) (by decide)]
  rw [Ops.vv0_a_keeps _ (r := main_arg7) (by decide)]
  rw [Ops.th0_keeps _ (r := main_arg7) (by decide)]
  rw [Ops.enc_keeps _ (r := main_arg7) (by decide)]
  rw [Ops.degs_keeps _ (r := main_arg7) (by decide)]

/-- No operation writes argument 8. -/
theorem kept_arg8 (V : Valuation τ sig (Elt Ideal)) :
    after (ops (F := Ideal)) V (Proc.devRef .tc main_arg8) = V (Proc.devRef .tc main_arg8) := by
  simp only [ops, StableHlo.after_append]
  rw [Ops.fin_b_keeps _ (r := main_arg8) (by decide)]
  rw [Ops.fin_a_keeps _ (r := main_arg8) (by decide)]
  rw [Ops.res3_keeps _ (r := main_arg8) (by decide)]
  rw [Ops.vv3_keeps _ (r := main_arg8) (by decide)]
  rw [Ops.ln3_keeps _ (r := main_arg8) (by decide)]
  rw [Ops.res2_keeps _ (r := main_arg8) (by decide)]
  rw [Ops.vv2_b_keeps _ (r := main_arg8) (by decide)]
  rw [Ops.vv2_a_keeps _ (r := main_arg8) (by decide)]
  rw [Ops.ln2_keeps _ (r := main_arg8) (by decide)]
  rw [Ops.res1_keeps _ (r := main_arg8) (by decide)]
  rw [Ops.vv1_b_keeps _ (r := main_arg8) (by decide)]
  rw [Ops.vv1_a_keeps _ (r := main_arg8) (by decide)]
  rw [Ops.ln1_keeps _ (r := main_arg8) (by decide)]
  rw [Ops.relu0_keeps _ (r := main_arg8) (by decide)]
  rw [Ops.vv0_b_keeps _ (r := main_arg8) (by decide)]
  rw [Ops.vv0_a_keeps _ (r := main_arg8) (by decide)]
  rw [Ops.th0_keeps _ (r := main_arg8) (by decide)]
  rw [Ops.enc_keeps _ (r := main_arg8) (by decide)]
  rw [Ops.degs_keeps _ (r := main_arg8) (by decide)]

/-- No operation writes argument 9. -/
theorem kept_arg9 (V : Valuation τ sig (Elt Ideal)) :
    after (ops (F := Ideal)) V (Proc.devRef .tc main_arg9) = V (Proc.devRef .tc main_arg9) := by
  simp only [ops, StableHlo.after_append]
  rw [Ops.fin_b_keeps _ (r := main_arg9) (by decide)]
  rw [Ops.fin_a_keeps _ (r := main_arg9) (by decide)]
  rw [Ops.res3_keeps _ (r := main_arg9) (by decide)]
  rw [Ops.vv3_keeps _ (r := main_arg9) (by decide)]
  rw [Ops.ln3_keeps _ (r := main_arg9) (by decide)]
  rw [Ops.res2_keeps _ (r := main_arg9) (by decide)]
  rw [Ops.vv2_b_keeps _ (r := main_arg9) (by decide)]
  rw [Ops.vv2_a_keeps _ (r := main_arg9) (by decide)]
  rw [Ops.ln2_keeps _ (r := main_arg9) (by decide)]
  rw [Ops.res1_keeps _ (r := main_arg9) (by decide)]
  rw [Ops.vv1_b_keeps _ (r := main_arg9) (by decide)]
  rw [Ops.vv1_a_keeps _ (r := main_arg9) (by decide)]
  rw [Ops.ln1_keeps _ (r := main_arg9) (by decide)]
  rw [Ops.relu0_keeps _ (r := main_arg9) (by decide)]
  rw [Ops.vv0_b_keeps _ (r := main_arg9) (by decide)]
  rw [Ops.vv0_a_keeps _ (r := main_arg9) (by decide)]
  rw [Ops.th0_keeps _ (r := main_arg9) (by decide)]
  rw [Ops.enc_keeps _ (r := main_arg9) (by decide)]
  rw [Ops.degs_keeps _ (r := main_arg9) (by decide)]

/-- No operation writes argument 10. -/
theorem kept_arg10 (V : Valuation τ sig (Elt Ideal)) :
    after (ops (F := Ideal)) V (Proc.devRef .tc main_arg10) = V (Proc.devRef .tc main_arg10) := by
  simp only [ops, StableHlo.after_append]
  rw [Ops.fin_b_keeps _ (r := main_arg10) (by decide)]
  rw [Ops.fin_a_keeps _ (r := main_arg10) (by decide)]
  rw [Ops.res3_keeps _ (r := main_arg10) (by decide)]
  rw [Ops.vv3_keeps _ (r := main_arg10) (by decide)]
  rw [Ops.ln3_keeps _ (r := main_arg10) (by decide)]
  rw [Ops.res2_keeps _ (r := main_arg10) (by decide)]
  rw [Ops.vv2_b_keeps _ (r := main_arg10) (by decide)]
  rw [Ops.vv2_a_keeps _ (r := main_arg10) (by decide)]
  rw [Ops.ln2_keeps _ (r := main_arg10) (by decide)]
  rw [Ops.res1_keeps _ (r := main_arg10) (by decide)]
  rw [Ops.vv1_b_keeps _ (r := main_arg10) (by decide)]
  rw [Ops.vv1_a_keeps _ (r := main_arg10) (by decide)]
  rw [Ops.ln1_keeps _ (r := main_arg10) (by decide)]
  rw [Ops.relu0_keeps _ (r := main_arg10) (by decide)]
  rw [Ops.vv0_b_keeps _ (r := main_arg10) (by decide)]
  rw [Ops.vv0_a_keeps _ (r := main_arg10) (by decide)]
  rw [Ops.th0_keeps _ (r := main_arg10) (by decide)]
  rw [Ops.enc_keeps _ (r := main_arg10) (by decide)]
  rw [Ops.degs_keeps _ (r := main_arg10) (by decide)]

/-- Every weakly fair execution of the reference at the extended reals terminates with the result buffer at
    `model` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v257) = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v257).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c))⟩)
    (run_fold m ρ)

end Cert.Hgnn.Ref

end
-- ==== Proof.RefRead.lean ====
/-
  The reference's stages read at one entry.

  Each stage of the reference is a composition of whole-array host operations; read at an entry `(i, j)` it is the
  entry-by-entry function of the specification: a host product is the sum over the contracted column, a bias
  vector broadcast down the rows is its `j`-th entry, a row sum from the zero word is the plain finite sum, the
  row mean and the mean squared deviation are those sums divided by the word 256 (the variance's divisor is
  `256 − 0`, positive, so its guard keeps the quotient), and the positive part is `max · 0`.
-/
import proofs.«108867_j88295937671288_1_alg».proof.Proof.KSpec
import proofs.«108867_j88295937671288_1_alg».proof.Proof.RModel
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Hgnn.RefRead

open Idealize.ShloMosaic Idealize.ShloMosaic.ValueIdx Cert.ReferenceIdeal

variable [Cert.ReferenceIdeal.Facts]
open Cert.ReferenceIdeal.Facts₀ Cert.ReferenceIdeal.Facts

/-- The rank-zero shape has one index. -/
local instance : Subsingleton S_.Idx := ⟨fun a b => funext fun d => d.elim0⟩

/-! ## The word 256 -/

/-- The word `0x43800000` denotes the real 256. -/
theorem word256 : Ideal.ofBits .f32 0x43800000#32 = ((256 : ℝ) : EReal) := by
  simp [Ideal.ofBits, Ideal.ieee, -EReal.coe_mul]; norm_num

/-- … which is positive. -/
theorem word256_pos : (0 : EReal) < Ideal.ofBits .f32 0x43800000#32 := by
  rw [word256]; exact_mod_cast (by norm_num : (0 : ℝ) < 256)

/-! ## Broadcasts read at an entry -/

theorem bcCol_apply {α : Type} (v : S100000.Idx → α) (i : Fin 100000) (u : Fin 1) :
    broadcastInDim S100000x1 ![0] bcast_S100000_S100000x1_0 v (ix2 i u) = v (ix1 i) :=
  broadcastInDim_apply _ _ v _ _ (fun a => by match a with | ⟨0, _⟩ => rfl)

theorem bcRow_apply {α : Type} (w : S100000x1.Idx → α) (i : Fin 100000) (k : Fin 256) :
    broadcastInDim S100000x256 ![0, 1] bcast_S100000x1_S100000x256_0_1 w (ix2 i k) = w (ix2 i 0) :=
  broadcastInDim_apply _ _ w _ _ (fun a => by match a with | ⟨0, _⟩ => rfl | ⟨1, _⟩ => rfl)

theorem bcVec_apply {α : Type} (g : S256.Idx → α) (u : Fin 1) (k : Fin 256) :
    broadcastInDim S1x256 ![1] bcast_S256_S1x256_1 g (ix2 u k) = g (ix1 k) :=
  broadcastInDim_apply _ _ g _ _ (fun a => by match a with | ⟨0, _⟩ => rfl)

theorem bcRows_apply {α : Type} (r : S1x256.Idx → α) (i : Fin 100000) (k : Fin 256) :
    broadcastInDim S100000x256 ![0, 1] bcast_S1x256_S100000x256_0_1 r (ix2 i k) = r (ix2 0 k) :=
  broadcastInDim_apply _ _ r _ _ (fun a => by match a with | ⟨0, _⟩ => rfl | ⟨1, _⟩ => rfl)

theorem bcVec16_apply {α : Type} (g : S16.Idx → α) (u : Fin 1) (k : Fin 16) :
    broadcastInDim S1x16 ![1] bcast_S16_S1x16_1 g (ix2 u k) = g (ix1 k) :=
  broadcastInDim_apply _ _ g _ _ (fun a => by match a with | ⟨0, _⟩ => rfl)

theorem bcRows16_apply {α : Type} (r : S1x16.Idx → α) (i : Fin 100000) (k : Fin 16) :
    broadcastInDim S100000x16 ![0, 1] bcast_S1x16_S100000x16_0_1 r (ix2 i k) = r (ix2 0 k) :=
  broadcastInDim_apply _ _ r _ _ (fun a => by match a with | ⟨0, _⟩ => rfl | ⟨1, _⟩ => rfl)

theorem bcScalarCol_apply {α : Type} (c : S_.Idx → α) (j : S100000x1.Idx) :
    broadcastInDim S100000x1 ![] bcast_S_S100000x1 c j = c ix0 :=
  broadcastInDim_apply _ _ c _ _ (fun a => a.elim0)

theorem bcScalarMat_apply {α : Type} (c : S_.Idx → α) (j : S100000x256.Idx) :
    broadcastInDim S100000x256 ![] bcast_S_S100000x256 c j = c ix0 :=
  broadcastInDim_apply _ _ c _ _ (fun a => a.elim0)

/-! ## A row sum and the three products -/

/-- The host row sum from an initial value: that value plus the finite sum over the row. -/
theorem rowSum_apply (x : FVec Ideal S100000x256 .f32) (v : FVec Ideal S_ .f32) (i : Fin 100000) :
    Host.reduceAdd (F := Ideal) (φ := .f32) x v reducesTo_S100000x256_S100000_d1 h_S_ (ix1 i)
      = v ix0 + ∑ k : Fin 256, x (ix2 i k) := by
  unfold Host.reduceAdd
  rw [Ideal.hostReduceAdd_def]
  rw [Ideal.hostReduceAdd_single reducesTo_S100000x256_S100000_d1 (by decide : S100000x256.Reduces [1] S100000)]
  rw [Subsingleton.elim (Shape.Idx.first h_S_) ix0]
  refine congrArg (v ix0 + ·) (Finset.sum_congr rfl fun k _ => congrArg x ?_)
  funext a
  match a with
  | ⟨0, _⟩ => exact Fin.ext rfl
  | ⟨1, _⟩ => exact Fin.ext rfl

/-- The host product with 384 contracted columns at entry `(i, j)`: the sum over the contracted column `k` of
    `X(i,k) · W(k,j)`, the contraction index re-indexed by its one coordinate. -/
theorem dot384_apply (X : FVec Ideal S100000x384 .f32) (W : FVec Ideal S384x256 .f32) (i : Fin 100000) (j : Fin 256) :
    Host.dotGeneral (F := Ideal) (φ₁ := .f32) (φ₂ := .f32) dot_S100000x384_S384x256_S100000x256_1_0_0_1_n_n none X W (ix2 i j)
      = ∑ k : Fin 384, X (ix2 i k) * W (ix2 k j) := by
  simp only [Host.dotGeneral]
  rw [Ideal.dotGeneral_apply]
  rw [← Equiv.sum_comp (contrEquiv1 dot_S100000x384_S384x256_S100000x256_1_0_0_1_n_n 384 rfl rfl).symm]
  refine Finset.sum_congr rfl fun k _ => ?_
  have hk := contrEquiv1_symm_val dot_S100000x384_S384x256_S100000x256_1_0_0_1_n_n 384 rfl rfl k
  have hl : dot_S100000x384_S384x256_S100000x256_1_0_0_1_n_n.lhsIdx (ix2 i j) ((contrEquiv1 dot_S100000x384_S384x256_S100000x256_1_0_0_1_n_n 384 rfl rfl).symm k) = ix2 i k := by
    funext a
    match a with
    | ⟨0, _⟩ => exact Fin.ext rfl
    | ⟨1, _⟩ => exact Fin.ext ((dot_S100000x384_S384x256_S100000x256_1_0_0_1_n_n.lhsIdx_val_of_single (cl := (1 : Fin 2)) rfl (ix2 i j) ((contrEquiv1 dot_S100000x384_S384x256_S100000x256_1_0_0_1_n_n 384 rfl rfl).symm k)).trans hk)
  have hr : dot_S100000x384_S384x256_S100000x256_1_0_0_1_n_n.rhsIdx (ix2 i j) ((contrEquiv1 dot_S100000x384_S384x256_S100000x256_1_0_0_1_n_n 384 rfl rfl).symm k) = ix2 k j := by
    funext a
    match a with
    | ⟨0, _⟩ => exact Fin.ext ((dot_S100000x384_S384x256_S100000x256_1_0_0_1_n_n.rhsIdx_val_of_single (cr := (0 : Fin 2)) rfl (ix2 i j) ((contrEquiv1 dot_S100000x384_S384x256_S100000x256_1_0_0_1_n_n 384 rfl rfl).symm k)).trans hk)
    | ⟨1, _⟩ => exact Fin.ext rfl
  rw [hl, hr]

/-- The host product with 256 contracted columns at entry `(i, j)`: the sum over the contracted column `k` of
    `X(i,k) · W(k,j)`, the contraction index re-indexed by its one coordinate. -/
theorem dot256_apply (X : FVec Ideal S100000x256 .f32) (W : FVec Ideal S256x256 .f32) (i : Fin 100000) (j : Fin 256) :
    Host.dotGeneral (F := Ideal) (φ₁ := .f32) (φ₂ := .f32) dot_S100000x256_S256x256_S100000x256_1_0_0_1_n_n none X W (ix2 i j)
      = ∑ k : Fin 256, X (ix2 i k) * W (ix2 k j) := by
  simp only [Host.dotGeneral]
  rw [Ideal.dotGeneral_apply]
  rw [← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have hl : dot_S100000x256_S256x256_S100000x256_1_0_0_1_n_n.lhsIdx (ix2 i j) ((contrEquiv1 dot_S100000x256_S256x256_S100000x256_1_0_0_1_n_n 256 rfl rfl).symm k) = ix2 i k := by
    funext a
    match a with
    | ⟨0, _⟩ => exact Fin.ext rfl
    | ⟨1, _⟩ => exact Fin.ext ((dot_S100000x256_S256x256_S100000x256_1_0_0_1_n_n.lhsIdx_val_of_single (cl := (1 : Fin 2)) rfl (ix2 i j) ((contrEquiv1 dot_S100000x256_S256x256_S100000x256_1_0_0_1_n_n 256 rfl rfl).symm k)).trans hk)
  have hr : dot_S100000x256_S256x256_S100000x256_1_0_0_1_n_n.rhsIdx (ix2 i j) ((contrEquiv1 dot_S100000x256_S256x256_S100000x256_1_0_0_1_n_n 256 rfl rfl).symm k) = ix2 k j := by
    funext a
    match a with
    | ⟨0, _⟩ => exact Fin.ext ((dot_S100000x256_S256x256_S100000x256_1_0_0_1_n_n.rhsIdx_val_of_single (cr := (0 : Fin 2)) rfl (ix2 i j) ((contrEquiv1 dot_S100000x256_S256x256_S100000x256_1_0_0_1_n_n 256 rfl rfl).symm k)).trans hk)
    | ⟨1, _⟩ => exact Fin.ext rfl
  rw [hl, hr]

/-- The host product with 256 contracted columns at entry `(i, j)`: the sum over the contracted column `k` of
    `X(i,k) · W(k,j)`, the contraction index re-indexed by its one coordinate. -/
theorem dot16_apply (X : FVec Ideal S100000x256 .f32) (W : FVec Ideal S256x16 .f32) (i : Fin 100000) (j : Fin 16) :
    Host.dotGeneral (F := Ideal) (φ₁ := .f32) (φ₂ := .f32) dot_S100000x256_S256x16_S100000x16_1_0_0_1_n_n none X W (ix2 i j)
      = ∑ k : Fin 256, X (ix2 i k) * W (ix2 k j) := by
  simp only [Host.dotGeneral]
  rw [Ideal.dotGeneral_apply]
  rw [← Equiv.sum_comp (contrEquiv1 dot_S100000x256_S256x16_S100000x16_1_0_0_1_n_n 256 rfl rfl).symm]
  refine Finset.sum_congr rfl fun k _ => ?_
  have hk := contrEquiv1_symm_val dot_S100000x256_S256x16_S100000x16_1_0_0_1_n_n 256 rfl rfl k
  have hl : dot_S100000x256_S256x16_S100000x16_1_0_0_1_n_n.lhsIdx (ix2 i j) ((contrEquiv1 dot_S100000x256_S256x16_S100000x16_1_0_0_1_n_n 256 rfl rfl).symm k) = ix2 i k := by
    funext a
    match a with
    | ⟨0, _⟩ => exact Fin.ext rfl
    | ⟨1, _⟩ => exact Fin.ext ((dot_S100000x256_S256x16_S100000x16_1_0_0_1_n_n.lhsIdx_val_of_single (cl := (1 : Fin 2)) rfl (ix2 i j) ((contrEquiv1 dot_S100000x256_S256x16_S100000x16_1_0_0_1_n_n 256 rfl rfl).symm k)).trans hk)
  have hr : dot_S100000x256_S256x16_S100000x16_1_0_0_1_n_n.rhsIdx (ix2 i j) ((contrEquiv1 dot_S100000x256_S256x16_S100000x16_1_0_0_1_n_n 256 rfl rfl).symm k) = ix2 k j := by
    funext a
    match a with
    | ⟨0, _⟩ => exact Fin.ext ((dot_S100000x256_S256x16_S100000x16_1_0_0_1_n_n.rhsIdx_val_of_single (cr := (0 : Fin 2)) rfl (ix2 i j) ((contrEquiv1 dot_S100000x256_S256x16_S100000x16_1_0_0_1_n_n 256 rfl rfl).symm k)).trans hk)
    | ⟨1, _⟩ => exact Fin.ext rfl
  rw [hl, hr]

/-! ## The stages -/

/-- The encoder at an entry. -/
theorem encode_apply (x : Vec Ideal S100000x384 .f32) (encW : Vec Ideal S384x256 .f32) (encB : Vec Ideal S256 .f32)
    (i : Fin 100000) (j : Fin 256) :
    Ref.encode x encW encB (ix2 i j) = (∑ k : Fin 384, x (ix2 i k) * encW (ix2 k j)) + encB (ix1 j) := by
  unfold Ref.encode
  rw [addf_apply, dot384_apply, bcRows_apply, bcVec_apply]

/-- An affine map with 256 contracted columns at an entry. -/
theorem linear256_apply (h : Vec Ideal S100000x256 .f32) (W : Vec Ideal S256x256 .f32) (b : Vec Ideal S256 .f32)
    (i : Fin 100000) (j : Fin 256) :
    Ref.linear256 h W b (ix2 i j) = (∑ k : Fin 256, h (ix2 i k) * W (ix2 k j)) + b (ix1 j) := by
  unfold Ref.linear256
  rw [addf_apply, dot256_apply, bcRows_apply, bcVec_apply]

/-- The positive part at an entry: the maximum with the zero word, which is 0. -/
theorem reluStage_apply (y : Vec Ideal S100000x256 .f32) (idx : S100000x256.Idx) :
    Ref.reluStage y idx = max (y idx) 0 := by
  unfold Ref.reluStage
  rw [maximumf_apply, bcScalarMat_apply, constant_apply, Ideal.ofBits_zero_f32]

/-- The reference's row mean is the specification's. -/
theorem rowMean_apply (h : Vec Ideal S100000x256 .f32) (i : Fin 100000) (u : Fin 1) :
    Ref.rowMean h (ix2 i u) = Cert.Hgnn.rowMean h i := by
  unfold Ref.rowMean Cert.Hgnn.rowMean
  show Ideal.div _ _ = _
  rw [bcCol_apply, rowSum_apply, bcScalarCol_apply, constant_apply, constant_apply, Ideal.ofBits_zero_f32, zero_add]

/-- The variance's divisor with no degrees of freedom removed: the word 256 minus 0. -/
theorem varDivisor_zero : Ref.varDivisor (constantI S_ 32 0#32) ix0 = Ideal.ofBits .f32 0x43800000#32 := by
  unfold Ref.varDivisor
  rw [subf_apply, constant_apply, sitofp_apply]
  show Ideal.ofBits .f32 0x43800000#32 - ((((0#32 : BitVec 32).toInt : ℝ)) : EReal) = _
  norm_num

/-- The reference's variance (its divisor `256 − 0` is positive, so the guard keeps the quotient) is the
    specification's mean squared deviation. -/
theorem variance_apply (h : Vec Ideal S100000x256 .f32) (i : Fin 100000) (u : Fin 1) :
    Ref.variance h (constantI S_ 32 0#32) (ix2 i u) = Cert.Hgnn.rowVar h i := by
  unfold Ref.variance Cert.Hgnn.rowVar
  rw [select_apply, bcScalarCol_apply, cmpf_apply, varDivisor_zero, constant_apply, Ideal.ofBits_zero_f32]
  have hg : FloatOps.cmpf (F := Ideal) (φ := .f32) .ogt (Ideal.ofBits .f32 0x43800000#32) 0 = 1#1 := by
    show Ideal.cmp .ogt _ _ = _
    unfold Ideal.cmp
    simp only [decide_eq_true word256_pos]
    rfl
  rw [hg]
  show Ideal.div _ _ = _
  rw [bcCol_apply, rowSum_apply, bcScalarCol_apply, varDivisor_zero, constant_apply, Ideal.ofBits_zero_f32, zero_add]
  refine congrArg (fun s => Ideal.div s _) (Finset.sum_congr rfl fun k _ => ?_)
  rw [mulf_apply, subf_apply, bcRow_apply, rowMean_apply]

/-- Layer norm then the positive part at an entry, for scale and shift vectors `g`, `b`, is the
    specification's normalised entry with those vectors as rows. -/
theorem lnRelu_apply (h : Vec Ideal S100000x256 .f32) (g b : Vec Ideal S256 .f32) (g2 b2 : Mat 1 256)
    (hg : ∀ k : Fin 256, g2 (ix2 0 k) = g (ix1 k)) (hb : ∀ k : Fin 256, b2 (ix2 0 k) = b (ix1 k))
    (i : Fin 100000) (k : Fin 256) :
    Ref.reluStage (Ref.layerNorm h g b) (ix2 i k) = Cert.Hgnn.lnRelu h g2 b2 i k := by
  rw [reluStage_apply]
  unfold Ref.layerNorm Cert.Hgnn.lnRelu
  rw [addf_apply, mulf_apply, mulf_apply, subf_apply, bcRow_apply, rowMean_apply, bcRow_apply,
    bcRows_apply, bcVec_apply, bcRows_apply, bcVec_apply, hg, hb]
  show max ((_ - _) * Ideal.rsqrt (_ + _) * _ + _) 0 = _
  rw [variance_apply, bcScalarCol_apply, constant_apply]

/-- A normalised layer of the reference at an entry. -/
theorem lnLinear_apply (h : Vec Ideal S100000x256 .f32) (g b : Vec Ideal S256 .f32) (W : Vec Ideal S256x256 .f32)
    (bias : Vec Ideal S256 .f32) (g2 b2 : Mat 1 256)
    (hg : ∀ k : Fin 256, g2 (ix2 0 k) = g (ix1 k)) (hb : ∀ k : Fin 256, b2 (ix2 0 k) = b (ix1 k))
    (i : Fin 100000) (j : Fin 256) :
    Ref.linear256 (Ref.reluStage (Ref.layerNorm h g b)) W bias (ix2 i j)
      = (∑ k : Fin 256, Cert.Hgnn.lnRelu h g2 b2 i k * W (ix2 k j)) + bias (ix1 j) := by
  rw [linear256_apply]
  refine congrArg (· + bias (ix1 j)) (Finset.sum_congr rfl fun k _ => ?_)
  rw [lnRelu_apply h g b g2 b2 hg hb]

/-- The read-out of the reference at an entry. -/
theorem final_apply (h : Vec Ideal S100000x256 .f32) (g b : Vec Ideal S256 .f32) (W : Vec Ideal S256x16 .f32)
    (bias : Vec Ideal S16 .f32) (g2 b2 : Mat 1 256)
    (hg : ∀ k : Fin 256, g2 (ix2 0 k) = g (ix1 k)) (hb : ∀ k : Fin 256, b2 (ix2 0 k) = b (ix1 k))
    (i : Fin 100000) (j : Fin 16) :
    addf (F := Ideal) (φ := .f32)
        (Host.dotGeneral (F := Ideal) (φ₁ := .f32) (φ₂ := .f32) dot_S100000x256_S256x16_S100000x16_1_0_0_1_n_n none
          (Ref.reluStage (Ref.layerNorm h g b)) W)
        (broadcastInDim S100000x16 ![0, 1] bcast_S1x16_S100000x16_0_1 (broadcastInDim S1x16 ![1] bcast_S16_S1x16_1 bias)) (ix2 i j)
      = (∑ k : Fin 256, Cert.Hgnn.lnRelu h g2 b2 i k * W (ix2 k j)) + bias (ix1 j) := by
  rw [addf_apply, dot16_apply, bcRows16_apply, bcVec16_apply]
  refine congrArg (· + bias (ix1 j)) (Finset.sum_congr rfl fun k _ => ?_)
  rw [lnRelu_apply h g b g2 b2 hg hb]

end Cert.Hgnn.RefRead

end
-- ==== Proof.Bridge.lean ====
/-
  The two programs compute one function.

  Stage by stage the kernel program's whole-array function (the specification's entry-by-entry formula applied
  to the arrays its host operations prepare) equals the reference's composition of host operations: both are,
  at every entry, the same finite sums, quotients by the word 256, reciprocal square root and maxima.  A bias
  or a scale enters the kernel program as a 1 × n array and the reference as a vector broadcast down the rows;
  both read the same entry.  The degree reciprocals and the round of message passing are the same host
  operations in both programs and are equal as they stand.  The network is the same composition of stages.
-/
import proofs.«108867_j88295937671288_1_alg».proof.Proof.KSpec
import proofs.«108867_j88295937671288_1_alg».proof.Proof.KModel
import proofs.«108867_j88295937671288_1_alg».proof.Proof.RModel
import proofs.«108867_j88295937671288_1_alg».proof.Proof.RefRead
import Idealize.ShloMosaic.Lib.ValueIdx
import Idealize.ShloMosaic.Lib.ValueLayout

noncomputable section

open scoped BigOperators

namespace Cert.Hgnn.Bridge

open Idealize.ShloMosaic Idealize.ShloMosaic.ValueIdx

variable [Cert.KernelIdeal.Facts] [Cert.ReferenceIdeal.Facts]

/-- A vector of `n` reals, and an integer vector of the incidence pairs. -/
abbrev RVec (n : Nat) : Type := Vec Ideal (⟨1, ![n]⟩ : Shape) .f32
abbrev Pairs : Type := Vec Ideal (⟨1, ![800000]⟩ : Shape) .i32

/-! ## The shared host operations -/

theorem invDegE_eq (eidx : Pairs) : Ker.invDegE eidx = Ref.invDegE eidx := rfl
theorem invDegV_eq (vidx : Pairs) : Ker.invDegV vidx = Ref.invDegV vidx := rfl
theorem v2v_eq (vidx eidx : Pairs) (de : RVec 20000) (dv : RVec 100000) (z : Mat 100000 256) :
    Ker.v2v vidx eidx de dv z = Ref.v2v vidx eidx de dv z := rfl

/-! ## Rows and matrices of the parameter tables -/

/-- A vector stood up as a 1 × 256 array reads the vector's entry. -/
theorem asRow256_read (b : RVec 256) (k : Fin 256) : Ker.asRow256 b (ix2 0 k) = b (ix1 k) :=
  shapeCast_a_1a_apply b _ 0 k

/-- A vector stood up as a 1 × 16 array reads the vector's entry. -/
theorem asRow16_read (b : RVec 16) (k : Fin 16) : Ker.asRow16 b (ix2 0 k) = b (ix1 k) :=
  shapeCast_a_1a_apply b _ 0 k

/-- Row 0 of a parameter table, stood up as a 1 × 256 array, reads at column `k` the reference's row-0 vector there. -/
theorem row0_read (a : Mat 4 256) (k : Fin 256) : Ker.row0 a (ix2 0 k) = Ref.row0 a (ix1 k) :=
  shapeCast_a_1a_apply (Ref.row0 a) _ 0 k

/-- Matrix 0 of the weight stack is the same slice with its unit axis dropped in both programs. -/
theorem mat0_eq (w : Vec Ideal (⟨3, ![4, 256, 256]⟩ : Shape) .f32) : Ker.mat0 w = Ref.mat0 w := rfl

/-- Row 1 of a parameter table, stood up as a 1 × 256 array, reads at column `k` the reference's row-1 vector there. -/
theorem row1_read (a : Mat 4 256) (k : Fin 256) : Ker.row1 a (ix2 0 k) = Ref.row1 a (ix1 k) :=
  shapeCast_a_1a_apply (Ref.row1 a) _ 0 k

/-- Matrix 1 of the weight stack is the same slice with its unit axis dropped in both programs. -/
theorem mat1_eq (w : Vec Ideal (⟨3, ![4, 256, 256]⟩ : Shape) .f32) : Ker.mat1 w = Ref.mat1 w := rfl

/-- Row 2 of a parameter table, stood up as a 1 × 256 array, reads at column `k` the reference's row-2 vector there. -/
theorem row2_read (a : Mat 4 256) (k : Fin 256) : Ker.row2 a (ix2 0 k) = Ref.row2 a (ix1 k) :=
  shapeCast_a_1a_apply (Ref.row2 a) _ 0 k

/-- Matrix 2 of the weight stack is the same slice with its unit axis dropped in both programs. -/
theorem mat2_eq (w : Vec Ideal (⟨3, ![4, 256, 256]⟩ : Shape) .f32) : Ker.mat2 w = Ref.mat2 w := rfl

/-- Row 3 of a parameter table, stood up as a 1 × 256 array, reads at column `k` the reference's row-3 vector there. -/
theorem row3_read (a : Mat 4 256) (k : Fin 256) : Ker.row3 a (ix2 0 k) = Ref.row3 a (ix1 k) :=
  shapeCast_a_1a_apply (Ref.row3 a) _ 0 k

/-- Matrix 3 of the weight stack is the same slice with its unit axis dropped in both programs. -/
theorem mat3_eq (w : Vec Ideal (⟨3, ![4, 256, 256]⟩ : Shape) .f32) : Ker.mat3 w = Ref.mat3 w := rfl

/-! ## The three kinds of stage -/

/-- An affine map with 256 contracted columns: the specification's formula with the bias as a row is the
    reference's product plus the broadcast bias vector. -/
theorem linear256_bridge (h : Mat 100000 256) (W : Mat 256 256) (b2 : Mat 1 256) (b : RVec 256)
    (hb : ∀ j : Fin 256, b2 (ix2 0 j) = b (ix1 j)) : linear256 h W b2 = Ref.linear256 h W b := by
  funext idx
  obtain ⟨i, j, rfl⟩ : ∃ (i : Fin 100000) (j : Fin 256), idx = ix2 i j := ⟨idx 0, idx 1, eq_ix2 idx⟩
  rw [linear256_apply, RefRead.linear256_apply, hb]

/-- A normalised layer: the specification's formula with scale, shift and bias as rows is the reference's layer
    norm, positive part, product and broadcast bias. -/
theorem lnLinear_bridge (h : Mat 100000 256) (g2 b2 : Mat 1 256) (W : Mat 256 256) (bias2 : Mat 1 256)
    (g b bias : RVec 256) (hg : ∀ k : Fin 256, g2 (ix2 0 k) = g (ix1 k)) (hb : ∀ k : Fin 256, b2 (ix2 0 k) = b (ix1 k))
    (hbias : ∀ j : Fin 256, bias2 (ix2 0 j) = bias (ix1 j)) :
    lnReluLinear h g2 b2 W bias2 = Ref.linear256 (Ref.reluStage (Ref.layerNorm h g b)) W bias := by
  funext idx
  obtain ⟨i, j, rfl⟩ : ∃ (i : Fin 100000) (j : Fin 256), idx = ix2 i j := ⟨idx 0, idx 1, eq_ix2 idx⟩
  rw [lnReluLinear_apply, RefRead.lnLinear_apply h g b W bias g2 b2 hg hb, hbias]

/-! ## The stages -/

theorem encode_eq (x : Mat 100000 384) (encW : Mat 384 256) (encB : RVec 256) :
    Ker.encode x encW encB = Ref.encode x encW encB := by
  funext idx
  obtain ⟨i, j, rfl⟩ : ∃ (i : Fin 100000) (j : Fin 256), idx = ix2 i j := ⟨idx 0, idx 1, eq_ix2 idx⟩
  unfold Ker.encode
  rw [linear384_apply, RefRead.encode_apply, asRow256_read]

theorem theta0_eq (h : Mat 100000 256) (thetaW : Vec Ideal (⟨3, ![4, 256, 256]⟩ : Shape) .f32) (thetaB : Mat 4 256) :
    Ker.theta0 h thetaW thetaB = Ref.theta0 h thetaW thetaB := by
  unfold Ker.theta0 Ref.theta0
  rw [mat0_eq]
  exact linear256_bridge h _ _ _ (row0_read thetaB)

theorem reluStage_eq (y : Mat 100000 256) : Ker.reluStage y = Ref.reluStage y := by
  funext idx
  rw [RefRead.reluStage_apply]
  rfl

theorem residual_eq (ye h : Mat 100000 256) : Ker.residual ye h = Ref.residual ye h := by
  funext idx
  unfold Ref.residual
  rw [addf_apply, RefRead.reluStage_apply]
  rfl

/-- Layer 1: the normalised rows, positive part and affine map of the two programs agree. -/
theorem lnLayer1_eq (h : Mat 100000 256) (lnG lnB : Mat 4 256) (thetaW : Vec Ideal (⟨3, ![4, 256, 256]⟩ : Shape) .f32)
    (thetaB : Mat 4 256) : Ker.lnLayer1 h lnG lnB thetaW thetaB = Ref.lnLayer1 h lnG lnB thetaW thetaB := by
  unfold Ker.lnLayer1 Ref.lnLayer1
  rw [mat1_eq]
  exact lnLinear_bridge h _ _ _ _ _ _ _ (row1_read lnG) (row1_read lnB) (row1_read thetaB)

/-- Layer 2: the normalised rows, positive part and affine map of the two programs agree. -/
theorem lnLayer2_eq (h : Mat 100000 256) (lnG lnB : Mat 4 256) (thetaW : Vec Ideal (⟨3, ![4, 256, 256]⟩ : Shape) .f32)
    (thetaB : Mat 4 256) : Ker.lnLayer2 h lnG lnB thetaW thetaB = Ref.lnLayer2 h lnG lnB thetaW thetaB := by
  unfold Ker.lnLayer2 Ref.lnLayer2
  rw [mat2_eq]
  exact lnLinear_bridge h _ _ _ _ _ _ _ (row2_read lnG) (row2_read lnB) (row2_read thetaB)

/-- Layer 3: the normalised rows, positive part and affine map of the two programs agree. -/
theorem lnLayer3_eq (h : Mat 100000 256) (lnG lnB : Mat 4 256) (thetaW : Vec Ideal (⟨3, ![4, 256, 256]⟩ : Shape) .f32)
    (thetaB : Mat 4 256) : Ker.lnLayer3 h lnG lnB thetaW thetaB = Ref.lnLayer3 h lnG lnB thetaW thetaB := by
  unfold Ker.lnLayer3 Ref.lnLayer3
  rw [mat3_eq]
  exact lnLinear_bridge h _ _ _ _ _ _ _ (row3_read lnG) (row3_read lnB) (row3_read thetaB)

/-- The read-out of the two programs agrees. -/
theorem finalStage_eq (h : Mat 100000 256) (lnG lnB : Mat 4 256) (linW : Mat 256 16) (linB : RVec 16) :
    Ker.finalStage h lnG lnB linW linB = Ref.finalStage h lnG lnB linW linB := by
  funext idx
  obtain ⟨i, j, rfl⟩ : ∃ (i : Fin 100000) (j : Fin 16), idx = ix2 i j := ⟨idx 0, idx 1, eq_ix2 idx⟩
  unfold Ker.finalStage Ref.finalStage
  rw [finalG_apply, RefRead.final_apply h _ _ linW linB _ _ (row0_read lnG) (row0_read lnB), asRow16_read]

/-! ## The network -/

/-- The kernel program's result and the reference's are one function of the eleven arguments. -/
theorem model_eq (x : Mat 100000 384) (vidx eidx : Pairs) (encW : Mat 384 256) (encB : RVec 256)
    (thetaW : Vec Ideal (⟨3, ![4, 256, 256]⟩ : Shape) .f32) (thetaB lnG lnB : Mat 4 256) (linW : Mat 256 16) (linB : RVec 16) :
    Ker.model x vidx eidx encW encB thetaW thetaB lnG lnB linW linB
      = Ref.model x vidx eidx encW encB thetaW thetaB lnG lnB linW linB := by
  simp only [Ker.model, Ref.model, invDegE_eq, invDegV_eq, encode_eq, theta0_eq, v2v_eq, reluStage_eq,
    lnLayer1_eq, lnLayer2_eq, lnLayer3_eq, residual_eq, finalStage_eq]

end Cert.Hgnn.Bridge

end
-- ==== Proof.PayOps.lean ====
/-
  The vector operations of the stage bodies that are not entry-by-entry, read at one entry of a block of 2000 rows:
  the sum of a row over its 256 columns, a column of row values spread back over the row (a `[2000]` vector seen as
  `[2000, 1]`, then repeated along the columns), one row of parameters repeated down the rows, and the matrix product
  into a zero accumulator, which at entry `(p, q)` is `Σ_k lhs(p, k) · rhs(k, q)`.  Then the row statistics of a block
  (mean, mean squared deviation, the normalised-scaled-shifted positive part) as functions of a row index.
-/
import proofs.«108867_j88295937671288_1_alg».proof.Proof.Gen.KernelIdeal.Skeleton
import Idealize.ShloMosaic.PureOps.Ideal.Laws
import Idealize.ShloMosaic.Lib.ValueLayout

noncomputable section

open scoped BigOperators
open Idealize.ShloMosaic Idealize.ShloMosaic.ValueIdx

namespace Cert.Hgnn.Pay

open Cert.KernelIdeal

variable {α : Type}

/-! ## Layout operations at an entry -/

/-- A vector of `a` entries seen as one column: entry `(i, 0)` is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated along `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum of a row -/

/-- The sum over the columns of a `[2000, 256]` block, read at row `p`. -/
theorem rowSum_apply (v : FVec Ideal S2000x256 .f32) (h : S2000x256.Reduces [1] S2000) (hφ : FKind.Formats .f32)
    (hacc : (0x00000000#32 : BitVec 32) = 0x00000000#32) (p : Fin 2000) :
    multiReduction .add [1] S2000 v 0x00000000#32 h hφ hacc (ix1 p) = ∑ k : Fin 256, v (ix2 p k) :=
  (Ideal.multiReduction_add_single v 0x00000000#32 h hφ hacc (ix1 p)).trans
    (Finset.sum_congr rfl fun k _ => congrArg v (funext fun c => Fin.ext (by fin_cases c <;> rfl)))

/-! ## Matrix products -/

/-- The matrix product into a zero accumulator, contracted over 384 columns, read at `(p, q)`. -/
theorem matmul384_apply (lhs : FVec Ideal S2000x384 .bf16) (rhs : FVec Ideal S384x256 .bf16) (p : Fin 2000) (q : Fin 256) :
    matmul dot_S2000x384_S384x256_S2000x256_1_0_0_1_n_n none lhs rhs (constant S2000x256 .f32 0x00000000#32) (ix2 p q)
      = ∑ k : Fin 384, lhs (ix2 p k) * rhs (ix2 k q) := by
  refine (Ideal.matmul_constant_zero_apply dot_S2000x384_S384x256_S2000x256_1_0_0_1_n_n none lhs rhs (ix2 p q)).trans ?_
  rw [← Equiv.sum_comp (contrEquiv1 dot_S2000x384_S384x256_S2000x256_1_0_0_1_n_n 384 rfl rfl).symm]
  refine Finset.sum_congr rfl fun k _ => ?_
  have hk := contrEquiv1_symm_val dot_S2000x384_S384x256_S2000x256_1_0_0_1_n_n 384 rfl rfl k
  have el : dot_S2000x384_S384x256_S2000x256_1_0_0_1_n_n.lhsIdx (ix2 p q) ((contrEquiv1 dot_S2000x384_S384x256_S2000x256_1_0_0_1_n_n 384 rfl rfl).symm k) = ix2 p k := funext fun a => Fin.ext (by
    match a with
    | ⟨0, _⟩ =>
      show (dot_S2000x384_S384x256_S2000x256_1_0_0_1_n_n.lhsIdx (ix2 p q) ((contrEquiv1 dot_S2000x384_S384x256_S2000x256_1_0_0_1_n_n 384 rfl rfl).symm k) (0 : Fin S2000x384.rank)).val = p.val
      unfold DotDims.lhsIdx
      rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
      rfl
    | ⟨1, _⟩ => exact (dot_S2000x384_S384x256_S2000x256_1_0_0_1_n_n.lhsIdx_val_of_single rfl (ix2 p q) _).trans hk)
  have er : dot_S2000x384_S384x256_S2000x256_1_0_0_1_n_n.rhsIdx (ix2 p q) ((contrEquiv1 dot_S2000x384_S384x256_S2000x256_1_0_0_1_n_n 384 rfl rfl).symm k) = ix2 k q := funext fun a => Fin.ext (by
    match a with
    | ⟨0, _⟩ => exact (dot_S2000x384_S384x256_S2000x256_1_0_0_1_n_n.rhsIdx_val_of_single rfl (ix2 p q) _).trans hk
    | ⟨1, _⟩ =>
      show (dot_S2000x384_S384x256_S2000x256_1_0_0_1_n_n.rhsIdx (ix2 p q) ((contrEquiv1 dot_S2000x384_S384x256_S2000x256_1_0_0_1_n_n 384 rfl rfl).symm k) (1 : Fin S384x256.rank)).val = q.val
      unfold DotDims.rhsIdx
      rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
      rfl)
  rw [el, er]

/-- The matrix product into a zero accumulator, contracted over 256 columns, read at `(p, q)`. -/
theorem matmul256_apply (lhs : FVec Ideal S2000x256 .bf16) (rhs : FVec Ideal S256x256 .bf16) (p : Fin 2000) (q : Fin 256) :
    matmul dot_S2000x256_S256x256_S2000x256_1_0_0_1_n_n none lhs rhs (constant S2000x256 .f32 0x00000000#32) (ix2 p q)
      = ∑ k : Fin 256, lhs (ix2 p k) * rhs (ix2 k q) := by
  refine (Ideal.matmul_constant_zero_apply dot_S2000x256_S256x256_S2000x256_1_0_0_1_n_n none lhs rhs (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ =>
      show (dot_S2000x256_S256x256_S2000x256_1_0_0_1_n_n.lhsIdx (ix2 p q) ((contrEquiv1 dot_S2000x256_S256x256_S2000x256_1_0_0_1_n_n 256 rfl rfl).symm k) (0 : Fin S2000x256.rank)).val = p.val
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl
    | ⟨1, _⟩ => exact (dot_S2000x256_S256x256_S2000x256_1_0_0_1_n_n.lhsIdx_val_of_single rfl (ix2 p q) _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (dot_S2000x256_S256x256_S2000x256_1_0_0_1_n_n.rhsIdx_val_of_single rfl (ix2 p q) _).trans hk
    | ⟨1, _⟩ =>
      show (dot_S2000x256_S256x256_S2000x256_1_0_0_1_n_n.rhsIdx (ix2 p q) ((contrEquiv1 dot_S2000x256_S256x256_S2000x256_1_0_0_1_n_n 256 rfl rfl).symm k) (1 : Fin S256x256.rank)).val = q.val
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
  rw [el, er]

/-- The matrix product into a zero accumulator, contracted over 256 columns, read at `(p, q)`. -/
theorem matmul16_apply (lhs : FVec Ideal S2000x256 .bf16) (rhs : FVec Ideal S256x16 .bf16) (p : Fin 2000) (q : Fin 16) :
    matmul dot_S2000x256_S256x16_S2000x16_1_0_0_1_n_n none lhs rhs (constant S2000x16 .f32 0x00000000#32) (ix2 p q)
      = ∑ k : Fin 256, lhs (ix2 p k) * rhs (ix2 k q) := by
  refine (Ideal.matmul_constant_zero_apply dot_S2000x256_S256x16_S2000x16_1_0_0_1_n_n none lhs rhs (ix2 p q)).trans ?_
  rw [← Equiv.sum_comp (contrEquiv1 dot_S2000x256_S256x16_S2000x16_1_0_0_1_n_n 256 rfl rfl).symm]
  refine Finset.sum_congr rfl fun k _ => ?_
  have hk := contrEquiv1_symm_val dot_S2000x256_S256x16_S2000x16_1_0_0_1_n_n 256 rfl rfl k
  have el : dot_S2000x256_S256x16_S2000x16_1_0_0_1_n_n.lhsIdx (ix2 p q) ((contrEquiv1 dot_S2000x256_S256x16_S2000x16_1_0_0_1_n_n 256 rfl rfl).symm k) = ix2 p k := funext fun a => Fin.ext (by
    match a with
    | ⟨0, _⟩ =>
      show (dot_S2000x256_S256x16_S2000x16_1_0_0_1_n_n.lhsIdx (ix2 p q) ((contrEquiv1 dot_S2000x256_S256x16_S2000x16_1_0_0_1_n_n 256 rfl rfl).symm k) (0 : Fin S2000x256.rank)).val = p.val
      unfold DotDims.lhsIdx
      rw [dif_neg (show ¬(0 : Fin S2000x256.rank) ∈ dot_S2000x256_S256x16_S2000x16_1_0_0_1_n_n.lhsBatch by decide), dif_pos (show (0 : Fin S2000x256.rank) ∈ dot_S2000x256_S256x16_S2000x16_1_0_0_1_n_n.lhsNonContracting by decide)]
      rfl
    | ⟨1, _⟩ => exact (dot_S2000x256_S256x16_S2000x16_1_0_0_1_n_n.lhsIdx_val_of_single rfl (ix2 p q) _).trans hk)
  have er : dot_S2000x256_S256x16_S2000x16_1_0_0_1_n_n.rhsIdx (ix2 p q) ((contrEquiv1 dot_S2000x256_S256x16_S2000x16_1_0_0_1_n_n 256 rfl rfl).symm k) = ix2 k q := funext fun a => Fin.ext (by
    match a with
    | ⟨0, _⟩ => exact (dot_S2000x256_S256x16_S2000x16_1_0_0_1_n_n.rhsIdx_val_of_single rfl (ix2 p q) _).trans hk
    | ⟨1, _⟩ =>
      show (dot_S2000x256_S256x16_S2000x16_1_0_0_1_n_n.rhsIdx (ix2 p q) ((contrEquiv1 dot_S2000x256_S256x16_S2000x16_1_0_0_1_n_n 256 rfl rfl).symm k) (1 : Fin S256x16.rank)).val = q.val
      unfold DotDims.rhsIdx
      rw [dif_neg (show ¬(1 : Fin S256x16.rank) ∈ dot_S2000x256_S256x16_S2000x16_1_0_0_1_n_n.rhsBatch by decide), dif_pos (show (1 : Fin S256x16.rank) ∈ dot_S2000x256_S256x16_S2000x16_1_0_0_1_n_n.rhsNonContracting by decide)]
      rfl)
  rw [el, er]

/-! ## Row statistics of a block -/

/-- The mean of row `p` of a block: its sum divided by 256 (the constant kept as its binary word). -/
def bMean (x : Vec Ideal S2000x256 .f32) (p : Fin 2000) : EReal :=
  Ideal.div (∑ k : Fin 256, x (ix2 p k)) (Ideal.ofBits .f32 0x43800000#32)

/-- The mean squared deviation of row `p` of a block from its mean. -/
def bVar (x : Vec Ideal S2000x256 .f32) (p : Fin 2000) : EReal :=
  Ideal.div (∑ k : Fin 256, (x (ix2 p k) - bMean x p) * (x (ix2 p k) - bMean x p)) (Ideal.ofBits .f32 0x43800000#32)

/-- Entry `(p, k)` of the normalised, scaled and shifted block, positive part. -/
def bLnRelu (x : Vec Ideal S2000x256 .f32) (g b : Vec Ideal S1x256 .f32) (p : Fin 2000) (k : Fin 256) : EReal :=
  max ((x (ix2 p k) - bMean x p) * Ideal.rsqrt (bVar x p + Ideal.ofBits .f32 0x3727C5AC#32) * g (ix2 (0 : Fin 1) k) + b (ix2 (0 : Fin 1) k)) 0

end Cert.Hgnn.Pay

end
-- ==== Proof.Pay0.lean ====
/-
  The body of the first affine stage at one entry of its block of 2000 rows: the loaded block times the weight
  matrix, contracted over 384 columns into a zero accumulator, then the bias row added to every row.
-/
import proofs.«108867_j88295937671288_1_alg».proof.Proof.PayOps

noncomputable section

open scoped BigOperators
open Idealize.ShloMosaic Idealize.ShloMosaic.ValueIdx

namespace Cert.Hgnn.Pay

open Cert.KernelIdeal Cert.KernelIdeal.Gen

/-- The stage body at entry `(p, q)`: `Σ_k x(p, k) · W(k, q) + b(0, q)`. -/
theorem pay0_apply (x0 : Vec Ideal S2000x384 .f32) (W : Vec Ideal S384x256 .f32) (b : Vec Ideal S1x256 .f32)
    (p : Fin 2000) (q : Fin 256) :
    k0_pay1 x0 W b (ix2 p q) = (∑ k : Fin 384, x0 (ix2 p k) * W (ix2 k q)) + b (ix2 (0 : Fin 1) q) := by
  unfold k0_pay1
  simp only [shapeCast_self]
  refine (addf_apply _ _ _).trans ?_
  rw [matmul384_apply, broadcastTo_1b_ab_apply]
  rfl

end Cert.Hgnn.Pay

end
-- ==== Proof.Region0.lean ====
/-
  An affine stage, read off the run of its grid.

  The grid has 50 points; point `t` works on rows `2000·t … 2000·t + 1999`: it loads that block of rows of the input
  array, the whole weight matrix and the whole bias row, multiplies the block by the matrix (a sum over 384 columns
  into a zero accumulator), adds the bias row to every row, and writes the block back to the same rows of the
  result.  Entry `(p, q)` of the row block at point `t` is entry `(2000·t + p, q)` of its array, and the matrix and
  the bias row are the same whole arrays at every point, so what point `t` writes back is the restriction of the
  whole-array function `X · W + b` to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay0
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region0

theorem hz : (![0, 0] : Fin 2 → Nat) = fun _ => 0 := funext fun a => by fin_cases a <;> rfl

/-- Window 0's block index at point `t`: block row `t`, block column 0. -/
theorem idx0 : ∀ t : Fin cfg0.N, win0_0.index t (0 : Fin 2) = t.val ∧ win0_0.index t (1 : Fin 2) = 0 :=
  (by decide +kernel : ∀ t : Fin grid0.N, _)

/-- Window 1's block index at point `t`: the one whole block. -/
theorem idx1 : ∀ t : Fin cfg0.N, win0_1.index t (0 : Fin 2) = 0 ∧ win0_1.index t (1 : Fin 2) = 0 :=
  (by decide +kernel : ∀ t : Fin grid0.N, _)

/-- Window 2's block index at point `t`: the one whole block. -/
theorem idx2 : ∀ t : Fin cfg0.N, win0_2.index t (0 : Fin 2) = 0 ∧ win0_2.index t (1 : Fin 2) = 0 :=
  (by decide +kernel : ∀ t : Fin grid0.N, _)

/-- Window 3's block index at point `t`: block row `t`, block column 0. -/
theorem idx3 : ∀ t : Fin cfg0.N, win0_3.index t (0 : Fin 2) = t.val ∧ win0_3.index t (1 : Fin 2) = 0 :=
  (by decide +kernel : ∀ t : Fin grid0.N, _)

/-- The array row under row `p` of the block at point `t`. -/
def rowOf (t : Fin cfg0.N) (p : Fin 2000) : Fin 100000 :=
  ⟨2000 * t.val + p.val, by have := t.isLt; have hN : cfg0.N = 50 := N_0; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg0.N) (p : Fin 2000) (q : Fin 384) :
    (iblk0 V c 0 t : Vec Ideal S2000x384 .f32) (ix2 p q)
      = (V c (Pipeline.arrRef spec0 0) : Vec Ideal S100000x384 .f32) (ix2 (rowOf t p) q) := by
  obtain ⟨e0, e1⟩ := idx0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 384 + 1 * q.val = q.val; rw [e1]; omega

/-- Window 1's block at every point is its whole array. -/
theorem iblk1_apply (c : Dev nD) (t : Fin cfg0.N) (p : Fin 384) (q : Fin 256) :
    (iblk0 V c 1 t : Vec Ideal S384x256 .f32) (ix2 p q)
      = (V c (Pipeline.arrRef spec0 1) : Vec Ideal S384x256 .f32) (ix2 p q) := by
  obtain ⟨e0, e1⟩ := idx1 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 384 + 1 * p.val = p.val; rw [e0]; omega
  | ⟨1, _⟩ => show win0_1.index t (1 : Fin 2) * 256 + 1 * q.val = q.val; rw [e1]; omega

/-- Window 2's block at every point is its whole array. -/
theorem iblk2_apply (c : Dev nD) (t : Fin cfg0.N) (p : Fin 1) (q : Fin 256) :
    (iblk0 V c 2 t : Vec Ideal S1x256 .f32) (ix2 p q)
      = (V c (Pipeline.arrRef spec0 2) : Vec Ideal S1x256 .f32) (ix2 p q) := by
  obtain ⟨e0, e1⟩ := idx2 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * p.val = p.val; rw [e0]; omega
  | ⟨1, _⟩ => show win0_2.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg0.N) (p : Fin 2000) (q : Fin 256) :
    (((cfg0.win 3).blk t).view.read (Elt Ideal) G : Vec Ideal S2000x256 .f32) (ix2 p q) = G (ix2 (rowOf t p) q) := by
  obtain ⟨e0, e1⟩ := idx3 t
  rw [View.read_apply]
  show G _ = G _
  congr 1
  funext a
  apply Fin.ext
  match a with
  | ⟨0, _⟩ => show win0_3.index t (0 : Fin 2) * 2000 + 1 * p.val = 2000 * t.val + p.val; rw [e0]; omega
  | ⟨1, _⟩ => show win0_3.index t (1 : Fin 2) * 256 + 1 * q.val = q.val; rw [e1]; omega

/-- What point `t` writes back is block `t` of the stage function of the arrays the grid starts from. -/
theorem flushed_eq (c : Dev nD) (t : Fin cfg0.N) :
    (dat0 V c).flushed 3 t = ((cfg0.win 3).blk t).view.read (Elt Ideal) (linear384 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x384) hz, View.ld_unit_zero (S := S384x256) hz, View.ld_unit_zero (S := S1x256) hz, View.ld_unit_zero (S := S2000x256) hz]
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (ix2 p q) = _
  rw [Pay.pay0_apply, oblk_apply, linear384_apply]
  simp only [iblk0_apply, iblk1_apply, iblk2_apply]

/-- An index of the array is in point `t`'s block iff each coordinate is in the block's range on its axis. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every index of the result array lies in the block of the point `row / 2000`. -/
theorem cover (i : S100000x256.Idx) :
    ∃ t : Fin cfg0.N, (cfg0.win 3).flush t = true ∧ i ∈ ((cfg0.win 3).blk t).view.set := by
  have h0 : (i 0).val < 100000 := (i 0).isLt
  have h1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1⟩ := idx3 t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 256 ≤ (i 1).val ∧ (i 1).val < win0_3.index t (1 : Fin 2) * 256 + 256; rw [e1]; omega

end Region0

/-- After the grid's run the result array is `X · W + b`, entry by entry. -/
theorem region0_value (V : (c : Dev nD) → (b : Ref sig .tc) → Buf (Elt Ideal) ((c : Thread nD τ).loc b)) (c : Dev nD) :
    (dat0 (F := Ideal) V c).arrAt 3 cfg0.N = linear384 (V c (Pipeline.arrRef spec0 0)) (V c (Pipeline.arrRef spec0 1)) (V c (Pipeline.arrRef spec0 2)) :=
  (dat0 V c).arrAt_eq_of_cover 3 _ (fun t _ => Region0.flushed_eq V c t) Region0.cover

end Cert.Hgnn

end
-- ==== Proof.Pay1.lean ====
/-
  The body of the second affine stage at one entry of its block of 2000 rows: the loaded block times the weight
  matrix, contracted over 256 columns into a zero accumulator, then the bias row added to every row.
-/
import proofs.«108867_j88295937671288_1_alg».proof.Proof.PayOps

noncomputable section

open scoped BigOperators
open Idealize.ShloMosaic Idealize.ShloMosaic.ValueIdx

namespace Cert.Hgnn.Pay

open Cert.KernelIdeal Cert.KernelIdeal.Gen

/-- The stage body at entry `(p, q)`: `Σ_k x(p, k) · W(k, q) + b(0, q)`. -/
theorem pay1_apply (x0 : Vec Ideal S2000x256 .f32) (W : Vec Ideal S256x256 .f32) (b : Vec Ideal S1x256 .f32)
    (p : Fin 2000) (q : Fin 256) :
    k1_pay1 x0 W b (ix2 p q) = (∑ k : Fin 256, x0 (ix2 p k) * W (ix2 k q)) + b (ix2 (0 : Fin 1) q) := by
  unfold k1_pay1
  simp only [shapeCast_self]
  refine (addf_apply _ _ _).trans ?_
  rw [matmul256_apply, broadcastTo_1b_ab_apply]
  rfl

end Cert.Hgnn.Pay

end
-- ==== Proof.Region1.lean ====
/-
  An affine stage, read off the run of its grid.

  The grid has 50 points; point `t` works on rows `2000·t … 2000·t + 1999`: it loads that block of rows of the input
  array, the whole weight matrix and the whole bias row, multiplies the block by the matrix (a sum over 256 columns
  into a zero accumulator), adds the bias row to every row, and writes the block back to the same rows of the
  result.  Entry `(p, q)` of the row block at point `t` is entry `(2000·t + p, q)` of its array, and the matrix and
  the bias row are the same whole arrays at every point, so what point `t` writes back is the restriction of the
  whole-array function `X · W + b` to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay1
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region1

theorem hz : (![0, 0] : Fin 2 → Nat) = fun _ => 0 := funext fun a => by fin_cases a <;> rfl

/-- Window 0's block index at point `t`: block row `t`, block column 0. -/
theorem idx0 : ∀ t : Fin cfg1.N, win1_0.index t (0 : Fin 2) = t.val ∧ win1_0.index t (1 : Fin 2) = 0 :=
  (by decide +kernel : ∀ t : Fin grid1.N, _)

/-- Window 1's block index at point `t`: the one whole block. -/
theorem idx1 : ∀ t : Fin cfg1.N, win1_1.index t (0 : Fin 2) = 0 ∧ win1_1.index t (1 : Fin 2) = 0 :=
  (by decide +kernel : ∀ t : Fin grid1.N, _)

/-- Window 2's block index at point `t`: the one whole block. -/
theorem idx2 : ∀ t : Fin cfg1.N, win1_2.index t (0 : Fin 2) = 0 ∧ win1_2.index t (1 : Fin 2) = 0 :=
  (by decide +kernel : ∀ t : Fin grid1.N, _)

/-- Window 3's block index at point `t`: block row `t`, block column 0. -/
theorem idx3 : ∀ t : Fin cfg1.N, win1_3.index t (0 : Fin 2) = t.val ∧ win1_3.index t (1 : Fin 2) = 0 :=
  (by decide +kernel : ∀ t : Fin grid1.N, _)

/-- The array row under row `p` of the block at point `t`. -/
def rowOf (t : Fin cfg1.N) (p : Fin 2000) : Fin 100000 :=
  ⟨2000 * t.val + p.val, by have := t.isLt; have hN : cfg1.N = 50 := N_1; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg1.N) (p : Fin 2000) (q : Fin 256) :
    (iblk1 V c 0 t : Vec Ideal S2000x256 .f32) (ix2 p q)
      = (V c (Pipeline.arrRef spec1 0) : Vec Ideal S100000x256 .f32) (ix2 (rowOf t p) q) := by
  obtain ⟨e0, e1⟩ := idx0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * q.val = q.val; rw [e1]; omega

/-- Window 1's block at every point is its whole array. -/
theorem iblk1_apply (c : Dev nD) (t : Fin cfg1.N) (p : Fin 256) (q : Fin 256) :
    (iblk1 V c 1 t : Vec Ideal S256x256 .f32) (ix2 p q)
      = (V c (Pipeline.arrRef spec1 1) : Vec Ideal S256x256 .f32) (ix2 p q) := by
  obtain ⟨e0, e1⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 256 + 1 * p.val = p.val; rw [e0]; omega
  | ⟨1, _⟩ => show win1_1.index t (1 : Fin 2) * 256 + 1 * q.val = q.val; rw [e1]; omega

/-- Window 2's block at every point is its whole array. -/
theorem iblk2_apply (c : Dev nD) (t : Fin cfg1.N) (p : Fin 1) (q : Fin 256) :
    (iblk1 V c 2 t : Vec Ideal S1x256 .f32) (ix2 p q)
      = (V c (Pipeline.arrRef spec1 2) : Vec Ideal S1x256 .f32) (ix2 p q) := by
  obtain ⟨e0, e1⟩ := idx2 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * p.val = p.val; rw [e0]; omega
  | ⟨1, _⟩ => show win1_2.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg1.N) (p : Fin 2000) (q : Fin 256) :
    (((cfg1.win 3).blk t).view.read (Elt Ideal) G : Vec Ideal S2000x256 .f32) (ix2 p q) = G (ix2 (rowOf t p) q) := by
  obtain ⟨e0, e1⟩ := idx3 t
  rw [View.read_apply]
  show G _ = G _
  congr 1
  funext a
  apply Fin.ext
  match a with
  | ⟨0, _⟩ => show win1_3.index t (0 : Fin 2) * 2000 + 1 * p.val = 2000 * t.val + p.val; rw [e0]; omega
  | ⟨1, _⟩ => show win1_3.index t (1 : Fin 2) * 256 + 1 * q.val = q.val; rw [e1]; omega

/-- What point `t` writes back is block `t` of the stage function of the arrays the grid starts from. -/
theorem flushed_eq (c : Dev nD) (t : Fin cfg1.N) :
    (dat1 V c).flushed 3 t = ((cfg1.win 3).blk t).view.read (Elt Ideal) (linear256 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (ix2 p q) = _
  rw [Pay.pay1_apply, oblk_apply, linear256_apply]
  simp only [iblk0_apply, iblk1_apply, iblk2_apply]

/-- An index of the array is in point `t`'s block iff each coordinate is in the block's range on its axis. -/
theorem mem_blk (t : Fin cfg1.N) (i : S100000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v22).slice (win1_3.rect t)).set ↔ _
  rw [View.set_slice_whole, Rect.mem_set_unit]
  exact Iff.rfl

/-- Every index of the result array lies in the block of the point `row / 2000`. -/
theorem cover (i : S100000x256.Idx) :
    ∃ t : Fin cfg1.N, (cfg1.win 3).flush t = true ∧ i ∈ ((cfg1.win 3).blk t).view.set := by
  have h0 : (i 0).val < 100000 := (i 0).isLt
  have h1 : (i 1).val < 256 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨e0, e1⟩ := idx3 t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 256 ≤ (i 1).val ∧ (i 1).val < win1_3.index t (1 : Fin 2) * 256 + 256; rw [e1]; omega

end Region1

/-- After the grid's run the result array is `X · W + b`, entry by entry. -/
theorem region1_value (V : (c : Dev nD) → (b : Ref sig .tc) → Buf (Elt Ideal) ((c : Thread nD τ).loc b)) (c : Dev nD) :
    (dat1 (F := Ideal) V c).arrAt 3 cfg1.N = linear256 (V c (Pipeline.arrRef spec1 0)) (V c (Pipeline.arrRef spec1 1)) (V c (Pipeline.arrRef spec1 2)) :=
  (dat1 V c).arrAt_eq_of_cover 3 _ (fun t _ => Region1.flushed_eq V c t) Region1.cover

end Cert.Hgnn

end
-- ==== Proof.Region2.lean ====
/-
  The positive-part stage, read off the run of its grid.

  The grid has 50 points; point `t` works on rows `2000·t … 2000·t + 1999` of the 100000-row array: it loads
  that block of rows, takes `max x 0` entry by entry, and writes the block back to the same rows of the result.
  Entry `(p, q)` of the block at point `t` is entry `(2000·t + p, q)` of the array, on the input as on the output,
  so what point `t` writes back is the restriction of the whole-array function `reluG` to its rows; the 50 blocks
  cover every row (row `r` lies in block `r / 2000`), hence the result array is `reluG` of the input array.
-/
import proofs.«108867_j88295937671288_1_alg».proof.Proof.KSpec
import proofs.«108867_j88295937671288_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region2

theorem hz : (![0, 0] : Fin 2 → Nat) = fun _ => 0 := funext fun a => by fin_cases a <;> rfl

/-- The body's value at entry `(p, q)` of a block: the positive part of the loaded entry. -/
theorem pay_apply (x0 : Vec Ideal S2000x256 .f32) (p : Fin 2000) (q : Fin 256) :
    k2_pay1 x0 (ix2 p q) = max (x0 (ix2 p q)) 0 := by
  unfold k2_pay1
  simp only [shapeCast_self]
  show max (x0 (ix2 p q)) (Ideal.ofBits .f32 0x00000000#32) = _
  rw [Ideal.ofBits_zero_f32]

/-- Both windows' block at point `t` is block row `t`, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The array row under row `p` of the block at point `t`. -/
def rowOf (t : Fin cfg2.N) (p : Fin 2000) : Fin 100000 :=
  ⟨2000 * t.val + p.val, by have := t.isLt; have hN : cfg2.N = 50 := N_2; have := p.isLt; omega⟩

variable (V : (c : Dev nD) → (b : Ref sig .tc) → Buf (Elt Ideal) ((c : Thread nD τ).loc b))

/-- Entry `(p, q)` of the input block at point `t` is entry `(2000·t + p, q)` of the input array. -/
theorem iblk_apply (c : Dev nD) (t : Fin cfg2.N) (p : Fin 2000) (q : Fin 256) :
    (iblk2 V c 0 t : Vec Ideal S2000x256 .f32) (ix2 p q)
      = (V c (Pipeline.arrRef spec2 0) : Vec Ideal S100000x256 .f32) (ix2 (rowOf t p) q) := by
  obtain ⟨e0, e1, -, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg2.N) (p : Fin 2000) (q : Fin 256) :
    (((cfg2.win 1).blk t).view.read (Elt Ideal) G : Vec Ideal S2000x256 .f32) (ix2 p q) = G (ix2 (rowOf t p) q) := by
  obtain ⟨-, -, e0, e1⟩ := idx_facts t
  rw [View.read_apply]
  show G _ = G _
  congr 1
  funext a
  apply Fin.ext
  match a with
  | ⟨0, _⟩ => show win2_1.index t (0 : Fin 2) * 2000 + 1 * p.val = 2000 * t.val + p.val; rw [e0]; omega
  | ⟨1, _⟩ => show win2_1.index t (1 : Fin 2) * 256 + 1 * q.val = q.val; rw [e1]; omega

/-- What point `t` writes back is block `t` of `reluG` of the input array. -/
theorem flushed_eq (c : Dev nD) (t : Fin cfg2.N) :
    (dat2 V c).flushed 1 t = ((cfg2.win 1).blk t).view.read (Elt Ideal) (reluG (V c (Pipeline.arrRef spec2 0))) := by
  show (cfg2.win 1).cut (grid2.coords t) ((dat2 V c).after 1 t) = _
  rw [after2_1]
  unfold out2_1
  rw [View.canon_unit_zero hz]
  simp only [View.ld_unit_zero (S := S2000x256) hz]
  funext j
  obtain ⟨p, q, rfl⟩ : ∃ (p : Fin 2000) (q : Fin 256), j = ix2 p q := ⟨j 0, j 1, eq_ix2 j⟩
  show k2_pay1 (iblk2 V c 0 t) (ix2 p q) = _
  rw [pay_apply, iblk_apply, oblk_apply, reluG_apply]

/-- An index of the array is in point `t`'s block iff each coordinate is in the block's range on its axis. -/
theorem mem_blk (t : Fin cfg2.N) (i : S100000x256.Idx) :
    i ∈ ((cfg2.win 1).blk t).view.set ↔ ∀ a : Fin 2, win2_1.index t a * S2000x256.size a ≤ (i a).val ∧ (i a).val < win2_1.index t a * S2000x256.size a + S2000x256.size a := by
  show i ∈ ((View.whole main_v49).slice (win2_1.rect t)).set ↔ _
  rw [View.set_slice_whole, Rect.mem_set_unit]
  exact Iff.rfl

/-- Every index of the result array lies in the block of the point `row / 2000`. -/
theorem cover (i : S100000x256.Idx) :
    ∃ t : Fin cfg2.N, (cfg2.win 1).flush t = true ∧ i ∈ ((cfg2.win 1).blk t).view.set := by
  have h0 : (i 0).val < 100000 := (i 0).isLt
  have h1 : (i 1).val < 256 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, e0, e1⟩ := idx_facts t
  refine ⟨t, flush2_1 t, ?_⟩
  rw [mem_blk]
  intro a
  match a with
  | ⟨0, _⟩ => show win2_1.index t (0 : Fin 2) * 2000 ≤ (i 0).val ∧ (i 0).val < win2_1.index t (0 : Fin 2) * 2000 + 2000; rw [e0, ht]; omega
  | ⟨1, _⟩ => show win2_1.index t (1 : Fin 2) * 256 ≤ (i 1).val ∧ (i 1).val < win2_1.index t (1 : Fin 2) * 256 + 256; rw [e1]; omega

end Region2

/-- After the grid's run the result array is the positive part of the input array, entry by entry. -/
theorem region2_value (V : (c : Dev nD) → (b : Ref sig .tc) → Buf (Elt Ideal) ((c : Thread nD τ).loc b)) (c : Dev nD) :
    (dat2 (F := Ideal) V c).arrAt 1 cfg2.N = reluG (V c (Pipeline.arrRef spec2 0)) :=
  (dat2 V c).arrAt_eq_of_cover 1 _ (fun t _ => Region2.flushed_eq V c t) Region2.cover

end Cert.Hgnn

end
-- ==== Proof.Pay3.lean ====
/-
  The body of the normalise-then-affine stage at one entry of its block of 2000 rows.

  From the loaded block `x`, the gain row `g`, the shift row `b`, the weight matrix `W` and the bias row: every row of
  `x` is centred by its mean, scaled by the reciprocal square root of its mean squared deviation plus the small
  constant, multiplied by `g`, shifted by `b`, cut at zero; the result is multiplied by `W` and the bias row added.
  At entry `(p, q)` this is `Σ_k t(p, k) · W(k, q) + bias(0, q)` with `t` the row statistics of the block.
-/
import proofs.«108867_j88295937671288_1_alg».proof.Proof.PayOps

noncomputable section

open scoped BigOperators
open Idealize.ShloMosaic Idealize.ShloMosaic.ValueIdx

namespace Cert.Hgnn.Pay

open Cert.KernelIdeal Cert.KernelIdeal.Gen

/-- The reciprocal square root of a vector, entry by entry. -/
theorem rsqrt_apply {s : Shape} {φ : FTy} (a : FVec Ideal s φ) (i : s.Idx) : rsqrt a i = Ideal.rsqrt (a i) := rfl

/-- The sum over the columns of a block read at row `p`, with the accumulator's neutrality stated as the operation states it. -/
theorem rowSum_neutral_apply (v : FVec Ideal S2000x256 .f32) (h : S2000x256.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ k : Fin 256, v (ix2 p k) :=
  (Ideal.multiReduction_add_single v 0x00000000#32 h hφ hacc (ix1 p)).trans
    (Finset.sum_congr rfl fun k _ => congrArg v (funext fun c => Fin.ext (by fin_cases c <;> rfl)))

set_option backward.isDefEq.respectTransparency.types false in
/-- The stage body at entry `(p, q)`. -/
theorem pay3_apply (x0 : Vec Ideal S2000x256 .f32) (g b : Vec Ideal S1x256 .f32) (W : Vec Ideal S256x256 .f32)
    (bias : Vec Ideal S1x256 .f32) (p : Fin 2000) (q : Fin 256) :
    k3_pay1 x0 g b W bias (ix2 p q) = (∑ k : Fin 256, bLnRelu x0 g b p k * W (ix2 k q)) + bias (ix2 (0 : Fin 1) q) := by
  unfold k3_pay1
  simp only [shapeCast_self]
  refine (addf_apply _ _ _).trans ?_
  rw [matmul256_apply, broadcastTo_1b_ab_apply]
  refine congrArg (· + bias (ix2 (0 : Fin 1) q)) (Finset.sum_congr rfl fun k _ => ?_)
  refine congrArg (· * W (ix2 k q)) ?_
  simp only [truncf_apply, maximumf_apply, addf_apply, mulf_apply, subf_apply, divf_apply, broadcast_apply,
    broadcastTo_1b_ab_apply, broadcastTo_a1_ab_apply, rsqrt_apply, shapeCast_a_a1_apply, Ideal.ofBits_def, Ideal.ofBits_zero_f32]
  rw [rowSum_neutral_apply x0, rowSum_neutral_apply (mulf _ _)]
  simp only [mulf_apply, subf_apply, divf_apply, broadcast_apply, broadcastTo_a1_ab_apply, shapeCast_a_a1_apply, Ideal.ofBits_def]
  rw [rowSum_neutral_apply x0]
  rfl

/-- The same body printed for the two later layers. -/
theorem pay5_eq : @k5_pay1 Ideal _ = @k3_pay1 Ideal _ := rfl
theorem pay7_eq : @k7_pay1 Ideal _ = @k3_pay1 Ideal _ := rfl

end Cert.Hgnn.Pay

end
-- ==== Proof.PayLn.lean ====
/-
  A block's row statistics are the array's.

  When row `p` of a block of 2000 rows holds row `r` of the whole array, its mean, its mean squared deviation
  and its normalised, scaled, shifted entries (positive part) are those of row `r` of the array, for gain and
  shift rows that agree entry by entry.
-/
import proofs.«108867_j88295937671288_1_alg».proof.Proof.KSpec
import proofs.«108867_j88295937671288_1_alg».proof.Proof.PayOps

noncomputable section

open scoped BigOperators
open Idealize.ShloMosaic Idealize.ShloMosaic.ValueIdx

namespace Cert.Hgnn.Pay

open Cert.KernelIdeal

/-- The block row's mean is the array row's. -/
theorem bMean_eq (x : Vec Ideal S2000x256 .f32) (H : Mat 100000 256) (p : Fin 2000) (r : Fin 100000)
    (hx : ∀ k : Fin 256, x (ix2 p k) = H (ix2 r k)) : bMean x p = rowMean H r := by
  unfold bMean rowMean
  exact congrArg (fun s => Ideal.div s _) (Finset.sum_congr rfl fun k _ => hx k)

/-- The block row's mean squared deviation is the array row's. -/
theorem bVar_eq (x : Vec Ideal S2000x256 .f32) (H : Mat 100000 256) (p : Fin 2000) (r : Fin 100000)
    (hx : ∀ k : Fin 256, x (ix2 p k) = H (ix2 r k)) : bVar x p = rowVar H r := by
  unfold bVar rowVar
  refine congrArg (fun s => Ideal.div s _) (Finset.sum_congr rfl fun k _ => ?_)
  rw [hx k, bMean_eq x H p r hx]

/-- The block's normalised entry is the array's. -/
theorem bLnRelu_eq (x : Vec Ideal S2000x256 .f32) (g b : Vec Ideal S1x256 .f32) (H : Mat 100000 256) (g' b' : Mat 1 256)
    (p : Fin 2000) (r : Fin 100000) (hx : ∀ k : Fin 256, x (ix2 p k) = H (ix2 r k))
    (hg : ∀ k : Fin 256, g (ix2 (0 : Fin 1) k) = g' (ix2 (0 : Fin 1) k))
    (hb : ∀ k : Fin 256, b (ix2 (0 : Fin 1) k) = b' (ix2 (0 : Fin 1) k)) (k : Fin 256) :
    bLnRelu x g b p k = lnRelu H g' b' r k := by
  unfold bLnRelu lnRelu
  rw [hx k, hg k, hb k, bMean_eq x H p r hx, bVar_eq x H p r hx]

end Cert.Hgnn.Pay

end
-- ==== Proof.Region3.lean ====
/-
  The normalise-then-affine stage, read off the run of its grid.

  The grid has 50 points; point `t` works on rows `2000·t … 2000·t + 1999`: it loads that block of rows of the input
  array and, whole, the gain row, the shift row, the weight matrix and the bias row; each row of the block is centred
  by its own mean, scaled by the reciprocal square root of its own mean squared deviation plus the small constant,
  multiplied by the gain, shifted, cut at zero, then multiplied by the weight matrix and the bias row added; the
  block is written back to the same rows of the result.  A row's statistics depend on that row alone, and row `p` of
  the block at point `t` is row `2000·t + p` of the array, so what point `t` writes back is the restriction of the
  whole-array stage function to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay3
import proofs.«108867_j88295937671288_1_alg».proof.Proof.PayLn
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region3

theorem hz : (![0, 0] : Fin 2 → Nat) = fun _ => 0 := funext fun a => by fin_cases a <;> rfl

/-- Window 0's block index at point `t`: block row `t`, block column 0. -/
theorem idx0 : ∀ t : Fin cfg3.N, win3_0.index t (0 : Fin 2) = t.val ∧ win3_0.index t (1 : Fin 2) = 0 :=
  (by decide +kernel : ∀ t : Fin grid3.N, _)

/-- Window 1's block index at point `t`: the one whole block. -/
theorem idx1 : ∀ t : Fin cfg3.N, win3_1.index t (0 : Fin 2) = 0 ∧ win3_1.index t (1 : Fin 2) = 0 :=
  (by decide +kernel : ∀ t : Fin grid3.N, _)

/-- Window 2's block index at point `t`: the one whole block. -/
theorem idx2 : ∀ t : Fin cfg3.N, win3_2.index t (0 : Fin 2) = 0 ∧ win3_2.index t (1 : Fin 2) = 0 :=
  (by decide +kernel : ∀ t : Fin grid3.N, _)

/-- Window 3's block index at point `t`: the one whole block. -/
theorem idx3 : ∀ t : Fin cfg3.N, win3_3.index t (0 : Fin 2) = 0 ∧ win3_3.index t (1 : Fin 2) = 0 :=
  (by decide +kernel : ∀ t : Fin grid3.N, _)

/-- Window 4's block index at point `t`: the one whole block. -/
theorem idx4 : ∀ t : Fin cfg3.N, win3_4.index t (0 : Fin 2) = 0 ∧ win3_4.index t (1 : Fin 2) = 0 :=
  (by decide +kernel : ∀ t : Fin grid3.N, _)

/-- Window 5's block index at point `t`: block row `t`, block column 0. -/
theorem idx5 : ∀ t : Fin cfg3.N, win3_5.index t (0 : Fin 2) = t.val ∧ win3_5.index t (1 : Fin 2) = 0 :=
  (by decide +kernel : ∀ t : Fin grid3.N, _)

/-- The array row under row `p` of the block at point `t`. -/
def rowOf (t : Fin cfg3.N) (p : Fin 2000) : Fin 100000 :=
  ⟨2000 * t.val + p.val, by have := t.isLt; have hN : cfg3.N = 50 := N_3; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg3.N) (p : Fin 2000) (q : Fin 256) :
    (iblk3 V c 0 t : Vec Ideal S2000x256 .f32) (ix2 p q)
      = (V c (Pipeline.arrRef spec3 0) : Vec Ideal S100000x256 .f32) (ix2 (rowOf t p) q) := by
  obtain ⟨e0, e1⟩ := idx0 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 256 + 1 * q.val = q.val; rw [e1]; omega

/-- Window 1's block at every point is its whole array. -/
theorem iblk1_apply (c : Dev nD) (t : Fin cfg3.N) (p : Fin 1) (q : Fin 256) :
    (iblk3 V c 1 t : Vec Ideal S1x256 .f32) (ix2 p q)
      = (V c (Pipeline.arrRef spec3 1) : Vec Ideal S1x256 .f32) (ix2 p q) := by
  obtain ⟨e0, e1⟩ := idx1 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * p.val = p.val; rw [e0]; omega
  | ⟨1, _⟩ => show win3_1.index t (1 : Fin 2) * 256 + 1 * q.val = q.val; rw [e1]; omega

/-- Window 2's block at every point is its whole array. -/
theorem iblk2_apply (c : Dev nD) (t : Fin cfg3.N) (p : Fin 1) (q : Fin 256) :
    (iblk3 V c 2 t : Vec Ideal S1x256 .f32) (ix2 p q)
      = (V c (Pipeline.arrRef spec3 2) : Vec Ideal S1x256 .f32) (ix2 p q) := by
  obtain ⟨e0, e1⟩ := idx2 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * p.val = p.val; rw [e0]; omega
  | ⟨1, _⟩ => show win3_2.index t (1 : Fin 2) * 256 + 1 * q.val = q.val; rw [e1]; omega

/-- Window 3's block at every point is its whole array. -/
theorem iblk3_apply (c : Dev nD) (t : Fin cfg3.N) (p : Fin 256) (q : Fin 256) :
    (iblk3 V c 3 t : Vec Ideal S256x256 .f32) (ix2 p q)
      = (V c (Pipeline.arrRef spec3 3) : Vec Ideal S256x256 .f32) (ix2 p q) := by
  obtain ⟨e0, e1⟩ := idx3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 256 + 1 * p.val = p.val; rw [e0]; omega
  | ⟨1, _⟩ => show win3_3.index t (1 : Fin 2) * 256 + 1 * q.val = q.val; rw [e1]; omega

/-- Window 4's block at every point is its whole array. -/
theorem iblk4_apply (c : Dev nD) (t : Fin cfg3.N) (p : Fin 1) (q : Fin 256) :
    (iblk3 V c 4 t : Vec Ideal S1x256 .f32) (ix2 p q)
      = (V c (Pipeline.arrRef spec3 4) : Vec Ideal S1x256 .f32) (ix2 p q) := by
  obtain ⟨e0, e1⟩ := idx4 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * p.val = p.val; rw [e0]; omega
  | ⟨1, _⟩ => show win3_4.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg3.N) (p : Fin 2000) (q : Fin 256) :
    (((cfg3.win 5).blk t).view.read (Elt Ideal) G : Vec Ideal S2000x256 .f32) (ix2 p q) = G (ix2 (rowOf t p) q) := by
  obtain ⟨e0, e1⟩ := idx5 t
  rw [View.read_apply]
  show G _ = G _
  congr 1
  funext a
  apply Fin.ext
  match a with
  | ⟨0, _⟩ => show win3_5.index t (0 : Fin 2) * 2000 + 1 * p.val = 2000 * t.val + p.val; rw [e0]; omega
  | ⟨1, _⟩ => show win3_5.index t (1 : Fin 2) * 256 + 1 * q.val = q.val; rw [e1]; omega

/-- What point `t` writes back is block `t` of the stage function of the arrays the grid starts from. -/
theorem flushed_eq (c : Dev nD) (t : Fin cfg3.N) :
    (dat3 V c).flushed 5 t = ((cfg3.win 5).blk t).view.read (Elt Ideal) (lnReluLinear (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  show k3_pay1 (iblk3 V c 0 t) (iblk3 V c 1 t) (iblk3 V c 2 t) (iblk3 V c 3 t) (iblk3 V c 4 t) (ix2 p q) = _
  rw [Pay.pay3_apply, oblk_apply, lnReluLinear_apply]
  simp only [Pay.bLnRelu_eq (iblk3 V c 0 t) (iblk3 V c 1 t) (iblk3 V c 2 t) (V c (Pipeline.arrRef spec3 0)) (V c (Pipeline.arrRef spec3 1))
      (V c (Pipeline.arrRef spec3 2)) p (rowOf t p) (fun k => iblk0_apply V c t p k) (fun k => iblk1_apply V c t 0 k) (fun k => iblk2_apply V c t 0 k),
    iblk3_apply, iblk4_apply]

/-- An index of the array is in point `t`'s block iff each coordinate is in the block's range on its axis. -/
theorem mem_blk (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v61).slice (win3_5.rect t)).set ↔ _
  rw [View.set_slice_whole, Rect.mem_set_unit]
  exact Iff.rfl

/-- Every index of the result array lies in the block of the point `row / 2000`. -/
theorem cover (i : S100000x256.Idx) :
    ∃ t : Fin cfg3.N, (cfg3.win 5).flush t = true ∧ i ∈ ((cfg3.win 5).blk t).view.set := by
  have h0 : (i 0).val < 100000 := (i 0).isLt
  have h1 : (i 1).val < 256 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨e0, e1⟩ := idx5 t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; rw [e0, ht]; omega
  | ⟨1, _⟩ => show win3_5.index t (1 : Fin 2) * 256 ≤ (i 1).val ∧ (i 1).val < win3_5.index t (1 : Fin 2) * 256 + 256; rw [e1]; omega

end Region3

/-- After the grid's run the result array is the normalise-then-affine stage function of the arrays the grid starts from. -/
theorem region3_value (V : (c : Dev nD) → (b : Ref sig .tc) → Buf (Elt Ideal) ((c : Thread nD τ).loc b)) (c : Dev nD) :
    (dat3 (F := Ideal) V c).arrAt 5 cfg3.N = lnReluLinear (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => Region3.flushed_eq V c t) Region3.cover

end Cert.Hgnn

end
-- ==== Proof.Region4.lean ====
/-
  The residual update, read off the run of its grid.

  The grid has 50 points; point `t` works on rows `2000·t … 2000·t + 1999`: it loads that block of rows of the two
  input arrays `y` (window 0) and `h` (window 1), forms `h + max y 0` entry by entry, and writes the block back to
  the same rows of the result.  Entry `(p, q)` of a block at point `t` is entry `(2000·t + p, q)` of its array, so
  what point `t` writes back is the restriction of the whole-array function `reluResidual` to its rows; the 50
  blocks cover every row, hence the result array is `reluResidual` of the two input arrays.
-/
import proofs.«108867_j88295937671288_1_alg».proof.Proof.KSpec
import proofs.«108867_j88295937671288_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region4

theorem hz : (![0, 0] : Fin 2 → Nat) = fun _ => 0 := funext fun a => by fin_cases a <;> rfl

/-- The body's value at entry `(p, q)` of a block: the second loaded block's entry plus the positive part of the first's
    (the body loads `h` first, then `y`). -/
theorem pay_apply (h y : Vec Ideal S2000x256 .f32) (p : Fin 2000) (q : Fin 256) :
    k4_pay1 h y (ix2 p q) = h (ix2 p q) + max (y (ix2 p q)) 0 := by
  unfold k4_pay1
  simp only [shapeCast_self]
  show h (ix2 p q) + max (y (ix2 p q)) (Ideal.ofBits .f32 0x00000000#32) = _
  rw [Ideal.ofBits_zero_f32]

/-- Window 0's block index at point `t`: block row `t`, block column 0. -/
theorem idx0 : ∀ t : Fin cfg4.N, win4_0.index t (0 : Fin 2) = t.val ∧ win4_0.index t (1 : Fin 2) = 0 :=
  (by decide +kernel : ∀ t : Fin grid4.N, _)

/-- Window 1's block index at point `t`: block row `t`, block column 0. -/
theorem idx1 : ∀ t : Fin cfg4.N, win4_1.index t (0 : Fin 2) = t.val ∧ win4_1.index t (1 : Fin 2) = 0 :=
  (by decide +kernel : ∀ t : Fin grid4.N, _)

/-- Window 2's block index at point `t`: block row `t`, block column 0. -/
theorem idx2 : ∀ t : Fin cfg4.N, win4_2.index t (0 : Fin 2) = t.val ∧ win4_2.index t (1 : Fin 2) = 0 :=
  (by decide +kernel : ∀ t : Fin grid4.N, _)

/-- The array row under row `p` of the block at point `t`. -/
def rowOf (t : Fin cfg4.N) (p : Fin 2000) : Fin 100000 :=
  ⟨2000 * t.val + p.val, by have := t.isLt; have hN : cfg4.N = 50 := N_4; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg4.N) (p : Fin 2000) (q : Fin 256) :
    (iblk4 V c 0 t : Vec Ideal S2000x256 .f32) (ix2 p q)
      = (V c (Pipeline.arrRef spec4 0) : Vec Ideal S100000x256 .f32) (ix2 (rowOf t p) q) := by
  obtain ⟨e0, e1⟩ := idx0 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = 2000 * t.val + p.val; rw [e0]; omega
  | ⟨1, _⟩ => show win4_0.index t (1 : Fin 2) * 256 + 1 * q.val = q.val; rw [e1]; omega

/-- Entry `(p, q)` of window 1's block at point `t` is entry `(2000·t + p, q)` of its array. -/
theorem iblk1_apply (c : Dev nD) (t : Fin cfg4.N) (p : Fin 2000) (q : Fin 256) :
    (iblk4 V c 1 t : Vec Ideal S2000x256 .f32) (ix2 p q)
      = (V c (Pipeline.arrRef spec4 1) : Vec Ideal S100000x256 .f32) (ix2 (rowOf t p) q) := by
  obtain ⟨e0, e1⟩ := idx1 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * p.val = 2000 * t.val + p.val; rw [e0]; omega
  | ⟨1, _⟩ => show win4_1.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg4.N) (p : Fin 2000) (q : Fin 256) :
    (((cfg4.win 2).blk t).view.read (Elt Ideal) G : Vec Ideal S2000x256 .f32) (ix2 p q) = G (ix2 (rowOf t p) q) := by
  obtain ⟨e0, e1⟩ := idx2 t
  rw [View.read_apply]
  show G _ = G _
  congr 1
  funext a
  apply Fin.ext
  match a with
  | ⟨0, _⟩ => show win4_2.index t (0 : Fin 2) * 2000 + 1 * p.val = 2000 * t.val + p.val; rw [e0]; omega
  | ⟨1, _⟩ => show win4_2.index t (1 : Fin 2) * 256 + 1 * q.val = q.val; rw [e1]; omega

/-- What point `t` writes back is block `t` of the stage function of the arrays the grid starts from. -/
theorem flushed_eq (c : Dev nD) (t : Fin cfg4.N) :
    (dat4 V c).flushed 2 t = ((cfg4.win 2).blk t).view.read (Elt Ideal) (reluResidual (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x256) hz]
  funext j
  obtain ⟨p, q, rfl⟩ : ∃ (p : Fin 2000) (q : Fin 256), j = ix2 p q := ⟨j 0, j 1, eq_ix2 j⟩
  show k4_pay1 (iblk4 V c 1 t) (iblk4 V c 0 t) (ix2 p q) = _
  rw [pay_apply, oblk_apply, reluResidual_apply]
  rw [iblk0_apply, iblk1_apply]

/-- An index of the array is in point `t`'s block iff each coordinate is in the block's range on its axis. -/
theorem mem_blk (t : Fin cfg4.N) (i : S100000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v88).slice (win4_2.rect t)).set ↔ _
  rw [View.set_slice_whole, Rect.mem_set_unit]
  exact Iff.rfl

/-- Every index of the result array lies in the block of the point `row / 2000`. -/
theorem cover (i : S100000x256.Idx) :
    ∃ t : Fin cfg4.N, (cfg4.win 2).flush t = true ∧ i ∈ ((cfg4.win 2).blk t).view.set := by
  have h0 : (i 0).val < 100000 := (i 0).isLt
  have h1 : (i 1).val < 256 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨e0, e1⟩ := idx2 t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; rw [e0, ht]; omega
  | ⟨1, _⟩ => show win4_2.index t (1 : Fin 2) * 256 ≤ (i 1).val ∧ (i 1).val < win4_2.index t (1 : Fin 2) * 256 + 256; rw [e1]; omega

end Region4

/-- After the grid's run the result array is `h + max y 0`, entry by entry. -/
theorem region4_value (V : (c : Dev nD) → (b : Ref sig .tc) → Buf (Elt Ideal) ((c : Thread nD τ).loc b)) (c : Dev nD) :
    (dat4 (F := Ideal) V c).arrAt 2 cfg4.N = reluResidual (V c (Pipeline.arrRef spec4 0)) (V c (Pipeline.arrRef spec4 1)) :=
  (dat4 V c).arrAt_eq_of_cover 2 _ (fun t _ => Region4.flushed_eq V c t) Region4.cover

end Cert.Hgnn

end
-- ==== Proof.Region5.lean ====
/-
  The normalise-then-affine stage, read off the run of its grid.

  The grid has 50 points; point `t` works on rows `2000·t … 2000·t + 1999`: it loads that block of rows of the input
  array and, whole, the gain row, the shift row, the weight matrix and the bias row; each row of the block is centred
  by its own mean, scaled by the reciprocal square root of its own mean squared deviation plus the small constant,
  multiplied by the gain, shifted, cut at zero, then multiplied by the weight matrix and the bias row added; the
  block is written back to the same rows of the result.  A row's statistics depend on that row alone, and row `p` of
  the block at point `t` is row `2000·t + p` of the array, so what point `t` writes back is the restriction of the
  whole-array stage function to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay3
import proofs.«108867_j88295937671288_1_alg».proof.Proof.PayLn
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region5

theorem hz : (![0, 0] : Fin 2 → Nat) = fun _ => 0 := funext fun a => by fin_cases a <;> rfl

/-- Window 0's block index at point `t`: block row `t`, block column 0. -/
theorem idx0 : ∀ t : Fin cfg5.N, win5_0.index t (0 : Fin 2) = t.val ∧ win5_0.index t (1 : Fin 2) = 0 :=
  (by decide +kernel : ∀ t : Fin grid5.N, _)

/-- Window 1's block index at point `t`: the one whole block. -/
theorem idx1 : ∀ t : Fin cfg5.N, win5_1.index t (0 : Fin 2) = 0 ∧ win5_1.index t (1 : Fin 2) = 0 :=
  (by decide +kernel : ∀ t : Fin grid5.N, _)

/-- Window 2's block index at point `t`: the one whole block. -/
theorem idx2 : ∀ t : Fin cfg5.N, win5_2.index t (0 : Fin 2) = 0 ∧ win5_2.index t (1 : Fin 2) = 0 :=
  (by decide +kernel : ∀ t : Fin grid5.N, _)

/-- Window 3's block index at point `t`: the one whole block. -/
theorem idx3 : ∀ t : Fin cfg5.N, win5_3.index t (0 : Fin 2) = 0 ∧ win5_3.index t (1 : Fin 2) = 0 :=
  (by decide +kernel : ∀ t : Fin grid5.N, _)

/-- Window 4's block index at point `t`: the one whole block. -/
theorem idx4 : ∀ t : Fin cfg5.N, win5_4.index t (0 : Fin 2) = 0 ∧ win5_4.index t (1 : Fin 2) = 0 :=
  (by decide +kernel : ∀ t : Fin grid5.N, _)

/-- Window 5's block index at point `t`: block row `t`, block column 0. -/
theorem idx5 : ∀ t : Fin cfg5.N, win5_5.index t (0 : Fin 2) = t.val ∧ win5_5.index t (1 : Fin 2) = 0 :=
  (by decide +kernel : ∀ t : Fin grid5.N, _)

/-- The array row under row `p` of the block at point `t`. -/
def rowOf (t : Fin cfg5.N) (p : Fin 2000) : Fin 100000 :=
  ⟨2000 * t.val + p.val, by have := t.isLt; have hN : cfg5.N = 50 := N_5; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg5.N) (p : Fin 2000) (q : Fin 256) :
    (iblk5 V c 0 t : Vec Ideal S2000x256 .f32) (ix2 p q)
      = (V c (Pipeline.arrRef spec5 0) : Vec Ideal S100000x256 .f32) (ix2 (rowOf t p) q) := by
  obtain ⟨e0, e1⟩ := idx0 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * p.val = 2000 * t.val + p.val; rw [e0]; omega
  | ⟨1, _⟩ => show win5_0.index t (1 : Fin 2) * 256 + 1 * q.val = q.val; rw [e1]; omega

/-- Window 1's block at every point is its whole array. -/
theorem iblk1_apply (c : Dev nD) (t : Fin cfg5.N) (p : Fin 1) (q : Fin 256) :
    (iblk5 V c 1 t : Vec Ideal S1x256 .f32) (ix2 p q)
      = (V c (Pipeline.arrRef spec5 1) : Vec Ideal S1x256 .f32) (ix2 p q) := by
  obtain ⟨e0, e1⟩ := idx1 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * p.val = p.val; rw [e0]; omega
  | ⟨1, _⟩ => show win5_1.index t (1 : Fin 2) * 256 + 1 * q.val = q.val; rw [e1]; omega

/-- Window 2's block at every point is its whole array. -/
theorem iblk2_apply (c : Dev nD) (t : Fin cfg5.N) (p : Fin 1) (q : Fin 256) :
    (iblk5 V c 2 t : Vec Ideal S1x256 .f32) (ix2 p q)
      = (V c (Pipeline.arrRef spec5 2) : Vec Ideal S1x256 .f32) (ix2 p q) := by
  obtain ⟨e0, e1⟩ := idx2 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * p.val = p.val; rw [e0]; omega
  | ⟨1, _⟩ => show win5_2.index t (1 : Fin 2) * 256 + 1 * q.val = q.val; rw [e1]; omega

/-- Window 3's block at every point is its whole array. -/
theorem iblk3_apply (c : Dev nD) (t : Fin cfg5.N) (p : Fin 256) (q : Fin 256) :
    (iblk5 V c 3 t : Vec Ideal S256x256 .f32) (ix2 p q)
      = (V c (Pipeline.arrRef spec5 3) : Vec Ideal S256x256 .f32) (ix2 p q) := by
  obtain ⟨e0, e1⟩ := idx3 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 256 + 1 * p.val = p.val; rw [e0]; omega
  | ⟨1, _⟩ => show win5_3.index t (1 : Fin 2) * 256 + 1 * q.val = q.val; rw [e1]; omega

/-- Window 4's block at every point is its whole array. -/
theorem iblk4_apply (c : Dev nD) (t : Fin cfg5.N) (p : Fin 1) (q : Fin 256) :
    (iblk5 V c 4 t : Vec Ideal S1x256 .f32) (ix2 p q)
      = (V c (Pipeline.arrRef spec5 4) : Vec Ideal S1x256 .f32) (ix2 p q) := by
  obtain ⟨e0, e1⟩ := idx4 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * p.val = p.val; rw [e0]; omega
  | ⟨1, _⟩ => show win5_4.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg5.N) (p : Fin 2000) (q : Fin 256) :
    (((cfg5.win 5).blk t).view.read (Elt Ideal) G : Vec Ideal S2000x256 .f32) (ix2 p q) = G (ix2 (rowOf t p) q) := by
  obtain ⟨e0, e1⟩ := idx5 t
  rw [View.read_apply]
  show G _ = G _
  congr 1
  funext a
  apply Fin.ext
  match a with
  | ⟨0, _⟩ => show win5_5.index t (0 : Fin 2) * 2000 + 1 * p.val = 2000 * t.val + p.val; rw [e0]; omega
  | ⟨1, _⟩ => show win5_5.index t (1 : Fin 2) * 256 + 1 * q.val = q.val; rw [e1]; omega

/-- What point `t` writes back is block `t` of the stage function of the arrays the grid starts from. -/
theorem flushed_eq (c : Dev nD) (t : Fin cfg5.N) :
    (dat5 V c).flushed 5 t = ((cfg5.win 5).blk t).view.read (Elt Ideal) (lnReluLinear (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  show k5_pay1 (iblk5 V c 0 t) (iblk5 V c 1 t) (iblk5 V c 2 t) (iblk5 V c 3 t) (iblk5 V c 4 t) (ix2 p q) = _
  rw [Pay.pay5_eq, Pay.pay3_apply, oblk_apply, lnReluLinear_apply]
  simp only [Pay.bLnRelu_eq (iblk5 V c 0 t) (iblk5 V c 1 t) (iblk5 V c 2 t) (V c (Pipeline.arrRef spec5 0)) (V c (Pipeline.arrRef spec5 1))
      (V c (Pipeline.arrRef spec5 2)) p (rowOf t p) (fun k => iblk0_apply V c t p k) (fun k => iblk1_apply V c t 0 k) (fun k => iblk2_apply V c t 0 k),
    iblk3_apply, iblk4_apply]

/-- An index of the array is in point `t`'s block iff each coordinate is in the block's range on its axis. -/
theorem mem_blk (t : Fin cfg5.N) (i : S100000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v100).slice (win5_5.rect t)).set ↔ _
  rw [View.set_slice_whole, Rect.mem_set_unit]
  exact Iff.rfl

/-- Every index of the result array lies in the block of the point `row / 2000`. -/
theorem cover (i : S100000x256.Idx) :
    ∃ t : Fin cfg5.N, (cfg5.win 5).flush t = true ∧ i ∈ ((cfg5.win 5).blk t).view.set := by
  have h0 : (i 0).val < 100000 := (i 0).isLt
  have h1 : (i 1).val < 256 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨e0, e1⟩ := idx5 t
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; rw [e0, ht]; omega
  | ⟨1, _⟩ => show win5_5.index t (1 : Fin 2) * 256 ≤ (i 1).val ∧ (i 1).val < win5_5.index t (1 : Fin 2) * 256 + 256; rw [e1]; omega

end Region5

/-- After the grid's run the result array is the normalise-then-affine stage function of the arrays the grid starts from. -/
theorem region5_value (V : (c : Dev nD) → (b : Ref sig .tc) → Buf (Elt Ideal) ((c : Thread nD τ).loc b)) (c : Dev nD) :
    (dat5 (F := Ideal) V c).arrAt 5 cfg5.N = lnReluLinear (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => Region5.flushed_eq V c t) Region5.cover

end Cert.Hgnn

end
-- ==== Proof.Region6.lean ====
/-
  The residual update, read off the run of its grid.

  The grid has 50 points; point `t` works on rows `2000·t … 2000·t + 1999`: it loads that block of rows of the two
  input arrays `y` (window 0) and `h` (window 1), forms `h + max y 0` entry by entry, and writes the block back to
  the same rows of the result.  Entry `(p, q)` of a block at point `t` is entry `(2000·t + p, q)` of its array, so
  what point `t` writes back is the restriction of the whole-array function `reluResidual` to its rows; the 50
  blocks cover every row, hence the result array is `reluResidual` of the two input arrays.
-/
import proofs.«108867_j88295937671288_1_alg».proof.Proof.KSpec
import proofs.«108867_j88295937671288_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region6

theorem hz : (![0, 0] : Fin 2 → Nat) = fun _ => 0 := funext fun a => by fin_cases a <;> rfl

/-- The body's value at entry `(p, q)` of a block: the second loaded block's entry plus the positive part of the first's
    (the body loads `h` first, then `y`). -/
theorem pay_apply (h y : Vec Ideal S2000x256 .f32) (p : Fin 2000) (q : Fin 256) :
    k6_pay1 h y (ix2 p q) = h (ix2 p q) + max (y (ix2 p q)) 0 := by
  unfold k6_pay1
  simp only [shapeCast_self]
  show h (ix2 p q) + max (y (ix2 p q)) (Ideal.ofBits .f32 0x00000000#32) = _
  rw [Ideal.ofBits_zero_f32]

/-- Window 0's block index at point `t`: block row `t`, block column 0. -/
theorem idx0 : ∀ t : Fin cfg6.N, win6_0.index t (0 : Fin 2) = t.val ∧ win6_0.index t (1 : Fin 2) = 0 :=
  (by decide +kernel : ∀ t : Fin grid6.N, _)

/-- Window 1's block index at point `t`: block row `t`, block column 0. -/
theorem idx1 : ∀ t : Fin cfg6.N, win6_1.index t (0 : Fin 2) = t.val ∧ win6_1.index t (1 : Fin 2) = 0 :=
  (by decide +kernel : ∀ t : Fin grid6.N, _)

/-- Window 2's block index at point `t`: block row `t`, block column 0. -/
theorem idx2 : ∀ t : Fin cfg6.N, win6_2.index t (0 : Fin 2) = t.val ∧ win6_2.index t (1 : Fin 2) = 0 :=
  (by decide +kernel : ∀ t : Fin grid6.N, _)

/-- The array row under row `p` of the block at point `t`. -/
def rowOf (t : Fin cfg6.N) (p : Fin 2000) : Fin 100000 :=
  ⟨2000 * t.val + p.val, by have := t.isLt; have hN : cfg6.N = 50 := N_6; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg6.N) (p : Fin 2000) (q : Fin 256) :
    (iblk6 V c 0 t : Vec Ideal S2000x256 .f32) (ix2 p q)
      = (V c (Pipeline.arrRef spec6 0) : Vec Ideal S100000x256 .f32) (ix2 (rowOf t p) q) := by
  obtain ⟨e0, e1⟩ := idx0 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 2000 + 1 * p.val = 2000 * t.val + p.val; rw [e0]; omega
  | ⟨1, _⟩ => show win6_0.index t (1 : Fin 2) * 256 + 1 * q.val = q.val; rw [e1]; omega

/-- Entry `(p, q)` of window 1's block at point `t` is entry `(2000·t + p, q)` of its array. -/
theorem iblk1_apply (c : Dev nD) (t : Fin cfg6.N) (p : Fin 2000) (q : Fin 256) :
    (iblk6 V c 1 t : Vec Ideal S2000x256 .f32) (ix2 p q)
      = (V c (Pipeline.arrRef spec6 1) : Vec Ideal S100000x256 .f32) (ix2 (rowOf t p) q) := by
  obtain ⟨e0, e1⟩ := idx1 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 2000 + 1 * p.val = 2000 * t.val + p.val; rw [e0]; omega
  | ⟨1, _⟩ => show win6_1.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg6.N) (p : Fin 2000) (q : Fin 256) :
    (((cfg6.win 2).blk t).view.read (Elt Ideal) G : Vec Ideal S2000x256 .f32) (ix2 p q) = G (ix2 (rowOf t p) q) := by
  obtain ⟨e0, e1⟩ := idx2 t
  rw [View.read_apply]
  show G _ = G _
  congr 1
  funext a
  apply Fin.ext
  match a with
  | ⟨0, _⟩ => show win6_2.index t (0 : Fin 2) * 2000 + 1 * p.val = 2000 * t.val + p.val; rw [e0]; omega
  | ⟨1, _⟩ => show win6_2.index t (1 : Fin 2) * 256 + 1 * q.val = q.val; rw [e1]; omega

/-- What point `t` writes back is block `t` of the stage function of the arrays the grid starts from. -/
theorem flushed_eq (c : Dev nD) (t : Fin cfg6.N) :
    (dat6 V c).flushed 2 t = ((cfg6.win 2).blk t).view.read (Elt Ideal) (reluResidual (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x256) hz]
  funext j
  obtain ⟨p, q, rfl⟩ : ∃ (p : Fin 2000) (q : Fin 256), j = ix2 p q := ⟨j 0, j 1, eq_ix2 j⟩
  show k6_pay1 (iblk6 V c 1 t) (iblk6 V c 0 t) (ix2 p q) = _
  rw [pay_apply, oblk_apply, reluResidual_apply]
  rw [iblk0_apply, iblk1_apply]

/-- An index of the array is in point `t`'s block iff each coordinate is in the block's range on its axis. -/
theorem mem_blk (t : Fin cfg6.N) (i : S100000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v127).slice (win6_2.rect t)).set ↔ _
  rw [View.set_slice_whole, Rect.mem_set_unit]
  exact Iff.rfl

/-- Every index of the result array lies in the block of the point `row / 2000`. -/
theorem cover (i : S100000x256.Idx) :
    ∃ t : Fin cfg6.N, (cfg6.win 2).flush t = true ∧ i ∈ ((cfg6.win 2).blk t).view.set := by
  have h0 : (i 0).val < 100000 := (i 0).isLt
  have h1 : (i 1).val < 256 := (i 1).isLt
  have hN : cfg6.N = 50 := N_6
  obtain ⟨t, ht⟩ : ∃ t : Fin cfg6.N, t.val = (i 0).val / 2000 := ⟨⟨(i 0).val / 2000, by rw [hN]; omega⟩, rfl⟩
  obtain ⟨e0, e1⟩ := idx2 t
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; rw [e0, ht]; omega
  | ⟨1, _⟩ => show win6_2.index t (1 : Fin 2) * 256 ≤ (i 1).val ∧ (i 1).val < win6_2.index t (1 : Fin 2) * 256 + 256; rw [e1]; omega

end Region6

/-- After the grid's run the result array is `h + max y 0`, entry by entry. -/
theorem region6_value (V : (c : Dev nD) → (b : Ref sig .tc) → Buf (Elt Ideal) ((c : Thread nD τ).loc b)) (c : Dev nD) :
    (dat6 (F := Ideal) V c).arrAt 2 cfg6.N = reluResidual (V c (Pipeline.arrRef spec6 0)) (V c (Pipeline.arrRef spec6 1)) :=
  (dat6 V c).arrAt_eq_of_cover 2 _ (fun t _ => Region6.flushed_eq V c t) Region6.cover

end Cert.Hgnn

end
-- ==== Proof.Region7.lean ====
/-
  The normalise-then-affine stage, read off the run of its grid.

  The grid has 50 points; point `t` works on rows `2000·t … 2000·t + 1999`: it loads that block of rows of the input
  array and, whole, the gain row, the shift row, the weight matrix and the bias row; each row of the block is centred
  by its own mean, scaled by the reciprocal square root of its own mean squared deviation plus the small constant,
  multiplied by the gain, shifted, cut at zero, then multiplied by the weight matrix and the bias row added; the
  block is written back to the same rows of the result.  A row's statistics depend on that row alone, and row `p` of
  the block at point `t` is row `2000·t + p` of the array, so what point `t` writes back is the restriction of the
  whole-array stage function to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay3
import proofs.«108867_j88295937671288_1_alg».proof.Proof.PayLn
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region7

theorem hz : (![0, 0] : Fin 2 → Nat) = fun _ => 0 := funext fun a => by fin_cases a <;> rfl

/-- Window 0's block index at point `t`: block row `t`, block column 0. -/
theorem idx0 : ∀ t : Fin cfg7.N, win7_0.index t (0 : Fin 2) = t.val ∧ win7_0.index t (1 : Fin 2) = 0 :=
  (by decide +kernel : ∀ t : Fin grid7.N, _)

/-- Window 1's block index at point `t`: the one whole block. -/
theorem idx1 : ∀ t : Fin cfg7.N, win7_1.index t (0 : Fin 2) = 0 ∧ win7_1.index t (1 : Fin 2) = 0 :=
  (by decide +kernel : ∀ t : Fin grid7.N, _)

/-- Window 2's block index at point `t`: the one whole block. -/
theorem idx2 : ∀ t : Fin cfg7.N, win7_2.index t (0 : Fin 2) = 0 ∧ win7_2.index t (1 : Fin 2) = 0 :=
  (by decide +kernel : ∀ t : Fin grid7.N, _)

/-- Window 3's block index at point `t`: the one whole block. -/
theorem idx3 : ∀ t : Fin cfg7.N, win7_3.index t (0 : Fin 2) = 0 ∧ win7_3.index t (1 : Fin 2) = 0 :=
  (by decide +kernel : ∀ t : Fin grid7.N, _)

/-- Window 4's block index at point `t`: the one whole block. -/
theorem idx4 : ∀ t : Fin cfg7.N, win7_4.index t (0 : Fin 2) = 0 ∧ win7_4.index t (1 : Fin 2) = 0 :=
  (by decide +kernel : ∀ t : Fin grid7.N, _)

/-- Window 5's block index at point `t`: block row `t`, block column 0. -/
theorem idx5 : ∀ t : Fin cfg7.N, win7_5.index t (0 : Fin 2) = t.val ∧ win7_5.index t (1 : Fin 2) = 0 :=
  (by decide +kernel : ∀ t : Fin grid7.N, _)

/-- The array row under row `p` of the block at point `t`. -/
def rowOf (t : Fin cfg7.N) (p : Fin 2000) : Fin 100000 :=
  ⟨2000 * t.val + p.val, by have := t.isLt; have hN : cfg7.N = 50 := N_7; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg7.N) (p : Fin 2000) (q : Fin 256) :
    (iblk7 V c 0 t : Vec Ideal S2000x256 .f32) (ix2 p q)
      = (V c (Pipeline.arrRef spec7 0) : Vec Ideal S100000x256 .f32) (ix2 (rowOf t p) q) := by
  obtain ⟨e0, e1⟩ := idx0 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 2000 + 1 * p.val = 2000 * t.val + p.val; rw [e0]; omega
  | ⟨1, _⟩ => show win7_0.index t (1 : Fin 2) * 256 + 1 * q.val = q.val; rw [e1]; omega

/-- Window 1's block at every point is its whole array. -/
theorem iblk1_apply (c : Dev nD) (t : Fin cfg7.N) (p : Fin 1) (q : Fin 256) :
    (iblk7 V c 1 t : Vec Ideal S1x256 .f32) (ix2 p q)
      = (V c (Pipeline.arrRef spec7 1) : Vec Ideal S1x256 .f32) (ix2 p q) := by
  obtain ⟨e0, e1⟩ := idx1 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * p.val = p.val; rw [e0]; omega
  | ⟨1, _⟩ => show win7_1.index t (1 : Fin 2) * 256 + 1 * q.val = q.val; rw [e1]; omega

/-- Window 2's block at every point is its whole array. -/
theorem iblk2_apply (c : Dev nD) (t : Fin cfg7.N) (p : Fin 1) (q : Fin 256) :
    (iblk7 V c 2 t : Vec Ideal S1x256 .f32) (ix2 p q)
      = (V c (Pipeline.arrRef spec7 2) : Vec Ideal S1x256 .f32) (ix2 p q) := by
  obtain ⟨e0, e1⟩ := idx2 t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * p.val = p.val; rw [e0]; omega
  | ⟨1, _⟩ => show win7_2.index t (1 : Fin 2) * 256 + 1 * q.val = q.val; rw [e1]; omega

/-- Window 3's block at every point is its whole array. -/
theorem iblk3_apply (c : Dev nD) (t : Fin cfg7.N) (p : Fin 256) (q : Fin 256) :
    (iblk7 V c 3 t : Vec Ideal S256x256 .f32) (ix2 p q)
      = (V c (Pipeline.arrRef spec7 3) : Vec Ideal S256x256 .f32) (ix2 p q) := by
  obtain ⟨e0, e1⟩ := idx3 t
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 256 + 1 * p.val = p.val; rw [e0]; omega
  | ⟨1, _⟩ => show win7_3.index t (1 : Fin 2) * 256 + 1 * q.val = q.val; rw [e1]; omega

/-- Window 4's block at every point is its whole array. -/
theorem iblk4_apply (c : Dev nD) (t : Fin cfg7.N) (p : Fin 1) (q : Fin 256) :
    (iblk7 V c 4 t : Vec Ideal S1x256 .f32) (ix2 p q)
      = (V c (Pipeline.arrRef spec7 4) : Vec Ideal S1x256 .f32) (ix2 p q) := by
  obtain ⟨e0, e1⟩ := idx4 t
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * p.val = p.val; rw [e0]; omega
  | ⟨1, _⟩ => show win7_4.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg7.N) (p : Fin 2000) (q : Fin 256) :
    (((cfg7.win 5).blk t).view.read (Elt Ideal) G : Vec Ideal S2000x256 .f32) (ix2 p q) = G (ix2 (rowOf t p) q) := by
  obtain ⟨e0, e1⟩ := idx5 t
  rw [View.read_apply]
  show G _ = G _
  congr 1
  funext a
  apply Fin.ext
  match a with
  | ⟨0, _⟩ => show win7_5.index t (0 : Fin 2) * 2000 + 1 * p.val = 2000 * t.val + p.val; rw [e0]; omega
  | ⟨1, _⟩ => show win7_5.index t (1 : Fin 2) * 256 + 1 * q.val = q.val; rw [e1]; omega

/-- What point `t` writes back is block `t` of the stage function of the arrays the grid starts from. -/
theorem flushed_eq (c : Dev nD) (t : Fin cfg7.N) :
    (dat7 V c).flushed 5 t = ((cfg7.win 5).blk t).view.read (Elt Ideal) (lnReluLinear (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  show k7_pay1 (iblk7 V c 0 t) (iblk7 V c 1 t) (iblk7 V c 2 t) (iblk7 V c 3 t) (iblk7 V c 4 t) (ix2 p q) = _
  rw [Pay.pay7_eq, Pay.pay3_apply, oblk_apply, lnReluLinear_apply]
  simp only [Pay.bLnRelu_eq (iblk7 V c 0 t) (iblk7 V c 1 t) (iblk7 V c 2 t) (V c (Pipeline.arrRef spec7 0)) (V c (Pipeline.arrRef spec7 1))
      (V c (Pipeline.arrRef spec7 2)) p (rowOf t p) (fun k => iblk0_apply V c t p k) (fun k => iblk1_apply V c t 0 k) (fun k => iblk2_apply V c t 0 k),
    iblk3_apply, iblk4_apply]

/-- An index of the array is in point `t`'s block iff each coordinate is in the block's range on its axis. -/
theorem mem_blk (t : Fin cfg7.N) (i : S100000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v139).slice (win7_5.rect t)).set ↔ _
  rw [View.set_slice_whole, Rect.mem_set_unit]
  exact Iff.rfl

/-- Every index of the result array lies in the block of the point `row / 2000`. -/
theorem cover (i : S100000x256.Idx) :
    ∃ t : Fin cfg7.N, (cfg7.win 5).flush t = true ∧ i ∈ ((cfg7.win 5).blk t).view.set := by
  have h0 : (i 0).val < 100000 := (i 0).isLt
  have h1 : (i 1).val < 256 := (i 1).isLt
  have hN : cfg7.N = 50 := N_7
  obtain ⟨t, ht⟩ : ∃ t : Fin cfg7.N, t.val = (i 0).val / 2000 := ⟨⟨(i 0).val / 2000, by rw [hN]; omega⟩, rfl⟩
  obtain ⟨e0, e1⟩ := idx5 t
  refine ⟨t, flush7_5 t, ?_⟩
  rw [mem_blk]
  intro a
  match a with
  | ⟨0, _⟩ => show win7_5.index t (0 : Fin 2) * 2000 ≤ (i 0).val ∧ (i 0).val < win7_5.index t (0 : Fin 2) * 2000 + 2000; rw [e0, ht]; omega
  | ⟨1, _⟩ => show win7_5.index t (1 : Fin 2) * 256 ≤ (i 1).val ∧ (i 1).val < win7_5.index t (1 : Fin 2) * 256 + 256; rw [e1]; omega

end Region7

/-- After the grid's run the result array is the normalise-then-affine stage function of the arrays the grid starts from. -/
theorem region7_value (V : (c : Dev nD) → (b : Ref sig .tc) → Buf (Elt Ideal) ((c : Thread nD τ).loc b)) (c : Dev nD) :
    (dat7 (F := Ideal) V c).arrAt 5 cfg7.N = lnReluLinear (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 _ (fun t _ => Region7.flushed_eq V c t) Region7.cover

end Cert.Hgnn

end
-- ==== Proof.Region8.lean ====
/-
  The residual update, read off the run of its grid.

  The grid has 50 points; point `t` works on rows `2000·t … 2000·t + 1999`: it loads that block of rows of the two
  input arrays `y` (window 0) and `h` (window 1), forms `h + max y 0` entry by entry, and writes the block back to
  the same rows of the result.  Entry `(p, q)` of a block at point `t` is entry `(2000·t + p, q)` of its array, so
  what point `t` writes back is the restriction of the whole-array function `reluResidual` to its rows; the 50
  blocks cover every row, hence the result array is `reluResidual` of the two input arrays.
-/
import proofs.«108867_j88295937671288_1_alg».proof.Proof.KSpec
import proofs.«108867_j88295937671288_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region8

theorem hz : (![0, 0] : Fin 2 → Nat) = fun _ => 0 := funext fun a => by fin_cases a <;> rfl

/-- The body's value at entry `(p, q)` of a block: the second loaded block's entry plus the positive part of the first's
    (the body loads `h` first, then `y`). -/
theorem pay_apply (h y : Vec Ideal S2000x256 .f32) (p : Fin 2000) (q : Fin 256) :
    k8_pay1 h y (ix2 p q) = h (ix2 p q) + max (y (ix2 p q)) 0 := by
  unfold k8_pay1
  simp only [shapeCast_self]
  show h (ix2 p q) + max (y (ix2 p q)) (Ideal.ofBits .f32 0x00000000#32) = _
  rw [Ideal.ofBits_zero_f32]

/-- Window 0's block index at point `t`: block row `t`, block column 0. -/
theorem idx0 : ∀ t : Fin cfg8.N, win8_0.index t (0 : Fin 2) = t.val ∧ win8_0.index t (1 : Fin 2) = 0 :=
  (by decide +kernel : ∀ t : Fin grid8.N, _)

/-- Window 1's block index at point `t`: block row `t`, block column 0. -/
theorem idx1 : ∀ t : Fin cfg8.N, win8_1.index t (0 : Fin 2) = t.val ∧ win8_1.index t (1 : Fin 2) = 0 :=
  (by decide +kernel : ∀ t : Fin grid8.N, _)

/-- Window 2's block index at point `t`: block row `t`, block column 0. -/
theorem idx2 : ∀ t : Fin cfg8.N, win8_2.index t (0 : Fin 2) = t.val ∧ win8_2.index t (1 : Fin 2) = 0 :=
  (by decide +kernel : ∀ t : Fin grid8.N, _)

/-- The array row under row `p` of the block at point `t`. -/
def rowOf (t : Fin cfg8.N) (p : Fin 2000) : Fin 100000 :=
  ⟨2000 * t.val + p.val, by have := t.isLt; have hN : cfg8.N = 50 := N_8; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg8.N) (p : Fin 2000) (q : Fin 256) :
    (iblk8 V c 0 t : Vec Ideal S2000x256 .f32) (ix2 p q)
      = (V c (Pipeline.arrRef spec8 0) : Vec Ideal S100000x256 .f32) (ix2 (rowOf t p) q) := by
  obtain ⟨e0, e1⟩ := idx0 t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 2000 + 1 * p.val = 2000 * t.val + p.val; rw [e0]; omega
  | ⟨1, _⟩ => show win8_0.index t (1 : Fin 2) * 256 + 1 * q.val = q.val; rw [e1]; omega

/-- Entry `(p, q)` of window 1's block at point `t` is entry `(2000·t + p, q)` of its array. -/
theorem iblk1_apply (c : Dev nD) (t : Fin cfg8.N) (p : Fin 2000) (q : Fin 256) :
    (iblk8 V c 1 t : Vec Ideal S2000x256 .f32) (ix2 p q)
      = (V c (Pipeline.arrRef spec8 1) : Vec Ideal S100000x256 .f32) (ix2 (rowOf t p) q) := by
  obtain ⟨e0, e1⟩ := idx1 t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 2000 + 1 * p.val = 2000 * t.val + p.val; rw [e0]; omega
  | ⟨1, _⟩ => show win8_1.index t (1 : Fin 2) * 256 + 1 * q.val = q.val; rw [e1]; omega

/-- The output block at point `t` of a whole-array function: entry `(p, q)` is its entry `(2000·t + p, q)`. -/
theorem oblk_apply (G : Vec Ideal S100000x256 .f32) (t : Fin cfg8.N) (p : Fin 2000) (q : Fin 256) :
    (((cfg8.win 2).blk t).view.read (Elt Ideal) G : Vec Ideal S2000x256 .f32) (ix2 p q) = G (ix2 (rowOf t p) q) := by
  obtain ⟨e0, e1⟩ := idx2 t
  rw [View.read_apply]
  show G _ = G _
  congr 1
  funext a
  apply Fin.ext
  match a with
  | ⟨0, _⟩ => show win8_2.index t (0 : Fin 2) * 2000 + 1 * p.val = 2000 * t.val + p.val; rw [e0]; omega
  | ⟨1, _⟩ => show win8_2.index t (1 : Fin 2) * 256 + 1 * q.val = q.val; rw [e1]; omega

/-- What point `t` writes back is block `t` of the stage function of the arrays the grid starts from. -/
theorem flushed_eq (c : Dev nD) (t : Fin cfg8.N) :
    (dat8 V c).flushed 2 t = ((cfg8.win 2).blk t).view.read (Elt Ideal) (reluResidual (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S2000x256) hz]
  funext j
  obtain ⟨p, q, rfl⟩ : ∃ (p : Fin 2000) (q : Fin 256), j = ix2 p q := ⟨j 0, j 1, eq_ix2 j⟩
  show k8_pay1 (iblk8 V c 1 t) (iblk8 V c 0 t) (ix2 p q) = _
  rw [pay_apply, oblk_apply, reluResidual_apply]
  rw [iblk0_apply, iblk1_apply]

/-- An index of the array is in point `t`'s block iff each coordinate is in the block's range on its axis. -/
theorem mem_blk (t : Fin cfg8.N) (i : S100000x256.Idx) :
    i ∈ ((cfg8.win 2).blk t).view.set ↔ ∀ a : Fin 2, win8_2.index t a * S2000x256.size a ≤ (i a).val ∧ (i a).val < win8_2.index t a * S2000x256.size a + S2000x256.size a := by
  show i ∈ ((View.whole main_v166).slice (win8_2.rect t)).set ↔ _
  rw [View.set_slice_whole, Rect.mem_set_unit]
  exact Iff.rfl

/-- Every index of the result array lies in the block of the point `row / 2000`. -/
theorem cover (i : S100000x256.Idx) :
    ∃ t : Fin cfg8.N, (cfg8.win 2).flush t = true ∧ i ∈ ((cfg8.win 2).blk t).view.set := by
  have h0 : (i 0).val < 100000 := (i 0).isLt
  have h1 : (i 1).val < 256 := (i 1).isLt
  have hN : cfg8.N = 50 := N_8
  obtain ⟨t, ht⟩ : ∃ t : Fin cfg8.N, t.val = (i 0).val / 2000 := ⟨⟨(i 0).val / 2000, by rw [hN]; omega⟩, rfl⟩
  obtain ⟨e0, e1⟩ := idx2 t
  refine ⟨t, flush8_2 t, ?_⟩
  rw [mem_blk]
  intro a
  match a with
  | ⟨0, _⟩ => show win8_2.index t (0 : Fin 2) * 2000 ≤ (i 0).val ∧ (i 0).val < win8_2.index t (0 : Fin 2) * 2000 + 2000; rw [e0, ht]; omega
  | ⟨1, _⟩ => show win8_2.index t (1 : Fin 2) * 256 ≤ (i 1).val ∧ (i 1).val < win8_2.index t (1 : Fin 2) * 256 + 256; rw [e1]; omega

end Region8

/-- After the grid's run the result array is `h + max y 0`, entry by entry. -/
theorem region8_value (V : (c : Dev nD) → (b : Ref sig .tc) → Buf (Elt Ideal) ((c : Thread nD τ).loc b)) (c : Dev nD) :
    (dat8 (F := Ideal) V c).arrAt 2 cfg8.N = reluResidual (V c (Pipeline.arrRef spec8 0)) (V c (Pipeline.arrRef spec8 1)) :=
  (dat8 V c).arrAt_eq_of_cover 2 _ (fun t _ => Region8.flushed_eq V c t) Region8.cover

end Cert.Hgnn

end
-- ==== Proof.Pay9.lean ====
/-
  The body of the last stage at one entry of its block of 2000 rows: the rows normalised, scaled, shifted and cut at
  zero as in the middle layers, then multiplied by a weight matrix with 16 columns and the bias row added.
-/
import proofs.«108867_j88295937671288_1_alg».proof.Proof.PayOps
import proofs.«108867_j88295937671288_1_alg».proof.Proof.Pay3

noncomputable section

open scoped BigOperators
open Idealize.ShloMosaic Idealize.ShloMosaic.ValueIdx

namespace Cert.Hgnn.Pay

open Cert.KernelIdeal Cert.KernelIdeal.Gen

/-- The reciprocal square root of a vector, entry by entry. -/
theorem rsqrt_apply9 {s : Shape} {φ : FTy} (a : FVec Ideal s φ) (i : s.Idx) : rsqrt a i = Ideal.rsqrt (a i) := rfl

set_option backward.isDefEq.respectTransparency.types false in
/-- The stage body at entry `(p, q)`. -/
theorem pay9_apply (x0 : Vec Ideal S2000x256 .f32) (g b : Vec Ideal S1x256 .f32) (W : Vec Ideal S256x16 .f32)
    (bias : Vec Ideal S1x16 .f32) (p : Fin 2000) (q : Fin 16) :
    k9_pay1 x0 g b W bias (ix2 p q) = (∑ k : Fin 256, bLnRelu x0 g b p k * W (ix2 k q)) + bias (ix2 (0 : Fin 1) q) := by
  unfold k9_pay1
  simp only [shapeCast_self]
  refine (addf_apply _ _ _).trans ?_
  rw [matmul16_apply, broadcastTo_1b_ab_apply]
  refine congrArg (· + bias (ix2 (0 : Fin 1) q)) (Finset.sum_congr rfl fun k _ => ?_)
  refine congrArg (· * W (ix2 k q)) ?_
  simp only [truncf_apply, maximumf_apply, addf_apply, mulf_apply, subf_apply, divf_apply, broadcast_apply,
    broadcastTo_1b_ab_apply, broadcastTo_a1_ab_apply, rsqrt_apply9, shapeCast_a_a1_apply, Ideal.ofBits_def, Ideal.ofBits_zero_f32]
  rw [rowSum_neutral_apply x0, rowSum_neutral_apply (mulf _ _)]
  simp only [mulf_apply, subf_apply, divf_apply, broadcast_apply, broadcastTo_a1_ab_apply, shapeCast_a_a1_apply, Ideal.ofBits_def]
  rw [rowSum_neutral_apply x0]
  rfl

end Cert.Hgnn.Pay

end
-- ==== Proof.Region9.lean ====
/-
  The normalise-then-affine stage, read off the run of its grid.

  The grid has 50 points; point `t` works on rows `2000·t … 2000·t + 1999`: it loads that block of rows of the input
  array and, whole, the gain row, the shift row, the weight matrix and the bias row; each row of the block is centred
  by its own mean, scaled by the reciprocal square root of its own mean squared deviation plus the small constant,
  multiplied by the gain, shifted, cut at zero, then multiplied by the weight matrix (16 columns) and the bias row added; the
  block is written back to the same rows of the result.  A row's statistics depend on that row alone, and row `p` of
  the block at point `t` is row `2000·t + p` of the array, so what point `t` writes back is the restriction of the
  whole-array stage function to its rows; the 50 blocks cover every row.
-/
import proofs.«108867_j88295937671288_1_alg».proof.Proof.KSpec
import proofs.«108867_j88295937671288_1_alg».proof.Proof.Gen.KernelIdeal.Frame
import proofs.«108867_j88295937671288_1_alg».proof.Proof.Pay9
import proofs.«108867_j88295937671288_1_alg».proof.Proof.PayLn
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Hgnn

open Cert.KernelIdeal Cert.KernelIdeal.Gen

namespace Region9

theorem hz : (![0, 0] : Fin 2 → Nat) = fun _ => 0 := funext fun a => by fin_cases a <;> rfl

/-- Window 0's block index at point `t`: block row `t`, block column 0. -/
theorem idx0 : ∀ t : Fin cfg9.N, win9_0.index t (0 : Fin 2) = t.val ∧ win9_0.index t (1 : Fin 2) = 0 :=
  (by decide +kernel : ∀ t : Fin grid9.N, _)

/-- Window 1's block index at point `t`: the one whole block. -/
theorem idx1 : ∀ t : Fin cfg9.N, win9_1.index t (0 : Fin 2) = 0 ∧ win9_1.index t (1 : Fin 2) = 0 :=
  (by decide +kernel : ∀ t : Fin grid9.N, _)

/-- Window 2's block index at point `t`: the one whole block. -/
theorem idx2 : ∀ t : Fin cfg9.N, win9_2.index t (0 : Fin 2) = 0 ∧ win9_2.index t (1 : Fin 2) = 0 :=
  (by decide +kernel : ∀ t : Fin grid9.N, _)

/-- Window 3's block index at point `t`: the one whole block. -/
theorem idx3 : ∀ t : Fin cfg9.N, win9_3.index t (0 : Fin 2) = 0 ∧ win9_3.index t (1 : Fin 2) = 0 :=
  (by decide +kernel : ∀ t : Fin grid9.N, _)

/-- Window 4's block index at point `t`: the one whole block. -/
theorem idx4 : ∀ t : Fin cfg9.N, win9_4.index t (0 : Fin 2) = 0 ∧ win9_4.index t (1 : Fin 2) = 0 :=
  (by decide +kernel : ∀ t : Fin grid9.N, _)

/-- Window 5's block index at point `t`: block row `t`, block column 0. -/
theorem idx5 : ∀ t : Fin cfg9.N, win9_5.index t (0 : Fin 2) = t.val ∧ win9_5.index t (1 : Fin 2) = 0 :=
  (by decide +kernel : ∀ t : Fin grid9.N, _)

/-- The array row under row `p` of the block at point `t`. -/
def rowOf (t : Fin cfg9.N) (p : Fin 2000) : Fin 100000 :=
  ⟨2000 * t.val + p.val, by have := t.isLt; have hN : cfg9.N = 50 := N_9; have := p.isLt; omega⟩

variable (V : (c : Dev nD) → (b : Ref sig .tc) → Buf (Elt Ideal) ((c : Thread nD τ).loc b))

/-- Entry `(p, q)` of window 0's block at point `t` is entry `(2000·t + p, q)` of its array. -/
theorem iblk0_apply (c : Dev nD) (t : Fin cfg9.N) (p : Fin 2000) (q : Fin 256) :
    (iblk9 V c 0 t : Vec Ideal S2000x256 .f32) (ix2 p q)
      = (V c (Pipeline.arrRef spec9 0) : Vec Ideal S100000x256 .f32) (ix2 (rowOf t p) q) := by
  obtain ⟨e0, e1⟩ := idx0 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 2000 + 1 * p.val = 2000 * t.val + p.val; rw [e0]; omega
  | ⟨1, _⟩ => show win9_0.index t (1 : Fin 2) * 256 + 1 * q.val = q.val; rw [e1]; omega

/-- Window 1's block at every point is its whole array. -/
theorem iblk1_apply (c : Dev nD) (t : Fin cfg9.N) (p : Fin 1) (q : Fin 256) :
    (iblk9 V c 1 t : Vec Ideal S1x256 .f32) (ix2 p q)
      = (V c (Pipeline.arrRef spec9 1) : Vec Ideal S1x256 .f32) (ix2 p q) := by
  obtain ⟨e0, e1⟩ := idx1 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 1 + 1 * p.val = p.val; rw [e0]; omega
  | ⟨1, _⟩ => show win9_1.index t (1 : Fin 2) * 256 + 1 * q.val = q.val; rw [e1]; omega

/-- Window 2's block at every point is its whole array. -/
theorem iblk2_apply (c : Dev nD) (t : Fin cfg9.N) (p : Fin 1) (q : Fin 256) :
    (iblk9 V c 2 t : Vec Ideal S1x256 .f32) (ix2 p q)
      = (V c (Pipeline.arrRef spec9 2) : Vec Ideal S1x256 .f32) (ix2 p q) := by
  obtain ⟨e0, e1⟩ := idx2 t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 1 + 1 * p.val = p.val; rw [e0]; omega
  | ⟨1, _⟩ => show win9_2.index t (1 : Fin 2) * 256 + 1 * q.val = q.val; rw [e1]; omega

/-- Window 3's block at every point is its whole array. -/
theorem iblk3_apply (c : Dev nD) (t : Fin cfg9.N) (p : Fin 256) (q : Fin 16) :
    (iblk9 V c 3 t : Vec Ideal S256x16 .f32) (ix2 p q)
      = (V c (Pipeline.arrRef spec9 3) : Vec Ideal S256x16 .f32) (ix2 p q) := by
  obtain ⟨e0, e1⟩ := idx3 t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 256 + 1 * p.val = p.val; rw [e0]; omega
  | ⟨1, _⟩ => show win9_3.index t (1 : Fin 2) * 16 + 1 * q.val = q.val; rw [e1]; omega

/-- Window 4's block at every point is its whole array. -/
theorem iblk4_apply (c : Dev nD) (t : Fin cfg9.N) (p : Fin 1) (q : Fin 16) :
    (iblk9 V c 4 t : Vec Ideal S1x16 .f32) (ix2 p q)
      = (V c (Pipeline.arrRef spec9 4) : Vec Ideal S1x16 .f32) (ix2 p q) := by
  obtain ⟨e0, e1⟩ := idx4 t
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 1 + 1 * p.val = p.val; rw [e0]; omega
  | ⟨1, _⟩ => show win9_4.index t (1 : Fin 2) * 16 + 1 * q.val = q.val; rw [e1]; omega

/-- The output block at point `t` of a whole-array function: entry `(p, q)` is its entry `(2000·t + p, q)`. -/
theorem oblk_apply (G : Vec Ideal S100000x16 .f32) (t : Fin cfg9.N) (p : Fin 2000) (q : Fin 16) :
    (((cfg9.win 5).blk t).view.read (Elt Ideal) G : Vec Ideal S2000x16 .f32) (ix2 p q) = G (ix2 (rowOf t p) q) := by
  obtain ⟨e0, e1⟩ := idx5 t
  rw [View.read_apply]
  show G _ = G _
  congr 1
  funext a
  apply Fin.ext
  match a with
  | ⟨0, _⟩ => show win9_5.index t (0 : Fin 2) * 2000 + 1 * p.val = 2000 * t.val + p.val; rw [e0]; omega
  | ⟨1, _⟩ => show win9_5.index t (1 : Fin 2) * 16 + 1 * q.val = q.val; rw [e1]; omega

/-- What point `t` writes back is block `t` of the stage function of the arrays the grid starts from. -/
theorem flushed_eq (c : Dev nD) (t : Fin cfg9.N) :
    (dat9 V c).flushed 5 t = ((cfg9.win 5).blk t).view.read (Elt Ideal) (finalG (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero hz]
  simp only [View.ld_unit_zero (S := S2000x256) hz, View.ld_unit_zero (S := S1x256) hz, View.ld_unit_zero (S := S256x16) hz, View.ld_unit_zero (S := S1x16) hz, View.ld_unit_zero (S := S2000x16) hz]
  funext j
  obtain ⟨p, q, rfl⟩ : ∃ (p : Fin 2000) (q : Fin 16), j = ix2 p q := ⟨j 0, j 1, eq_ix2 j⟩
  show k9_pay1 (iblk9 V c 0 t) (iblk9 V c 1 t) (iblk9 V c 2 t) (iblk9 V c 3 t) (iblk9 V c 4 t) (ix2 p q) = _
  rw [Pay.pay9_apply, oblk_apply, finalG_apply]
  simp only [Pay.bLnRelu_eq (iblk9 V c 0 t) (iblk9 V c 1 t) (iblk9 V c 2 t) (V c (Pipeline.arrRef spec9 0)) (V c (Pipeline.arrRef spec9 1))
      (V c (Pipeline.arrRef spec9 2)) p (rowOf t p) (fun k => iblk0_apply V c t p k) (fun k => iblk1_apply V c t 0 k) (fun k => iblk2_apply V c t 0 k),
    iblk3_apply, iblk4_apply]

/-- An index of the array is in point `t`'s block iff each coordinate is in the block's range on its axis. -/
theorem mem_blk (t : Fin cfg9.N) (i : S100000x16.Idx) :
    i ∈ ((cfg9.win 5).blk t).view.set ↔ ∀ a : Fin 2, win9_5.index t a * S2000x16.size a ≤ (i a).val ∧ (i a).val < win9_5.index t a * S2000x16.size a + S2000x16.size a := by
  show i ∈ ((View.whole main_v174).slice (win9_5.rect t)).set ↔ _
  rw [View.set_slice_whole, Rect.mem_set_unit]
  exact Iff.rfl

/-- Every index of the result array lies in the block of the point `row / 2000`. -/
theorem cover (i : S100000x16.Idx) :
    ∃ t : Fin cfg9.N, (cfg9.win 5).flush t = true ∧ i ∈ ((cfg9.win 5).blk t).view.set := by
  have h0 : (i 0).val < 100000 := (i 0).isLt
  have h1 : (i 1).val < 16 := (i 1).isLt
  have hN : cfg9.N = 50 := N_9
  obtain ⟨t, ht⟩ : ∃ t : Fin cfg9.N, t.val = (i 0).val / 2000 := ⟨⟨(i 0).val / 2000, by rw [hN]; omega⟩, rfl⟩
  obtain ⟨e0, e1⟩ := idx5 t
  refine ⟨t, flush9_5 t, ?_⟩
  rw [mem_blk]
  intro a
  match a with
  | ⟨0, _⟩ => show win9_5.index t (0 : Fin 2) * 2000 ≤ (i 0).val ∧ (i 0).val < win9_5.index t (0 : Fin 2) * 2000 + 2000; rw [e0, ht]; omega
  | ⟨1, _⟩ => show win9_5.index t (1 : Fin 2) * 16 ≤ (i 1).val ∧ (i 1).val < win9_5.index t (1 : Fin 2) * 16 + 16; rw [e1]; omega

end Region9

/-- After the grid's run the result array is the normalise-then-affine stage function of the arrays the grid starts from. -/
theorem region9_value (V : (c : Dev nD) → (b : Ref sig .tc) → Buf (Elt Ideal) ((c : Thread nD τ).loc b)) (c : Dev nD) :
    (dat9 (F := Ideal) V c).arrAt 5 cfg9.N = finalG (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 _ (fun t _ => Region9.flushed_eq V c t) Region9.cover

end Cert.Hgnn

end
-- ==== Proof.lean ====
/-
  The kernel program and its jnp reference compute the same network, and all three programs run.

  The network: an affine encoder of the 100000 node rows, a first affine layer, a round of message passing over
  the hypergraph and the positive part; three times "normalise each row (centre by the row mean, scale by the
  reciprocal square root of the mean squared deviation plus a small constant, gain, shift), positive part, affine
  map, a round of message passing, and add the positive part of the messages to the previous rows"; then a
  last normalised affine map to 16 columns.

  The kernel program computes the affine maps, normalisations, positive parts and residual sums in ten tiled
  stages of 50 row blocks each, with the message passing as host operations between them; the reference computes
  everything with whole-array host operations.  Over the extended reals a change of float format is the identity,
  a blockwise matrix product into a zero accumulator is the whole product restricted to the block's rows, and a
  row sum from a zero accumulator is the plain sum, so each tiled stage leaves in its output array an
  entry-by-entry function of its input arrays (the stage values), the boundaries between stages compose these
  with the host operations (the kernel's model), the reference's run ends at the composition of its own host
  operations (the reference's model), and the two models are one function: stage by stage the same finite
  sums, quotients by 256, reciprocal square roots and maxima; the degree reciprocals and the message passing
  are the same operations in both.  No finiteness of the inputs is used.

  The ideal pass rewrote nothing, so the sanctioned-idealization conjunct is trivial; the three frames are the
  generated frames of the two kernel programs and the reference's run with its result dropped.
-/
import proofs.«108867_j88295937671288_1_alg».proof.Defs
import proofs.«108867_j88295937671288_1_alg».proof.Proof.Gen.Kernel
import proofs.«108867_j88295937671288_1_alg».proof.Proof.Gen.Kernel.Frame
import proofs.«108867_j88295937671288_1_alg».proof.Proof.Gen.KernelIdeal
import proofs.«108867_j88295937671288_1_alg».proof.Proof.Gen.KernelIdeal.Frame
import proofs.«108867_j88295937671288_1_alg».proof.Proof.Gen.ReferenceIdeal
import proofs.«108867_j88295937671288_1_alg».proof.Proof.Gen.Pre_finite_inputs
import proofs.«108867_j88295937671288_1_alg».proof.Proof.KChainRun
import proofs.«108867_j88295937671288_1_alg».proof.Proof.RRun
import proofs.«108867_j88295937671288_1_alg».proof.Proof.Bridge
import proofs.«108867_j88295937671288_1_alg».proof.Proof.Region0
import proofs.«108867_j88295937671288_1_alg».proof.Proof.Region1
import proofs.«108867_j88295937671288_1_alg».proof.Proof.Region2
import proofs.«108867_j88295937671288_1_alg».proof.Proof.Region3
import proofs.«108867_j88295937671288_1_alg».proof.Proof.Region4
import proofs.«108867_j88295937671288_1_alg».proof.Proof.Region5
import proofs.«108867_j88295937671288_1_alg».proof.Proof.Region6
import proofs.«108867_j88295937671288_1_alg».proof.Proof.Region7
import proofs.«108867_j88295937671288_1_alg».proof.Proof.Region8
import proofs.«108867_j88295937671288_1_alg».proof.Proof.Region9

set_option maxRecDepth 16384

noncomputable section

namespace Cert.Proof

open Idealize.ShloMosaic Idealize.SL.Sem

/-- The reference runs and leaves its arguments: its run with the result dropped. -/
theorem frame_reference : Cert.frame_ReferenceIdeal := fun m ρ _ =>
  (θ_run Cert.ReferenceIdeal.defs _ _).mono (fun _ h c => (h c).2) (Cert.Hgnn.Ref.run m ρ)

/-- From memories agreeing on the arguments both idealized programs end with the same result array: the
    kernel's model of the arguments, which is the reference's model of the same arguments. -/
theorem algebraic : Cert.algebraic_KernelIdeal_ReferenceIdeal := by
  intro m ρ m' ρ' _ hagree
  refine ⟨fun c => Cert.Hgnn.Ker.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), Cert.Hgnn.Ker.run Cert.Hgnn.region0_value Cert.Hgnn.region1_value Cert.Hgnn.region2_value Cert.Hgnn.region3_value
      Cert.Hgnn.region4_value Cert.Hgnn.region5_value Cert.Hgnn.region6_value Cert.Hgnn.region7_value
      Cert.Hgnn.region8_value Cert.Hgnn.region9_value m ρ, ?_⟩
  refine (θ_run Cert.ReferenceIdeal.defs _ _).mono (fun r h c => ⟨(h c).1.trans ?_, (h c).2⟩) (Cert.Hgnn.Ref.run m' ρ')
  obtain ⟨a0, a1, a2, a3, a4, a5, a6, a7, a8, a9, a10⟩ := hagree c
  rw [a0, a1, a2, a3, a4, a5, a6, a7, a8, a9, a10]
  exact (Cert.Hgnn.Bridge.model_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
